-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v175)) (v1 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_v174) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_v299) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20x2 : Shape := ⟨3, ![4096, 20, 2]⟩
abbrev S4096x20 : Shape := ⟨2, ![4096, 20]⟩
abbrev S4096x4 : Shape := ⟨2, ![4096, 4]⟩
abbrev S4096 : Shape := ⟨1, ![4096]⟩
abbrev S64 : Shape := ⟨1, ![64]⟩
abbrev S_ : Shape := ⟨0, ![]⟩

class Facts : Prop where
  bcast_S_S4096x20x2 : S_.BroadcastsInDim S4096x20x2 (![] : Fin 0 → Fin S4096x20x2.rank)
  reducesTo_S4096x20x2_S_d0_1_2 : S4096x20x2.ReducesTo [0, 1, 2] S_
  h_S_ : 0 < S_.numel
  bcast_S_S4096x20 : S_.BroadcastsInDim S4096x20 (![] : Fin 0 → Fin S4096x20.rank)
  reducesTo_S4096x20_S_d0_1 : S4096x20.ReducesTo [0, 1] S_
  bcast_S_S4096x4 : S_.BroadcastsInDim S4096x4 (![] : Fin 0 → Fin S4096x4.rank)
  reducesTo_S4096x4_S_d0_1 : S4096x4.ReducesTo [0, 1] S_

variable [Facts]

def fn {F : FTy → Type} [FloatOps F] (main_arg0 : FVec F S4096x20x2 .f32) (main_arg1 : FVec F S4096x20 .f32) (main_arg2 : IVec S4096x20 1) (main_arg3 : FVec F S4096x4 .f32) (main_arg4 : IVec S4096 32) (main_arg5 : IVec S64 32) : IVec S_ 1 :=
  let main_v0 : FVec F S4096x20x2 .f32 := Host.absf main_arg0
  let main_cst : FVec F S_ .f32 := constant S_ .f32 0x7F800000#32
  let main_v1 : FVec F S4096x20x2 .f32 := broadcastInDim S4096x20x2 ![] bcast_S_S4096x20x2 main_cst
  let main_v2 : IVec S4096x20x2 1 := cmpf .olt main_v0 main_v1
  let main_c : IVec S_ 1 := constantI S_ 1 1#1
  let main_v3 : IVec S_ 1 := (fun x v => Host.reduce IntOp.andi x v reducesTo_S4096x20x2_S_d0_1_2 h_S_) main_v2 main_c
  let main_v4 : FVec F S4096x20 .f32 := Host.absf main_arg1
  let main_cst_0 : FVec F S_ .f32 := constant S_ .f32 0x7F800000#32
  let main_v5 : FVec F S4096x20 .f32 := broadcastInDim S4096x20 ![] bcast_S_S4096x20 main_cst_0
  let main_v6 : IVec S4096x20 1 := cmpf .olt main_v4 main_v5
  let main_c_1 : IVec S_ 1 := constantI S_ 1 1#1
  let main_v7 : IVec S_ 1 := (fun x v => Host.reduce IntOp.andi x v reducesTo_S4096x20_S_d0_1 h_S_) main_v6 main_c_1
  let main_v8 : IVec S_ 1 := andi main_v3 main_v7
  let main_v9 : FVec F S4096x4 .f32 := Host.absf main_arg3
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  main_v13
-- ==== Kernel.lean ====
abbrev S4096x20x2 : Shape := ⟨3, ![4096, 20, 2]⟩
abbrev S4096x20 : Shape := ⟨2, ![4096, 20]⟩
abbrev S4096x4 : Shape := ⟨2, ![4096, 4]⟩
abbrev S4096 : Shape := ⟨1, ![4096]⟩
abbrev S64 : Shape := ⟨1, ![64]⟩
abbrev S4096x16x2 : Shape := ⟨3, ![4096, 16, 2]⟩
abbrev S4096x16 : Shape := ⟨2, ![4096, 16]⟩
abbrev S4096x16x1 : Shape := ⟨3, ![4096, 16, 1]⟩
abbrev S16x4096 : Shape := ⟨2, ![16, 4096]⟩
abbrev S_ : Shape := ⟨0, ![]⟩
abbrev S64x1 : Shape := ⟨2, ![64, 1]⟩
abbrev S16x64 : Shape := ⟨2, ![16, 64]⟩
abbrev S64x4 : Shape := ⟨2, ![64, 4]⟩
abbrev S16x64x1 : Shape := ⟨3, ![16, 64, 1]⟩
abbrev S1x64x4 : Shape := ⟨3, ![1, 64, 4]⟩
abbrev S16x64x4 : Shape := ⟨3, ![16, 64, 4]⟩
abbrev S16x1x4096 : Shape := ⟨3, ![16, 1, 4096]⟩
abbrev S16x64x4096 : Shape := ⟨3, ![16, 64, 4096]⟩
abbrev S1x64x1 : Shape := ⟨3, ![1, 64, 1]⟩
abbrev S1x1x4096 : Shape := ⟨3, ![1, 1, 4096]⟩
abbrev S1x64x4096 : Shape := ⟨3, ![1, 64, 4096]⟩
abbrev S16x1x512 : Shape := ⟨3, ![16, 1, 512]⟩
abbrev S512x4 : Shape := ⟨2, ![512, 4]⟩
abbrev S16x64x512 : Shape := ⟨3, ![16, 64, 512]⟩
abbrev S512x1 : Shape := ⟨2, ![512, 1]⟩
abbrev S512 : Shape := ⟨1, ![512]⟩
abbrev S1x512 : Shape := ⟨2, ![1, 512]⟩
abbrev S1x1x512 : Shape := ⟨3, ![1, 1, 512]⟩
abbrev S64x512 : Shape := ⟨2, ![64, 512]⟩
abbrev S1x64x512 : Shape := ⟨3, ![1, 64, 512]⟩
abbrev S4194304 : Shape := ⟨1, ![4194304]⟩
abbrev S16x4096x64 : Shape := ⟨3, ![16, 4096, 64]⟩
abbrev S4194305 : Shape := ⟨1, ![4194305]⟩
abbrev S4194304x1 : Shape := ⟨2, ![4194304, 1]⟩
abbrev S64x16 : Shape := ⟨2, ![64, 16]⟩

abbrev nBuf : Space → Nat
  | .hbm => 218
  | .vmem => 19
  | .smem => 0
  | _ => 0

abbrev hbmTy0_0 (i : Nat) : BufTy := match i % 128 with
  | 0 => ⟨S4096x20x2, .f32⟩
  | 1 => ⟨S4096x20, .f32⟩
  | 2 => ⟨S4096x20, .i1⟩
  | 3 => ⟨S4096x4, .f32⟩
  | 4 => ⟨S4096, .i32⟩
  | 5 => ⟨S64, .i32⟩
  | 6 => ⟨S4096x16x2, .f32⟩
  | 7 => ⟨S4096x16, .f32⟩
  | 8 => ⟨S4096x16, .i1⟩
  | 9 => ⟨S4096x16x1, .f32⟩
  | 10 => ⟨S4096x16, .f32⟩
  | 11 => ⟨S16x4096, .f32⟩
  | 12 => ⟨S4096x16x1, .f32⟩
  | 13 => ⟨S4096x16, .f32⟩
  | 14 => ⟨S16x4096, .f32⟩
  | 15 => ⟨S16x4096, .f32⟩
  | 16 => ⟨S16x4096, .i1⟩
  | 17 => ⟨S_, .i32⟩
  | 18 => ⟨S64, .i32⟩
  | 19 => ⟨S64, .i1⟩
  | 20 => ⟨S_, .i32⟩
  | 21 => ⟨S64, .i32⟩
  | 22 => ⟨S64, .i32⟩
  | 23 => ⟨S64, .i32⟩
  | 24 => ⟨S64x1, .i32⟩
  | 25 => ⟨S16x64, .f32⟩
  | 26 => ⟨S_, .i32⟩
  | 27 => ⟨S64, .i32⟩
  | 28 => ⟨S64, .i1⟩
  | 29 => ⟨S_, .i32⟩
  | 30 => ⟨S64, .i32⟩
  | 31 => ⟨S64, .i32⟩
  | 32 => ⟨S64, .i32⟩
  | 33 => ⟨S64x1, .i32⟩
  | 34 => ⟨S16x64, .f32⟩
  | 35 => ⟨S_, .i32⟩
  | 36 => ⟨S64, .i32⟩
  | 37 => ⟨S64, .i1⟩
  | 38 => ⟨S_, .i32⟩
  | 39 => ⟨S64, .i32⟩
  | 40 => ⟨S64, .i32⟩
  | 41 => ⟨S64, .i32⟩
  | 42 => ⟨S64x1, .i32⟩
  | 43 => ⟨S16x64, .f32⟩
  | 44 => ⟨S_, .i32⟩
  | 45 => ⟨S64, .i32⟩
  | 46 => ⟨S64, .i1⟩
  | 47 => ⟨S_, .i32⟩
  | 48 => ⟨S64, .i32⟩
  | 49 => ⟨S64, .i32⟩
  | 50 => ⟨S64, .i32⟩
  | 51 => ⟨S64x1, .i32⟩
  | 52 => ⟨S16x64, .i1⟩
  | 53 => ⟨S_, .i32⟩
  | 54 => ⟨S64, .i32⟩
  | 55 => ⟨S64, .i1⟩
  | 56 => ⟨S_, .i32⟩
  | 57 => ⟨S64, .i32⟩
  | 58 => ⟨S64, .i32⟩
  | 59 => ⟨S64, .i32⟩
  | 60 => ⟨S64x1, .i32⟩
  | 61 => ⟨S64, .i32⟩
  | 62 => ⟨S_, .i32⟩
  | 63 => ⟨S64, .i32⟩
  | 64 => ⟨S64, .i1⟩
  | 65 => ⟨S_, .i32⟩
  | 66 => ⟨S64, .i32⟩
  | 67 => ⟨S64, .i32⟩
  | 68 => ⟨S64, .i32⟩
  | 69 => ⟨S64x1, .i32⟩
  | 70 => ⟨S64x4, .f32⟩
  | 71 => ⟨S16x64, .f32⟩
  | 72 => ⟨S16x64, .f32⟩
  | 73 => ⟨S64x1, .f32⟩
  | 74 => ⟨S64, .f32⟩
  | 75 => ⟨S64x1, .f32⟩
  | 76 => ⟨S64, .f32⟩
  | 77 => ⟨S64x1, .f32⟩
  | 78 => ⟨S64, .f32⟩
  | 79 => ⟨S64x1, .f32⟩
  | 80 => ⟨S64, .f32⟩
  | 81 => ⟨S64, .f32⟩
  | 82 => ⟨S64, .f32⟩
  | 83 => ⟨S64x1, .f32⟩
  | 84 => ⟨S64x1, .f32⟩
  | 85 => ⟨S64x1, .f32⟩
  | 86 => ⟨S64x1, .f32⟩
  | 87 => ⟨S64x4, .f32⟩
  | 88 => ⟨S64, .f32⟩
  | 89 => ⟨S64, .f32⟩
  | 90 => ⟨S64x1, .f32⟩
  | 91 => ⟨S64x1, .f32⟩
  | 92 => ⟨S64x1, .f32⟩
  | 93 => ⟨S64x1, .f32⟩
  | 94 => ⟨S64x4, .f32⟩
  | 95 => ⟨S16x64x1, .f32⟩
  | 96 => ⟨S16x64x1, .f32⟩
  | 97 => ⟨S1x64x4, .f32⟩
  | 98 => ⟨S16x64x4, .f32⟩
  | 99 => ⟨S16x64x4, .f32⟩
  | 100 => ⟨S16x64x4, .f32⟩
  | 101 => ⟨S16x64x4, .f32⟩
  | 102 => ⟨S16x64x4, .f32⟩
  | 103 => ⟨S16x64x1, .f32⟩
  | 104 => ⟨S1x64x4, .f32⟩
  | 105 => ⟨S16x64x4, .f32⟩
  | 106 => ⟨S16x64x4, .f32⟩
  | 107 => ⟨S16x64x4, .f32⟩
  | 108 => ⟨S16x64x4, .f32⟩
  | 109 => ⟨S16x64x1, .f32⟩
  | 110 => ⟨S16x64x1, .f32⟩
  | 111 => ⟨S1x64x4, .f32⟩
  | 112 => ⟨S16x64x4, .f32⟩
  | 113 => ⟨S16x64x4, .f32⟩
  | 114 => ⟨S16x64x4, .f32⟩
  | 115 => ⟨S16x64x4, .f32⟩
  | 116 => ⟨S16x64x4, .f32⟩
  | 117 => ⟨S16x64x1, .f32⟩
  | 118 => ⟨S1x64x4, .f32⟩
  | 119 => ⟨S16x64x4, .f32⟩
  | 120 => ⟨S16x64x4, .f32⟩
  | 121 => ⟨S16x64x4, .f32⟩
  | 122 => ⟨S16x64x4, .f32⟩
  | 123 => ⟨S16x64x1, .i1⟩
  | 124 => ⟨S16x1x4096, .i1⟩
  | 125 => ⟨S16x64x4096, .i1⟩
  | 126 => ⟨S16x64x4096, .i1⟩
  | 127 => ⟨S16x64x4096, .i1⟩
  | _ => ⟨S4096x20x2, .f32⟩

abbrev hbmTy0_1 (i : Nat) : BufTy := match i % 128 with
  | 0 => ⟨S1x64x1, .i32⟩
  | 1 => ⟨S1x1x4096, .i32⟩
  | 2 => ⟨S1x64x4096, .i32⟩
  | 3 => ⟨S1x64x4096, .i32⟩
  | 4 => ⟨S1x64x4096, .i1⟩
  | 5 => ⟨S16x64x4096, .i1⟩
  | 6 => ⟨S16x64x4096, .i1⟩
  | 7 => ⟨S1x64x1, .i32⟩
  | 8 => ⟨S4096, .i32⟩
  | 9 => ⟨S1x1x4096, .i32⟩
  | 10 => ⟨S1x64x4096, .i32⟩
  | 11 => ⟨S1x64x4096, .i32⟩
  | 12 => ⟨S1x64x4096, .i1⟩
  | 13 => ⟨S16x64x4096, .i1⟩
  | 14 => ⟨S16x64x4096, .i1⟩
  | 15 => ⟨S16x1x4096, .f32⟩
  | 16 => ⟨S16x1x4096, .f32⟩
  | 17 => ⟨S16x1x4096, .f32⟩
  | 18 => ⟨S16x64x1, .f32⟩
  | 19 => ⟨S16x64x1, .f32⟩
  | 20 => ⟨S16x64x1, .f32⟩
  | 21 => ⟨S16x64x1, .f32⟩
  | 22 => ⟨S16x64x4096, .f32⟩
  | 23 => ⟨S16x64x4096, .f32⟩
  | 24 => ⟨S4194304, .i1⟩
  | 25 => ⟨S16x4096x64, .i1⟩
  | 26 => ⟨S4194304, .i1⟩
  | 27 => ⟨S4194304, .i32⟩
  | 28 => ⟨S_, .i32⟩
  | 29 => ⟨S_, .i32⟩
  | 30 => ⟨S4194304, .i32⟩
  | 31 => ⟨S_, .i32⟩
  | 32 => ⟨S4194304, .i32⟩
  | 33 => ⟨S4194304, .i32⟩
  | 34 => ⟨S4194304, .i32⟩
  | 35 => ⟨S_, .i32⟩
  | 36 => ⟨S_, .i32⟩
  | 37 => ⟨S4194304, .i32⟩
  | 38 => ⟨S_, .i32⟩
  | 39 => ⟨S4194304, .i32⟩
  | 40 => ⟨S4194304, .i32⟩
  | 41 => ⟨S16x4096x64, .f32⟩
  | 42 => ⟨S4194304, .f32⟩
  | 43 => ⟨S_, .f32⟩
  | 44 => ⟨S4194305, .f32⟩
  | 45 => ⟨S_, .i32⟩
  | 46 => ⟨S_, .i32⟩
  | 47 => ⟨S4194304, .i32⟩
  | 48 => ⟨S4194304, .i32⟩
  | 49 => ⟨S_, .i32⟩
  | 50 => ⟨S4194304, .i32⟩
  | 51 => ⟨S4194304, .i1⟩
  | 52 => ⟨S_, .i32⟩
  | 53 => ⟨S4194304, .i32⟩
  | 54 => ⟨S4194304, .i32⟩
  | 55 => ⟨S4194304, .i32⟩
  | 56 => ⟨S4194304x1, .i32⟩
  | 57 => ⟨S4194305, .f32⟩
  | 58 => ⟨S4194304, .f32⟩
  | 59 => ⟨S_, .i32⟩
  | 60 => ⟨S_, .i32⟩
  | 61 => ⟨S4194304, .i32⟩
  | 62 => ⟨S4194304, .i32⟩
  | 63 => ⟨S_, .i32⟩
  | 64 => ⟨S4194304, .i32⟩
  | 65 => ⟨S4194304, .i1⟩
  | 66 => ⟨S_, .i32⟩
  | 67 => ⟨S4194304, .i32⟩
  | 68 => ⟨S4194304, .i32⟩
  | 69 => ⟨S4194304, .i32⟩
  | 70 => ⟨S4194304x1, .i32⟩
  | 71 => ⟨S4194304, .f32⟩
  | 72 => ⟨S4194304, .f32⟩
  | 73 => ⟨S_, .f32⟩
  | 74 => ⟨S4194304, .f32⟩
  | 75 => ⟨S4194304, .f32⟩
  | 76 => ⟨S16x64x4096, .f32⟩
  | 77 => ⟨S_, .i1⟩
  | 78 => ⟨S16x64, .i1⟩
  | 79 => ⟨S_, .f32⟩
  | 80 => ⟨S16x64, .f32⟩
  | 81 => ⟨S_, .f32⟩
  | 82 => ⟨S16x64, .f32⟩
  | 83 => ⟨S16x64, .i1⟩
  | 84 => ⟨S16x64, .i1⟩
  | 85 => ⟨S16x64, .i1⟩
  | 86 => ⟨S_, .i1⟩
  | 87 => ⟨S64, .i1⟩
  | 88 => ⟨S64, .f32⟩
  | 89 => ⟨S64x16, .i1⟩
  | _ => ⟨S4096x20x2, .f32⟩

abbrev hbmTy (i : Nat) : BufTy := match i / 128 with
  | 0 => hbmTy0_0 i
  | 1 => hbmTy0_1 i
  | _ => ⟨S4096x20x2, .f32⟩

abbrev bufTy : (tb : Table) → Fin (tcTables nBuf tb) → BufTy
  | .hbm, ⟨i, _⟩ => hbmTy i
  | .local _ .vmem, ⟨0, _⟩ => ⟨S16x1x512, .f32⟩
  | .local _ .vmem, ⟨1, _⟩ => ⟨S16x1x512, .f32⟩
  | .local _ .vmem, ⟨2, _⟩ => ⟨S16x1x512, .f32⟩
  | .local _ .vmem, ⟨3, _⟩ => ⟨S16x1x512, .f32⟩
  | .local _ .vmem, ⟨4, _⟩ => ⟨S16x1x512, .f32⟩
  | .local _ .vmem, ⟨5, _⟩ => ⟨S16x1x512, .f32⟩
  | .local _ .vmem, ⟨6, _⟩ => ⟨S512x4, .f32⟩
  | .local _ .vmem, ⟨7, _⟩ => ⟨S512x4, .f32⟩
  | .local _ .vmem, ⟨8, _⟩ => ⟨S16x64x4, .f32⟩
  | .local _ .vmem, ⟨9, _⟩ => ⟨S16x64x4, .f32⟩
  | .local _ .vmem, ⟨10, _⟩ => ⟨S16x64x1, .f32⟩
  | .local _ .vmem, ⟨11, _⟩ => ⟨S16x64x1, .f32⟩
  | .local _ .vmem, ⟨12, _⟩ => ⟨S16x64x1, .f32⟩
  | .local _ .vmem, ⟨13, _⟩ => ⟨S16x64x1, .f32⟩
  | .local _ .vmem, ⟨14, _⟩ => ⟨S64x4, .f32⟩
  | .local _ .vmem, ⟨15, _⟩ => ⟨S16x64x512, .f32⟩
  | .local _ .vmem, ⟨16, _⟩ => ⟨S16x64x512, .f32⟩
  | .local _ .vmem, ⟨17, _⟩ => ⟨S16x64x512, .f32⟩
  | .local _ .vmem, ⟨18, _⟩ => ⟨S16x64x512, .f32⟩
  | _, _ => ⟨S4096x20x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132_0 : Ref sig .tc := ⟨.hbm, 150, rfl⟩
abbrev main_v132_1 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_call0_call0_c : Ref sig .tc := ⟨.hbm, 156, rfl⟩
abbrev main_call0_call0_v0 : Ref sig .tc := ⟨.hbm, 157, rfl⟩
abbrev main_v137 : Ref sig .tc := ⟨.hbm, 158, rfl⟩
abbrev main_c_11 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_call1_call0_c : Ref sig .tc := ⟨.hbm, 163, rfl⟩
abbrev main_call1_call0_v0 : Ref sig .tc := ⟨.hbm, 164, rfl⟩
abbrev main_v141 : Ref sig .tc := ⟨.hbm, 165, rfl⟩
abbrev main_c_12 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_cst : Ref sig .tc := ⟨.hbm, 171, rfl⟩
abbrev main_v146 : Ref sig .tc := ⟨.hbm, 172, rfl⟩
abbrev main_c_13 : Ref sig .tc := ⟨.hbm, 173, rfl⟩
abbrev main_call2_v0 : Ref sig .tc := ⟨.hbm, 174, rfl⟩
abbrev main_call2_v1 : Ref sig .tc := ⟨.hbm, 175, rfl⟩
abbrev main_v147 : Ref sig .tc := ⟨.hbm, 176, rfl⟩
abbrev main_c_14 : Ref sig .tc := ⟨.hbm, 177, rfl⟩
abbrev main_v148 : Ref sig .tc := ⟨.hbm, 178, rfl⟩
abbrev main_v149 : Ref sig .tc := ⟨.hbm, 179, rfl⟩
abbrev main_c_15 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_c_16 : Ref sig .tc := ⟨.hbm, 187, rfl⟩
abbrev main_call3_v0 : Ref sig .tc := ⟨.hbm, 188, rfl⟩
abbrev main_call3_v1 : Ref sig .tc := ⟨.hbm, 189, rfl⟩
abbrev main_v156 : Ref sig .tc := ⟨.hbm, 190, rfl⟩
abbrev main_c_17 : Ref sig .tc := ⟨.hbm, 191, rfl⟩
abbrev main_v157 : Ref sig .tc := ⟨.hbm, 192, rfl⟩
abbrev main_v158 : Ref sig .tc := ⟨.hbm, 193, rfl⟩
abbrev main_c_18 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_19 : Ref sig .tc := ⟨.hbm, 201, rfl⟩
abbrev main_call4_v0 : Ref sig .tc := ⟨.hbm, 202, rfl⟩
abbrev main_v165 : Ref sig .tc := ⟨.hbm, 203, rfl⟩
abbrev main_v166 : Ref sig .tc := ⟨.hbm, 204, rfl⟩
abbrev main_c_20 : Ref sig .tc := ⟨.hbm, 205, rfl⟩
abbrev main_v167 : Ref sig .tc := ⟨.hbm, 206, rfl⟩
abbrev main_cst_21 : Ref sig .tc := ⟨.hbm, 207, rfl⟩
abbrev main_v168 : Ref sig .tc := ⟨.hbm, 208, rfl⟩
abbrev main_cst_22 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_c_23 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v27 : BitVec 32 := Scalar.addi c0_i32 c16_i32
  let c1_i32 : BitVec 32 := 1#32
  ⟨c0_i32, v27, c1_i32⟩
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v28 : Index := Scalar.indexCast arg14
  let c0_4 : Index := 0#32
  let c0_5 : Index := 0#32
  ![v28.toNat, 0, 0]
def k0_off2 (k0_t1 : Fin k0_t1_loop.trips) : Fin 3 → Nat :=
  let c0_i32 : BitVec 32 := 0#32
  let c1_i32 : BitVec 32 := 1#32
  let arg14 : BitVec 32 := Scf.iv c0_i32 c1_i32 k0_t1
  let v39 : Index := Scalar.indexCast arg14
  let c0_10 : Index := 0#32
  let c0_11 : Index := 0#32
  ![v39.toNat, 0, 0]
def k0_off3 (k0_t1 : Fin k0_t1_loop.trips) : Fin 3 → Nat :=
  let c0_i32 : BitVec 32 := 0#32
  let c1_i32 : BitVec 32 := 1#32
  let arg14 : BitVec 32 := Scf.iv c0_i32 c1_i32 k0_t1
  let v45 : Index := Scalar.indexCast arg14
  let c0_14 : Index := 0#32
  let c0_15 : Index := 0#32
  ![v45.toNat, 0, 0]
def k0_off4 (k0_t1 : Fin k0_t1_loop.trips) : Fin 3 → Nat :=
  let c0_i32 : BitVec 32 := 0#32
  let c1_i32 : BitVec 32 := 1#32
  let arg14 : BitVec 32 := Scf.iv c0_i32 c1_i32 k0_t1
  let v483 : Index := Scalar.indexCast arg14
  let c0_99 : Index := 0#32
  let c0_100 : Index := 0#32
  ![v483.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x64x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S4096x20x2_S4096x16x2_0_4_0 : S4096x20x2.Slices ![0, 4, 0] S4096x16x2
  slices_S4096x20_S4096x16_0_4 : S4096x20.Slices ![0, 4] S4096x16
  slices_S4096x16x2_S4096x16x1_0_0_0 : S4096x16x2.Slices ![0, 0, 0] S4096x16x1
  shapeCasts_S4096x16x1_S4096x16 : S4096x16x1.ShapeCasts S4096x16
  transposes_S4096x16_S16x4096_1_0 : S4096x16.Transposes [1, 0] S16x4096
  slices_S4096x16x2_S4096x16x1_0_0_1 : S4096x16x2.Slices ![0, 0, 1] S4096x16x1
  bcast_S_S64 : S_.BroadcastsInDim S64 (![] : Fin 0 → Fin S64.rank)
  bcast_S64_S64x1_0 : S64.BroadcastsInDim S64x1 (![0] : Fin 1 → Fin S64x1.rank)
  slices_S64x4_S64x1_0_0 : S64x4.Slices ![0, 0] S64x1
  shapeCasts_S64x1_S64 : S64x1.ShapeCasts S64
  slices_S64x4_S64x1_0_1 : S64x4.Slices ![0, 1] S64x1
  slices_S64x4_S64x1_0_2 : S64x4.Slices ![0, 2] S64x1
  slices_S64x4_S64x1_0_3 : S64x4.Slices ![0, 3] S64x1
  concatenates_S64x1_S64x1_S64x1_S64x1_S64x4_d1 : Shape.Concatenates [S64x1, S64x1, S64x1, S64x1] S64x4 1
  bcast_S16x64_S16x64x1_0_1 : S16x64.BroadcastsInDim S16x64x1 (![0, 1] : Fin 2 → Fin S16x64x1.rank)
  bcast_S64x4_S1x64x4_1_2 : S64x4.BroadcastsInDim S1x64x4 (![1, 2] : Fin 2 → Fin S1x64x4.rank)
  bcast_S16x64x1_S16x64x4_0_1_2 : S16x64x1.BroadcastsInDim S16x64x4 (![0, 1, 2] : Fin 3 → Fin S16x64x4.rank)
  bcast_S1x64x4_S16x64x4_0_1_2 : S1x64x4.BroadcastsInDim S16x64x4 (![0, 1, 2] : Fin 3 → Fin S16x64x4.rank)
  bcast_S16x4096_S16x1x4096_0_2 : S16x4096.BroadcastsInDim S16x1x4096 (![0, 2] : Fin 2 → Fin S16x1x4096.rank)
  bcast_S16x64x1_S16x64x4096_0_1_2 : S16x64x1.BroadcastsInDim S16x64x4096 (![0, 1, 2] : Fin 3 → Fin S16x64x4096.rank)
  bcast_S16x1x4096_S16x64x4096_0_1_2 : S16x1x4096.BroadcastsInDim S16x64x4096 (![0, 1, 2] : Fin 3 → Fin S16x64x4096.rank)
  bcast_S64_S1x64x1_1 : S64.BroadcastsInDim S1x64x1 (![1] : Fin 1 → Fin S1x64x1.rank)
  bcast_S4096_S1x1x4096_2 : S4096.BroadcastsInDim S1x1x4096 (![2] : Fin 1 → Fin S1x1x4096.rank)
  bcast_S1x64x1_S1x64x4096_0_1_2 : S1x64x1.BroadcastsInDim S1x64x4096 (![0, 1, 2] : Fin 3 → Fin S1x64x4096.rank)
  bcast_S1x1x4096_S1x64x4096_0_1_2 : S1x1x4096.BroadcastsInDim S1x64x4096 (![0, 1, 2] : Fin 3 → Fin S1x64x4096.rank)
  bcast_S1x64x4096_S16x64x4096_0_1_2 : S1x64x4096.BroadcastsInDim S16x64x4096 (![0, 1, 2] : Fin 3 → Fin S16x64x4096.rank)
  inb_S512x4_S512x4_0_0 : ∀ a, (![0, 0] : Fin 2 → Nat) a + S512x4.size a ≤ S512x4.size a
  h_S512x4 : 0 < S512x4.numel
  slices_S512x4_o0_0_S512x1 : S512x4.Slices ![0, 0] S512x1
  shapeCasts_S512x1_S512 : S512x1.ShapeCasts S512
  slices_S512x4_o0_1_S512x1 : S512x4.Slices ![0, 1] S512x1
  slices_S512x4_o0_2_S512x1 : S512x4.Slices ![0, 2] S512x1
  slices_S512x4_o0_3_S512x1 : S512x4.Slices ![0, 3] S512x1
  shapeCasts_S512_S1x512 : S512.ShapeCasts S1x512
  inb_S64x4_S64x4_0_0 : ∀ a, (![0, 0] : Fin 2 → Nat) a + S64x4.size a ≤ S64x4.size a
  h_S64x4 : 0 < S64x4.numel
  shapeCasts_S64x4_S64x4 : S64x4.ShapeCasts S64x4
  slices_S64x4_o0_0_S64x1 : S64x4.Slices ![0, 0] S64x1
  shapeCasts_S64_S64x1 : S64.ShapeCasts S64x1
  slices_S64x4_o0_1_S64x1 : S64x4.Slices ![0, 1] S64x1
  slices_S64x4_o0_2_S64x1 : S64x4.Slices ![0, 2] S64x1
  slices_S64x4_o0_3_S64x1 : S64x4.Slices ![0, 3] S64x1
  h_S1x1x512 : 0 < S1x1x512.numel
  shapeCasts_S1x1x512_S1x512 : S1x1x512.ShapeCasts S1x512
  h_S1x64x4 : 0 < S1x64x4.numel
  shapeCasts_S1x64x4_S64x4 : S1x64x4.ShapeCasts S64x4
  h_S1x64x1 : 0 < S1x64x1.numel
  shapeCasts_S1x64x1_S64x1 : S1x64x1.ShapeCasts S64x1
  broadcasts_S64x1_S64x512 : S64x1.Broadcasts S64x512
  broadcasts_S1x512_S64x512 : S1x512.Broadcasts S64x512
  h_S1x64x512 : 0 < S1x64x512.numel
  shapeCasts_S1x64x512_S64x512 : S1x64x512.ShapeCasts S64x512
  shapeCasts_S64x512_S1x64x512 : S64x512.ShapeCasts S1x64x512
  shapeCasts_S16x64x4096_S4194304 : S16x64x4096.ShapeCasts S4194304
  transposes_S16x64x4096_S16x4096x64_0_2_1 : S16x64x4096.Transposes [0, 2, 1] S16x4096x64
  shapeCasts_S16x4096x64_S4194304 : S16x4096x64.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S_S4194305 : S_.BroadcastsInDim S4194305 (![] : Fin 0 → Fin S4194305.rank)
  bcast_S4194304_S4194304x1_0 : S4194304.BroadcastsInDim S4194304x1 (![0] : Fin 1 → Fin S4194304x1.rank)
  shapeCasts_S4194304_S16x64x4096 : S4194304.ShapeCasts S16x64x4096
  reducesTo_S16x64x4096_S16x64_d2 : S16x64x4096.ReducesTo [2] S16x64
  bcast_S_S16x64 : S_.BroadcastsInDim S16x64 (![] : Fin 0 → Fin S16x64.rank)
  reducesTo_S16x64_S64_d0 : S16x64.ReducesTo [0] S64
  transposes_S16x64_S64x16_1_0 : S16x64.Transposes [1, 0] S64x16
  gather_S16x4096_S64x1_S16x64_0_1_n_n_1_1_161_wf : GatherDims.WF S16x4096 S64x1 S16x64 [0] [1] [] [1] [] 1 ![16, 1]
  gather_S4096_S64x1_S64_n_0_n_n_0_1_1_wf : GatherDims.WF S4096 S64x1 S64 [] [0] [] [0] [] 1 ![1]
  gather_S4096x4_S64x1_S64x4_1_0_n_n_0_1_14_wf : GatherDims.WF S4096x4 S64x1 S64x4 [1] [0] [] [0] [] 1 ![1, 4]
  scatter_S4194305_S4194304x1_S4194304_n_0_0_1_wf : ScatterDims.WF S4194305 S4194304x1 S4194304 [] [0] [0] 1
  gather_S4194305_S4194304x1_S4194304_n_0_n_n_0_1_1_wf : GatherDims.WF S4194305 S4194304x1 S4194304 [] [0] [] [0] [] 1 ![1]
  hrank0 : 0 < grid0.rank
  k0_t1_ok : k0_t1_loop.OK
  k0_off1_inb : ∀ k0_t1 : Fin k0_t1_loop.trips, ∀ a, (k0_off1 k0_t1) a + S1x1x512.size a ≤ S16x1x512.size a
  k0_off2_inb : ∀ k0_t1 : Fin k0_t1_loop.trips, ∀ a, (k0_off2 k0_t1) a + S1x64x4.size a ≤ S16x64x4.size a
  k0_off3_inb : ∀ k0_t1 : Fin k0_t1_loop.trips, ∀ a, (k0_off3 k0_t1) a + S1x64x1.size a ≤ S16x64x1.size a
  k0_off4_inb : ∀ k0_t1 : Fin k0_t1_loop.trips, ∀ a, (k0_off4 k0_t1) a + S1x64x512.size a ≤ S16x64x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x512.size a ≤ S16x1x4096.size a
  hwx0_0 : ∀ i : grid0.Coords, EltTy.bits .f32 = 32 ∨ (Rect.block (s := S16x1x4096) S16x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x512.size a ≤ S16x1x4096.size a
  hwx0_1 : ∀ i : grid0.Coords, EltTy.bits .f32 = 32 ∨ (Rect.block (s := S16x1x4096) S16x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x512.size a ≤ S16x1x4096.size a
  hwx0_2 : ∀ i : grid0.Coords, EltTy.bits .f32 = 32 ∨ (Rect.block (s := S16x1x4096) S16x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4.size a ≤ S4096x4.size a
  hwx0_3 : ∀ i : grid0.Coords, EltTy.bits .f32 = 32 ∨ (Rect.block (s := S4096x4) S512x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64x4.size a ≤ S16x64x4.size a
  hwx0_4 : ∀ i : grid0.Coords, EltTy.bits .f32 = 32 ∨ (Rect.block (s := S16x64x4) S16x64x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64x4.size a ≤ S16x64x4.size a
  hwx0_5 : ∀ i : grid0.Coords, EltTy.bits .f32 = 32 ∨ (Rect.block (s := S16x64x4) S16x64x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x64x1.size a ≤ S16x64x1.size a
  hwx0_6 : ∀ i : grid0.Coords, EltTy.bits .f32 = 32 ∨ (Rect.block (s := S16x64x1) S16x64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x64x1.size a ≤ S16x64x1.size a
  hwx0_7 : ∀ i : grid0.Coords, EltTy.bits .f32 = 32 ∨ (Rect.block (s := S16x64x1) S16x64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x64x1.size a ≤ S16x64x1.size a
  hwx0_8 : ∀ i : grid0.Coords, EltTy.bits .f32 = 32 ∨ (Rect.block (s := S16x64x1) S16x64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x64x1.size a ≤ S16x64x1.size a
  hwx0_9 : ∀ i : grid0.Coords, EltTy.bits .f32 = 32 ∨ (Rect.block (s := S16x64x1) S16x64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x4.size a ≤ S64x4.size a
  hwx0_10 : ∀ i : grid0.Coords, EltTy.bits .f32 = 32 ∨ (Rect.block (s := S64x4) S64x4.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x64x512.size a ≤ S16x64x4096.size a
  hwx0_11 : ∀ i : grid0.Coords, EltTy.bits .f32 = 32 ∨ (Rect.block (s := S16x64x4096) S16x64x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x64x512.size a ≤ S16x64x4096.size a
  hwx0_12 : ∀ i : grid0.Coords, EltTy.bits .f32 = 32 ∨ (Rect.block (s := S16x64x4096) S16x64x512.size (cc0_transform_12 i) (hinb0_12 i)).WholeWords (EltTy.packing .f32)

variable [Facts₀]

def gather_S16x4096_S64x1_S16x64_0_1_n_n_1_1_161 : GatherDims S16x4096 S64x1 S16x64 where
  offsetDims := [0]
  collapsedSliceDims := [1]
  operandBatchingDims := []
  startIndicesBatchingDims := []
  startIndexMap := [1]
  indexVectorDim := 1
  sliceSizes := ![16, 1]
  wf := gather_S16x4096_S64x1_S16x64_0_1_n_n_1_1_161_wf
def gather_S4096_S64x1_S64_n_0_n_n_0_1_1 : GatherDims S4096 S64x1 S64 where
  offsetDims := []
  collapsedSliceDims := [0]
  operandBatchingDims := []
  startIndicesBatchingDims := []
  startIndexMap := [0]
  indexVectorDim := 1
  sliceSizes := ![1]
  wf := gather_S4096_S64x1_S64_n_0_n_n_0_1_1_wf
def gather_S4096x4_S64x1_S64x4_1_0_n_n_0_1_14 : GatherDims S4096x4 S64x1 S64x4 where
  offsetDims := [1]
  collapsedSliceDims := [0]
  operandBatchingDims := []
  startIndicesBatchingDims := []
  startIndexMap := [0]
  indexVectorDim := 1
  sliceSizes := ![1, 4]
  wf := gather_S4096x4_S64x1_S64x4_1_0_n_n_0_1_14_wf
def scatter_S4194305_S4194304x1_S4194304_n_0_0_1 : ScatterDims S4194305 S4194304x1 S4194304 where
  updateWindowDims := []
  insertedWindowDims := [0]
  scatterDimsToOperandDims := [0]
  indexVectorDim := 1
  wf := scatter_S4194305_S4194304x1_S4194304_n_0_0_1_wf
def gather_S4194305_S4194304x1_S4194304_n_0_n_n_0_1_1 : GatherDims S4194305 S4194304x1 S4194304 where
  offsetDims := []
  collapsedSliceDims := [0]
  operandBatchingDims := []
  startIndicesBatchingDims := []
  startIndexMap := [0]
  indexVectorDim := 1
  sliceSizes := ![1]
  wf := gather_S4194305_S4194304x1_S4194304_n_0_n_n_0_1_1_wf

abbrev win0_0 : Pipeline.Window sig grid0 :=
  Pipeline.Window.ofSpec (Memref.whole main_v125) S16x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v126) S16x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v127) S16x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v90) S16x64x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v104) S16x64x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v128) S16x64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v129) S16x64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v130) S16x64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v131) S16x64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v52) S64x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v132_0) S16x64x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v132_1) S16x64x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x20x2 : Shape := ⟨3, ![4096, 20, 2]⟩
abbrev S4096x20 : Shape := ⟨2, ![4096, 20]⟩
abbrev S4096x4 : Shape := ⟨2, ![4096, 4]⟩
abbrev S4096 : Shape := ⟨1, ![4096]⟩
abbrev S64 : Shape := ⟨1, ![64]⟩
abbrev S4096x16x2 : Shape := ⟨3, ![4096, 16, 2]⟩
abbrev S4096x16 : Shape := ⟨2, ![4096, 16]⟩
abbrev S4096x1 : Shape := ⟨2, ![4096, 1]⟩
abbrev S4096x1x4 : Shape := ⟨3, ![4096, 1, 4]⟩
abbrev S4096x16x1 : Shape := ⟨3, ![4096, 16, 1]⟩
abbrev S4096x16x4 : Shape := ⟨3, ![4096, 16, 4]⟩
abbrev S4096x16x4x1 : Shape := ⟨4, ![4096, 16, 4, 1]⟩
abbrev S4096x16x4x2 : Shape := ⟨4, ![4096, 16, 4, 2]⟩
abbrev S16x4096x2 : Shape := ⟨3, ![16, 4096, 2]⟩
abbrev S16x4096 : Shape := ⟨2, ![16, 4096]⟩
abbrev S16x4096x4x2 : Shape := ⟨4, ![16, 4096, 4, 2]⟩
abbrev S_ : Shape := ⟨0, ![]⟩
abbrev S64x1 : Shape := ⟨2, ![64, 1]⟩
abbrev S16x64x2 : Shape := ⟨3, ![16, 64, 2]⟩
abbrev S16x64 : Shape := ⟨2, ![16, 64]⟩
abbrev S16x64x4x2 : Shape := ⟨4, ![16, 64, 4, 2]⟩
abbrev S64x4 : Shape := ⟨2, ![64, 4]⟩
abbrev S16x64x1 : Shape := ⟨3, ![16, 64, 1]⟩
abbrev S16x1x4096 : Shape := ⟨3, ![16, 1, 4096]⟩
abbrev S16x64x4096 : Shape := ⟨3, ![16, 64, 4096]⟩
abbrev S1x64x1 : Shape := ⟨3, ![1, 64, 1]⟩
abbrev S1x1x4096 : Shape := ⟨3, ![1, 1, 4096]⟩
abbrev S1x64x4096 : Shape := ⟨3, ![1, 64, 4096]⟩
abbrev S16x64x4x1 : Shape := ⟨4, ![16, 64, 4, 1]⟩
abbrev S16x64x4 : Shape := ⟨3, ![16, 64, 4]⟩
abbrev S16x64x1x4 : Shape := ⟨4, ![16, 64, 1, 4]⟩
abbrev S16x4096x1 : Shape := ⟨3, ![16, 4096, 1]⟩
abbrev S16x1x4096x1 : Shape := ⟨4, ![16, 1, 4096, 1]⟩
abbrev S16x64x4096x4 : Shape := ⟨4, ![16, 64, 4096, 4]⟩
abbrev S1x1x4096x1 : Shape := ⟨4, ![1, 1, 4096, 1]⟩
abbrev S16x4096x4x1 : Shape := ⟨4, ![16, 4096, 4, 1]⟩
abbrev S16x4096x4 : Shape := ⟨3, ![16, 4096, 4]⟩
abbrev S16x1x4096x4 : Shape := ⟨4, ![16, 1, 4096, 4]⟩
abbrev S16x64x1x1 : Shape := ⟨4, ![16, 64, 1, 1]⟩
abbrev S1x64x1x1 : Shape := ⟨4, ![1, 64, 1, 1]⟩
abbrev S4194304 : Shape := ⟨1, ![4194304]⟩
abbrev S16x4096x64 : Shape := ⟨3, ![16, 4096, 64]⟩
abbrev S4194305 : Shape := ⟨1, ![4194305]⟩
abbrev S4194304x1 : Shape := ⟨2, ![4194304, 1]⟩
abbrev S64x16 : Shape := ⟨2, ![64, 16]⟩

abbrev nBuf : Space → Nat
  | .hbm => 368
  | .vmem => 0
  | .smem => 0
  | _ => 0

abbrev hbmTy0_0 (i : Nat) : BufTy := match i % 128 with
  | 0 => ⟨S4096x20x2, .f32⟩
  | 1 => ⟨S4096x20, .f32⟩
  | 2 => ⟨S4096x20, .i1⟩
  | 3 => ⟨S4096x4, .f32⟩
  | 4 => ⟨S4096, .i32⟩
  | 5 => ⟨S64, .i32⟩
  | 6 => ⟨S4096x16x2, .f32⟩
  | 7 => ⟨S4096x16, .f32⟩
  | 8 => ⟨S4096x16, .i1⟩
  | 9 => ⟨S4096x1, .f32⟩
  | 10 => ⟨S4096, .f32⟩
  | 11 => ⟨S4096x1, .f32⟩
  | 12 => ⟨S4096, .f32⟩
  | 13 => ⟨S4096x1, .f32⟩
  | 14 => ⟨S4096, .f32⟩
  | 15 => ⟨S4096x1, .f32⟩
  | 16 => ⟨S4096, .f32⟩
  | 17 => ⟨S4096, .f32⟩
  | 18 => ⟨S4096, .f32⟩
  | 19 => ⟨S4096x1, .f32⟩
  | 20 => ⟨S4096x1, .f32⟩
  | 21 => ⟨S4096x1, .f32⟩
  | 22 => ⟨S4096x1, .f32⟩
  | 23 => ⟨S4096x4, .f32⟩
  | 24 => ⟨S4096x1x4, .f32⟩
  | 25 => ⟨S4096, .f32⟩
  | 26 => ⟨S4096, .f32⟩
  | 27 => ⟨S4096x1, .f32⟩
  | 28 => ⟨S4096x1, .f32⟩
  | 29 => ⟨S4096x1, .f32⟩
  | 30 => ⟨S4096x1, .f32⟩
  | 31 => ⟨S4096x4, .f32⟩
  | 32 => ⟨S4096x1x4, .f32⟩
  | 33 => ⟨S4096x16, .f32⟩
  | 34 => ⟨S4096x16x1, .f32⟩
  | 35 => ⟨S4096x16, .f32⟩
  | 36 => ⟨S4096x16x1, .f32⟩
  | 37 => ⟨S4096x16x1, .f32⟩
  | 38 => ⟨S4096x16x4, .f32⟩
  | 39 => ⟨S4096x16x4, .f32⟩
  | 40 => ⟨S4096x16x4, .f32⟩
  | 41 => ⟨S4096x16x4, .f32⟩
  | 42 => ⟨S4096x16x4, .f32⟩
  | 43 => ⟨S4096x16x4, .f32⟩
  | 44 => ⟨S4096x16x4, .f32⟩
  | 45 => ⟨S4096x16x4, .f32⟩
  | 46 => ⟨S4096x16x4, .f32⟩
  | 47 => ⟨S4096x16x1, .f32⟩
  | 48 => ⟨S4096x16x4, .f32⟩
  | 49 => ⟨S4096x16x4, .f32⟩
  | 50 => ⟨S4096x16x4, .f32⟩
  | 51 => ⟨S4096x16x4, .f32⟩
  | 52 => ⟨S4096x16x4, .f32⟩
  | 53 => ⟨S4096x16x4, .f32⟩
  | 54 => ⟨S4096x16x4, .f32⟩
  | 55 => ⟨S4096x16x4, .f32⟩
  | 56 => ⟨S4096x16x4, .f32⟩
  | 57 => ⟨S4096x16x4x1, .f32⟩
  | 58 => ⟨S4096x16x4x1, .f32⟩
  | 59 => ⟨S4096x16x4x2, .f32⟩
  | 60 => ⟨S16x4096x2, .f32⟩
  | 61 => ⟨S16x4096, .f32⟩
  | 62 => ⟨S16x4096, .i1⟩
  | 63 => ⟨S16x4096x4x2, .f32⟩
  | 64 => ⟨S_, .i32⟩
  | 65 => ⟨S64, .i32⟩
  | 66 => ⟨S64, .i1⟩
  | 67 => ⟨S_, .i32⟩
  | 68 => ⟨S64, .i32⟩
  | 69 => ⟨S64, .i32⟩
  | 70 => ⟨S64, .i32⟩
  | 71 => ⟨S64x1, .i32⟩
  | 72 => ⟨S16x64x2, .f32⟩
  | 73 => ⟨S_, .i32⟩
  | 74 => ⟨S64, .i32⟩
  | 75 => ⟨S64, .i1⟩
  | 76 => ⟨S_, .i32⟩
  | 77 => ⟨S64, .i32⟩
  | 78 => ⟨S64, .i32⟩
  | 79 => ⟨S64, .i32⟩
  | 80 => ⟨S64x1, .i32⟩
  | 81 => ⟨S16x64, .f32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S64, .i32⟩
  | 89 => ⟨S64x1, .i32⟩
  | 90 => ⟨S16x64, .i1⟩
  | 91 => ⟨S_, .i32⟩
  | 92 => ⟨S64, .i32⟩
  | 93 => ⟨S64, .i1⟩
  | 94 => ⟨S_, .i32⟩
  | 95 => ⟨S64, .i32⟩
  | 96 => ⟨S64, .i32⟩
  | 97 => ⟨S64, .i32⟩
  | 98 => ⟨S64x1, .i32⟩
  | 99 => ⟨S16x64x4x2, .f32⟩
  | 100 => ⟨S_, .i32⟩
  | 101 => ⟨S64, .i32⟩
  | 102 => ⟨S64, .i1⟩
  | 103 => ⟨S_, .i32⟩
  | 104 => ⟨S64, .i32⟩
  | 105 => ⟨S64, .i32⟩
  | 106 => ⟨S64, .i32⟩
  | 107 => ⟨S64x1, .i32⟩
  | 108 => ⟨S64, .i32⟩
  | 109 => ⟨S_, .i32⟩
  | 110 => ⟨S64, .i32⟩
  | 111 => ⟨S64, .i1⟩
  | 112 => ⟨S_, .i32⟩
  | 113 => ⟨S64, .i32⟩
  | 114 => ⟨S64, .i32⟩
  | 115 => ⟨S64, .i32⟩
  | 116 => ⟨S64x1, .i32⟩
  | 117 => ⟨S64x4, .f32⟩
  | 118 => ⟨S16x64x1, .i1⟩
  | 119 => ⟨S16x1x4096, .i1⟩
  | 120 => ⟨S16x64x4096, .i1⟩
  | 121 => ⟨S16x64x4096, .i1⟩
  | 122 => ⟨S16x64x4096, .i1⟩
  | 123 => ⟨S1x64x1, .i32⟩
  | 124 => ⟨S1x1x4096, .i32⟩
  | 125 => ⟨S1x64x4096, .i32⟩
  | 126 => ⟨S1x64x4096, .i32⟩
  | 127 => ⟨S1x64x4096, .i1⟩
  | _ => ⟨S4096x20x2, .f32⟩

abbrev hbmTy0_1 (i : Nat) : BufTy := match i % 128 with
  | 0 => ⟨S16x64x4096, .i1⟩
  | 1 => ⟨S16x64x4096, .i1⟩
  | 2 => ⟨S1x64x1, .i32⟩
  | 3 => ⟨S4096, .i32⟩
  | 4 => ⟨S1x1x4096, .i32⟩
  | 5 => ⟨S1x64x4096, .i32⟩
  | 6 => ⟨S1x64x4096, .i32⟩
  | 7 => ⟨S1x64x4096, .i1⟩
  | 8 => ⟨S16x64x4096, .i1⟩
  | 9 => ⟨S16x64x4096, .i1⟩
  | 10 => ⟨S16x64x4x1, .f32⟩
  | 11 => ⟨S16x64x4, .f32⟩
  | 12 => ⟨S16x64x1x4, .f32⟩
  | 13 => ⟨S16x4096x1, .f32⟩
  | 14 => ⟨S16x4096, .f32⟩
  | 15 => ⟨S16x1x4096x1, .f32⟩
  | 16 => ⟨S16x64x4096x4, .f32⟩
  | 17 => ⟨S16x64x4096x4, .f32⟩
  | 18 => ⟨S16x64x4096x4, .f32⟩
  | 19 => ⟨S16x64x4x1, .f32⟩
  | 20 => ⟨S16x64x4, .f32⟩
  | 21 => ⟨S16x64x1x4, .f32⟩
  | 22 => ⟨S16x4096x1, .f32⟩
  | 23 => ⟨S16x4096, .f32⟩
  | 24 => ⟨S16x1x4096x1, .f32⟩
  | 25 => ⟨S16x64x4096x4, .f32⟩
  | 26 => ⟨S16x64x4096x4, .f32⟩
  | 27 => ⟨S16x64x4096x4, .f32⟩
  | 28 => ⟨S16x4096, .f32⟩
  | 29 => ⟨S16x1x4096x1, .f32⟩
  | 30 => ⟨S16x4096, .f32⟩
  | 31 => ⟨S16x1x4096x1, .f32⟩
  | 32 => ⟨S16x64x4096x4, .f32⟩
  | 33 => ⟨S16x64x4096x4, .f32⟩
  | 34 => ⟨S16x64x4096x4, .f32⟩
  | 35 => ⟨S16x64x4096x4, .f32⟩
  | 36 => ⟨S16x64x4096x4, .f32⟩
  | 37 => ⟨S16x1x4096x1, .f32⟩
  | 38 => ⟨S16x64x4096x4, .f32⟩
  | 39 => ⟨S16x64x4096x4, .f32⟩
  | 40 => ⟨S16x64x4096x4, .f32⟩
  | 41 => ⟨S16x64x4096x4, .f32⟩
  | 42 => ⟨S16x64x4096x4, .f32⟩
  | 43 => ⟨S4096x1, .f32⟩
  | 44 => ⟨S4096, .f32⟩
  | 45 => ⟨S1x1x4096x1, .f32⟩
  | 46 => ⟨S4096x1, .f32⟩
  | 47 => ⟨S4096, .f32⟩
  | 48 => ⟨S1x1x4096x1, .f32⟩
  | 49 => ⟨S4096x1, .f32⟩
  | 50 => ⟨S4096, .f32⟩
  | 51 => ⟨S1x1x4096x1, .f32⟩
  | 52 => ⟨S4096x1, .f32⟩
  | 53 => ⟨S4096, .f32⟩
  | 54 => ⟨S1x1x4096x1, .f32⟩
  | 55 => ⟨S_, .f32⟩
  | 56 => ⟨S1x1x4096x1, .f32⟩
  | 57 => ⟨S1x1x4096x1, .f32⟩
  | 58 => ⟨S16x64x4096x4, .f32⟩
  | 59 => ⟨S16x64x4096x4, .f32⟩
  | 60 => ⟨S_, .f32⟩
  | 61 => ⟨S16x64x4096x4, .f32⟩
  | 62 => ⟨S16x64x4096x4, .f32⟩
  | 63 => ⟨S_, .f32⟩
  | 64 => ⟨S1x1x4096x1, .f32⟩
  | 65 => ⟨S1x1x4096x1, .f32⟩
  | 66 => ⟨S16x64x4096x4, .f32⟩
  | 67 => ⟨S16x64x4096x4, .f32⟩
  | 68 => ⟨S_, .f32⟩
  | 69 => ⟨S16x64x4096x4, .f32⟩
  | 70 => ⟨S16x64x4096x4, .f32⟩
  | 71 => ⟨S16x64x4096x4, .f32⟩
  | 72 => ⟨S_, .f32⟩
  | 73 => ⟨S1x1x4096x1, .f32⟩
  | 74 => ⟨S1x1x4096x1, .f32⟩
  | 75 => ⟨S16x64x4096x4, .f32⟩
  | 76 => ⟨S16x64x4096x4, .f32⟩
  | 77 => ⟨S_, .f32⟩
  | 78 => ⟨S16x64x4096x4, .f32⟩
  | 79 => ⟨S16x64x4096x4, .f32⟩
  | 80 => ⟨S_, .f32⟩
  | 81 => ⟨S1x1x4096x1, .f32⟩
  | 82 => ⟨S1x1x4096x1, .f32⟩
  | 83 => ⟨S16x64x4096x4, .f32⟩
  | 84 => ⟨S16x64x4096x4, .f32⟩
  | 85 => ⟨S_, .f32⟩
  | 86 => ⟨S16x64x4096x4, .f32⟩
  | 87 => ⟨S16x64x4096x4, .f32⟩
  | 88 => ⟨S16x64x4096x4, .f32⟩
  | 89 => ⟨S16x64x4096x4, .f32⟩
  | 90 => ⟨S_, .f32⟩
  | 91 => ⟨S16x64x4096, .f32⟩
  | 92 => ⟨S16x4096x4x1, .f32⟩
  | 93 => ⟨S16x4096x4, .f32⟩
  | 94 => ⟨S16x1x4096x4, .f32⟩
  | 95 => ⟨S16x64x1, .f32⟩
  | 96 => ⟨S16x64, .f32⟩
  | 97 => ⟨S16x64x1x1, .f32⟩
  | 98 => ⟨S16x64x4096x4, .f32⟩
  | 99 => ⟨S16x64x4096x4, .f32⟩
  | 100 => ⟨S16x64x4096x4, .f32⟩
  | 101 => ⟨S16x4096x4x1, .f32⟩
  | 102 => ⟨S16x4096x4, .f32⟩
  | 103 => ⟨S16x1x4096x4, .f32⟩
  | 104 => ⟨S16x64x1, .f32⟩
  | 105 => ⟨S16x64, .f32⟩
  | 106 => ⟨S16x64x1x1, .f32⟩
  | 107 => ⟨S16x64x4096x4, .f32⟩
  | 108 => ⟨S16x64x4096x4, .f32⟩
  | 109 => ⟨S16x64x4096x4, .f32⟩
  | 110 => ⟨S16x64, .f32⟩
  | 111 => ⟨S16x64x1x1, .f32⟩
  | 112 => ⟨S16x64, .f32⟩
  | 113 => ⟨S16x64x1x1, .f32⟩
  | 114 => ⟨S16x64x4096x4, .f32⟩
  | 115 => ⟨S16x64x4096x4, .f32⟩
  | 116 => ⟨S16x64x4096x4, .f32⟩
  | 117 => ⟨S16x64x4096x4, .f32⟩
  | 118 => ⟨S16x64x4096x4, .f32⟩
  | 119 => ⟨S16x64x1x1, .f32⟩
  | 120 => ⟨S16x64x4096x4, .f32⟩
  | 121 => ⟨S16x64x4096x4, .f32⟩
  | 122 => ⟨S16x64x4096x4, .f32⟩
  | 123 => ⟨S16x64x4096x4, .f32⟩
  | 124 => ⟨S16x64x4096x4, .f32⟩
  | 125 => ⟨S64x1, .f32⟩
  | 126 => ⟨S64, .f32⟩
  | 127 => ⟨S1x64x1x1, .f32⟩
  | _ => ⟨S4096x20x2, .f32⟩

abbrev hbmTy0_2 (i : Nat) : BufTy := match i % 128 with
  | 0 => ⟨S64x1, .f32⟩
  | 1 => ⟨S64, .f32⟩
  | 2 => ⟨S1x64x1x1, .f32⟩
  | 3 => ⟨S64x1, .f32⟩
  | 4 => ⟨S64, .f32⟩
  | 5 => ⟨S1x64x1x1, .f32⟩
  | 6 => ⟨S64x1, .f32⟩
  | 7 => ⟨S64, .f32⟩
  | 8 => ⟨S1x64x1x1, .f32⟩
  | 9 => ⟨S_, .f32⟩
  | 10 => ⟨S1x64x1x1, .f32⟩
  | 11 => ⟨S1x64x1x1, .f32⟩
  | 12 => ⟨S16x64x4096x4, .f32⟩
  | 13 => ⟨S16x64x4096x4, .f32⟩
  | 14 => ⟨S_, .f32⟩
  | 15 => ⟨S16x64x4096x4, .f32⟩
  | 16 => ⟨S16x64x4096x4, .f32⟩
  | 17 => ⟨S_, .f32⟩
  | 18 => ⟨S1x64x1x1, .f32⟩
  | 19 => ⟨S1x64x1x1, .f32⟩
  | 20 => ⟨S16x64x4096x4, .f32⟩
  | 21 => ⟨S16x64x4096x4, .f32⟩
  | 22 => ⟨S_, .f32⟩
  | 23 => ⟨S16x64x4096x4, .f32⟩
  | 24 => ⟨S16x64x4096x4, .f32⟩
  | 25 => ⟨S16x64x4096x4, .f32⟩
  | 26 => ⟨S_, .f32⟩
  | 27 => ⟨S1x64x1x1, .f32⟩
  | 28 => ⟨S1x64x1x1, .f32⟩
  | 29 => ⟨S16x64x4096x4, .f32⟩
  | 30 => ⟨S16x64x4096x4, .f32⟩
  | 31 => ⟨S_, .f32⟩
  | 32 => ⟨S16x64x4096x4, .f32⟩
  | 33 => ⟨S16x64x4096x4, .f32⟩
  | 34 => ⟨S_, .f32⟩
  | 35 => ⟨S1x64x1x1, .f32⟩
  | 36 => ⟨S1x64x1x1, .f32⟩
  | 37 => ⟨S16x64x4096x4, .f32⟩
  | 38 => ⟨S16x64x4096x4, .f32⟩
  | 39 => ⟨S_, .f32⟩
  | 40 => ⟨S16x64x4096x4, .f32⟩
  | 41 => ⟨S16x64x4096x4, .f32⟩
  | 42 => ⟨S16x64x4096x4, .f32⟩
  | 43 => ⟨S16x64x4096x4, .f32⟩
  | 44 => ⟨S_, .f32⟩
  | 45 => ⟨S16x64x4096, .f32⟩
  | 46 => ⟨S4194304, .i1⟩
  | 47 => ⟨S16x4096x64, .i1⟩
  | 48 => ⟨S4194304, .i1⟩
  | 49 => ⟨S4194304, .i32⟩
  | 50 => ⟨S_, .i32⟩
  | 51 => ⟨S_, .i32⟩
  | 52 => ⟨S4194304, .i32⟩
  | 53 => ⟨S_, .i32⟩
  | 54 => ⟨S4194304, .i32⟩
  | 55 => ⟨S4194304, .i32⟩
  | 56 => ⟨S4194304, .i32⟩
  | 57 => ⟨S_, .i32⟩
  | 58 => ⟨S_, .i32⟩
  | 59 => ⟨S4194304, .i32⟩
  | 60 => ⟨S_, .i32⟩
  | 61 => ⟨S4194304, .i32⟩
  | 62 => ⟨S4194304, .i32⟩
  | 63 => ⟨S16x4096x64, .f32⟩
  | 64 => ⟨S4194304, .f32⟩
  | 65 => ⟨S_, .f32⟩
  | 66 => ⟨S4194305, .f32⟩
  | 67 => ⟨S_, .i32⟩
  | 68 => ⟨S_, .i32⟩
  | 69 => ⟨S4194304, .i32⟩
  | 70 => ⟨S4194304, .i32⟩
  | 71 => ⟨S_, .i32⟩
  | 72 => ⟨S4194304, .i32⟩
  | 73 => ⟨S4194304, .i1⟩
  | 74 => ⟨S_, .i32⟩
  | 75 => ⟨S4194304, .i32⟩
  | 76 => ⟨S4194304, .i32⟩
  | 77 => ⟨S4194304, .i32⟩
  | 78 => ⟨S4194304x1, .i32⟩
  | 79 => ⟨S4194305, .f32⟩
  | 80 => ⟨S4194304, .f32⟩
  | 81 => ⟨S_, .i32⟩
  | 82 => ⟨S_, .i32⟩
  | 83 => ⟨S4194304, .i32⟩
  | 84 => ⟨S4194304, .i32⟩
  | 85 => ⟨S_, .i32⟩
  | 86 => ⟨S4194304, .i32⟩
  | 87 => ⟨S4194304, .i1⟩
  | 88 => ⟨S_, .i32⟩
  | 89 => ⟨S4194304, .i32⟩
  | 90 => ⟨S4194304, .i32⟩
  | 91 => ⟨S4194304, .i32⟩
  | 92 => ⟨S4194304x1, .i32⟩
  | 93 => ⟨S4194304, .f32⟩
  | 94 => ⟨S4194304, .f32⟩
  | 95 => ⟨S_, .f32⟩
  | 96 => ⟨S4194304, .f32⟩
  | 97 => ⟨S4194304, .f32⟩
  | 98 => ⟨S16x64x4096, .f32⟩
  | 99 => ⟨S_, .i1⟩
  | 100 => ⟨S16x64, .i1⟩
  | 101 => ⟨S_, .f32⟩
  | 102 => ⟨S16x64, .f32⟩
  | 103 => ⟨S_, .f32⟩
  | 104 => ⟨S16x64, .f32⟩
  | 105 => ⟨S16x64, .i1⟩
  | 106 => ⟨S16x64, .i1⟩
  | 107 => ⟨S16x64, .i1⟩
  | 108 => ⟨S_, .i1⟩
  | 109 => ⟨S64, .i1⟩
  | 110 => ⟨S64, .f32⟩
  | 111 => ⟨S64x16, .i1⟩
  | _ => ⟨S4096x20x2, .f32⟩

abbrev hbmTy (i : Nat) : BufTy := match i / 128 with
  | 0 => hbmTy0_0 i
  | 1 => hbmTy0_1 i
  | 2 => hbmTy0_2 i
  | _ => ⟨S4096x20x2, .f32⟩

abbrev bufTy : (tb : Table) → Fin (tcTables nBuf tb) → BufTy
  | .hbm, ⟨i, _⟩ => hbmTy i
  | _, _ => ⟨S4096x20x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_c : Ref sig .tc := ⟨.hbm, 64, rfl⟩
abbrev main_v58 : Ref sig .tc := ⟨.hbm, 65, rfl⟩
abbrev main_v59 : Ref sig .tc := ⟨.hbm, 66, rfl⟩
abbrev main_c_0 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_c_1 : Ref sig .tc := ⟨.hbm, 73, rfl⟩
abbrev main_v65 : Ref sig .tc := ⟨.hbm, 74, rfl⟩
abbrev main_v66 : Ref sig .tc := ⟨.hbm, 75, rfl⟩
abbrev main_c_2 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_c_3 : Ref sig .tc := ⟨.hbm, 82, rfl⟩
abbrev main_v72 : Ref sig .tc := ⟨.hbm, 83, rfl⟩
abbrev main_v73 : Ref sig .tc := ⟨.hbm, 84, rfl⟩
abbrev main_c_4 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_c_5 : Ref sig .tc := ⟨.hbm, 91, rfl⟩
abbrev main_v79 : Ref sig .tc := ⟨.hbm, 92, rfl⟩
abbrev main_v80 : Ref sig .tc := ⟨.hbm, 93, rfl⟩
abbrev main_c_6 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_c_7 : Ref sig .tc := ⟨.hbm, 100, rfl⟩
abbrev main_v86 : Ref sig .tc := ⟨.hbm, 101, rfl⟩
abbrev main_v87 : Ref sig .tc := ⟨.hbm, 102, rfl⟩
abbrev main_c_8 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_c_9 : Ref sig .tc := ⟨.hbm, 109, rfl⟩
abbrev main_v93 : Ref sig .tc := ⟨.hbm, 110, rfl⟩
abbrev main_v94 : Ref sig .tc := ⟨.hbm, 111, rfl⟩
abbrev main_c_10 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_cst : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_call0_cst : Ref sig .tc := ⟨.hbm, 188, rfl⟩
abbrev main_call0_v0 : Ref sig .tc := ⟨.hbm, 189, rfl⟩
abbrev main_v169 : Ref sig .tc := ⟨.hbm, 190, rfl⟩
abbrev main_cst_11 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_call1_cst : Ref sig .tc := ⟨.hbm, 196, rfl⟩
abbrev main_call1_v0 : Ref sig .tc := ⟨.hbm, 197, rfl⟩
abbrev main_v174 : Ref sig .tc := ⟨.hbm, 198, rfl⟩
abbrev main_v175 : Ref sig .tc := ⟨.hbm, 199, rfl⟩
abbrev main_cst_12 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_call2_cst : Ref sig .tc := ⟨.hbm, 205, rfl⟩
abbrev main_call2_v0 : Ref sig .tc := ⟨.hbm, 206, rfl⟩
abbrev main_v180 : Ref sig .tc := ⟨.hbm, 207, rfl⟩
abbrev main_cst_13 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_call3_cst : Ref sig .tc := ⟨.hbm, 213, rfl⟩
abbrev main_call3_v0 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_cst_14 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_cst_15 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_call4_cst : Ref sig .tc := ⟨.hbm, 270, rfl⟩
abbrev main_call4_v0 : Ref sig .tc := ⟨.hbm, 271, rfl⟩
abbrev main_v238 : Ref sig .tc := ⟨.hbm, 272, rfl⟩
abbrev main_cst_16 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_call5_cst : Ref sig .tc := ⟨.hbm, 278, rfl⟩
abbrev main_call5_v0 : Ref sig .tc := ⟨.hbm, 279, rfl⟩
abbrev main_v243 : Ref sig .tc := ⟨.hbm, 280, rfl⟩
abbrev main_v244 : Ref sig .tc := ⟨.hbm, 281, rfl⟩
abbrev main_cst_17 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_call6_cst : Ref sig .tc := ⟨.hbm, 287, rfl⟩
abbrev main_call6_v0 : Ref sig .tc := ⟨.hbm, 288, rfl⟩
abbrev main_v249 : Ref sig .tc := ⟨.hbm, 289, rfl⟩
abbrev main_cst_18 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_call7_cst : Ref sig .tc := ⟨.hbm, 295, rfl⟩
abbrev main_call7_v0 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_cst_19 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_call8_call0_c : Ref sig .tc := ⟨.hbm, 306, rfl⟩
abbrev main_call8_call0_v0 : Ref sig .tc := ⟨.hbm, 307, rfl⟩
abbrev main_v262 : Ref sig .tc := ⟨.hbm, 308, rfl⟩
abbrev main_c_20 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_call9_call0_c : Ref sig .tc := ⟨.hbm, 313, rfl⟩
abbrev main_call9_call0_v0 : Ref sig .tc := ⟨.hbm, 314, rfl⟩
abbrev main_v266 : Ref sig .tc := ⟨.hbm, 315, rfl⟩
abbrev main_c_21 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_cst_22 : Ref sig .tc := ⟨.hbm, 321, rfl⟩
abbrev main_v271 : Ref sig .tc := ⟨.hbm, 322, rfl⟩
abbrev main_c_23 : Ref sig .tc := ⟨.hbm, 323, rfl⟩
abbrev main_call10_v0 : Ref sig .tc := ⟨.hbm, 324, rfl⟩
abbrev main_call10_v1 : Ref sig .tc := ⟨.hbm, 325, rfl⟩
abbrev main_v272 : Ref sig .tc := ⟨.hbm, 326, rfl⟩
abbrev main_c_24 : Ref sig .tc := ⟨.hbm, 327, rfl⟩
abbrev main_v273 : Ref sig .tc := ⟨.hbm, 328, rfl⟩
abbrev main_v274 : Ref sig .tc := ⟨.hbm, 329, rfl⟩
abbrev main_c_25 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_c_26 : Ref sig .tc := ⟨.hbm, 337, rfl⟩
abbrev main_call11_v0 : Ref sig .tc := ⟨.hbm, 338, rfl⟩
abbrev main_call11_v1 : Ref sig .tc := ⟨.hbm, 339, rfl⟩
abbrev main_v281 : Ref sig .tc := ⟨.hbm, 340, rfl⟩
abbrev main_c_27 : Ref sig .tc := ⟨.hbm, 341, rfl⟩
abbrev main_v282 : Ref sig .tc := ⟨.hbm, 342, rfl⟩
abbrev main_v283 : Ref sig .tc := ⟨.hbm, 343, rfl⟩
abbrev main_c_28 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_cst_29 : Ref sig .tc := ⟨.hbm, 351, rfl⟩
abbrev main_call12_v0 : Ref sig .tc := ⟨.hbm, 352, rfl⟩
abbrev main_v290 : Ref sig .tc := ⟨.hbm, 353, rfl⟩
abbrev main_v291 : Ref sig .tc := ⟨.hbm, 354, rfl⟩
abbrev main_c_30 : Ref sig .tc := ⟨.hbm, 355, rfl⟩
abbrev main_v292 : Ref sig .tc := ⟨.hbm, 356, rfl⟩
abbrev main_cst_31 : Ref sig .tc := ⟨.hbm, 357, rfl⟩
abbrev main_v293 : Ref sig .tc := ⟨.hbm, 358, rfl⟩
abbrev main_cst_32 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_c_33 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩

abbrev nD : Nat := 1
abbrev τ : Topo := Topo.v7x

variable {F : FTy → Type} [FloatOps F]

class Facts₀ : Prop where
  slices_S4096x20x2_S4096x16x2_0_4_0 : S4096x20x2.Slices ![0, 4, 0] S4096x16x2
  slices_S4096x20_S4096x16_0_4 : S4096x20.Slices ![0, 4] S4096x16
  slices_S4096x4_S4096x1_0_0 : S4096x4.Slices ![0, 0] S4096x1
  shapeCasts_S4096x1_S4096 : S4096x1.ShapeCasts S4096
  slices_S4096x4_S4096x1_0_1 : S4096x4.Slices ![0, 1] S4096x1
  slices_S4096x4_S4096x1_0_2 : S4096x4.Slices ![0, 2] S4096x1
  slices_S4096x4_S4096x1_0_3 : S4096x4.Slices ![0, 3] S4096x1
  bcast_S4096_S4096x1_0 : S4096.BroadcastsInDim S4096x1 (![0] : Fin 1 → Fin S4096x1.rank)
  concatenates_S4096x1_S4096x1_S4096x1_S4096x1_S4096x4_d1 : Shape.Concatenates [S4096x1, S4096x1, S4096x1, S4096x1] S4096x4 1
  bcast_S4096x4_S4096x1x4_0_2 : S4096x4.BroadcastsInDim S4096x1x4 (![0, 2] : Fin 2 → Fin S4096x1x4.rank)
  bcast_S4096x16_S4096x16x1_0_1 : S4096x16.BroadcastsInDim S4096x16x1 (![0, 1] : Fin 2 → Fin S4096x16x1.rank)
  slices_S4096x16x2_S4096x16x1_0_0_0 : S4096x16x2.Slices ![0, 0, 0] S4096x16x1
  bcast_S4096x16x1_S4096x16x4_0_1_2 : S4096x16x1.BroadcastsInDim S4096x16x4 (![0, 1, 2] : Fin 3 → Fin S4096x16x4.rank)
  bcast_S4096x1x4_S4096x16x4_0_1_2 : S4096x1x4.BroadcastsInDim S4096x16x4 (![0, 1, 2] : Fin 3 → Fin S4096x16x4.rank)
  slices_S4096x16x2_S4096x16x1_0_0_1 : S4096x16x2.Slices ![0, 0, 1] S4096x16x1
  bcast_S4096x16x4_S4096x16x4x1_0_1_2 : S4096x16x4.BroadcastsInDim S4096x16x4x1 (![0, 1, 2] : Fin 3 → Fin S4096x16x4x1.rank)
  concatenates_S4096x16x4x1_S4096x16x4x1_S4096x16x4x2_d3 : Shape.Concatenates [S4096x16x4x1, S4096x16x4x1] S4096x16x4x2 3
  transposes_S4096x16x2_S16x4096x2_1_0_2 : S4096x16x2.Transposes [1, 0, 2] S16x4096x2
  transposes_S4096x16_S16x4096_1_0 : S4096x16.Transposes [1, 0] S16x4096
  transposes_S4096x16x4x2_S16x4096x4x2_1_0_2_3 : S4096x16x4x2.Transposes [1, 0, 2, 3] S16x4096x4x2
  bcast_S_S64 : S_.BroadcastsInDim S64 (![] : Fin 0 → Fin S64.rank)
  bcast_S64_S64x1_0 : S64.BroadcastsInDim S64x1 (![0] : Fin 1 → Fin S64x1.rank)
  bcast_S16x64_S16x64x1_0_1 : S16x64.BroadcastsInDim S16x64x1 (![0, 1] : Fin 2 → Fin S16x64x1.rank)
  bcast_S16x4096_S16x1x4096_0_2 : S16x4096.BroadcastsInDim S16x1x4096 (![0, 2] : Fin 2 → Fin S16x1x4096.rank)
  bcast_S16x64x1_S16x64x4096_0_1_2 : S16x64x1.BroadcastsInDim S16x64x4096 (![0, 1, 2] : Fin 3 → Fin S16x64x4096.rank)
  bcast_S16x1x4096_S16x64x4096_0_1_2 : S16x1x4096.BroadcastsInDim S16x64x4096 (![0, 1, 2] : Fin 3 → Fin S16x64x4096.rank)
  bcast_S64_S1x64x1_1 : S64.BroadcastsInDim S1x64x1 (![1] : Fin 1 → Fin S1x64x1.rank)
  bcast_S4096_S1x1x4096_2 : S4096.BroadcastsInDim S1x1x4096 (![2] : Fin 1 → Fin S1x1x4096.rank)
  bcast_S1x64x1_S1x64x4096_0_1_2 : S1x64x1.BroadcastsInDim S1x64x4096 (![0, 1, 2] : Fin 3 → Fin S1x64x4096.rank)
  bcast_S1x1x4096_S1x64x4096_0_1_2 : S1x1x4096.BroadcastsInDim S1x64x4096 (![0, 1, 2] : Fin 3 → Fin S1x64x4096.rank)
  bcast_S1x64x4096_S16x64x4096_0_1_2 : S1x64x4096.BroadcastsInDim S16x64x4096 (![0, 1, 2] : Fin 3 → Fin S16x64x4096.rank)
  slices_S16x64x4x2_S16x64x4x1_0_0_0_0 : S16x64x4x2.Slices ![0, 0, 0, 0] S16x64x4x1
  shapeCasts_S16x64x4x1_S16x64x4 : S16x64x4x1.ShapeCasts S16x64x4
  bcast_S16x64x4_S16x64x1x4_0_1_3 : S16x64x4.BroadcastsInDim S16x64x1x4 (![0, 1, 3] : Fin 3 → Fin S16x64x1x4.rank)
  slices_S16x4096x2_S16x4096x1_0_0_0 : S16x4096x2.Slices ![0, 0, 0] S16x4096x1
  shapeCasts_S16x4096x1_S16x4096 : S16x4096x1.ShapeCasts S16x4096
  bcast_S16x4096_S16x1x4096x1_0_2 : S16x4096.BroadcastsInDim S16x1x4096x1 (![0, 2] : Fin 2 → Fin S16x1x4096x1.rank)
  bcast_S16x64x1x4_S16x64x4096x4_0_1_2_3 : S16x64x1x4.BroadcastsInDim S16x64x4096x4 (![0, 1, 2, 3] : Fin 4 → Fin S16x64x4096x4.rank)
  bcast_S16x1x4096x1_S16x64x4096x4_0_1_2_3 : S16x1x4096x1.BroadcastsInDim S16x64x4096x4 (![0, 1, 2, 3] : Fin 4 → Fin S16x64x4096x4.rank)
  slices_S16x64x4x2_S16x64x4x1_0_0_0_1 : S16x64x4x2.Slices ![0, 0, 0, 1] S16x64x4x1
  slices_S16x4096x2_S16x4096x1_0_0_1 : S16x4096x2.Slices ![0, 0, 1] S16x4096x1
  bcast_S4096_S1x1x4096x1_2 : S4096.BroadcastsInDim S1x1x4096x1 (![2] : Fin 1 → Fin S1x1x4096x1.rank)
  bcast_S_S1x1x4096x1 : S_.BroadcastsInDim S1x1x4096x1 (![] : Fin 0 → Fin S1x1x4096x1.rank)
  bcast_S1x1x4096x1_S16x64x4096x4_0_1_2_3 : S1x1x4096x1.BroadcastsInDim S16x64x4096x4 (![0, 1, 2, 3] : Fin 4 → Fin S16x64x4096x4.rank)
  bcast_S_S16x64x4096x4 : S_.BroadcastsInDim S16x64x4096x4 (![] : Fin 0 → Fin S16x64x4096x4.rank)
  reducesTo_S16x64x4096x4_S16x64x4096_d3 : S16x64x4096x4.ReducesTo [3] S16x64x4096
  h_S_ : 0 < S_.numel
  slices_S16x4096x4x2_S16x4096x4x1_0_0_0_0 : S16x4096x4x2.Slices ![0, 0, 0, 0] S16x4096x4x1
  shapeCasts_S16x4096x4x1_S16x4096x4 : S16x4096x4x1.ShapeCasts S16x4096x4
  bcast_S16x4096x4_S16x1x4096x4_0_2_3 : S16x4096x4.BroadcastsInDim S16x1x4096x4 (![0, 2, 3] : Fin 3 → Fin S16x1x4096x4.rank)
  slices_S16x64x2_S16x64x1_0_0_0 : S16x64x2.Slices ![0, 0, 0] S16x64x1
  shapeCasts_S16x64x1_S16x64 : S16x64x1.ShapeCasts S16x64
  bcast_S16x64_S16x64x1x1_0_1 : S16x64.BroadcastsInDim S16x64x1x1 (![0, 1] : Fin 2 → Fin S16x64x1x1.rank)
  bcast_S16x1x4096x4_S16x64x4096x4_0_1_2_3 : S16x1x4096x4.BroadcastsInDim S16x64x4096x4 (![0, 1, 2, 3] : Fin 4 → Fin S16x64x4096x4.rank)
  bcast_S16x64x1x1_S16x64x4096x4_0_1_2_3 : S16x64x1x1.BroadcastsInDim S16x64x4096x4 (![0, 1, 2, 3] : Fin 4 → Fin S16x64x4096x4.rank)
  slices_S16x4096x4x2_S16x4096x4x1_0_0_0_1 : S16x4096x4x2.Slices ![0, 0, 0, 1] S16x4096x4x1
  slices_S16x64x2_S16x64x1_0_0_1 : S16x64x2.Slices ![0, 0, 1] S16x64x1
  slices_S64x4_S64x1_0_0 : S64x4.Slices ![0, 0] S64x1
  shapeCasts_S64x1_S64 : S64x1.ShapeCasts S64
  bcast_S64_S1x64x1x1_1 : S64.BroadcastsInDim S1x64x1x1 (![1] : Fin 1 → Fin S1x64x1x1.rank)
  slices_S64x4_S64x1_0_1 : S64x4.Slices ![0, 1] S64x1
  slices_S64x4_S64x1_0_2 : S64x4.Slices ![0, 2] S64x1
  slices_S64x4_S64x1_0_3 : S64x4.Slices ![0, 3] S64x1
  bcast_S_S1x64x1x1 : S_.BroadcastsInDim S1x64x1x1 (![] : Fin 0 → Fin S1x64x1x1.rank)
  bcast_S1x64x1x1_S16x64x4096x4_0_1_2_3 : S1x64x1x1.BroadcastsInDim S16x64x4096x4 (![0, 1, 2, 3] : Fin 4 → Fin S16x64x4096x4.rank)
  shapeCasts_S16x64x4096_S4194304 : S16x64x4096.ShapeCasts S4194304
  transposes_S16x64x4096_S16x4096x64_0_2_1 : S16x64x4096.Transposes [0, 2, 1] S16x4096x64
  shapeCasts_S16x4096x64_S4194304 : S16x4096x64.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  bcast_S_S4194304 : S_.BroadcastsInDim S4194304 (![] : Fin 0 → Fin S4194304.rank)
  bcast_S_S4194305 : S_.BroadcastsInDim S4194305 (![] : Fin 0 → Fin S4194305.rank)
  bcast_S4194304_S4194304x1_0 : S4194304.BroadcastsInDim S4194304x1 (![0] : Fin 1 → Fin S4194304x1.rank)
  shapeCasts_S4194304_S16x64x4096 : S4194304.ShapeCasts S16x64x4096
  reducesTo_S16x64x4096_S16x64_d2 : S16x64x4096.ReducesTo [2] S16x64
  bcast_S_S16x64 : S_.BroadcastsInDim S16x64 (![] : Fin 0 → Fin S16x64.rank)
  reducesTo_S16x64_S64_d0 : S16x64.ReducesTo [0] S64
  transposes_S16x64_S64x16_1_0 : S16x64.Transposes [1, 0] S64x16
  gather_S16x4096x2_S64x1_S16x64x2_02_1_n_n_1_1_1612_wf : GatherDims.WF S16x4096x2 S64x1 S16x64x2 [0, 2] [1] [] [1] [] 1 ![16, 1, 2]
  gather_S16x4096_S64x1_S16x64_0_1_n_n_1_1_161_wf : GatherDims.WF S16x4096 S64x1 S16x64 [0] [1] [] [1] [] 1 ![16, 1]
  gather_S16x4096x4x2_S64x1_S16x64x4x2_023_1_n_n_1_1_16142_wf : GatherDims.WF S16x4096x4x2 S64x1 S16x64x4x2 [0, 2, 3] [1] [] [1] [] 1 ![16, 1, 4, 2]
  gather_S4096_S64x1_S64_n_0_n_n_0_1_1_wf : GatherDims.WF S4096 S64x1 S64 [] [0] [] [0] [] 1 ![1]
  gather_S4096x4_S64x1_S64x4_1_0_n_n_0_1_14_wf : GatherDims.WF S4096x4 S64x1 S64x4 [1] [0] [] [0] [] 1 ![1, 4]
  scatter_S4194305_S4194304x1_S4194304_n_0_0_1_wf : ScatterDims.WF S4194305 S4194304x1 S4194304 [] [0] [0] 1
  gather_S4194305_S4194304x1_S4194304_n_0_n_n_0_1_1_wf : GatherDims.WF S4194305 S4194304x1 S4194304 [] [0] [] [0] [] 1 ![1]

variable [Facts₀]

def gather_S16x4096x2_S64x1_S16x64x2_02_1_n_n_1_1_1612 : GatherDims S16x4096x2 S64x1 S16x64x2 where
  offsetDims := [0, 2]
  collapsedSliceDims := [1]
  operandBatchingDims := []
  startIndicesBatchingDims := []
  startIndexMap := [1]
  indexVectorDim := 1
  sliceSizes := ![16, 1, 2]
  wf := gather_S16x4096x2_S64x1_S16x64x2_02_1_n_n_1_1_1612_wf
def gather_S16x4096_S64x1_S16x64_0_1_n_n_1_1_161 : GatherDims S16x4096 S64x1 S16x64 where
  offsetDims := [0]
  collapsedSliceDims := [1]
  operandBatchingDims := []
  startIndicesBatchingDims := []
  startIndexMap := [1]
  indexVectorDim := 1
  sliceSizes := ![16, 1]
  wf := gather_S16x4096_S64x1_S16x64_0_1_n_n_1_1_161_wf
def gather_S16x4096x4x2_S64x1_S16x64x4x2_023_1_n_n_1_1_16142 : GatherDims S16x4096x4x2 S64x1 S16x64x4x2 where
  offsetDims := [0, 2, 3]
  collapsedSliceDims := [1]
  operandBatchingDims := []
  startIndicesBatchingDims := []
  startIndexMap := [1]
  indexVectorDim := 1
  sliceSizes := ![16, 1, 4, 2]
  wf := gather_S16x4096x4x2_S64x1_S16x64x4x2_023_1_n_n_1_1_16142_wf
def gather_S4096_S64x1_S64_n_0_n_n_0_1_1 : GatherDims S4096 S64x1 S64 where
  offsetDims := []
  collapsedSliceDims := [0]
  operandBatchingDims := []
  startIndicesBatchingDims := []
  startIndexMap := [0]
  indexVectorDim := 1
  sliceSizes := ![1]
  wf := gather_S4096_S64x1_S64_n_0_n_n_0_1_1_wf
def gather_S4096x4_S64x1_S64x4_1_0_n_n_0_1_14 : GatherDims S4096x4 S64x1 S64x4 where
  offsetDims := [1]
  collapsedSliceDims := [0]
  operandBatchingDims := []
  startIndicesBatchingDims := []
  startIndexMap := [0]
  indexVectorDim := 1
  sliceSizes := ![1, 4]
  wf := gather_S4096x4_S64x1_S64x4_1_0_n_n_0_1_14_wf
def scatter_S4194305_S4194304x1_S4194304_n_0_0_1 : ScatterDims S4194305 S4194304x1 S4194304 where
  updateWindowDims := []
  insertedWindowDims := [0]
  scatterDimsToOperandDims := [0]
  indexVectorDim := 1
  wf := scatter_S4194305_S4194304x1_S4194304_n_0_0_1_wf
def gather_S4194305_S4194304x1_S4194304_n_0_n_n_0_1_1 : GatherDims S4194305 S4194304x1 S4194304 where
  offsetDims := []
  collapsedSliceDims := [0]
  operandBatchingDims := []
  startIndicesBatchingDims := []
  startIndexMap := [0]
  indexVectorDim := 1
  sliceSizes := ![1]
  wf := gather_S4194305_S4194304x1_S4194304_n_0_n_n_0_1_1_wf

class Facts : Prop extends Facts₀ where

variable [Facts]
-- ==== Proof.K.Runs.lean ====
import proofs.«124939_j34651796144492_2_alg».proof.Proof.Gen.Kernel.Launch
import proofs.«124939_j34651796144492_2_alg».proof.Proof.Gen.Kernel.Skeleton
import proofs.«124939_j34651796144492_2_alg».proof.Proof.Gen.Kernel.Loops
import proofs.«124939_j34651796144492_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Hand.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The program is a stretch of host operations, the region, and eleven stretches of host operations. -/

/-- The stretches after the region, in order. -/
abbrev tailOps : List (List (HloOp τ sig (Elt F))) := [hostOps1, hostOps1_1, hostOps1_2, hostOps1_3, hostOps1_4, hostOps1_5, hostOps1_6, hostOps1_7, hostOps1_8, hostOps1_9, hostOps1_10]

/-- A core's buffers when the region is entered: the launch memory after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The program is the host operations before the region, the region, then the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10]) :=
  Pipeline.hmain_around cfgs 0 defs₀ 𝒱₀ m main [hostOps0] tailOps (by simp only [List.Forall]; exact hostOps0_sub)
    (by simp only [List.Forall]; exact hostOps0_fresh) main_chain

/-- The later operations touch only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- The thirteen arrays the region stages, as a list. -/
abbrev arrList : List (Ref sig .tc) := [main_v125, main_v126, main_v127, main_arg3, main_v90, main_v104, main_v128, main_v129, main_v130, main_v131, main_v52, main_v132_0, main_v132_1]

theorem arr_mem (w : Fin 13) : Pipeline.arrRef spec0 w ∈ (arrList : List (Ref sig .tc)) := by
  fin_cases w <;> decide

/-- An operation whose one result is no staged array writes no staged array. -/
theorem keeps_of {op : HloOp τ sig (Elt F)} {y : Ref sig .tc} (hw : op.writes = {Proc.devRef .tc y}) (hy : y ∉ (arrList : List (Ref sig .tc))) :
    ∀ w, Proc.devRef .tc (Pipeline.arrRef spec0 w) ∉ op.writes := by
  intro w hmem
  rw [hw, Finset.mem_singleton] at hmem
  exact hy (Proc.devRef_injective _ hmem ▸ arr_mem w)

/-- The six argument arrays, as a list. -/
abbrev argList : List (Ref sig .tc) := [main_arg0, main_arg1, main_arg2, main_arg3, main_arg4, main_arg5]

/-- An operation with one result outside a list of references writes none of them. -/
theorem misses_of {op : HloOp τ sig (Elt F)} {y : Ref sig .tc} {L : List (Ref sig .tc)} (hw : op.writes = {Proc.devRef .tc y}) (hy : y ∉ L) :
    ∀ a ∈ L, Proc.devRef (τ := τ) .tc a ∉ op.writes := by
  intro a ha hmem
  rw [hw, Finset.mem_singleton] at hmem
  exact hy (Proc.devRef_injective _ hmem ▸ ha)

local macro "miss_tac" : tactic => `(tactic| (first | exact misses_of (StableHlo.nullary_writes ..) (by decide) | exact misses_of (StableHlo.unary_writes ..) (by decide) | exact misses_of (StableHlo.binary_writes ..) (by decide) | exact misses_of (StableHlo.ternary_writes ..) (by decide) | exact misses_of (StableHlo.reshape_writes ..) (by decide) | exact misses_of (StableHlo.nary_writes ..) (by decide)))

/-- No host operation before the region writes an argument array. -/
theorem hostOps0_misses : (hostOps0 : List (HloOp τ sig (Elt F))).Forall fun op => ∀ a ∈ (argList : List (Ref sig .tc)), Proc.devRef (τ := τ) .tc a ∉ op.writes := by
  simp only [List.Forall]
  repeat' apply And.intro
  all_goals miss_tac

/-- The references the later operations must leave alone: the staged arrays and the arguments. -/
abbrev keepList : List (Ref sig .tc) := arrList ++ [main_arg0, main_arg1, main_arg2, main_arg4, main_arg5]

theorem hostOps1_misses : (hostOps1 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_1_misses : (hostOps1_1 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_2_misses : (hostOps1_2 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_3_misses : (hostOps1_3 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_4_misses : (hostOps1_4 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_5_misses : (hostOps1_5 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_6_misses : (hostOps1_6 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_7_misses : (hostOps1_7 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_8_misses : (hostOps1_8 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_9_misses : (hostOps1_9 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_10_misses : (hostOps1_10 : List (HloOp τ sig (Elt F))).Forall fun op => ∀ a ∈ (keepList : List (Ref sig .tc)), Proc.devRef (τ := τ) .tc a ∉ op.writes := by
  simp only [List.Forall]
  repeat' apply And.intro
  all_goals miss_tac

theorem tail_misses : ∀ ops ∈ (tailOps : List (List (HloOp τ sig (Elt F)))), ∀ op ∈ ops, ∀ a ∈ (keepList : List (Ref sig .tc)), Proc.devRef (τ := τ) .tc a ∉ op.writes := by
  intro ops hops op hop
  simp only [List.mem_cons, List.mem_nil_iff, or_false] at hops
  rcases hops with rfl | rfl | rfl | rfl | rfl | rfl | rfl | rfl | rfl | rfl | rfl
  · exact (List.forall_iff_forall_mem.mp hostOps1_misses) op hop
  · exact (List.forall_iff_forall_mem.mp hostOps1_1_misses) op hop
  · exact (List.forall_iff_forall_mem.mp hostOps1_2_misses) op hop
  · exact (List.forall_iff_forall_mem.mp hostOps1_3_misses) op hop
  · exact (List.forall_iff_forall_mem.mp hostOps1_4_misses) op hop
  · exact (List.forall_iff_forall_mem.mp hostOps1_5_misses) op hop
  · exact (List.forall_iff_forall_mem.mp hostOps1_6_misses) op hop
  · exact (List.forall_iff_forall_mem.mp hostOps1_7_misses) op hop
  · exact (List.forall_iff_forall_mem.mp hostOps1_8_misses) op hop
  · exact (List.forall_iff_forall_mem.mp hostOps1_9_misses) op hop
  · exact (List.forall_iff_forall_mem.mp hostOps1_10_misses) op hop

/-- And they write no staged array. -/
theorem sfx_keeps : ∀ ops ∈ (tailOps : List (List (HloOp τ sig (Elt F)))), ∀ op ∈ ops,
    ∀ w, Proc.devRef .tc (Pipeline.arrRef spec0 w) ∉ op.writes :=
  fun ops hops op hop w => tail_misses ops hops op hop _ (List.mem_append_left _ (arr_mem w))

theorem V0_eq (c : Dev nD) : V0 m c = StableHlo.after hostOps0 (fun b => m (c, b)) := by
  show StableHlo.after (List.flatten [hostOps0]) _ = _
  rw [List.flatten_cons, List.flatten_nil, List.append_nil]

/-- The region finds each argument array as launched. -/
theorem V_arg (c : Dev nD) (a : Ref sig .tc) (ha : a ∈ (argList : List (Ref sig .tc))) : V m c a = m ((c : Thread nD τ).loc a) := by
  show V0 m c (Proc.devRef .tc a) = _
  rw [V0_eq]
  exact StableHlo.after_of_forall_not_mem _ _ (fun op hop => (List.forall_iff_forall_mem.mp hostOps0_misses) op hop a ha)

/-- The later operations leave each reference of the keep list as they find it. -/
theorem tail_keeps (W : Valuation τ sig (Elt F)) (a : Ref sig .tc) (ha : a ∈ (keepList : List (Ref sig .tc))) :
    StableHlo.after (tailOps : List (List (HloOp τ sig (Elt F)))).flatten W (Proc.devRef .tc a) = W (Proc.devRef .tc a) :=
  StableHlo.after_of_forall_not_mem _ _ (fun op hop => by
    obtain ⟨ops, hops, hop'⟩ := List.mem_flatten.mp hop
    exact tail_misses ops hops op hop' a ha)

/-- An argument array no window stages ends as launched. -/
theorem W_arg (dats : (p : Fin 1) → (c : Dev nD) → Dat τ (Elt F) Unit ℕ (UR sig nD τ) ℕ (cfgs p) c) (c : Dev nD)
    (a : Ref sig .tc) (hk : a ∈ (keepList : List (Ref sig .tc))) (hn : ∀ w, Pipeline.arrRef spec0 w ≠ a)
    (hv : a ∈ (argList : List (Ref sig .tc))) :
    Pipeline.afterTail₀ cfgs dats 0 (V0 m) tailOps c a = m ((c : Thread nD τ).loc a) := by
  unfold Pipeline.afterTail₀
  rw [tail_keeps _ a hk, Pipeline.withArrays_of_ne _ c (V0 m c) _ a hn]
  exact V_arg m c a hv

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

/-- One staging buffer of each output window, through which its contents are stated. -/
abbrev VO0_11 : View sig .tc .vmem S16x64x512 .f32 := (Memref.whole cc0_stg11_0 : Memref sig .tc .vmem S16x64x512 .f32).view
abbrev VO0_12 : View sig .tc .vmem S16x64x512 .f32 := (Memref.whole cc0_stg12_0 : Memref sig .tc .vmem S16x64x512 .f32).view
abbrev ms0_0 (t : Fin cfg0.N) : Memref sig .tc .vmem S16x1x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x64x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x64x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x64x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x64x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x64x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x64x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x4 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x64x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x64x512 .f32 := win0_12.stage (cfg0.slots t 12)
abbrev hs0_12 (t : Fin cfg0.N) : (ms0_12 t).IsWhole := hstage0_12 ((cfg0.slots t 12).cast nbuf0_12)

end Cert.Hand.K

end
-- ==== Proof.K.RunA.lean ====
import proofs.«124939_j34651796144492_2_alg».proof.Proof.Gen.Kernel.Launch
import proofs.«124939_j34651796144492_2_alg».proof.Proof.Gen.Kernel.Skeleton
import proofs.«124939_j34651796144492_2_alg».proof.Proof.Gen.Kernel.Loops
import proofs.«124939_j34651796144492_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Hand.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The body of the one kernel on whole staging memrefs: the eleven input blocks at their contents, the two
    output blocks at anything. It runs to the end; the inputs are as they were; each output block holds the
    sixteen row slabs the loop's trips stored (the piece lists are what the run finds). -/

set_option maxHeartbeats 4000000 in
noncomputable def kernelRun0_A (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) :
    Σ' (L11 : List (View.Piece (Elt F) S16x64x512 .f32)), { L12 : List (View.Piece (Elt F) S16x64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0__ab_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__ab_kernel_eq_skeleton]; unfold cc0__ab_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    iexists _; iexact H12

end Cert.Hand.K

end
-- ==== Proof.K.Frame.lean ====
import proofs.«124939_j34651796144492_2_alg».proof.Proof.K.Runs
import proofs.«124939_j34651796144492_2_alg».proof.Proof.K.RunA

set_option maxRecDepth 16384

noncomputable section

namespace Cert.Hand.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the two output blocks

The sixteen row slabs the trips store tile each output block, so they cover it; the block after the body is those
pieces read back. -/

theorem cover0_A_11 (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) (y : S16x64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 S1x64x512.size (by sl_kernel_rfl) y

theorem cover0_A_12 (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) (y : S16x64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1 S1x64x512.size (by sl_kernel_rfl) y

/-- The first output's block after the body: the run's pieces read back over anything. -/
def out0_A_11 (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) : Vec F S16x64x512 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1)

/-- The second output's block after the body. -/
def out0_A_12 (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) : Vec F S16x64x512 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1)

/-- The output blocks after the body at point t: the run at the point's staging memrefs and input blocks. -/
def outsAt0_11 (c : Dev nD) (t : Fin cfg0.N) : Vec F S16x64x512 .f32 :=
  out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
def outsAt0_12 (c : Dev nD) (t : Fin cfg0.N) : Vec F S16x64x512 .f32 :=
  out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The proof data of the one region -/

/-- The arrays as the region finds them; after the body each input's buffer at its block, each output's at the
    run's pieces read back; nothing else is touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outsAt0_11 m c t
    | ⟨12, _⟩ => outsAt0_12 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outsAt0_11 m c t := by dsimp only [dats]
theorem after0_12 (c : Dev nD) (t : Fin cfg0.N) : (dats m 0 c).after 12 t = outsAt0_12 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2000000 in
/-- At any point the inputs' memrefs hold their blocks, so the body's run applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  unfold outsAt0_11 outsAt0_12
  unfold out0_A_11 out0_A_12
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover0_A_12 c _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end each staged array holds what
    the write-backs left and every other unscoped buffer what the later host operations compute from those. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The program runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_arg m (dats m) c main_arg0 (by decide) (by decide) (by decide)),
     ((h c).2 main_arg1 (Pipeline.mem_restRefs_of main_arg1 (by decide) (by decide))).trans (W_arg m (dats m) c main_arg1 (by decide) (by decide) (by decide)),
     ((h c).2 main_arg2 (Pipeline.mem_restRefs_of main_arg2 (by decide) (by decide))).trans (W_arg m (dats m) c main_arg2 (by decide) (by decide) (by decide)),
     ((h c).1 3).trans (((dats m 0 c).arrAt_in 3 rfl _).trans ((A_eq m c 3).trans (V_arg m c main_arg3 (by decide)))),
     ((h c).2 main_arg4 (Pipeline.mem_restRefs_of main_arg4 (by decide) (by decide))).trans (W_arg m (dats m) c main_arg4 (by decide) (by decide) (by decide)),
     ((h c).2 main_arg5 (Pipeline.mem_restRefs_of main_arg5 (by decide) (by decide))).trans (W_arg m (dats m) c main_arg5 (by decide) (by decide) (by decide))⟩) (run_main m ρ)

end Cert.Hand.K

end
-- ==== Proof.KI.Runs.lean ====
import proofs.«124939_j34651796144492_2_alg».proof.Proof.Gen.KernelIdeal.Launch
import proofs.«124939_j34651796144492_2_alg».proof.Proof.Gen.KernelIdeal.Skeleton
import proofs.«124939_j34651796144492_2_alg».proof.Proof.Gen.KernelIdeal.Loops
import proofs.«124939_j34651796144492_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Hand.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The program is a stretch of host operations, the region, and eleven stretches of host operations. -/

/-- The stretches after the region, in order. -/
abbrev tailOps : List (List (HloOp τ sig (Elt F))) := [hostOps1, hostOps1_1, hostOps1_2, hostOps1_3, hostOps1_4, hostOps1_5, hostOps1_6, hostOps1_7, hostOps1_8, hostOps1_9, hostOps1_10]

/-- A core's buffers when the region is entered: the launch memory after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The program is the host operations before the region, the region, then the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10]) :=
  Pipeline.hmain_around cfgs 0 defs₀ 𝒱₀ m main [hostOps0] tailOps (by simp only [List.Forall]; exact hostOps0_sub)
    (by simp only [List.Forall]; exact hostOps0_fresh) main_chain

/-- The later operations touch only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- The thirteen arrays the region stages, as a list. -/
abbrev arrList : List (Ref sig .tc) := [main_v125, main_v126, main_v127, main_arg3, main_v90, main_v104, main_v128, main_v129, main_v130, main_v131, main_v52, main_v132_0, main_v132_1]

theorem arr_mem (w : Fin 13) : Pipeline.arrRef spec0 w ∈ (arrList : List (Ref sig .tc)) := by
  fin_cases w <;> decide

/-- An operation whose one result is no staged array writes no staged array. -/
theorem keeps_of {op : HloOp τ sig (Elt F)} {y : Ref sig .tc} (hw : op.writes = {Proc.devRef .tc y}) (hy : y ∉ (arrList : List (Ref sig .tc))) :
    ∀ w, Proc.devRef .tc (Pipeline.arrRef spec0 w) ∉ op.writes := by
  intro w hmem
  rw [hw, Finset.mem_singleton] at hmem
  exact hy (Proc.devRef_injective _ hmem ▸ arr_mem w)

/-- The six argument arrays, as a list. -/
abbrev argList : List (Ref sig .tc) := [main_arg0, main_arg1, main_arg2, main_arg3, main_arg4, main_arg5]

/-- An operation with one result outside a list of references writes none of them. -/
theorem misses_of {op : HloOp τ sig (Elt F)} {y : Ref sig .tc} {L : List (Ref sig .tc)} (hw : op.writes = {Proc.devRef .tc y}) (hy : y ∉ L) :
    ∀ a ∈ L, Proc.devRef (τ := τ) .tc a ∉ op.writes := by
  intro a ha hmem
  rw [hw, Finset.mem_singleton] at hmem
  exact hy (Proc.devRef_injective _ hmem ▸ ha)

local macro "miss_tac" : tactic => `(tactic| (first | exact misses_of (StableHlo.nullary_writes ..) (by decide) | exact misses_of (StableHlo.unary_writes ..) (by decide) | exact misses_of (StableHlo.binary_writes ..) (by decide) | exact misses_of (StableHlo.ternary_writes ..) (by decide) | exact misses_of (StableHlo.reshape_writes ..) (by decide) | exact misses_of (StableHlo.nary_writes ..) (by decide)))

/-- No host operation before the region writes an argument array. -/
theorem hostOps0_misses : (hostOps0 : List (HloOp τ sig (Elt F))).Forall fun op => ∀ a ∈ (argList : List (Ref sig .tc)), Proc.devRef (τ := τ) .tc a ∉ op.writes := by
  simp only [List.Forall]
  repeat' apply And.intro
  all_goals miss_tac

/-- The references the later operations must leave alone: the staged arrays and the arguments. -/
abbrev keepList : List (Ref sig .tc) := arrList ++ [main_arg0, main_arg1, main_arg2, main_arg4, main_arg5]

theorem hostOps1_misses : (hostOps1 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_1_misses : (hostOps1_1 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_2_misses : (hostOps1_2 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_3_misses : (hostOps1_3 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_4_misses : (hostOps1_4 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_5_misses : (hostOps1_5 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_6_misses : (hostOps1_6 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_7_misses : (hostOps1_7 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_8_misses : (hostOps1_8 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_9_misses : (hostOps1_9 : List (HloOp τ sig (Elt F))).Forall fun op => ∀ a ∈ (keepList : List (Ref sig .tc)), Proc.devRef (τ := τ) .tc a ∉ op.writes := by
  simp only [List.Forall]
  repeat' apply And.intro
  all_goals miss_tac
theorem hostOps1_10_misses : (hostOps1_10 : List (HloOp τ sig (Elt F))).Forall fun op => ∀ a ∈ (keepList : List (Ref sig .tc)), Proc.devRef (τ := τ) .tc a ∉ op.writes := by
  simp only [List.Forall]
  repeat' apply And.intro
  all_goals miss_tac

theorem tail_misses : ∀ ops ∈ (tailOps : List (List (HloOp τ sig (Elt F)))), ∀ op ∈ ops, ∀ a ∈ (keepList : List (Ref sig .tc)), Proc.devRef (τ := τ) .tc a ∉ op.writes := by
  intro ops hops op hop
  simp only [List.mem_cons, List.mem_nil_iff, or_false] at hops
  rcases hops with rfl | rfl | rfl | rfl | rfl | rfl | rfl | rfl | rfl | rfl | rfl
  · exact (List.forall_iff_forall_mem.mp hostOps1_misses) op hop
  · exact (List.forall_iff_forall_mem.mp hostOps1_1_misses) op hop
  · exact (List.forall_iff_forall_mem.mp hostOps1_2_misses) op hop
  · exact (List.forall_iff_forall_mem.mp hostOps1_3_misses) op hop
  · exact (List.forall_iff_forall_mem.mp hostOps1_4_misses) op hop
  · exact (List.forall_iff_forall_mem.mp hostOps1_5_misses) op hop
  · exact (List.forall_iff_forall_mem.mp hostOps1_6_misses) op hop
  · exact (List.forall_iff_forall_mem.mp hostOps1_7_misses) op hop
  · exact (List.forall_iff_forall_mem.mp hostOps1_8_misses) op hop
  · exact (List.forall_iff_forall_mem.mp hostOps1_9_misses) op hop
  · exact (List.forall_iff_forall_mem.mp hostOps1_10_misses) op hop

/-- And they write no staged array. -/
theorem sfx_keeps : ∀ ops ∈ (tailOps : List (List (HloOp τ sig (Elt F)))), ∀ op ∈ ops,
    ∀ w, Proc.devRef .tc (Pipeline.arrRef spec0 w) ∉ op.writes :=
  fun ops hops op hop w => tail_misses ops hops op hop _ (List.mem_append_left _ (arr_mem w))

theorem V0_eq (c : Dev nD) : V0 m c = StableHlo.after hostOps0 (fun b => m (c, b)) := by
  show StableHlo.after (List.flatten [hostOps0]) _ = _
  rw [List.flatten_cons, List.flatten_nil, List.append_nil]

/-- The region finds each argument array as launched. -/
theorem V_arg (c : Dev nD) (a : Ref sig .tc) (ha : a ∈ (argList : List (Ref sig .tc))) : V m c a = m ((c : Thread nD τ).loc a) := by
  show V0 m c (Proc.devRef .tc a) = _
  rw [V0_eq]
  exact StableHlo.after_of_forall_not_mem _ _ (fun op hop => (List.forall_iff_forall_mem.mp hostOps0_misses) op hop a ha)

/-- The later operations leave each reference of the keep list as they find it. -/
theorem tail_keeps (W : Valuation τ sig (Elt F)) (a : Ref sig .tc) (ha : a ∈ (keepList : List (Ref sig .tc))) :
    StableHlo.after (tailOps : List (List (HloOp τ sig (Elt F)))).flatten W (Proc.devRef .tc a) = W (Proc.devRef .tc a) :=
  StableHlo.after_of_forall_not_mem _ _ (fun op hop => by
    obtain ⟨ops, hops, hop'⟩ := List.mem_flatten.mp hop
    exact tail_misses ops hops op hop' a ha)

/-- An argument array no window stages ends as launched. -/
theorem W_arg (dats : (p : Fin 1) → (c : Dev nD) → Dat τ (Elt F) Unit ℕ (UR sig nD τ) ℕ (cfgs p) c) (c : Dev nD)
    (a : Ref sig .tc) (hk : a ∈ (keepList : List (Ref sig .tc))) (hn : ∀ w, Pipeline.arrRef spec0 w ≠ a)
    (hv : a ∈ (argList : List (Ref sig .tc))) :
    Pipeline.afterTail₀ cfgs dats 0 (V0 m) tailOps c a = m ((c : Thread nD τ).loc a) := by
  unfold Pipeline.afterTail₀
  rw [tail_keeps _ a hk, Pipeline.withArrays_of_ne _ c (V0 m c) _ a hn]
  exact V_arg m c a hv

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

/-- One staging buffer of each output window, through which its contents are stated. -/
abbrev VO0_11 : View sig .tc .vmem S16x64x512 .f32 := (Memref.whole cc0_stg11_0 : Memref sig .tc .vmem S16x64x512 .f32).view
abbrev VO0_12 : View sig .tc .vmem S16x64x512 .f32 := (Memref.whole cc0_stg12_0 : Memref sig .tc .vmem S16x64x512 .f32).view
abbrev ms0_0 (t : Fin cfg0.N) : Memref sig .tc .vmem S16x1x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x64x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x64x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x64x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x64x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x64x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x64x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x4 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x64x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x64x512 .f32 := win0_12.stage (cfg0.slots t 12)
abbrev hs0_12 (t : Fin cfg0.N) : (ms0_12 t).IsWhole := hstage0_12 ((cfg0.slots t 12).cast nbuf0_12)

end Cert.Hand.KI

end
-- ==== Proof.KI.RunA.lean ====
import proofs.«124939_j34651796144492_2_alg».proof.Proof.Gen.KernelIdeal.Launch
import proofs.«124939_j34651796144492_2_alg».proof.Proof.Gen.KernelIdeal.Skeleton
import proofs.«124939_j34651796144492_2_alg».proof.Proof.Gen.KernelIdeal.Loops
import proofs.«124939_j34651796144492_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Hand.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The body of the one kernel on whole staging memrefs: the eleven input blocks at their contents, the two
    output blocks at anything. It runs to the end; the inputs are as they were; each output block holds the
    sixteen row slabs the loop's trips stored (the piece lists are what the run finds). -/

set_option maxHeartbeats 4000000 in
noncomputable def kernelRun0_A (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) :
    Σ' (L11 : List (View.Piece (Elt F) S16x64x512 .f32)), { L12 : List (View.Piece (Elt F) S16x64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0__ab_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__ab_kernel_eq_skeleton]; unfold cc0__ab_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    iexists _; iexact H12

end Cert.Hand.KI

end
-- ==== Proof.KI.Frame.lean ====
import proofs.«124939_j34651796144492_2_alg».proof.Proof.KI.Runs
import proofs.«124939_j34651796144492_2_alg».proof.Proof.KI.RunA

set_option maxRecDepth 16384

noncomputable section

namespace Cert.Hand.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the two output blocks

The sixteen row slabs the trips store tile each output block, so they cover it; the block after the body is those
pieces read back. -/

theorem cover0_A_11 (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) (y : S16x64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 S1x64x512.size (by sl_kernel_rfl) y

theorem cover0_A_12 (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) (y : S16x64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1 S1x64x512.size (by sl_kernel_rfl) y

/-- The first output's block after the body: the run's pieces read back over anything. -/
def out0_A_11 (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) : Vec F S16x64x512 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1)

/-- The second output's block after the body. -/
def out0_A_12 (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) : Vec F S16x64x512 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1)

/-- The output blocks after the body at point t: the run at the point's staging memrefs and input blocks. -/
def outsAt0_11 (c : Dev nD) (t : Fin cfg0.N) : Vec F S16x64x512 .f32 :=
  out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
def outsAt0_12 (c : Dev nD) (t : Fin cfg0.N) : Vec F S16x64x512 .f32 :=
  out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The proof data of the one region -/

/-- The arrays as the region finds them; after the body each input's buffer at its block, each output's at the
    run's pieces read back; nothing else is touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outsAt0_11 m c t
    | ⟨12, _⟩ => outsAt0_12 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outsAt0_11 m c t := by dsimp only [dats]
theorem after0_12 (c : Dev nD) (t : Fin cfg0.N) : (dats m 0 c).after 12 t = outsAt0_12 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2000000 in
/-- At any point the inputs' memrefs hold their blocks, so the body's run applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  unfold outsAt0_11 outsAt0_12
  unfold out0_A_11 out0_A_12
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover0_A_12 c _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end each staged array holds what
    the write-backs left and every other unscoped buffer what the later host operations compute from those. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The program runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_arg m (dats m) c main_arg0 (by decide) (by decide) (by decide)),
     ((h c).2 main_arg1 (Pipeline.mem_restRefs_of main_arg1 (by decide) (by decide))).trans (W_arg m (dats m) c main_arg1 (by decide) (by decide) (by decide)),
     ((h c).2 main_arg2 (Pipeline.mem_restRefs_of main_arg2 (by decide) (by decide))).trans (W_arg m (dats m) c main_arg2 (by decide) (by decide) (by decide)),
     ((h c).1 3).trans (((dats m 0 c).arrAt_in 3 rfl _).trans ((A_eq m c 3).trans (V_arg m c main_arg3 (by decide)))),
     ((h c).2 main_arg4 (Pipeline.mem_restRefs_of main_arg4 (by decide) (by decide))).trans (W_arg m (dats m) c main_arg4 (by decide) (by decide) (by decide)),
     ((h c).2 main_arg5 (Pipeline.mem_restRefs_of main_arg5 (by decide) (by decide))).trans (W_arg m (dats m) c main_arg5 (by decide) (by decide) (by decide))⟩) (run_main m ρ)

end Cert.Hand.KI

end
-- ==== Proof.Ref.RunOps0.lean ====
/- Window 0 of the reference's @main (`main_part0`) as the list of its 60 host operations, 1 … 60 in
   program order: each printed operation as it stands, each call of an outlined function as that function's own
   operations written over the buffers of the call's record, with the function's argument buffers in place of its
   parameters. The window is the straight line of that list; every operation touches TensorCore buffers only and
   determines what it writes. -/
import proofs.«124939_j34651796144492_2_alg».proof.Proof.Gen.ReferenceIdeal
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 1 … 60 of @main, in order. -/
abbrev ops0 : List (HloOp τ sig (Elt F)) :=
  ( StableHlo.unary main_arg0 main_v0 ((extractStridedSlice S4096x16x2 ![0, 4, 0] · slices_S4096x20x2_S4096x16x2_0_4_0) : (⟨S4096x20x2, .f32⟩ : BufTy).Contents (Elt F) → (⟨S4096x16x2, .f32⟩ : BufTy).Contents (Elt F)) -- %0 = stablehlo.slice %arg0 [0:4096, 4:20, 0:2] : (tensor<4096x20x2xf32>) -> tensor<4096x16x2xf32>
  :: StableHlo.unary main_arg1 main_v1 ((extractStridedSlice S4096x16 ![0, 4] · slices_S4096x20_S4096x16_0_4) : (⟨S4096x20, .f32⟩ : BufTy).Contents (Elt F) → (⟨S4096x16, .f32⟩ : BufTy).Contents (Elt F)) -- %1 = stablehlo.slice %arg1 [0:4096, 4:20] : (tensor<4096x20xf32>) -> tensor<4096x16xf32>
  :: StableHlo.unary main_arg2 main_v2 ((extractStridedSlice S4096x16 ![0, 4] · slices_S4096x20_S4096x16_0_4) : (⟨S4096x20, .i1⟩ : BufTy).Contents (Elt F) → (⟨S4096x16, .i1⟩ : BufTy).Contents (Elt F)) -- %2 = stablehlo.slice %arg2 [0:4096, 4:20] : (tensor<4096x20xi1>) -> tensor<4096x16xi1>
  :: StableHlo.unary main_arg3 main_v3 ((extractStridedSlice S4096x1 ![0, 0] · slices_S4096x4_S4096x1_0_0) : (⟨S4096x4, .f32⟩ : BufTy).Contents (Elt F) → (⟨S4096x1, .f32⟩ : BufTy).Contents (Elt F)) -- %3 = stablehlo.slice %arg3 [0:4096, 0:1] : (tensor<4096x4xf32>) -> tensor<4096x1xf32>
  :: StableHlo.reshape main_v3 main_v4 rfl shapeCasts_S4096x1_S4096 -- %4 = stablehlo.reshape %3 : (tensor<4096x1xf32>) -> tensor<4096xf32>
  :: StableHlo.unary main_arg3 main_v5 ((extractStridedSlice S4096x1 ![0, 1] · slices_S4096x4_S4096x1_0_1) : (⟨S4096x4, .f32⟩ : BufTy).Contents (Elt F) → (⟨S4096x1, .f32⟩ : BufTy).Contents (Elt F)) -- %5 = stablehlo.slice %arg3 [0:4096, 1:2] : (tensor<4096x4xf32>) -> tensor<4096x1xf32>
  :: StableHlo.reshape main_v5 main_v6 rfl shapeCasts_S4096x1_S4096 -- %6 = stablehlo.reshape %5 : (tensor<4096x1xf32>) -> tensor<4096xf32>
  :: StableHlo.unary main_arg3 main_v7 ((extractStridedSlice S4096x1 ![0, 2] · slices_S4096x4_S4096x1_0_2) : (⟨S4096x4, .f32⟩ : BufTy).Contents (Elt F) → (⟨S4096x1, .f32⟩ : BufTy).Contents (Elt F)) -- %7 = stablehlo.slice %arg3 [0:4096, 2:3] : (tensor<4096x4xf32>) -> tensor<4096x1xf32>
  :: StableHlo.reshape main_v7 main_v8 rfl shapeCasts_S4096x1_S4096 -- %8 = stablehlo.reshape %7 : (tensor<4096x1xf32>) -> tensor<4096xf32>
  :: StableHlo.unary main_arg3 main_v9 ((extractStridedSlice S4096x1 ![0, 3] · slices_S4096x4_S4096x1_0_3) : (⟨S4096x4, .f32⟩ : BufTy).Contents (Elt F) → (⟨S4096x1, .f32⟩ : BufTy).Contents (Elt F)) -- %9 = stablehlo.slice %arg3 [0:4096, 3:4] : (tensor<4096x4xf32>) -> tensor<4096x1xf32>
  :: StableHlo.reshape main_v9 main_v10 rfl shapeCasts_S4096x1_S4096 -- %10 = stablehlo.reshape %9 : (tensor<4096x1xf32>) -> tensor<4096xf32>
  :: StableHlo.unary main_v6 main_v11 (Host.negf : (⟨S4096, .f32⟩ : BufTy).Contents (Elt F) → (⟨S4096, .f32⟩ : BufTy).Contents (Elt F)) -- %11 = stablehlo.negate %6 : tensor<4096xf32>
  :: StableHlo.unary main_v6 main_v12 (Host.negf : (⟨S4096, .f32⟩ : BufTy).Contents (Elt F) → (⟨S4096, .f32⟩ : BufTy).Contents (Elt F)) -- %12 = stablehlo.negate %6 : tensor<4096xf32>
  :: StableHlo.unary main_v4 main_v13 (broadcastInDim S4096x1 ![0] bcast_S4096_S4096x1_0 : (⟨S4096, .f32⟩ : BufTy).Contents (Elt F) → (⟨S4096x1, .f32⟩ : BufTy).Contents (Elt F)) -- %13 = stablehlo.broadcast_in_dim %4, dims = [0] : (tensor<4096xf32>) -> tensor<4096x1xf32>
  :: StableHlo.unary main_v4 main_v14 (broadcastInDim S4096x1 ![0] bcast_S4096_S4096x1_0 : (⟨S4096, .f32⟩ : BufTy).Contents (Elt F) → (⟨S4096x1, .f32⟩ : BufTy).Contents (Elt F)) -- %14 = stablehlo.broadcast_in_dim %4, dims = [0] : (tensor<4096xf32>) -> tensor<4096x1xf32>
  :: StableHlo.unary main_v11 main_v15 (broadcastInDim S4096x1 ![0] bcast_S4096_S4096x1_0 : (⟨S4096, .f32⟩ : BufTy).Contents (Elt F) → (⟨S4096x1, .f32⟩ : BufTy).Contents (Elt F)) -- %15 = stablehlo.broadcast_in_dim %11, dims = [0] : (tensor<4096xf32>) -> tensor<4096x1xf32>
  :: StableHlo.unary main_v12 main_v16 (broadcastInDim S4096x1 ![0] bcast_S4096_S4096x1_0 : (⟨S4096, .f32⟩ : BufTy).Contents (Elt F) → (⟨S4096x1, .f32⟩ : BufTy).Contents (Elt F)) -- %16 = stablehlo.broadcast_in_dim %12, dims = [0] : (tensor<4096xf32>) -> tensor<4096x1xf32>
  :: StableHlo.nary ![main_v13, main_v14, main_v15, main_v16] main_v17 (fun u => concatenate S4096x4 1 [⟨S4096x1, u 0⟩, ⟨S4096x1, u 1⟩, ⟨S4096x1, u 2⟩, ⟨S4096x1, u 3⟩] concatenates_S4096x1_S4096x1_S4096x1_S4096x1_S4096x4_d1) -- %17 = stablehlo.concatenate %13, %14, %15, %16, dim = 1 : (tensor<4096x1xf32>, tensor<4096x1xf32>, tensor<4...
  :: StableHlo.unary main_v17 main_v18 (broadcastInDim S4096x1x4 ![0, 2] bcast_S4096x4_S4096x1x4_0_2 : (⟨S4096x4, .f32⟩ : BufTy).Contents (Elt F) → (⟨S4096x1x4, .f32⟩ : BufTy).Contents (Elt F)) -- %18 = stablehlo.broadcast_in_dim %17, dims = [0, 2] : (tensor<4096x4xf32>) -> tensor<4096x1x4xf32>
  :: StableHlo.unary main_v10 main_v19 (Host.negf : (⟨S4096, .f32⟩ : BufTy).Contents (Elt F) → (⟨S4096, .f32⟩ : BufTy).Contents (Elt F)) -- %19 = stablehlo.negate %10 : tensor<4096xf32>
  :: StableHlo.unary main_v10 main_v20 (Host.negf : (⟨S4096, .f32⟩ : BufTy).Contents (Elt F) → (⟨S4096, .f32⟩ : BufTy).Contents (Elt F)) -- %20 = stablehlo.negate %10 : tensor<4096xf32>
  :: StableHlo.unary main_v8 main_v21 (broadcastInDim S4096x1 ![0] bcast_S4096_S4096x1_0 : (⟨S4096, .f32⟩ : BufTy).Contents (Elt F) → (⟨S4096x1, .f32⟩ : BufTy).Contents (Elt F)) -- %21 = stablehlo.broadcast_in_dim %8, dims = [0] : (tensor<4096xf32>) -> tensor<4096x1xf32>
  :: StableHlo.unary main_v19 main_v22 (broadcastInDim S4096x1 ![0] bcast_S4096_S4096x1_0 : (⟨S4096, .f32⟩ : BufTy).Contents (Elt F) → (⟨S4096x1, .f32⟩ : BufTy).Contents (Elt F)) -- %22 = stablehlo.broadcast_in_dim %19, dims = [0] : (tensor<4096xf32>) -> tensor<4096x1xf32>
  :: StableHlo.unary main_v20 main_v23 (broadcastInDim S4096x1 ![0] bcast_S4096_S4096x1_0 : (⟨S4096, .f32⟩ : BufTy).Contents (Elt F) → (⟨S4096x1, .f32⟩ : BufTy).Contents (Elt F)) -- %23 = stablehlo.broadcast_in_dim %20, dims = [0] : (tensor<4096xf32>) -> tensor<4096x1xf32>
  :: StableHlo.unary main_v8 main_v24 (broadcastInDim S4096x1 ![0] bcast_S4096_S4096x1_0 : (⟨S4096, .f32⟩ : BufTy).Contents (Elt F) → (⟨S4096x1, .f32⟩ : BufTy).Contents (Elt F)) -- %24 = stablehlo.broadcast_in_dim %8, dims = [0] : (tensor<4096xf32>) -> tensor<4096x1xf32>
  :: StableHlo.nary ![main_v21, main_v22, main_v23, main_v24] main_v25 (fun u => concatenate S4096x4 1 [⟨S4096x1, u 0⟩, ⟨S4096x1, u 1⟩, ⟨S4096x1, u 2⟩, ⟨S4096x1, u 3⟩] concatenates_S4096x1_S4096x1_S4096x1_S4096x1_S4096x4_d1) -- %25 = stablehlo.concatenate %21, %22, %23, %24, dim = 1 : (tensor<4096x1xf32>, tensor<4096x1xf32>, tensor<4...
  :: StableHlo.unary main_v25 main_v26 (broadcastInDim S4096x1x4 ![0, 2] bcast_S4096x4_S4096x1x4_0_2 : (⟨S4096x4, .f32⟩ : BufTy).Contents (Elt F) → (⟨S4096x1x4, .f32⟩ : BufTy).Contents (Elt F)) -- %26 = stablehlo.broadcast_in_dim %25, dims = [0, 2] : (tensor<4096x4xf32>) -> tensor<4096x1x4xf32>
  :: StableHlo.unary main_v1 main_v27 (Host.cos : (⟨S4096x16, .f32⟩ : BufTy).Contents (Elt F) → (⟨S4096x16, .f32⟩ : BufTy).Contents (Elt F)) -- %27 = stablehlo.cosine %1 : tensor<4096x16xf32>
  :: StableHlo.unary main_v27 main_v28 (broadcastInDim S4096x16x1 ![0, 1] bcast_S4096x16_S4096x16x1_0_1 : (⟨S4096x16, .f32⟩ : BufTy).Contents (Elt F) → (⟨S4096x16x1, .f32⟩ : BufTy).Contents (Elt F)) -- %28 = stablehlo.broadcast_in_dim %27, dims = [0, 1] : (tensor<4096x16xf32>) -> tensor<4096x16x1xf32>
  :: StableHlo.unary main_v1 main_v29 (Host.sin : (⟨S4096x16, .f32⟩ : BufTy).Contents (Elt F) → (⟨S4096x16, .f32⟩ : BufTy).Contents (Elt F)) -- %29 = stablehlo.sine %1 : tensor<4096x16xf32>
  :: StableHlo.unary main_v29 main_v30 (broadcastInDim S4096x16x1 ![0, 1] bcast_S4096x16_S4096x16x1_0_1 : (⟨S4096x16, .f32⟩ : BufTy).Contents (Elt F) → (⟨S4096x16x1, .f32⟩ : BufTy).Contents (Elt F)) -- %30 = stablehlo.broadcast_in_dim %29, dims = [0, 1] : (tensor<4096x16xf32>) -> tensor<4096x16x1xf32>
  :: StableHlo.unary main_v0 main_v31 ((extractStridedSlice S4096x16x1 ![0, 0, 0] · slices_S4096x16x2_S4096x16x1_0_0_0) : (⟨S4096x16x2, .f32⟩ : BufTy).Contents (Elt F) → (⟨S4096x16x1, .f32⟩ : BufTy).Contents (Elt F)) -- %31 = stablehlo.slice %0 [0:4096, 0:16, 0:1] : (tensor<4096x16x2xf32>) -> tensor<4096x16x1xf32>
  :: StableHlo.unary main_v28 main_v32 (broadcastInDim S4096x16x4 ![0, 1, 2] bcast_S4096x16x1_S4096x16x4_0_1_2 : (⟨S4096x16x1, .f32⟩ : BufTy).Contents (Elt F) → (⟨S4096x16x4, .f32⟩ : BufTy).Contents (Elt F)) -- %32 = stablehlo.broadcast_in_dim %28, dims = [0, 1, 2] : (tensor<4096x16x1xf32>) -> tensor<4096x16x4xf32>
  :: StableHlo.unary main_v18 main_v33 (broadcastInDim S4096x16x4 ![0, 1, 2] bcast_S4096x1x4_S4096x16x4_0_1_2 : (⟨S4096x1x4, .f32⟩ : BufTy).Contents (Elt F) → (⟨S4096x16x4, .f32⟩ : BufTy).Contents (Elt F)) -- %33 = stablehlo.broadcast_in_dim %18, dims = [0, 1, 2] : (tensor<4096x1x4xf32>) -> tensor<4096x16x4xf32>
  :: StableHlo.binary main_v32 main_v33 main_v34 (mulf : (⟨S4096x16x4, .f32⟩ : BufTy).Contents (Elt F) → (⟨S4096x16x4, .f32⟩ : BufTy).Contents (Elt F) → (⟨S4096x16x4, .f32⟩ : BufTy).Contents (Elt F)) -- %34 = stablehlo.multiply %32, %33 : tensor<4096x16x4xf32>
  :: StableHlo.unary main_v31 main_v35 (broadcastInDim S4096x16x4 ![0, 1, 2] bcast_S4096x16x1_S4096x16x4_0_1_2 : (⟨S4096x16x1, .f32⟩ : BufTy).Contents (Elt F) → (⟨S4096x16x4, .f32⟩ : BufTy).Contents (Elt F)) -- %35 = stablehlo.broadcast_in_dim %31, dims = [0, 1, 2] : (tensor<4096x16x1xf32>) -> tensor<4096x16x4xf32>
  :: StableHlo.binary main_v35 main_v34 main_v36 (addf : (⟨S4096x16x4, .f32⟩ : BufTy).Contents (Elt F) → (⟨S4096x16x4, .f32⟩ : BufTy).Contents (Elt F) → (⟨S4096x16x4, .f32⟩ : BufTy).Contents (Elt F)) -- %36 = stablehlo.add %35, %34 : tensor<4096x16x4xf32>
  :: StableHlo.unary main_v30 main_v37 (broadcastInDim S4096x16x4 ![0, 1, 2] bcast_S4096x16x1_S4096x16x4_0_1_2 : (⟨S4096x16x1, .f32⟩ : BufTy).Contents (Elt F) → (⟨S4096x16x4, .f32⟩ : BufTy).Contents (Elt F)) -- %37 = stablehlo.broadcast_in_dim %30, dims = [0, 1, 2] : (tensor<4096x16x1xf32>) -> tensor<4096x16x4xf32>
  :: StableHlo.unary main_v26 main_v38 (broadcastInDim S4096x16x4 ![0, 1, 2] bcast_S4096x1x4_S4096x16x4_0_1_2 : (⟨S4096x1x4, .f32⟩ : BufTy).Contents (Elt F) → (⟨S4096x16x4, .f32⟩ : BufTy).Contents (Elt F)) -- %38 = stablehlo.broadcast_in_dim %26, dims = [0, 1, 2] : (tensor<4096x1x4xf32>) -> tensor<4096x16x4xf32>
  :: StableHlo.binary main_v37 main_v38 main_v39 (mulf : (⟨S4096x16x4, .f32⟩ : BufTy).Contents (Elt F) → (⟨S4096x16x4, .f32⟩ : BufTy).Contents (Elt F) → (⟨S4096x16x4, .f32⟩ : BufTy).Contents (Elt F)) -- %39 = stablehlo.multiply %37, %38 : tensor<4096x16x4xf32>
  :: StableHlo.binary main_v36 main_v39 main_v40 (subf : (⟨S4096x16x4, .f32⟩ : BufTy).Contents (Elt F) → (⟨S4096x16x4, .f32⟩ : BufTy).Contents (Elt F) → (⟨S4096x16x4, .f32⟩ : BufTy).Contents (Elt F)) -- %40 = stablehlo.subtract %36, %39 : tensor<4096x16x4xf32>
  :: StableHlo.unary main_v0 main_v41 ((extractStridedSlice S4096x16x1 ![0, 0, 1] · slices_S4096x16x2_S4096x16x1_0_0_1) : (⟨S4096x16x2, .f32⟩ : BufTy).Contents (Elt F) → (⟨S4096x16x1, .f32⟩ : BufTy).Contents (Elt F)) -- %41 = stablehlo.slice %0 [0:4096, 0:16, 1:2] : (tensor<4096x16x2xf32>) -> tensor<4096x16x1xf32>
  :: StableHlo.unary main_v30 main_v42 (broadcastInDim S4096x16x4 ![0, 1, 2] bcast_S4096x16x1_S4096x16x4_0_1_2 : (⟨S4096x16x1, .f32⟩ : BufTy).Contents (Elt F) → (⟨S4096x16x4, .f32⟩ : BufTy).Contents (Elt F)) -- %42 = stablehlo.broadcast_in_dim %30, dims = [0, 1, 2] : (tensor<4096x16x1xf32>) -> tensor<4096x16x4xf32>
  :: StableHlo.unary main_v18 main_v43 (broadcastInDim S4096x16x4 ![0, 1, 2] bcast_S4096x1x4_S4096x16x4_0_1_2 : (⟨S4096x1x4, .f32⟩ : BufTy).Contents (Elt F) → (⟨S4096x16x4, .f32⟩ : BufTy).Contents (Elt F)) -- %43 = stablehlo.broadcast_in_dim %18, dims = [0, 1, 2] : (tensor<4096x1x4xf32>) -> tensor<4096x16x4xf32>
  :: StableHlo.binary main_v42 main_v43 main_v44 (mulf : (⟨S4096x16x4, .f32⟩ : BufTy).Contents (Elt F) → (⟨S4096x16x4, .f32⟩ : BufTy).Contents (Elt F) → (⟨S4096x16x4, .f32⟩ : BufTy).Contents (Elt F)) -- %44 = stablehlo.multiply %42, %43 : tensor<4096x16x4xf32>
  :: StableHlo.unary main_v41 main_v45 (broadcastInDim S4096x16x4 ![0, 1, 2] bcast_S4096x16x1_S4096x16x4_0_1_2 : (⟨S4096x16x1, .f32⟩ : BufTy).Contents (Elt F) → (⟨S4096x16x4, .f32⟩ : BufTy).Contents (Elt F)) -- %45 = stablehlo.broadcast_in_dim %41, dims = [0, 1, 2] : (tensor<4096x16x1xf32>) -> tensor<4096x16x4xf32>
  :: StableHlo.binary main_v45 main_v44 main_v46 (addf : (⟨S4096x16x4, .f32⟩ : BufTy).Contents (Elt F) → (⟨S4096x16x4, .f32⟩ : BufTy).Contents (Elt F) → (⟨S4096x16x4, .f32⟩ : BufTy).Contents (Elt F)) -- %46 = stablehlo.add %45, %44 : tensor<4096x16x4xf32>
  :: StableHlo.unary main_v28 main_v47 (broadcastInDim S4096x16x4 ![0, 1, 2] bcast_S4096x16x1_S4096x16x4_0_1_2 : (⟨S4096x16x1, .f32⟩ : BufTy).Contents (Elt F) → (⟨S4096x16x4, .f32⟩ : BufTy).Contents (Elt F)) -- %47 = stablehlo.broadcast_in_dim %28, dims = [0, 1, 2] : (tensor<4096x16x1xf32>) -> tensor<4096x16x4xf32>
  :: StableHlo.unary main_v26 main_v48 (broadcastInDim S4096x16x4 ![0, 1, 2] bcast_S4096x1x4_S4096x16x4_0_1_2 : (⟨S4096x1x4, .f32⟩ : BufTy).Contents (Elt F) → (⟨S4096x16x4, .f32⟩ : BufTy).Contents (Elt F)) -- %48 = stablehlo.broadcast_in_dim %26, dims = [0, 1, 2] : (tensor<4096x1x4xf32>) -> tensor<4096x16x4xf32>
  :: StableHlo.binary main_v47 main_v48 main_v49 (mulf : (⟨S4096x16x4, .f32⟩ : BufTy).Contents (Elt F) → (⟨S4096x16x4, .f32⟩ : BufTy).Contents (Elt F) → (⟨S4096x16x4, .f32⟩ : BufTy).Contents (Elt F)) -- %49 = stablehlo.multiply %47, %48 : tensor<4096x16x4xf32>
  :: StableHlo.binary main_v46 main_v49 main_v50 (addf : (⟨S4096x16x4, .f32⟩ : BufTy).Contents (Elt F) → (⟨S4096x16x4, .f32⟩ : BufTy).Contents (Elt F) → (⟨S4096x16x4, .f32⟩ : BufTy).Contents (Elt F)) -- %50 = stablehlo.add %46, %49 : tensor<4096x16x4xf32>
  :: StableHlo.unary main_v40 main_v51 (broadcastInDim S4096x16x4x1 ![0, 1, 2] bcast_S4096x16x4_S4096x16x4x1_0_1_2 : (⟨S4096x16x4, .f32⟩ : BufTy).Contents (Elt F) → (⟨S4096x16x4x1, .f32⟩ : BufTy).Contents (Elt F)) -- %51 = stablehlo.broadcast_in_dim %40, dims = [0, 1, 2] : (tensor<4096x16x4xf32>) -> tensor<4096x16x4x1xf32>
  :: StableHlo.unary main_v50 main_v52 (broadcastInDim S4096x16x4x1 ![0, 1, 2] bcast_S4096x16x4_S4096x16x4x1_0_1_2 : (⟨S4096x16x4, .f32⟩ : BufTy).Contents (Elt F) → (⟨S4096x16x4x1, .f32⟩ : BufTy).Contents (Elt F)) -- %52 = stablehlo.broadcast_in_dim %50, dims = [0, 1, 2] : (tensor<4096x16x4xf32>) -> tensor<4096x16x4x1xf32>
  :: StableHlo.binary main_v51 main_v52 main_v53 ((fun a b => concatenate S4096x16x4x2 3 [⟨S4096x16x4x1, a⟩, ⟨S4096x16x4x1, b⟩] concatenates_S4096x16x4x1_S4096x16x4x1_S4096x16x4x2_d3) : (⟨S4096x16x4x1, .f32⟩ : BufTy).Contents (Elt F) → (⟨S4096x16x4x1, .f32⟩ : BufTy).Contents (Elt F) → (⟨S4096x16x4x2, .f32⟩ : BufTy).Contents (Elt F)) -- %53 = stablehlo.concatenate %51, %52, dim = 3 : (tensor<4096x16x4x1xf32>, tensor<4096x16x4x1xf32>) -> tenso...
  :: StableHlo.unary main_v0 main_v54 ((transpose S16x4096x2 [1, 0, 2] · transposes_S4096x16x2_S16x4096x2_1_0_2) : (⟨S4096x16x2, .f32⟩ : BufTy).Contents (Elt F) → (⟨S16x4096x2, .f32⟩ : BufTy).Contents (Elt F)) -- %54 = stablehlo.transpose %0, dims = [1, 0, 2] : (tensor<4096x16x2xf32>) -> tensor<16x4096x2xf32>
  :: StableHlo.unary main_v1 main_v55 ((transpose S16x4096 [1, 0] · transposes_S4096x16_S16x4096_1_0) : (⟨S4096x16, .f32⟩ : BufTy).Contents (Elt F) → (⟨S16x4096, .f32⟩ : BufTy).Contents (Elt F)) -- %55 = stablehlo.transpose %1, dims = [1, 0] : (tensor<4096x16xf32>) -> tensor<16x4096xf32>
  :: StableHlo.unary main_v2 main_v56 ((transpose S16x4096 [1, 0] · transposes_S4096x16_S16x4096_1_0) : (⟨S4096x16, .i1⟩ : BufTy).Contents (Elt F) → (⟨S16x4096, .i1⟩ : BufTy).Contents (Elt F)) -- %56 = stablehlo.transpose %2, dims = [1, 0] : (tensor<4096x16xi1>) -> tensor<16x4096xi1>
  :: StableHlo.unary main_v53 main_v57 ((transpose S16x4096x4x2 [1, 0, 2, 3] · transposes_S4096x16x4x2_S16x4096x4x2_1_0_2_3) : (⟨S4096x16x4x2, .f32⟩ : BufTy).Contents (Elt F) → (⟨S16x4096x4x2, .f32⟩ : BufTy).Contents (Elt F)) -- %57 = stablehlo.transpose %53, dims = [1, 0, 2, 3] : (tensor<4096x16x4x2xf32>) -> tensor<16x4096x4x2xf32>
  :: StableHlo.nullary main_c (constantI S_ 32 0#32) -- %c = stablehlo.constant dense<0> : tensor<i32>
  :: StableHlo.unary main_c main_v58 (broadcastInDim S64 ![] bcast_S_S64 : (⟨S_, .i32⟩ : BufTy).Contents (Elt F) → (⟨S64, .i32⟩ : BufTy).Contents (Elt F)) -- %58 = stablehlo.broadcast_in_dim %c, dims = [] : (tensor<i32>) -> tensor<64xi32>
  :: [] )

/-- The window is the straight line of its operations: both sides are the same chain of steps once the outlined
    functions' bodies are unfolded at their calls. -/
theorem main_part0_eq (c : Dev nD) : main_part0 (F := F) c = seq ops0 := by
  chain_rfl

/-- Each operation reads and writes TensorCore buffers only. -/
theorem ops0_sub : (ops0 : List (HloOp τ sig (Elt F))).Forall fun op => op.bufs ⊆ tcRefs τ sig :=
  ⟨unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., nullary_bufs_sub .., unary_bufs_sub ..⟩

/-- Each operation determines everything it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Hand.RefRun

end
-- ==== Proof.Ref.RunOps1.lean ====
/- Window 1 of the reference's @main (`main_part1`) as the list of its 60 host operations, 61 … 120 in
   program order: each printed operation as it stands, each call of an outlined function as that function's own
   operations written over the buffers of the call's record, with the function's argument buffers in place of its
   parameters. The window is the straight line of that list; every operation touches TensorCore buffers only and
   determines what it writes. -/
import proofs.«124939_j34651796144492_2_alg».proof.Proof.Gen.ReferenceIdeal
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 61 … 120 of @main, in order. -/
abbrev ops1 : List (HloOp τ sig (Elt F)) :=
  ( StableHlo.binary main_arg5 main_v58 main_v59 (cmpi .slt : (⟨S64, .i32⟩ : BufTy).Contents (Elt F) → (⟨S64, .i32⟩ : BufTy).Contents (Elt F) → (⟨S64, .i1⟩ : BufTy).Contents (Elt F)) -- %59 = stablehlo.compare LT, %arg5, %58, SIGNED : (tensor<64xi32>, tensor<64xi32>) -> tensor<64xi1>
  :: StableHlo.nullary main_c_0 (constantI S_ 32 4096#32) -- %c_0 = stablehlo.constant dense<4096> : tensor<i32>
  :: StableHlo.unary main_c_0 main_v60 (broadcastInDim S64 ![] bcast_S_S64 : (⟨S_, .i32⟩ : BufTy).Contents (Elt F) → (⟨S64, .i32⟩ : BufTy).Contents (Elt F)) -- %60 = stablehlo.broadcast_in_dim %c_0, dims = [] : (tensor<i32>) -> tensor<64xi32>
  :: StableHlo.binary main_arg5 main_v60 main_v61 (addi : (⟨S64, .i32⟩ : BufTy).Contents (Elt F) → (⟨S64, .i32⟩ : BufTy).Contents (Elt F) → (⟨S64, .i32⟩ : BufTy).Contents (Elt F)) -- %61 = stablehlo.add %arg5, %60 : tensor<64xi32>
  :: StableHlo.ternary main_v59 main_v61 main_arg5 main_v62 (select : (⟨S64, .i1⟩ : BufTy).Contents (Elt F) → (⟨S64, .i32⟩ : BufTy).Contents (Elt F) → (⟨S64, .i32⟩ : BufTy).Contents (Elt F) → (⟨S64, .i32⟩ : BufTy).Contents (Elt F)) -- %62 = stablehlo.select %59, %61, %arg5 : tensor<64xi1>, tensor<64xi32>
  :: StableHlo.unary main_v62 main_v63 (broadcastInDim S64x1 ![0] bcast_S64_S64x1_0 : (⟨S64, .i32⟩ : BufTy).Contents (Elt F) → (⟨S64x1, .i32⟩ : BufTy).Contents (Elt F)) -- %63 = stablehlo.broadcast_in_dim %62, dims = [0] : (tensor<64xi32>) -> tensor<64x1xi32>
  :: StableHlo.binary main_v54 main_v63 main_v64 ((fun x i => Host.gather gather_S16x4096x2_S64x1_S16x64x2_02_1_n_n_1_1_1612 x i) : (⟨S16x4096x2, .f32⟩ : BufTy).Contents (Elt F) → (⟨S64x1, .i32⟩ : BufTy).Contents (Elt F) → (⟨S16x64x2, .f32⟩ : BufTy).Contents (Elt F)) -- %64 = "stablehlo.gather"(%54, %63) <{dimension_numbers = #stablehlo.gather<offset_dims = [0, 2], collapsed_...
  :: StableHlo.nullary main_c_1 (constantI S_ 32 0#32) -- %c_1 = stablehlo.constant dense<0> : tensor<i32>
  :: StableHlo.unary main_c_1 main_v65 (broadcastInDim S64 ![] bcast_S_S64 : (⟨S_, .i32⟩ : BufTy).Contents (Elt F) → (⟨S64, .i32⟩ : BufTy).Contents (Elt F)) -- %65 = stablehlo.broadcast_in_dim %c_1, dims = [] : (tensor<i32>) -> tensor<64xi32>
  :: StableHlo.binary main_arg5 main_v65 main_v66 (cmpi .slt : (⟨S64, .i32⟩ : BufTy).Contents (Elt F) → (⟨S64, .i32⟩ : BufTy).Contents (Elt F) → (⟨S64, .i1⟩ : BufTy).Contents (Elt F)) -- %66 = stablehlo.compare LT, %arg5, %65, SIGNED : (tensor<64xi32>, tensor<64xi32>) -> tensor<64xi1>
  :: StableHlo.nullary main_c_2 (constantI S_ 32 4096#32) -- %c_2 = stablehlo.constant dense<4096> : tensor<i32>
  :: StableHlo.unary main_c_2 main_v67 (broadcastInDim S64 ![] bcast_S_S64 : (⟨S_, .i32⟩ : BufTy).Contents (Elt F) → (⟨S64, .i32⟩ : BufTy).Contents (Elt F)) -- %67 = stablehlo.broadcast_in_dim %c_2, dims = [] : (tensor<i32>) -> tensor<64xi32>
  :: StableHlo.binary main_arg5 main_v67 main_v68 (addi : (⟨S64, .i32⟩ : BufTy).Contents (Elt F) → (⟨S64, .i32⟩ : BufTy).Contents (Elt F) → (⟨S64, .i32⟩ : BufTy).Contents (Elt F)) -- %68 = stablehlo.add %arg5, %67 : tensor<64xi32>
  :: StableHlo.ternary main_v66 main_v68 main_arg5 main_v69 (select : (⟨S64, .i1⟩ : BufTy).Contents (Elt F) → (⟨S64, .i32⟩ : BufTy).Contents (Elt F) → (⟨S64, .i32⟩ : BufTy).Contents (Elt F) → (⟨S64, .i32⟩ : BufTy).Contents (Elt F)) -- %69 = stablehlo.select %66, %68, %arg5 : tensor<64xi1>, tensor<64xi32>
  :: StableHlo.unary main_v69 main_v70 (broadcastInDim S64x1 ![0] bcast_S64_S64x1_0 : (⟨S64, .i32⟩ : BufTy).Contents (Elt F) → (⟨S64x1, .i32⟩ : BufTy).Contents (Elt F)) -- %70 = stablehlo.broadcast_in_dim %69, dims = [0] : (tensor<64xi32>) -> tensor<64x1xi32>
  :: StableHlo.binary main_v55 main_v70 main_v71 ((fun x i => Host.gather gather_S16x4096_S64x1_S16x64_0_1_n_n_1_1_161 x i) : (⟨S16x4096, .f32⟩ : BufTy).Contents (Elt F) → (⟨S64x1, .i32⟩ : BufTy).Contents (Elt F) → (⟨S16x64, .f32⟩ : BufTy).Contents (Elt F)) -- %71 = "stablehlo.gather"(%55, %70) <{dimension_numbers = #stablehlo.gather<offset_dims = [0], collapsed_sli...
  :: StableHlo.nullary main_c_3 (constantI S_ 32 0#32) -- %c_3 = stablehlo.constant dense<0> : tensor<i32>
  :: StableHlo.unary main_c_3 main_v72 (broadcastInDim S64 ![] bcast_S_S64 : (⟨S_, .i32⟩ : BufTy).Contents (Elt F) → (⟨S64, .i32⟩ : BufTy).Contents (Elt F)) -- %72 = stablehlo.broadcast_in_dim %c_3, dims = [] : (tensor<i32>) -> tensor<64xi32>
  :: StableHlo.binary main_arg5 main_v72 main_v73 (cmpi .slt : (⟨S64, .i32⟩ : BufTy).Contents (Elt F) → (⟨S64, .i32⟩ : BufTy).Contents (Elt F) → (⟨S64, .i1⟩ : BufTy).Contents (Elt F)) -- %73 = stablehlo.compare LT, %arg5, %72, SIGNED : (tensor<64xi32>, tensor<64xi32>) -> tensor<64xi1>
  :: StableHlo.nullary main_c_4 (constantI S_ 32 4096#32) -- %c_4 = stablehlo.constant dense<4096> : tensor<i32>
  :: StableHlo.unary main_c_4 main_v74 (broadcastInDim S64 ![] bcast_S_S64 : (⟨S_, .i32⟩ : BufTy).Contents (Elt F) → (⟨S64, .i32⟩ : BufTy).Contents (Elt F)) -- %74 = stablehlo.broadcast_in_dim %c_4, dims = [] : (tensor<i32>) -> tensor<64xi32>
  :: StableHlo.binary main_arg5 main_v74 main_v75 (addi : (⟨S64, .i32⟩ : BufTy).Contents (Elt F) → (⟨S64, .i32⟩ : BufTy).Contents (Elt F) → (⟨S64, .i32⟩ : BufTy).Contents (Elt F)) -- %75 = stablehlo.add %arg5, %74 : tensor<64xi32>
  :: StableHlo.ternary main_v73 main_v75 main_arg5 main_v76 (select : (⟨S64, .i1⟩ : BufTy).Contents (Elt F) → (⟨S64, .i32⟩ : BufTy).Contents (Elt F) → (⟨S64, .i32⟩ : BufTy).Contents (Elt F) → (⟨S64, .i32⟩ : BufTy).Contents (Elt F)) -- %76 = stablehlo.select %73, %75, %arg5 : tensor<64xi1>, tensor<64xi32>
  :: StableHlo.unary main_v76 main_v77 (broadcastInDim S64x1 ![0] bcast_S64_S64x1_0 : (⟨S64, .i32⟩ : BufTy).Contents (Elt F) → (⟨S64x1, .i32⟩ : BufTy).Contents (Elt F)) -- %77 = stablehlo.broadcast_in_dim %76, dims = [0] : (tensor<64xi32>) -> tensor<64x1xi32>
  :: StableHlo.binary main_v56 main_v77 main_v78 ((fun x i => Host.gather gather_S16x4096_S64x1_S16x64_0_1_n_n_1_1_161 x i) : (⟨S16x4096, .i1⟩ : BufTy).Contents (Elt F) → (⟨S64x1, .i32⟩ : BufTy).Contents (Elt F) → (⟨S16x64, .i1⟩ : BufTy).Contents (Elt F)) -- %78 = "stablehlo.gather"(%56, %77) <{dimension_numbers = #stablehlo.gather<offset_dims = [0], collapsed_sli...
  :: StableHlo.nullary main_c_5 (constantI S_ 32 0#32) -- %c_5 = stablehlo.constant dense<0> : tensor<i32>
  :: StableHlo.unary main_c_5 main_v79 (broadcastInDim S64 ![] bcast_S_S64 : (⟨S_, .i32⟩ : BufTy).Contents (Elt F) → (⟨S64, .i32⟩ : BufTy).Contents (Elt F)) -- %79 = stablehlo.broadcast_in_dim %c_5, dims = [] : (tensor<i32>) -> tensor<64xi32>
  :: StableHlo.binary main_arg5 main_v79 main_v80 (cmpi .slt : (⟨S64, .i32⟩ : BufTy).Contents (Elt F) → (⟨S64, .i32⟩ : BufTy).Contents (Elt F) → (⟨S64, .i1⟩ : BufTy).Contents (Elt F)) -- %80 = stablehlo.compare LT, %arg5, %79, SIGNED : (tensor<64xi32>, tensor<64xi32>) -> tensor<64xi1>
  :: StableHlo.nullary main_c_6 (constantI S_ 32 4096#32) -- %c_6 = stablehlo.constant dense<4096> : tensor<i32>
  :: StableHlo.unary main_c_6 main_v81 (broadcastInDim S64 ![] bcast_S_S64 : (⟨S_, .i32⟩ : BufTy).Contents (Elt F) → (⟨S64, .i32⟩ : BufTy).Contents (Elt F)) -- %81 = stablehlo.broadcast_in_dim %c_6, dims = [] : (tensor<i32>) -> tensor<64xi32>
  :: StableHlo.binary main_arg5 main_v81 main_v82 (addi : (⟨S64, .i32⟩ : BufTy).Contents (Elt F) → (⟨S64, .i32⟩ : BufTy).Contents (Elt F) → (⟨S64, .i32⟩ : BufTy).Contents (Elt F)) -- %82 = stablehlo.add %arg5, %81 : tensor<64xi32>
  :: StableHlo.ternary main_v80 main_v82 main_arg5 main_v83 (select : (⟨S64, .i1⟩ : BufTy).Contents (Elt F) → (⟨S64, .i32⟩ : BufTy).Contents (Elt F) → (⟨S64, .i32⟩ : BufTy).Contents (Elt F) → (⟨S64, .i32⟩ : BufTy).Contents (Elt F)) -- %83 = stablehlo.select %80, %82, %arg5 : tensor<64xi1>, tensor<64xi32>
  :: StableHlo.unary main_v83 main_v84 (broadcastInDim S64x1 ![0] bcast_S64_S64x1_0 : (⟨S64, .i32⟩ : BufTy).Contents (Elt F) → (⟨S64x1, .i32⟩ : BufTy).Contents (Elt F)) -- %84 = stablehlo.broadcast_in_dim %83, dims = [0] : (tensor<64xi32>) -> tensor<64x1xi32>
  :: StableHlo.binary main_v57 main_v84 main_v85 ((fun x i => Host.gather gather_S16x4096x4x2_S64x1_S16x64x4x2_023_1_n_n_1_1_16142 x i) : (⟨S16x4096x4x2, .f32⟩ : BufTy).Contents (Elt F) → (⟨S64x1, .i32⟩ : BufTy).Contents (Elt F) → (⟨S16x64x4x2, .f32⟩ : BufTy).Contents (Elt F)) -- %85 = "stablehlo.gather"(%57, %84) <{dimension_numbers = #stablehlo.gather<offset_dims = [0, 2, 3], collaps...
  :: StableHlo.nullary main_c_7 (constantI S_ 32 0#32) -- %c_7 = stablehlo.constant dense<0> : tensor<i32>
  :: StableHlo.unary main_c_7 main_v86 (broadcastInDim S64 ![] bcast_S_S64 : (⟨S_, .i32⟩ : BufTy).Contents (Elt F) → (⟨S64, .i32⟩ : BufTy).Contents (Elt F)) -- %86 = stablehlo.broadcast_in_dim %c_7, dims = [] : (tensor<i32>) -> tensor<64xi32>
  :: StableHlo.binary main_arg5 main_v86 main_v87 (cmpi .slt : (⟨S64, .i32⟩ : BufTy).Contents (Elt F) → (⟨S64, .i32⟩ : BufTy).Contents (Elt F) → (⟨S64, .i1⟩ : BufTy).Contents (Elt F)) -- %87 = stablehlo.compare LT, %arg5, %86, SIGNED : (tensor<64xi32>, tensor<64xi32>) -> tensor<64xi1>
  :: StableHlo.nullary main_c_8 (constantI S_ 32 4096#32) -- %c_8 = stablehlo.constant dense<4096> : tensor<i32>
  :: StableHlo.unary main_c_8 main_v88 (broadcastInDim S64 ![] bcast_S_S64 : (⟨S_, .i32⟩ : BufTy).Contents (Elt F) → (⟨S64, .i32⟩ : BufTy).Contents (Elt F)) -- %88 = stablehlo.broadcast_in_dim %c_8, dims = [] : (tensor<i32>) -> tensor<64xi32>
  :: StableHlo.binary main_arg5 main_v88 main_v89 (addi : (⟨S64, .i32⟩ : BufTy).Contents (Elt F) → (⟨S64, .i32⟩ : BufTy).Contents (Elt F) → (⟨S64, .i32⟩ : BufTy).Contents (Elt F)) -- %89 = stablehlo.add %arg5, %88 : tensor<64xi32>
  :: StableHlo.ternary main_v87 main_v89 main_arg5 main_v90 (select : (⟨S64, .i1⟩ : BufTy).Contents (Elt F) → (⟨S64, .i32⟩ : BufTy).Contents (Elt F) → (⟨S64, .i32⟩ : BufTy).Contents (Elt F) → (⟨S64, .i32⟩ : BufTy).Contents (Elt F)) -- %90 = stablehlo.select %87, %89, %arg5 : tensor<64xi1>, tensor<64xi32>
  :: StableHlo.unary main_v90 main_v91 (broadcastInDim S64x1 ![0] bcast_S64_S64x1_0 : (⟨S64, .i32⟩ : BufTy).Contents (Elt F) → (⟨S64x1, .i32⟩ : BufTy).Contents (Elt F)) -- %91 = stablehlo.broadcast_in_dim %90, dims = [0] : (tensor<64xi32>) -> tensor<64x1xi32>
  :: StableHlo.binary main_arg4 main_v91 main_v92 ((fun x i => Host.gather gather_S4096_S64x1_S64_n_0_n_n_0_1_1 x i) : (⟨S4096, .i32⟩ : BufTy).Contents (Elt F) → (⟨S64x1, .i32⟩ : BufTy).Contents (Elt F) → (⟨S64, .i32⟩ : BufTy).Contents (Elt F)) -- %92 = "stablehlo.gather"(%arg4, %91) <{dimension_numbers = #stablehlo.gather<collapsed_slice_dims = [0], st...
  :: StableHlo.nullary main_c_9 (constantI S_ 32 0#32) -- %c_9 = stablehlo.constant dense<0> : tensor<i32>
  :: StableHlo.unary main_c_9 main_v93 (broadcastInDim S64 ![] bcast_S_S64 : (⟨S_, .i32⟩ : BufTy).Contents (Elt F) → (⟨S64, .i32⟩ : BufTy).Contents (Elt F)) -- %93 = stablehlo.broadcast_in_dim %c_9, dims = [] : (tensor<i32>) -> tensor<64xi32>
  :: StableHlo.binary main_arg5 main_v93 main_v94 (cmpi .slt : (⟨S64, .i32⟩ : BufTy).Contents (Elt F) → (⟨S64, .i32⟩ : BufTy).Contents (Elt F) → (⟨S64, .i1⟩ : BufTy).Contents (Elt F)) -- %94 = stablehlo.compare LT, %arg5, %93, SIGNED : (tensor<64xi32>, tensor<64xi32>) -> tensor<64xi1>
  :: StableHlo.nullary main_c_10 (constantI S_ 32 4096#32) -- %c_10 = stablehlo.constant dense<4096> : tensor<i32>
  :: StableHlo.unary main_c_10 main_v95 (broadcastInDim S64 ![] bcast_S_S64 : (⟨S_, .i32⟩ : BufTy).Contents (Elt F) → (⟨S64, .i32⟩ : BufTy).Contents (Elt F)) -- %95 = stablehlo.broadcast_in_dim %c_10, dims = [] : (tensor<i32>) -> tensor<64xi32>
  :: StableHlo.binary main_arg5 main_v95 main_v96 (addi : (⟨S64, .i32⟩ : BufTy).Contents (Elt F) → (⟨S64, .i32⟩ : BufTy).Contents (Elt F) → (⟨S64, .i32⟩ : BufTy).Contents (Elt F)) -- %96 = stablehlo.add %arg5, %95 : tensor<64xi32>
  :: StableHlo.ternary main_v94 main_v96 main_arg5 main_v97 (select : (⟨S64, .i1⟩ : BufTy).Contents (Elt F) → (⟨S64, .i32⟩ : BufTy).Contents (Elt F) → (⟨S64, .i32⟩ : BufTy).Contents (Elt F) → (⟨S64, .i32⟩ : BufTy).Contents (Elt F)) -- %97 = stablehlo.select %94, %96, %arg5 : tensor<64xi1>, tensor<64xi32>
  :: StableHlo.unary main_v97 main_v98 (broadcastInDim S64x1 ![0] bcast_S64_S64x1_0 : (⟨S64, .i32⟩ : BufTy).Contents (Elt F) → (⟨S64x1, .i32⟩ : BufTy).Contents (Elt F)) -- %98 = stablehlo.broadcast_in_dim %97, dims = [0] : (tensor<64xi32>) -> tensor<64x1xi32>
  :: StableHlo.binary main_arg3 main_v98 main_v99 ((fun x i => Host.gather gather_S4096x4_S64x1_S64x4_1_0_n_n_0_1_14 x i) : (⟨S4096x4, .f32⟩ : BufTy).Contents (Elt F) → (⟨S64x1, .i32⟩ : BufTy).Contents (Elt F) → (⟨S64x4, .f32⟩ : BufTy).Contents (Elt F)) -- %99 = "stablehlo.gather"(%arg3, %98) <{dimension_numbers = #stablehlo.gather<offset_dims = [1], collapsed_s...
  :: StableHlo.unary main_v78 main_v100 (broadcastInDim S16x64x1 ![0, 1] bcast_S16x64_S16x64x1_0_1 : (⟨S16x64, .i1⟩ : BufTy).Contents (Elt F) → (⟨S16x64x1, .i1⟩ : BufTy).Contents (Elt F)) -- %100 = stablehlo.broadcast_in_dim %78, dims = [0, 1] : (tensor<16x64xi1>) -> tensor<16x64x1xi1>
  :: StableHlo.unary main_v56 main_v101 (broadcastInDim S16x1x4096 ![0, 2] bcast_S16x4096_S16x1x4096_0_2 : (⟨S16x4096, .i1⟩ : BufTy).Contents (Elt F) → (⟨S16x1x4096, .i1⟩ : BufTy).Contents (Elt F)) -- %101 = stablehlo.broadcast_in_dim %56, dims = [0, 2] : (tensor<16x4096xi1>) -> tensor<16x1x4096xi1>
  :: StableHlo.unary main_v100 main_v102 (broadcastInDim S16x64x4096 ![0, 1, 2] bcast_S16x64x1_S16x64x4096_0_1_2 : (⟨S16x64x1, .i1⟩ : BufTy).Contents (Elt F) → (⟨S16x64x4096, .i1⟩ : BufTy).Contents (Elt F)) -- %102 = stablehlo.broadcast_in_dim %100, dims = [0, 1, 2] : (tensor<16x64x1xi1>) -> tensor<16x64x4096xi1>
  :: StableHlo.unary main_v101 main_v103 (broadcastInDim S16x64x4096 ![0, 1, 2] bcast_S16x1x4096_S16x64x4096_0_1_2 : (⟨S16x1x4096, .i1⟩ : BufTy).Contents (Elt F) → (⟨S16x64x4096, .i1⟩ : BufTy).Contents (Elt F)) -- %103 = stablehlo.broadcast_in_dim %101, dims = [0, 1, 2] : (tensor<16x1x4096xi1>) -> tensor<16x64x4096xi1>
  :: StableHlo.binary main_v102 main_v103 main_v104 (andi : (⟨S16x64x4096, .i1⟩ : BufTy).Contents (Elt F) → (⟨S16x64x4096, .i1⟩ : BufTy).Contents (Elt F) → (⟨S16x64x4096, .i1⟩ : BufTy).Contents (Elt F)) -- %104 = stablehlo.and %102, %103 : tensor<16x64x4096xi1>
  :: StableHlo.unary main_v92 main_v105 (broadcastInDim S1x64x1 ![1] bcast_S64_S1x64x1_1 : (⟨S64, .i32⟩ : BufTy).Contents (Elt F) → (⟨S1x64x1, .i32⟩ : BufTy).Contents (Elt F)) -- %105 = stablehlo.broadcast_in_dim %92, dims = [1] : (tensor<64xi32>) -> tensor<1x64x1xi32>
  :: StableHlo.unary main_arg4 main_v106 (broadcastInDim S1x1x4096 ![2] bcast_S4096_S1x1x4096_2 : (⟨S4096, .i32⟩ : BufTy).Contents (Elt F) → (⟨S1x1x4096, .i32⟩ : BufTy).Contents (Elt F)) -- %106 = stablehlo.broadcast_in_dim %arg4, dims = [2] : (tensor<4096xi32>) -> tensor<1x1x4096xi32>
  :: StableHlo.unary main_v105 main_v107 (broadcastInDim S1x64x4096 ![0, 1, 2] bcast_S1x64x1_S1x64x4096_0_1_2 : (⟨S1x64x1, .i32⟩ : BufTy).Contents (Elt F) → (⟨S1x64x4096, .i32⟩ : BufTy).Contents (Elt F)) -- %107 = stablehlo.broadcast_in_dim %105, dims = [0, 1, 2] : (tensor<1x64x1xi32>) -> tensor<1x64x4096xi32>
  :: [] )

/-- The window is the straight line of its operations: both sides are the same chain of steps once the outlined
    functions' bodies are unfolded at their calls. -/
theorem main_part1_eq (c : Dev nD) : main_part1 (F := F) c = seq ops1 := by
  chain_rfl

/-- Each operation reads and writes TensorCore buffers only. -/
theorem ops1_sub : (ops1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., unary_bufs_sub .., unary_bufs_sub .., unary_bufs_sub ..⟩

/-- Each operation determines everything it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Hand.RefRun

end
-- ==== Proof.Ref.RunOps2.lean ====
/- Window 2 of the reference's @main (`main_part2`) as the list of its 60 host operations, 121 … 180 in
   program order: each printed operation as it stands, each call of an outlined function as that function's own
   operations written over the buffers of the call's record, with the function's argument buffers in place of its
   parameters. The window is the straight line of that list; every operation touches TensorCore buffers only and
   determines what it writes. -/
import proofs.«124939_j34651796144492_2_alg».proof.Proof.Gen.ReferenceIdeal
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 121 … 180 of @main, in order. -/
abbrev ops2 : List (HloOp τ sig (Elt F)) :=
  ( StableHlo.unary main_v106 main_v108 (broadcastInDim S1x64x4096 ![0, 1, 2] bcast_S1x1x4096_S1x64x4096_0_1_2 : (⟨S1x1x4096, .i32⟩ : BufTy).Contents (Elt F) → (⟨S1x64x4096, .i32⟩ : BufTy).Contents (Elt F)) -- %108 = stablehlo.broadcast_in_dim %106, dims = [0, 1, 2] : (tensor<1x1x4096xi32>) -> tensor<1x64x4096xi32>
  :: StableHlo.binary main_v107 main_v108 main_v109 (cmpi .eq : (⟨S1x64x4096, .i32⟩ : BufTy).Contents (Elt F) → (⟨S1x64x4096, .i32⟩ : BufTy).Contents (Elt F) → (⟨S1x64x4096, .i1⟩ : BufTy).Contents (Elt F)) -- %109 = stablehlo.compare EQ, %107, %108, SIGNED : (tensor<1x64x4096xi32>, tensor<1x64x4096xi32>) -> tensor<...
  :: StableHlo.unary main_v109 main_v110 (broadcastInDim S16x64x4096 ![0, 1, 2] bcast_S1x64x4096_S16x64x4096_0_1_2 : (⟨S1x64x4096, .i1⟩ : BufTy).Contents (Elt F) → (⟨S16x64x4096, .i1⟩ : BufTy).Contents (Elt F)) -- %110 = stablehlo.broadcast_in_dim %109, dims = [0, 1, 2] : (tensor<1x64x4096xi1>) -> tensor<16x64x4096xi1>
  :: StableHlo.binary main_v104 main_v110 main_v111 (andi : (⟨S16x64x4096, .i1⟩ : BufTy).Contents (Elt F) → (⟨S16x64x4096, .i1⟩ : BufTy).Contents (Elt F) → (⟨S16x64x4096, .i1⟩ : BufTy).Contents (Elt F)) -- %111 = stablehlo.and %104, %110 : tensor<16x64x4096xi1>
  :: StableHlo.unary main_arg5 main_v112 (broadcastInDim S1x64x1 ![1] bcast_S64_S1x64x1_1 : (⟨S64, .i32⟩ : BufTy).Contents (Elt F) → (⟨S1x64x1, .i32⟩ : BufTy).Contents (Elt F)) -- %112 = stablehlo.broadcast_in_dim %arg5, dims = [1] : (tensor<64xi32>) -> tensor<1x64x1xi32>
  :: StableHlo.nullary main_v113 (iotaInDim S4096 32 0) -- %113 = stablehlo.iota dim = 0 : tensor<4096xi32>
  :: StableHlo.unary main_v113 main_v114 (broadcastInDim S1x1x4096 ![2] bcast_S4096_S1x1x4096_2 : (⟨S4096, .i32⟩ : BufTy).Contents (Elt F) → (⟨S1x1x4096, .i32⟩ : BufTy).Contents (Elt F)) -- %114 = stablehlo.broadcast_in_dim %113, dims = [2] : (tensor<4096xi32>) -> tensor<1x1x4096xi32>
  :: StableHlo.unary main_v112 main_v115 (broadcastInDim S1x64x4096 ![0, 1, 2] bcast_S1x64x1_S1x64x4096_0_1_2 : (⟨S1x64x1, .i32⟩ : BufTy).Contents (Elt F) → (⟨S1x64x4096, .i32⟩ : BufTy).Contents (Elt F)) -- %115 = stablehlo.broadcast_in_dim %112, dims = [0, 1, 2] : (tensor<1x64x1xi32>) -> tensor<1x64x4096xi32>
  :: StableHlo.unary main_v114 main_v116 (broadcastInDim S1x64x4096 ![0, 1, 2] bcast_S1x1x4096_S1x64x4096_0_1_2 : (⟨S1x1x4096, .i32⟩ : BufTy).Contents (Elt F) → (⟨S1x64x4096, .i32⟩ : BufTy).Contents (Elt F)) -- %116 = stablehlo.broadcast_in_dim %114, dims = [0, 1, 2] : (tensor<1x1x4096xi32>) -> tensor<1x64x4096xi32>
  :: StableHlo.binary main_v115 main_v116 main_v117 (cmpi .ne : (⟨S1x64x4096, .i32⟩ : BufTy).Contents (Elt F) → (⟨S1x64x4096, .i32⟩ : BufTy).Contents (Elt F) → (⟨S1x64x4096, .i1⟩ : BufTy).Contents (Elt F)) -- %117 = stablehlo.compare NE, %115, %116, SIGNED : (tensor<1x64x4096xi32>, tensor<1x64x4096xi32>) -> tensor<...
  :: StableHlo.unary main_v117 main_v118 (broadcastInDim S16x64x4096 ![0, 1, 2] bcast_S1x64x4096_S16x64x4096_0_1_2 : (⟨S1x64x4096, .i1⟩ : BufTy).Contents (Elt F) → (⟨S16x64x4096, .i1⟩ : BufTy).Contents (Elt F)) -- %118 = stablehlo.broadcast_in_dim %117, dims = [0, 1, 2] : (tensor<1x64x4096xi1>) -> tensor<16x64x4096xi1>
  :: StableHlo.binary main_v111 main_v118 main_v119 (andi : (⟨S16x64x4096, .i1⟩ : BufTy).Contents (Elt F) → (⟨S16x64x4096, .i1⟩ : BufTy).Contents (Elt F) → (⟨S16x64x4096, .i1⟩ : BufTy).Contents (Elt F)) -- %119 = stablehlo.and %111, %118 : tensor<16x64x4096xi1>
  :: StableHlo.unary main_v85 main_v120 ((extractStridedSlice S16x64x4x1 ![0, 0, 0, 0] · slices_S16x64x4x2_S16x64x4x1_0_0_0_0) : (⟨S16x64x4x2, .f32⟩ : BufTy).Contents (Elt F) → (⟨S16x64x4x1, .f32⟩ : BufTy).Contents (Elt F)) -- %120 = stablehlo.slice %85 [0:16, 0:64, 0:4, 0:1] : (tensor<16x64x4x2xf32>) -> tensor<16x64x4x1xf32>
  :: StableHlo.reshape main_v120 main_v121 rfl shapeCasts_S16x64x4x1_S16x64x4 -- %121 = stablehlo.reshape %120 : (tensor<16x64x4x1xf32>) -> tensor<16x64x4xf32>
  :: StableHlo.unary main_v121 main_v122 (broadcastInDim S16x64x1x4 ![0, 1, 3] bcast_S16x64x4_S16x64x1x4_0_1_3 : (⟨S16x64x4, .f32⟩ : BufTy).Contents (Elt F) → (⟨S16x64x1x4, .f32⟩ : BufTy).Contents (Elt F)) -- %122 = stablehlo.broadcast_in_dim %121, dims = [0, 1, 3] : (tensor<16x64x4xf32>) -> tensor<16x64x1x4xf32>
  :: StableHlo.unary main_v54 main_v123 ((extractStridedSlice S16x4096x1 ![0, 0, 0] · slices_S16x4096x2_S16x4096x1_0_0_0) : (⟨S16x4096x2, .f32⟩ : BufTy).Contents (Elt F) → (⟨S16x4096x1, .f32⟩ : BufTy).Contents (Elt F)) -- %123 = stablehlo.slice %54 [0:16, 0:4096, 0:1] : (tensor<16x4096x2xf32>) -> tensor<16x4096x1xf32>
  :: StableHlo.reshape main_v123 main_v124 rfl shapeCasts_S16x4096x1_S16x4096 -- %124 = stablehlo.reshape %123 : (tensor<16x4096x1xf32>) -> tensor<16x4096xf32>
  :: StableHlo.unary main_v124 main_v125 (broadcastInDim S16x1x4096x1 ![0, 2] bcast_S16x4096_S16x1x4096x1_0_2 : (⟨S16x4096, .f32⟩ : BufTy).Contents (Elt F) → (⟨S16x1x4096x1, .f32⟩ : BufTy).Contents (Elt F)) -- %125 = stablehlo.broadcast_in_dim %124, dims = [0, 2] : (tensor<16x4096xf32>) -> tensor<16x1x4096x1xf32>
  :: StableHlo.unary main_v122 main_v126 (broadcastInDim S16x64x4096x4 ![0, 1, 2, 3] bcast_S16x64x1x4_S16x64x4096x4_0_1_2_3 : (⟨S16x64x1x4, .f32⟩ : BufTy).Contents (Elt F) → (⟨S16x64x4096x4, .f32⟩ : BufTy).Contents (Elt F)) -- %126 = stablehlo.broadcast_in_dim %122, dims = [0, 1, 2, 3] : (tensor<16x64x1x4xf32>) -> tensor<16x64x4096x...
  :: StableHlo.unary main_v125 main_v127 (broadcastInDim S16x64x4096x4 ![0, 1, 2, 3] bcast_S16x1x4096x1_S16x64x4096x4_0_1_2_3 : (⟨S16x1x4096x1, .f32⟩ : BufTy).Contents (Elt F) → (⟨S16x64x4096x4, .f32⟩ : BufTy).Contents (Elt F)) -- %127 = stablehlo.broadcast_in_dim %125, dims = [0, 1, 2, 3] : (tensor<16x1x4096x1xf32>) -> tensor<16x64x409...
  :: StableHlo.binary main_v126 main_v127 main_v128 (subf : (⟨S16x64x4096x4, .f32⟩ : BufTy).Contents (Elt F) → (⟨S16x64x4096x4, .f32⟩ : BufTy).Contents (Elt F) → (⟨S16x64x4096x4, .f32⟩ : BufTy).Contents (Elt F)) -- %128 = stablehlo.subtract %126, %127 : tensor<16x64x4096x4xf32>
  :: StableHlo.unary main_v85 main_v129 ((extractStridedSlice S16x64x4x1 ![0, 0, 0, 1] · slices_S16x64x4x2_S16x64x4x1_0_0_0_1) : (⟨S16x64x4x2, .f32⟩ : BufTy).Contents (Elt F) → (⟨S16x64x4x1, .f32⟩ : BufTy).Contents (Elt F)) -- %129 = stablehlo.slice %85 [0:16, 0:64, 0:4, 1:2] : (tensor<16x64x4x2xf32>) -> tensor<16x64x4x1xf32>
  :: StableHlo.reshape main_v129 main_v130 rfl shapeCasts_S16x64x4x1_S16x64x4 -- %130 = stablehlo.reshape %129 : (tensor<16x64x4x1xf32>) -> tensor<16x64x4xf32>
  :: StableHlo.unary main_v130 main_v131 (broadcastInDim S16x64x1x4 ![0, 1, 3] bcast_S16x64x4_S16x64x1x4_0_1_3 : (⟨S16x64x4, .f32⟩ : BufTy).Contents (Elt F) → (⟨S16x64x1x4, .f32⟩ : BufTy).Contents (Elt F)) -- %131 = stablehlo.broadcast_in_dim %130, dims = [0, 1, 3] : (tensor<16x64x4xf32>) -> tensor<16x64x1x4xf32>
  :: StableHlo.unary main_v54 main_v132 ((extractStridedSlice S16x4096x1 ![0, 0, 1] · slices_S16x4096x2_S16x4096x1_0_0_1) : (⟨S16x4096x2, .f32⟩ : BufTy).Contents (Elt F) → (⟨S16x4096x1, .f32⟩ : BufTy).Contents (Elt F)) -- %132 = stablehlo.slice %54 [0:16, 0:4096, 1:2] : (tensor<16x4096x2xf32>) -> tensor<16x4096x1xf32>
  :: StableHlo.reshape main_v132 main_v133 rfl shapeCasts_S16x4096x1_S16x4096 -- %133 = stablehlo.reshape %132 : (tensor<16x4096x1xf32>) -> tensor<16x4096xf32>
  :: StableHlo.unary main_v133 main_v134 (broadcastInDim S16x1x4096x1 ![0, 2] bcast_S16x4096_S16x1x4096x1_0_2 : (⟨S16x4096, .f32⟩ : BufTy).Contents (Elt F) → (⟨S16x1x4096x1, .f32⟩ : BufTy).Contents (Elt F)) -- %134 = stablehlo.broadcast_in_dim %133, dims = [0, 2] : (tensor<16x4096xf32>) -> tensor<16x1x4096x1xf32>
  :: StableHlo.unary main_v131 main_v135 (broadcastInDim S16x64x4096x4 ![0, 1, 2, 3] bcast_S16x64x1x4_S16x64x4096x4_0_1_2_3 : (⟨S16x64x1x4, .f32⟩ : BufTy).Contents (Elt F) → (⟨S16x64x4096x4, .f32⟩ : BufTy).Contents (Elt F)) -- %135 = stablehlo.broadcast_in_dim %131, dims = [0, 1, 2, 3] : (tensor<16x64x1x4xf32>) -> tensor<16x64x4096x...
  :: StableHlo.unary main_v134 main_v136 (broadcastInDim S16x64x4096x4 ![0, 1, 2, 3] bcast_S16x1x4096x1_S16x64x4096x4_0_1_2_3 : (⟨S16x1x4096x1, .f32⟩ : BufTy).Contents (Elt F) → (⟨S16x64x4096x4, .f32⟩ : BufTy).Contents (Elt F)) -- %136 = stablehlo.broadcast_in_dim %134, dims = [0, 1, 2, 3] : (tensor<16x1x4096x1xf32>) -> tensor<16x64x409...
  :: StableHlo.binary main_v135 main_v136 main_v137 (subf : (⟨S16x64x4096x4, .f32⟩ : BufTy).Contents (Elt F) → (⟨S16x64x4096x4, .f32⟩ : BufTy).Contents (Elt F) → (⟨S16x64x4096x4, .f32⟩ : BufTy).Contents (Elt F)) -- %137 = stablehlo.subtract %135, %136 : tensor<16x64x4096x4xf32>
  :: StableHlo.unary main_v55 main_v138 (Host.cos : (⟨S16x4096, .f32⟩ : BufTy).Contents (Elt F) → (⟨S16x4096, .f32⟩ : BufTy).Contents (Elt F)) -- %138 = stablehlo.cosine %55 : tensor<16x4096xf32>
  :: StableHlo.unary main_v138 main_v139 (broadcastInDim S16x1x4096x1 ![0, 2] bcast_S16x4096_S16x1x4096x1_0_2 : (⟨S16x4096, .f32⟩ : BufTy).Contents (Elt F) → (⟨S16x1x4096x1, .f32⟩ : BufTy).Contents (Elt F)) -- %139 = stablehlo.broadcast_in_dim %138, dims = [0, 2] : (tensor<16x4096xf32>) -> tensor<16x1x4096x1xf32>
  :: StableHlo.unary main_v55 main_v140 (Host.sin : (⟨S16x4096, .f32⟩ : BufTy).Contents (Elt F) → (⟨S16x4096, .f32⟩ : BufTy).Contents (Elt F)) -- %140 = stablehlo.sine %55 : tensor<16x4096xf32>
  :: StableHlo.unary main_v140 main_v141 (broadcastInDim S16x1x4096x1 ![0, 2] bcast_S16x4096_S16x1x4096x1_0_2 : (⟨S16x4096, .f32⟩ : BufTy).Contents (Elt F) → (⟨S16x1x4096x1, .f32⟩ : BufTy).Contents (Elt F)) -- %141 = stablehlo.broadcast_in_dim %140, dims = [0, 2] : (tensor<16x4096xf32>) -> tensor<16x1x4096x1xf32>
  :: StableHlo.unary main_v139 main_v142 (broadcastInDim S16x64x4096x4 ![0, 1, 2, 3] bcast_S16x1x4096x1_S16x64x4096x4_0_1_2_3 : (⟨S16x1x4096x1, .f32⟩ : BufTy).Contents (Elt F) → (⟨S16x64x4096x4, .f32⟩ : BufTy).Contents (Elt F)) -- %142 = stablehlo.broadcast_in_dim %139, dims = [0, 1, 2, 3] : (tensor<16x1x4096x1xf32>) -> tensor<16x64x409...
  :: StableHlo.binary main_v142 main_v128 main_v143 (mulf : (⟨S16x64x4096x4, .f32⟩ : BufTy).Contents (Elt F) → (⟨S16x64x4096x4, .f32⟩ : BufTy).Contents (Elt F) → (⟨S16x64x4096x4, .f32⟩ : BufTy).Contents (Elt F)) -- %143 = stablehlo.multiply %142, %128 : tensor<16x64x4096x4xf32>
  :: StableHlo.unary main_v141 main_v144 (broadcastInDim S16x64x4096x4 ![0, 1, 2, 3] bcast_S16x1x4096x1_S16x64x4096x4_0_1_2_3 : (⟨S16x1x4096x1, .f32⟩ : BufTy).Contents (Elt F) → (⟨S16x64x4096x4, .f32⟩ : BufTy).Contents (Elt F)) -- %144 = stablehlo.broadcast_in_dim %141, dims = [0, 1, 2, 3] : (tensor<16x1x4096x1xf32>) -> tensor<16x64x409...
  :: StableHlo.binary main_v144 main_v137 main_v145 (mulf : (⟨S16x64x4096x4, .f32⟩ : BufTy).Contents (Elt F) → (⟨S16x64x4096x4, .f32⟩ : BufTy).Contents (Elt F) → (⟨S16x64x4096x4, .f32⟩ : BufTy).Contents (Elt F)) -- %145 = stablehlo.multiply %144, %137 : tensor<16x64x4096x4xf32>
  :: StableHlo.binary main_v143 main_v145 main_v146 (addf : (⟨S16x64x4096x4, .f32⟩ : BufTy).Contents (Elt F) → (⟨S16x64x4096x4, .f32⟩ : BufTy).Contents (Elt F) → (⟨S16x64x4096x4, .f32⟩ : BufTy).Contents (Elt F)) -- %146 = stablehlo.add %143, %145 : tensor<16x64x4096x4xf32>
  :: StableHlo.unary main_v141 main_v147 (Host.negf : (⟨S16x1x4096x1, .f32⟩ : BufTy).Contents (Elt F) → (⟨S16x1x4096x1, .f32⟩ : BufTy).Contents (Elt F)) -- %147 = stablehlo.negate %141 : tensor<16x1x4096x1xf32>
  :: StableHlo.unary main_v147 main_v148 (broadcastInDim S16x64x4096x4 ![0, 1, 2, 3] bcast_S16x1x4096x1_S16x64x4096x4_0_1_2_3 : (⟨S16x1x4096x1, .f32⟩ : BufTy).Contents (Elt F) → (⟨S16x64x4096x4, .f32⟩ : BufTy).Contents (Elt F)) -- %148 = stablehlo.broadcast_in_dim %147, dims = [0, 1, 2, 3] : (tensor<16x1x4096x1xf32>) -> tensor<16x64x409...
  :: StableHlo.binary main_v148 main_v128 main_v149 (mulf : (⟨S16x64x4096x4, .f32⟩ : BufTy).Contents (Elt F) → (⟨S16x64x4096x4, .f32⟩ : BufTy).Contents (Elt F) → (⟨S16x64x4096x4, .f32⟩ : BufTy).Contents (Elt F)) -- %149 = stablehlo.multiply %148, %128 : tensor<16x64x4096x4xf32>
  :: StableHlo.unary main_v139 main_v150 (broadcastInDim S16x64x4096x4 ![0, 1, 2, 3] bcast_S16x1x4096x1_S16x64x4096x4_0_1_2_3 : (⟨S16x1x4096x1, .f32⟩ : BufTy).Contents (Elt F) → (⟨S16x64x4096x4, .f32⟩ : BufTy).Contents (Elt F)) -- %150 = stablehlo.broadcast_in_dim %139, dims = [0, 1, 2, 3] : (tensor<16x1x4096x1xf32>) -> tensor<16x64x409...
  :: StableHlo.binary main_v150 main_v137 main_v151 (mulf : (⟨S16x64x4096x4, .f32⟩ : BufTy).Contents (Elt F) → (⟨S16x64x4096x4, .f32⟩ : BufTy).Contents (Elt F) → (⟨S16x64x4096x4, .f32⟩ : BufTy).Contents (Elt F)) -- %151 = stablehlo.multiply %150, %137 : tensor<16x64x4096x4xf32>
  :: StableHlo.binary main_v149 main_v151 main_v152 (addf : (⟨S16x64x4096x4, .f32⟩ : BufTy).Contents (Elt F) → (⟨S16x64x4096x4, .f32⟩ : BufTy).Contents (Elt F) → (⟨S16x64x4096x4, .f32⟩ : BufTy).Contents (Elt F)) -- %152 = stablehlo.add %149, %151 : tensor<16x64x4096x4xf32>
  :: StableHlo.unary main_arg3 main_v153 ((extractStridedSlice S4096x1 ![0, 0] · slices_S4096x4_S4096x1_0_0) : (⟨S4096x4, .f32⟩ : BufTy).Contents (Elt F) → (⟨S4096x1, .f32⟩ : BufTy).Contents (Elt F)) -- %153 = stablehlo.slice %arg3 [0:4096, 0:1] : (tensor<4096x4xf32>) -> tensor<4096x1xf32>
  :: StableHlo.reshape main_v153 main_v154 rfl shapeCasts_S4096x1_S4096 -- %154 = stablehlo.reshape %153 : (tensor<4096x1xf32>) -> tensor<4096xf32>
  :: StableHlo.unary main_v154 main_v155 (broadcastInDim S1x1x4096x1 ![2] bcast_S4096_S1x1x4096x1_2 : (⟨S4096, .f32⟩ : BufTy).Contents (Elt F) → (⟨S1x1x4096x1, .f32⟩ : BufTy).Contents (Elt F)) -- %155 = stablehlo.broadcast_in_dim %154, dims = [2] : (tensor<4096xf32>) -> tensor<1x1x4096x1xf32>
  :: StableHlo.unary main_arg3 main_v156 ((extractStridedSlice S4096x1 ![0, 1] · slices_S4096x4_S4096x1_0_1) : (⟨S4096x4, .f32⟩ : BufTy).Contents (Elt F) → (⟨S4096x1, .f32⟩ : BufTy).Contents (Elt F)) -- %156 = stablehlo.slice %arg3 [0:4096, 1:2] : (tensor<4096x4xf32>) -> tensor<4096x1xf32>
  :: StableHlo.reshape main_v156 main_v157 rfl shapeCasts_S4096x1_S4096 -- %157 = stablehlo.reshape %156 : (tensor<4096x1xf32>) -> tensor<4096xf32>
  :: StableHlo.unary main_v157 main_v158 (broadcastInDim S1x1x4096x1 ![2] bcast_S4096_S1x1x4096x1_2 : (⟨S4096, .f32⟩ : BufTy).Contents (Elt F) → (⟨S1x1x4096x1, .f32⟩ : BufTy).Contents (Elt F)) -- %158 = stablehlo.broadcast_in_dim %157, dims = [2] : (tensor<4096xf32>) -> tensor<1x1x4096x1xf32>
  :: StableHlo.unary main_arg3 main_v159 ((extractStridedSlice S4096x1 ![0, 2] · slices_S4096x4_S4096x1_0_2) : (⟨S4096x4, .f32⟩ : BufTy).Contents (Elt F) → (⟨S4096x1, .f32⟩ : BufTy).Contents (Elt F)) -- %159 = stablehlo.slice %arg3 [0:4096, 2:3] : (tensor<4096x4xf32>) -> tensor<4096x1xf32>
  :: StableHlo.reshape main_v159 main_v160 rfl shapeCasts_S4096x1_S4096 -- %160 = stablehlo.reshape %159 : (tensor<4096x1xf32>) -> tensor<4096xf32>
  :: StableHlo.unary main_v160 main_v161 (broadcastInDim S1x1x4096x1 ![2] bcast_S4096_S1x1x4096x1_2 : (⟨S4096, .f32⟩ : BufTy).Contents (Elt F) → (⟨S1x1x4096x1, .f32⟩ : BufTy).Contents (Elt F)) -- %161 = stablehlo.broadcast_in_dim %160, dims = [2] : (tensor<4096xf32>) -> tensor<1x1x4096x1xf32>
  :: StableHlo.unary main_arg3 main_v162 ((extractStridedSlice S4096x1 ![0, 3] · slices_S4096x4_S4096x1_0_3) : (⟨S4096x4, .f32⟩ : BufTy).Contents (Elt F) → (⟨S4096x1, .f32⟩ : BufTy).Contents (Elt F)) -- %162 = stablehlo.slice %arg3 [0:4096, 3:4] : (tensor<4096x4xf32>) -> tensor<4096x1xf32>
  :: StableHlo.reshape main_v162 main_v163 rfl shapeCasts_S4096x1_S4096 -- %163 = stablehlo.reshape %162 : (tensor<4096x1xf32>) -> tensor<4096xf32>
  :: StableHlo.unary main_v163 main_v164 (broadcastInDim S1x1x4096x1 ![2] bcast_S4096_S1x1x4096x1_2 : (⟨S4096, .f32⟩ : BufTy).Contents (Elt F) → (⟨S1x1x4096x1, .f32⟩ : BufTy).Contents (Elt F)) -- %164 = stablehlo.broadcast_in_dim %163, dims = [2] : (tensor<4096xf32>) -> tensor<1x1x4096x1xf32>
  :: StableHlo.nullary main_cst (constant S_ .f32 0x00000000#32) -- %cst = stablehlo.constant dense<0.000000e+00> : tensor<f32>
  :: StableHlo.unary main_cst main_v165 (broadcastInDim S1x1x4096x1 ![] bcast_S_S1x1x4096x1 : (⟨S_, .f32⟩ : BufTy).Contents (Elt F) → (⟨S1x1x4096x1, .f32⟩ : BufTy).Contents (Elt F)) -- %165 = stablehlo.broadcast_in_dim %cst, dims = [] : (tensor<f32>) -> tensor<1x1x4096x1xf32>
  :: StableHlo.binary main_v155 main_v165 main_v166 (addf : (⟨S1x1x4096x1, .f32⟩ : BufTy).Contents (Elt F) → (⟨S1x1x4096x1, .f32⟩ : BufTy).Contents (Elt F) → (⟨S1x1x4096x1, .f32⟩ : BufTy).Contents (Elt F)) -- %166 = stablehlo.add %155, %165 : tensor<1x1x4096x1xf32>
  :: [] )

/-- The window is the straight line of its operations: both sides are the same chain of steps once the outlined
    functions' bodies are unfolded at their calls. -/
theorem main_part2_eq (c : Dev nD) : main_part2 (F := F) c = seq ops2 := by
  chain_rfl

/-- Each operation reads and writes TensorCore buffers only. -/
theorem ops2_sub : (ops2 : List (HloOp τ sig (Elt F))).Forall fun op => op.bufs ⊆ tcRefs τ sig :=
  ⟨unary_bufs_sub .., binary_bufs_sub .., unary_bufs_sub .., binary_bufs_sub .., unary_bufs_sub .., nullary_bufs_sub .., unary_bufs_sub .., unary_bufs_sub .., unary_bufs_sub .., binary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub .., binary_bufs_sub .., binary_bufs_sub .., unary_bufs_sub .., unary_bufs_sub .., binary_bufs_sub .., unary_bufs_sub .., binary_bufs_sub .., binary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., nullary_bufs_sub .., unary_bufs_sub .., binary_bufs_sub ..⟩

/-- Each operation determines everything it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Hand.RefRun

end
-- ==== Proof.Ref.RunOps3.lean ====
/- Window 3 of the reference's @main (`main_part3`) as the list of its 68 host operations, 181 … 248 in
   program order: each printed operation as it stands, each call of an outlined function as that function's own
   operations written over the buffers of the call's record, with the function's argument buffers in place of its
   parameters. The window is the straight line of that list; every operation touches TensorCore buffers only and
   determines what it writes. -/
import proofs.«124939_j34651796144492_2_alg».proof.Proof.Gen.ReferenceIdeal
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 181 … 248 of @main, in order. -/
abbrev ops3 : List (HloOp τ sig (Elt F)) :=
  ( StableHlo.unary main_v166 main_v167 (broadcastInDim S16x64x4096x4 ![0, 1, 2, 3] bcast_S1x1x4096x1_S16x64x4096x4_0_1_2_3 : (⟨S1x1x4096x1, .f32⟩ : BufTy).Contents (Elt F) → (⟨S16x64x4096x4, .f32⟩ : BufTy).Contents (Elt F)) -- %167 = stablehlo.broadcast_in_dim %166, dims = [0, 1, 2, 3] : (tensor<1x1x4096x1xf32>) -> tensor<16x64x4096...
  :: StableHlo.binary main_v167 main_v146 main_v168 (subf : (⟨S16x64x4096x4, .f32⟩ : BufTy).Contents (Elt F) → (⟨S16x64x4096x4, .f32⟩ : BufTy).Contents (Elt F) → (⟨S16x64x4096x4, .f32⟩ : BufTy).Contents (Elt F)) -- %168 = stablehlo.subtract %167, %146 : tensor<16x64x4096x4xf32>
  :: StableHlo.nullary main_call0_cst (constant S_ .f32 0x00000000#32) -- %169 = call @relu: %cst = stablehlo.constant dense<0.000000e+00> : tensor<f32>
  :: StableHlo.unary main_call0_cst main_call0_v0 ((broadcastInDim S16x64x4096x4 ![] bcast_S_S16x64x4096x4) : (⟨S_, .f32⟩ : BufTy).Contents (Elt F) → (⟨S16x64x4096x4, .f32⟩ : BufTy).Contents (Elt F)) -- %169 = call @relu: %0 = stablehlo.broadcast_in_dim %cst, dims = [] : (tensor<f32>) -> tensor<16x64x4096x4xf32>
  :: StableHlo.binary main_v168 main_call0_v0 main_v169 (maximumf : (⟨S16x64x4096x4, .f32⟩ : BufTy).Contents (Elt F) → (⟨S16x64x4096x4, .f32⟩ : BufTy).Contents (Elt F) → (⟨S16x64x4096x4, .f32⟩ : BufTy).Contents (Elt F)) -- %169 = call @relu: %1 = stablehlo.maximum %arg0, %0 : tensor<16x64x4096x4xf32>
  :: StableHlo.nullary main_cst_11 (constant S_ .f32 0x00000000#32) -- %cst_11 = stablehlo.constant dense<0.000000e+00> : tensor<f32>
  :: StableHlo.unary main_cst_11 main_v170 (broadcastInDim S1x1x4096x1 ![] bcast_S_S1x1x4096x1 : (⟨S_, .f32⟩ : BufTy).Contents (Elt F) → (⟨S1x1x4096x1, .f32⟩ : BufTy).Contents (Elt F)) -- %170 = stablehlo.broadcast_in_dim %cst_11, dims = [] : (tensor<f32>) -> tensor<1x1x4096x1xf32>
  :: StableHlo.binary main_v158 main_v170 main_v171 (addf : (⟨S1x1x4096x1, .f32⟩ : BufTy).Contents (Elt F) → (⟨S1x1x4096x1, .f32⟩ : BufTy).Contents (Elt F) → (⟨S1x1x4096x1, .f32⟩ : BufTy).Contents (Elt F)) -- %171 = stablehlo.add %158, %170 : tensor<1x1x4096x1xf32>
  :: StableHlo.unary main_v171 main_v172 (broadcastInDim S16x64x4096x4 ![0, 1, 2, 3] bcast_S1x1x4096x1_S16x64x4096x4_0_1_2_3 : (⟨S1x1x4096x1, .f32⟩ : BufTy).Contents (Elt F) → (⟨S16x64x4096x4, .f32⟩ : BufTy).Contents (Elt F)) -- %172 = stablehlo.broadcast_in_dim %171, dims = [0, 1, 2, 3] : (tensor<1x1x4096x1xf32>) -> tensor<16x64x4096...
  :: StableHlo.binary main_v172 main_v146 main_v173 (addf : (⟨S16x64x4096x4, .f32⟩ : BufTy).Contents (Elt F) → (⟨S16x64x4096x4, .f32⟩ : BufTy).Contents (Elt F) → (⟨S16x64x4096x4, .f32⟩ : BufTy).Contents (Elt F)) -- %173 = stablehlo.add %172, %146 : tensor<16x64x4096x4xf32>
  :: StableHlo.nullary main_call1_cst (constant S_ .f32 0x00000000#32) -- %174 = call @relu: %cst = stablehlo.constant dense<0.000000e+00> : tensor<f32>
  :: StableHlo.unary main_call1_cst main_call1_v0 ((broadcastInDim S16x64x4096x4 ![] bcast_S_S16x64x4096x4) : (⟨S_, .f32⟩ : BufTy).Contents (Elt F) → (⟨S16x64x4096x4, .f32⟩ : BufTy).Contents (Elt F)) -- %174 = call @relu: %0 = stablehlo.broadcast_in_dim %cst, dims = [] : (tensor<f32>) -> tensor<16x64x4096x4xf32>
  :: StableHlo.binary main_v173 main_call1_v0 main_v174 (maximumf : (⟨S16x64x4096x4, .f32⟩ : BufTy).Contents (Elt F) → (⟨S16x64x4096x4, .f32⟩ : BufTy).Contents (Elt F) → (⟨S16x64x4096x4, .f32⟩ : BufTy).Contents (Elt F)) -- %174 = call @relu: %1 = stablehlo.maximum %arg0, %0 : tensor<16x64x4096x4xf32>
  :: StableHlo.binary main_v169 main_v174 main_v175 (minimumf : (⟨S16x64x4096x4, .f32⟩ : BufTy).Contents (Elt F) → (⟨S16x64x4096x4, .f32⟩ : BufTy).Contents (Elt F) → (⟨S16x64x4096x4, .f32⟩ : BufTy).Contents (Elt F)) -- %175 = stablehlo.minimum %169, %174 : tensor<16x64x4096x4xf32>
  :: StableHlo.nullary main_cst_12 (constant S_ .f32 0x00000000#32) -- %cst_12 = stablehlo.constant dense<0.000000e+00> : tensor<f32>
  :: StableHlo.unary main_cst_12 main_v176 (broadcastInDim S1x1x4096x1 ![] bcast_S_S1x1x4096x1 : (⟨S_, .f32⟩ : BufTy).Contents (Elt F) → (⟨S1x1x4096x1, .f32⟩ : BufTy).Contents (Elt F)) -- %176 = stablehlo.broadcast_in_dim %cst_12, dims = [] : (tensor<f32>) -> tensor<1x1x4096x1xf32>
  :: StableHlo.binary main_v161 main_v176 main_v177 (addf : (⟨S1x1x4096x1, .f32⟩ : BufTy).Contents (Elt F) → (⟨S1x1x4096x1, .f32⟩ : BufTy).Contents (Elt F) → (⟨S1x1x4096x1, .f32⟩ : BufTy).Contents (Elt F)) -- %177 = stablehlo.add %161, %176 : tensor<1x1x4096x1xf32>
  :: StableHlo.unary main_v177 main_v178 (broadcastInDim S16x64x4096x4 ![0, 1, 2, 3] bcast_S1x1x4096x1_S16x64x4096x4_0_1_2_3 : (⟨S1x1x4096x1, .f32⟩ : BufTy).Contents (Elt F) → (⟨S16x64x4096x4, .f32⟩ : BufTy).Contents (Elt F)) -- %178 = stablehlo.broadcast_in_dim %177, dims = [0, 1, 2, 3] : (tensor<1x1x4096x1xf32>) -> tensor<16x64x4096...
  :: StableHlo.binary main_v178 main_v152 main_v179 (subf : (⟨S16x64x4096x4, .f32⟩ : BufTy).Contents (Elt F) → (⟨S16x64x4096x4, .f32⟩ : BufTy).Contents (Elt F) → (⟨S16x64x4096x4, .f32⟩ : BufTy).Contents (Elt F)) -- %179 = stablehlo.subtract %178, %152 : tensor<16x64x4096x4xf32>
  :: StableHlo.nullary main_call2_cst (constant S_ .f32 0x00000000#32) -- %180 = call @relu: %cst = stablehlo.constant dense<0.000000e+00> : tensor<f32>
  :: StableHlo.unary main_call2_cst main_call2_v0 ((broadcastInDim S16x64x4096x4 ![] bcast_S_S16x64x4096x4) : (⟨S_, .f32⟩ : BufTy).Contents (Elt F) → (⟨S16x64x4096x4, .f32⟩ : BufTy).Contents (Elt F)) -- %180 = call @relu: %0 = stablehlo.broadcast_in_dim %cst, dims = [] : (tensor<f32>) -> tensor<16x64x4096x4xf32>
  :: StableHlo.binary main_v179 main_call2_v0 main_v180 (maximumf : (⟨S16x64x4096x4, .f32⟩ : BufTy).Contents (Elt F) → (⟨S16x64x4096x4, .f32⟩ : BufTy).Contents (Elt F) → (⟨S16x64x4096x4, .f32⟩ : BufTy).Contents (Elt F)) -- %180 = call @relu: %1 = stablehlo.maximum %arg0, %0 : tensor<16x64x4096x4xf32>
  :: StableHlo.nullary main_cst_13 (constant S_ .f32 0x00000000#32) -- %cst_13 = stablehlo.constant dense<0.000000e+00> : tensor<f32>
  :: StableHlo.unary main_cst_13 main_v181 (broadcastInDim S1x1x4096x1 ![] bcast_S_S1x1x4096x1 : (⟨S_, .f32⟩ : BufTy).Contents (Elt F) → (⟨S1x1x4096x1, .f32⟩ : BufTy).Contents (Elt F)) -- %181 = stablehlo.broadcast_in_dim %cst_13, dims = [] : (tensor<f32>) -> tensor<1x1x4096x1xf32>
  :: StableHlo.binary main_v164 main_v181 main_v182 (addf : (⟨S1x1x4096x1, .f32⟩ : BufTy).Contents (Elt F) → (⟨S1x1x4096x1, .f32⟩ : BufTy).Contents (Elt F) → (⟨S1x1x4096x1, .f32⟩ : BufTy).Contents (Elt F)) -- %182 = stablehlo.add %164, %181 : tensor<1x1x4096x1xf32>
  :: StableHlo.unary main_v182 main_v183 (broadcastInDim S16x64x4096x4 ![0, 1, 2, 3] bcast_S1x1x4096x1_S16x64x4096x4_0_1_2_3 : (⟨S1x1x4096x1, .f32⟩ : BufTy).Contents (Elt F) → (⟨S16x64x4096x4, .f32⟩ : BufTy).Contents (Elt F)) -- %183 = stablehlo.broadcast_in_dim %182, dims = [0, 1, 2, 3] : (tensor<1x1x4096x1xf32>) -> tensor<16x64x4096...
  :: StableHlo.binary main_v183 main_v152 main_v184 (addf : (⟨S16x64x4096x4, .f32⟩ : BufTy).Contents (Elt F) → (⟨S16x64x4096x4, .f32⟩ : BufTy).Contents (Elt F) → (⟨S16x64x4096x4, .f32⟩ : BufTy).Contents (Elt F)) -- %184 = stablehlo.add %183, %152 : tensor<16x64x4096x4xf32>
  :: StableHlo.nullary main_call3_cst (constant S_ .f32 0x00000000#32) -- %185 = call @relu: %cst = stablehlo.constant dense<0.000000e+00> : tensor<f32>
  :: StableHlo.unary main_call3_cst main_call3_v0 ((broadcastInDim S16x64x4096x4 ![] bcast_S_S16x64x4096x4) : (⟨S_, .f32⟩ : BufTy).Contents (Elt F) → (⟨S16x64x4096x4, .f32⟩ : BufTy).Contents (Elt F)) -- %185 = call @relu: %0 = stablehlo.broadcast_in_dim %cst, dims = [] : (tensor<f32>) -> tensor<16x64x4096x4xf32>
  :: StableHlo.binary main_v184 main_call3_v0 main_v185 (maximumf : (⟨S16x64x4096x4, .f32⟩ : BufTy).Contents (Elt F) → (⟨S16x64x4096x4, .f32⟩ : BufTy).Contents (Elt F) → (⟨S16x64x4096x4, .f32⟩ : BufTy).Contents (Elt F)) -- %185 = call @relu: %1 = stablehlo.maximum %arg0, %0 : tensor<16x64x4096x4xf32>
  :: StableHlo.binary main_v180 main_v185 main_v186 (minimumf : (⟨S16x64x4096x4, .f32⟩ : BufTy).Contents (Elt F) → (⟨S16x64x4096x4, .f32⟩ : BufTy).Contents (Elt F) → (⟨S16x64x4096x4, .f32⟩ : BufTy).Contents (Elt F)) -- %186 = stablehlo.minimum %180, %185 : tensor<16x64x4096x4xf32>
  :: StableHlo.binary main_v175 main_v186 main_v187 (minimumf : (⟨S16x64x4096x4, .f32⟩ : BufTy).Contents (Elt F) → (⟨S16x64x4096x4, .f32⟩ : BufTy).Contents (Elt F) → (⟨S16x64x4096x4, .f32⟩ : BufTy).Contents (Elt F)) -- %187 = stablehlo.minimum %175, %186 : tensor<16x64x4096x4xf32>
  :: StableHlo.nullary main_cst_14 (constant S_ .f32 0xFF800000#32) -- %cst_14 = stablehlo.constant dense<0xFF800000> : tensor<f32>
  :: StableHlo.binary main_v187 main_cst_14 main_v188 ((fun x v => Host.reduce FloatOps.maximumf x v reducesTo_S16x64x4096x4_S16x64x4096_d3 h_S_) : (⟨S16x64x4096x4, .f32⟩ : BufTy).Contents (Elt F) → (⟨S_, .f32⟩ : BufTy).Contents (Elt F) → (⟨S16x64x4096, .f32⟩ : BufTy).Contents (Elt F)) -- %188 = stablehlo.reduce(%187 init: %cst_14) applies stablehlo.maximum across dimensions = [3] : (tensor<16x...
  :: StableHlo.unary main_v57 main_v189 ((extractStridedSlice S16x4096x4x1 ![0, 0, 0, 0] · slices_S16x4096x4x2_S16x4096x4x1_0_0_0_0) : (⟨S16x4096x4x2, .f32⟩ : BufTy).Contents (Elt F) → (⟨S16x4096x4x1, .f32⟩ : BufTy).Contents (Elt F)) -- %189 = stablehlo.slice %57 [0:16, 0:4096, 0:4, 0:1] : (tensor<16x4096x4x2xf32>) -> tensor<16x4096x4x1xf32>
  :: StableHlo.reshape main_v189 main_v190 rfl shapeCasts_S16x4096x4x1_S16x4096x4 -- %190 = stablehlo.reshape %189 : (tensor<16x4096x4x1xf32>) -> tensor<16x4096x4xf32>
  :: StableHlo.unary main_v190 main_v191 (broadcastInDim S16x1x4096x4 ![0, 2, 3] bcast_S16x4096x4_S16x1x4096x4_0_2_3 : (⟨S16x4096x4, .f32⟩ : BufTy).Contents (Elt F) → (⟨S16x1x4096x4, .f32⟩ : BufTy).Contents (Elt F)) -- %191 = stablehlo.broadcast_in_dim %190, dims = [0, 2, 3] : (tensor<16x4096x4xf32>) -> tensor<16x1x4096x4xf32>
  :: StableHlo.unary main_v64 main_v192 ((extractStridedSlice S16x64x1 ![0, 0, 0] · slices_S16x64x2_S16x64x1_0_0_0) : (⟨S16x64x2, .f32⟩ : BufTy).Contents (Elt F) → (⟨S16x64x1, .f32⟩ : BufTy).Contents (Elt F)) -- %192 = stablehlo.slice %64 [0:16, 0:64, 0:1] : (tensor<16x64x2xf32>) -> tensor<16x64x1xf32>
  :: StableHlo.reshape main_v192 main_v193 rfl shapeCasts_S16x64x1_S16x64 -- %193 = stablehlo.reshape %192 : (tensor<16x64x1xf32>) -> tensor<16x64xf32>
  :: StableHlo.unary main_v193 main_v194 (broadcastInDim S16x64x1x1 ![0, 1] bcast_S16x64_S16x64x1x1_0_1 : (⟨S16x64, .f32⟩ : BufTy).Contents (Elt F) → (⟨S16x64x1x1, .f32⟩ : BufTy).Contents (Elt F)) -- %194 = stablehlo.broadcast_in_dim %193, dims = [0, 1] : (tensor<16x64xf32>) -> tensor<16x64x1x1xf32>
  :: StableHlo.unary main_v191 main_v195 (broadcastInDim S16x64x4096x4 ![0, 1, 2, 3] bcast_S16x1x4096x4_S16x64x4096x4_0_1_2_3 : (⟨S16x1x4096x4, .f32⟩ : BufTy).Contents (Elt F) → (⟨S16x64x4096x4, .f32⟩ : BufTy).Contents (Elt F)) -- %195 = stablehlo.broadcast_in_dim %191, dims = [0, 1, 2, 3] : (tensor<16x1x4096x4xf32>) -> tensor<16x64x409...
  :: StableHlo.unary main_v194 main_v196 (broadcastInDim S16x64x4096x4 ![0, 1, 2, 3] bcast_S16x64x1x1_S16x64x4096x4_0_1_2_3 : (⟨S16x64x1x1, .f32⟩ : BufTy).Contents (Elt F) → (⟨S16x64x4096x4, .f32⟩ : BufTy).Contents (Elt F)) -- %196 = stablehlo.broadcast_in_dim %194, dims = [0, 1, 2, 3] : (tensor<16x64x1x1xf32>) -> tensor<16x64x4096x...
  :: StableHlo.binary main_v195 main_v196 main_v197 (subf : (⟨S16x64x4096x4, .f32⟩ : BufTy).Contents (Elt F) → (⟨S16x64x4096x4, .f32⟩ : BufTy).Contents (Elt F) → (⟨S16x64x4096x4, .f32⟩ : BufTy).Contents (Elt F)) -- %197 = stablehlo.subtract %195, %196 : tensor<16x64x4096x4xf32>
  :: StableHlo.unary main_v57 main_v198 ((extractStridedSlice S16x4096x4x1 ![0, 0, 0, 1] · slices_S16x4096x4x2_S16x4096x4x1_0_0_0_1) : (⟨S16x4096x4x2, .f32⟩ : BufTy).Contents (Elt F) → (⟨S16x4096x4x1, .f32⟩ : BufTy).Contents (Elt F)) -- %198 = stablehlo.slice %57 [0:16, 0:4096, 0:4, 1:2] : (tensor<16x4096x4x2xf32>) -> tensor<16x4096x4x1xf32>
  :: StableHlo.reshape main_v198 main_v199 rfl shapeCasts_S16x4096x4x1_S16x4096x4 -- %199 = stablehlo.reshape %198 : (tensor<16x4096x4x1xf32>) -> tensor<16x4096x4xf32>
  :: StableHlo.unary main_v199 main_v200 (broadcastInDim S16x1x4096x4 ![0, 2, 3] bcast_S16x4096x4_S16x1x4096x4_0_2_3 : (⟨S16x4096x4, .f32⟩ : BufTy).Contents (Elt F) → (⟨S16x1x4096x4, .f32⟩ : BufTy).Contents (Elt F)) -- %200 = stablehlo.broadcast_in_dim %199, dims = [0, 2, 3] : (tensor<16x4096x4xf32>) -> tensor<16x1x4096x4xf32>
  :: StableHlo.unary main_v64 main_v201 ((extractStridedSlice S16x64x1 ![0, 0, 1] · slices_S16x64x2_S16x64x1_0_0_1) : (⟨S16x64x2, .f32⟩ : BufTy).Contents (Elt F) → (⟨S16x64x1, .f32⟩ : BufTy).Contents (Elt F)) -- %201 = stablehlo.slice %64 [0:16, 0:64, 1:2] : (tensor<16x64x2xf32>) -> tensor<16x64x1xf32>
  :: StableHlo.reshape main_v201 main_v202 rfl shapeCasts_S16x64x1_S16x64 -- %202 = stablehlo.reshape %201 : (tensor<16x64x1xf32>) -> tensor<16x64xf32>
  :: StableHlo.unary main_v202 main_v203 (broadcastInDim S16x64x1x1 ![0, 1] bcast_S16x64_S16x64x1x1_0_1 : (⟨S16x64, .f32⟩ : BufTy).Contents (Elt F) → (⟨S16x64x1x1, .f32⟩ : BufTy).Contents (Elt F)) -- %203 = stablehlo.broadcast_in_dim %202, dims = [0, 1] : (tensor<16x64xf32>) -> tensor<16x64x1x1xf32>
  :: StableHlo.unary main_v200 main_v204 (broadcastInDim S16x64x4096x4 ![0, 1, 2, 3] bcast_S16x1x4096x4_S16x64x4096x4_0_1_2_3 : (⟨S16x1x4096x4, .f32⟩ : BufTy).Contents (Elt F) → (⟨S16x64x4096x4, .f32⟩ : BufTy).Contents (Elt F)) -- %204 = stablehlo.broadcast_in_dim %200, dims = [0, 1, 2, 3] : (tensor<16x1x4096x4xf32>) -> tensor<16x64x409...
  :: StableHlo.unary main_v203 main_v205 (broadcastInDim S16x64x4096x4 ![0, 1, 2, 3] bcast_S16x64x1x1_S16x64x4096x4_0_1_2_3 : (⟨S16x64x1x1, .f32⟩ : BufTy).Contents (Elt F) → (⟨S16x64x4096x4, .f32⟩ : BufTy).Contents (Elt F)) -- %205 = stablehlo.broadcast_in_dim %203, dims = [0, 1, 2, 3] : (tensor<16x64x1x1xf32>) -> tensor<16x64x4096x...
  :: StableHlo.binary main_v204 main_v205 main_v206 (subf : (⟨S16x64x4096x4, .f32⟩ : BufTy).Contents (Elt F) → (⟨S16x64x4096x4, .f32⟩ : BufTy).Contents (Elt F) → (⟨S16x64x4096x4, .f32⟩ : BufTy).Contents (Elt F)) -- %206 = stablehlo.subtract %204, %205 : tensor<16x64x4096x4xf32>
  :: StableHlo.unary main_v71 main_v207 (Host.cos : (⟨S16x64, .f32⟩ : BufTy).Contents (Elt F) → (⟨S16x64, .f32⟩ : BufTy).Contents (Elt F)) -- %207 = stablehlo.cosine %71 : tensor<16x64xf32>
  :: StableHlo.unary main_v207 main_v208 (broadcastInDim S16x64x1x1 ![0, 1] bcast_S16x64_S16x64x1x1_0_1 : (⟨S16x64, .f32⟩ : BufTy).Contents (Elt F) → (⟨S16x64x1x1, .f32⟩ : BufTy).Contents (Elt F)) -- %208 = stablehlo.broadcast_in_dim %207, dims = [0, 1] : (tensor<16x64xf32>) -> tensor<16x64x1x1xf32>
  :: StableHlo.unary main_v71 main_v209 (Host.sin : (⟨S16x64, .f32⟩ : BufTy).Contents (Elt F) → (⟨S16x64, .f32⟩ : BufTy).Contents (Elt F)) -- %209 = stablehlo.sine %71 : tensor<16x64xf32>
  :: StableHlo.unary main_v209 main_v210 (broadcastInDim S16x64x1x1 ![0, 1] bcast_S16x64_S16x64x1x1_0_1 : (⟨S16x64, .f32⟩ : BufTy).Contents (Elt F) → (⟨S16x64x1x1, .f32⟩ : BufTy).Contents (Elt F)) -- %210 = stablehlo.broadcast_in_dim %209, dims = [0, 1] : (tensor<16x64xf32>) -> tensor<16x64x1x1xf32>
  :: StableHlo.unary main_v208 main_v211 (broadcastInDim S16x64x4096x4 ![0, 1, 2, 3] bcast_S16x64x1x1_S16x64x4096x4_0_1_2_3 : (⟨S16x64x1x1, .f32⟩ : BufTy).Contents (Elt F) → (⟨S16x64x4096x4, .f32⟩ : BufTy).Contents (Elt F)) -- %211 = stablehlo.broadcast_in_dim %208, dims = [0, 1, 2, 3] : (tensor<16x64x1x1xf32>) -> tensor<16x64x4096x...
  :: StableHlo.binary main_v211 main_v197 main_v212 (mulf : (⟨S16x64x4096x4, .f32⟩ : BufTy).Contents (Elt F) → (⟨S16x64x4096x4, .f32⟩ : BufTy).Contents (Elt F) → (⟨S16x64x4096x4, .f32⟩ : BufTy).Contents (Elt F)) -- %212 = stablehlo.multiply %211, %197 : tensor<16x64x4096x4xf32>
  :: StableHlo.unary main_v210 main_v213 (broadcastInDim S16x64x4096x4 ![0, 1, 2, 3] bcast_S16x64x1x1_S16x64x4096x4_0_1_2_3 : (⟨S16x64x1x1, .f32⟩ : BufTy).Contents (Elt F) → (⟨S16x64x4096x4, .f32⟩ : BufTy).Contents (Elt F)) -- %213 = stablehlo.broadcast_in_dim %210, dims = [0, 1, 2, 3] : (tensor<16x64x1x1xf32>) -> tensor<16x64x4096x...
  :: StableHlo.binary main_v213 main_v206 main_v214 (mulf : (⟨S16x64x4096x4, .f32⟩ : BufTy).Contents (Elt F) → (⟨S16x64x4096x4, .f32⟩ : BufTy).Contents (Elt F) → (⟨S16x64x4096x4, .f32⟩ : BufTy).Contents (Elt F)) -- %214 = stablehlo.multiply %213, %206 : tensor<16x64x4096x4xf32>
  :: StableHlo.binary main_v212 main_v214 main_v215 (addf : (⟨S16x64x4096x4, .f32⟩ : BufTy).Contents (Elt F) → (⟨S16x64x4096x4, .f32⟩ : BufTy).Contents (Elt F) → (⟨S16x64x4096x4, .f32⟩ : BufTy).Contents (Elt F)) -- %215 = stablehlo.add %212, %214 : tensor<16x64x4096x4xf32>
  :: StableHlo.unary main_v210 main_v216 (Host.negf : (⟨S16x64x1x1, .f32⟩ : BufTy).Contents (Elt F) → (⟨S16x64x1x1, .f32⟩ : BufTy).Contents (Elt F)) -- %216 = stablehlo.negate %210 : tensor<16x64x1x1xf32>
  :: StableHlo.unary main_v216 main_v217 (broadcastInDim S16x64x4096x4 ![0, 1, 2, 3] bcast_S16x64x1x1_S16x64x4096x4_0_1_2_3 : (⟨S16x64x1x1, .f32⟩ : BufTy).Contents (Elt F) → (⟨S16x64x4096x4, .f32⟩ : BufTy).Contents (Elt F)) -- %217 = stablehlo.broadcast_in_dim %216, dims = [0, 1, 2, 3] : (tensor<16x64x1x1xf32>) -> tensor<16x64x4096x...
  :: StableHlo.binary main_v217 main_v197 main_v218 (mulf : (⟨S16x64x4096x4, .f32⟩ : BufTy).Contents (Elt F) → (⟨S16x64x4096x4, .f32⟩ : BufTy).Contents (Elt F) → (⟨S16x64x4096x4, .f32⟩ : BufTy).Contents (Elt F)) -- %218 = stablehlo.multiply %217, %197 : tensor<16x64x4096x4xf32>
  :: StableHlo.unary main_v208 main_v219 (broadcastInDim S16x64x4096x4 ![0, 1, 2, 3] bcast_S16x64x1x1_S16x64x4096x4_0_1_2_3 : (⟨S16x64x1x1, .f32⟩ : BufTy).Contents (Elt F) → (⟨S16x64x4096x4, .f32⟩ : BufTy).Contents (Elt F)) -- %219 = stablehlo.broadcast_in_dim %208, dims = [0, 1, 2, 3] : (tensor<16x64x1x1xf32>) -> tensor<16x64x4096x...
  :: StableHlo.binary main_v219 main_v206 main_v220 (mulf : (⟨S16x64x4096x4, .f32⟩ : BufTy).Contents (Elt F) → (⟨S16x64x4096x4, .f32⟩ : BufTy).Contents (Elt F) → (⟨S16x64x4096x4, .f32⟩ : BufTy).Contents (Elt F)) -- %220 = stablehlo.multiply %219, %206 : tensor<16x64x4096x4xf32>
  :: StableHlo.binary main_v218 main_v220 main_v221 (addf : (⟨S16x64x4096x4, .f32⟩ : BufTy).Contents (Elt F) → (⟨S16x64x4096x4, .f32⟩ : BufTy).Contents (Elt F) → (⟨S16x64x4096x4, .f32⟩ : BufTy).Contents (Elt F)) -- %221 = stablehlo.add %218, %220 : tensor<16x64x4096x4xf32>
  :: StableHlo.unary main_v99 main_v222 ((extractStridedSlice S64x1 ![0, 0] · slices_S64x4_S64x1_0_0) : (⟨S64x4, .f32⟩ : BufTy).Contents (Elt F) → (⟨S64x1, .f32⟩ : BufTy).Contents (Elt F)) -- %222 = stablehlo.slice %99 [0:64, 0:1] : (tensor<64x4xf32>) -> tensor<64x1xf32>
  :: [] )

/-- The window is the straight line of its operations: both sides are the same chain of steps once the outlined
    functions' bodies are unfolded at their calls. -/
theorem main_part3_eq (c : Dev nD) : main_part3 (F := F) c = seq ops3 := by
  chain_rfl

/-- Each operation reads and writes TensorCore buffers only. -/
theorem ops3_sub : (ops3 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., binary_bufs_sub .., nullary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub .., binary_bufs_sub .., binary_bufs_sub .., unary_bufs_sub .., unary_bufs_sub .., binary_bufs_sub .., unary_bufs_sub .., binary_bufs_sub .., binary_bufs_sub .., unary_bufs_sub ..⟩

/-- Each operation determines everything it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Hand.RefRun

end
-- ==== Proof.Ref.RunOps4.lean ====
/- Window 4 of the reference's @main (`main_part4`) as the list of its 74 host operations, 249 … 322 in
   program order: each printed operation as it stands, each call of an outlined function as that function's own
   operations written over the buffers of the call's record, with the function's argument buffers in place of its
   parameters. The window is the straight line of that list; every operation touches TensorCore buffers only and
   determines what it writes. -/
import proofs.«124939_j34651796144492_2_alg».proof.Proof.Gen.ReferenceIdeal
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 249 … 322 of @main, in order. -/
abbrev ops4 : List (HloOp τ sig (Elt F)) :=
  ( StableHlo.reshape main_v222 main_v223 rfl shapeCasts_S64x1_S64 -- %223 = stablehlo.reshape %222 : (tensor<64x1xf32>) -> tensor<64xf32>
  :: StableHlo.unary main_v223 main_v224 (broadcastInDim S1x64x1x1 ![1] bcast_S64_S1x64x1x1_1 : (⟨S64, .f32⟩ : BufTy).Contents (Elt F) → (⟨S1x64x1x1, .f32⟩ : BufTy).Contents (Elt F)) -- %224 = stablehlo.broadcast_in_dim %223, dims = [1] : (tensor<64xf32>) -> tensor<1x64x1x1xf32>
  :: StableHlo.unary main_v99 main_v225 ((extractStridedSlice S64x1 ![0, 1] · slices_S64x4_S64x1_0_1) : (⟨S64x4, .f32⟩ : BufTy).Contents (Elt F) → (⟨S64x1, .f32⟩ : BufTy).Contents (Elt F)) -- %225 = stablehlo.slice %99 [0:64, 1:2] : (tensor<64x4xf32>) -> tensor<64x1xf32>
  :: StableHlo.reshape main_v225 main_v226 rfl shapeCasts_S64x1_S64 -- %226 = stablehlo.reshape %225 : (tensor<64x1xf32>) -> tensor<64xf32>
  :: StableHlo.unary main_v226 main_v227 (broadcastInDim S1x64x1x1 ![1] bcast_S64_S1x64x1x1_1 : (⟨S64, .f32⟩ : BufTy).Contents (Elt F) → (⟨S1x64x1x1, .f32⟩ : BufTy).Contents (Elt F)) -- %227 = stablehlo.broadcast_in_dim %226, dims = [1] : (tensor<64xf32>) -> tensor<1x64x1x1xf32>
  :: StableHlo.unary main_v99 main_v228 ((extractStridedSlice S64x1 ![0, 2] · slices_S64x4_S64x1_0_2) : (⟨S64x4, .f32⟩ : BufTy).Contents (Elt F) → (⟨S64x1, .f32⟩ : BufTy).Contents (Elt F)) -- %228 = stablehlo.slice %99 [0:64, 2:3] : (tensor<64x4xf32>) -> tensor<64x1xf32>
  :: StableHlo.reshape main_v228 main_v229 rfl shapeCasts_S64x1_S64 -- %229 = stablehlo.reshape %228 : (tensor<64x1xf32>) -> tensor<64xf32>
  :: StableHlo.unary main_v229 main_v230 (broadcastInDim S1x64x1x1 ![1] bcast_S64_S1x64x1x1_1 : (⟨S64, .f32⟩ : BufTy).Contents (Elt F) → (⟨S1x64x1x1, .f32⟩ : BufTy).Contents (Elt F)) -- %230 = stablehlo.broadcast_in_dim %229, dims = [1] : (tensor<64xf32>) -> tensor<1x64x1x1xf32>
  :: StableHlo.unary main_v99 main_v231 ((extractStridedSlice S64x1 ![0, 3] · slices_S64x4_S64x1_0_3) : (⟨S64x4, .f32⟩ : BufTy).Contents (Elt F) → (⟨S64x1, .f32⟩ : BufTy).Contents (Elt F)) -- %231 = stablehlo.slice %99 [0:64, 3:4] : (tensor<64x4xf32>) -> tensor<64x1xf32>
  :: StableHlo.reshape main_v231 main_v232 rfl shapeCasts_S64x1_S64 -- %232 = stablehlo.reshape %231 : (tensor<64x1xf32>) -> tensor<64xf32>
  :: StableHlo.unary main_v232 main_v233 (broadcastInDim S1x64x1x1 ![1] bcast_S64_S1x64x1x1_1 : (⟨S64, .f32⟩ : BufTy).Contents (Elt F) → (⟨S1x64x1x1, .f32⟩ : BufTy).Contents (Elt F)) -- %233 = stablehlo.broadcast_in_dim %232, dims = [1] : (tensor<64xf32>) -> tensor<1x64x1x1xf32>
  :: StableHlo.nullary main_cst_15 (constant S_ .f32 0x00000000#32) -- %cst_15 = stablehlo.constant dense<0.000000e+00> : tensor<f32>
  :: StableHlo.unary main_cst_15 main_v234 (broadcastInDim S1x64x1x1 ![] bcast_S_S1x64x1x1 : (⟨S_, .f32⟩ : BufTy).Contents (Elt F) → (⟨S1x64x1x1, .f32⟩ : BufTy).Contents (Elt F)) -- %234 = stablehlo.broadcast_in_dim %cst_15, dims = [] : (tensor<f32>) -> tensor<1x64x1x1xf32>
  :: StableHlo.binary main_v224 main_v234 main_v235 (addf : (⟨S1x64x1x1, .f32⟩ : BufTy).Contents (Elt F) → (⟨S1x64x1x1, .f32⟩ : BufTy).Contents (Elt F) → (⟨S1x64x1x1, .f32⟩ : BufTy).Contents (Elt F)) -- %235 = stablehlo.add %224, %234 : tensor<1x64x1x1xf32>
  :: StableHlo.unary main_v235 main_v236 (broadcastInDim S16x64x4096x4 ![0, 1, 2, 3] bcast_S1x64x1x1_S16x64x4096x4_0_1_2_3 : (⟨S1x64x1x1, .f32⟩ : BufTy).Contents (Elt F) → (⟨S16x64x4096x4, .f32⟩ : BufTy).Contents (Elt F)) -- %236 = stablehlo.broadcast_in_dim %235, dims = [0, 1, 2, 3] : (tensor<1x64x1x1xf32>) -> tensor<16x64x4096x4...
  :: StableHlo.binary main_v236 main_v215 main_v237 (subf : (⟨S16x64x4096x4, .f32⟩ : BufTy).Contents (Elt F) → (⟨S16x64x4096x4, .f32⟩ : BufTy).Contents (Elt F) → (⟨S16x64x4096x4, .f32⟩ : BufTy).Contents (Elt F)) -- %237 = stablehlo.subtract %236, %215 : tensor<16x64x4096x4xf32>
  :: StableHlo.nullary main_call4_cst (constant S_ .f32 0x00000000#32) -- %238 = call @relu: %cst = stablehlo.constant dense<0.000000e+00> : tensor<f32>
  :: StableHlo.unary main_call4_cst main_call4_v0 ((broadcastInDim S16x64x4096x4 ![] bcast_S_S16x64x4096x4) : (⟨S_, .f32⟩ : BufTy).Contents (Elt F) → (⟨S16x64x4096x4, .f32⟩ : BufTy).Contents (Elt F)) -- %238 = call @relu: %0 = stablehlo.broadcast_in_dim %cst, dims = [] : (tensor<f32>) -> tensor<16x64x4096x4xf32>
  :: StableHlo.binary main_v237 main_call4_v0 main_v238 (maximumf : (⟨S16x64x4096x4, .f32⟩ : BufTy).Contents (Elt F) → (⟨S16x64x4096x4, .f32⟩ : BufTy).Contents (Elt F) → (⟨S16x64x4096x4, .f32⟩ : BufTy).Contents (Elt F)) -- %238 = call @relu: %1 = stablehlo.maximum %arg0, %0 : tensor<16x64x4096x4xf32>
  :: StableHlo.nullary main_cst_16 (constant S_ .f32 0x00000000#32) -- %cst_16 = stablehlo.constant dense<0.000000e+00> : tensor<f32>
  :: StableHlo.unary main_cst_16 main_v239 (broadcastInDim S1x64x1x1 ![] bcast_S_S1x64x1x1 : (⟨S_, .f32⟩ : BufTy).Contents (Elt F) → (⟨S1x64x1x1, .f32⟩ : BufTy).Contents (Elt F)) -- %239 = stablehlo.broadcast_in_dim %cst_16, dims = [] : (tensor<f32>) -> tensor<1x64x1x1xf32>
  :: StableHlo.binary main_v227 main_v239 main_v240 (addf : (⟨S1x64x1x1, .f32⟩ : BufTy).Contents (Elt F) → (⟨S1x64x1x1, .f32⟩ : BufTy).Contents (Elt F) → (⟨S1x64x1x1, .f32⟩ : BufTy).Contents (Elt F)) -- %240 = stablehlo.add %227, %239 : tensor<1x64x1x1xf32>
  :: StableHlo.unary main_v240 main_v241 (broadcastInDim S16x64x4096x4 ![0, 1, 2, 3] bcast_S1x64x1x1_S16x64x4096x4_0_1_2_3 : (⟨S1x64x1x1, .f32⟩ : BufTy).Contents (Elt F) → (⟨S16x64x4096x4, .f32⟩ : BufTy).Contents (Elt F)) -- %241 = stablehlo.broadcast_in_dim %240, dims = [0, 1, 2, 3] : (tensor<1x64x1x1xf32>) -> tensor<16x64x4096x4...
  :: StableHlo.binary main_v241 main_v215 main_v242 (addf : (⟨S16x64x4096x4, .f32⟩ : BufTy).Contents (Elt F) → (⟨S16x64x4096x4, .f32⟩ : BufTy).Contents (Elt F) → (⟨S16x64x4096x4, .f32⟩ : BufTy).Contents (Elt F)) -- %242 = stablehlo.add %241, %215 : tensor<16x64x4096x4xf32>
  :: StableHlo.nullary main_call5_cst (constant S_ .f32 0x00000000#32) -- %243 = call @relu: %cst = stablehlo.constant dense<0.000000e+00> : tensor<f32>
  :: StableHlo.unary main_call5_cst main_call5_v0 ((broadcastInDim S16x64x4096x4 ![] bcast_S_S16x64x4096x4) : (⟨S_, .f32⟩ : BufTy).Contents (Elt F) → (⟨S16x64x4096x4, .f32⟩ : BufTy).Contents (Elt F)) -- %243 = call @relu: %0 = stablehlo.broadcast_in_dim %cst, dims = [] : (tensor<f32>) -> tensor<16x64x4096x4xf32>
  :: StableHlo.binary main_v242 main_call5_v0 main_v243 (maximumf : (⟨S16x64x4096x4, .f32⟩ : BufTy).Contents (Elt F) → (⟨S16x64x4096x4, .f32⟩ : BufTy).Contents (Elt F) → (⟨S16x64x4096x4, .f32⟩ : BufTy).Contents (Elt F)) -- %243 = call @relu: %1 = stablehlo.maximum %arg0, %0 : tensor<16x64x4096x4xf32>
  :: StableHlo.binary main_v238 main_v243 main_v244 (minimumf : (⟨S16x64x4096x4, .f32⟩ : BufTy).Contents (Elt F) → (⟨S16x64x4096x4, .f32⟩ : BufTy).Contents (Elt F) → (⟨S16x64x4096x4, .f32⟩ : BufTy).Contents (Elt F)) -- %244 = stablehlo.minimum %238, %243 : tensor<16x64x4096x4xf32>
  :: StableHlo.nullary main_cst_17 (constant S_ .f32 0x00000000#32) -- %cst_17 = stablehlo.constant dense<0.000000e+00> : tensor<f32>
  :: StableHlo.unary main_cst_17 main_v245 (broadcastInDim S1x64x1x1 ![] bcast_S_S1x64x1x1 : (⟨S_, .f32⟩ : BufTy).Contents (Elt F) → (⟨S1x64x1x1, .f32⟩ : BufTy).Contents (Elt F)) -- %245 = stablehlo.broadcast_in_dim %cst_17, dims = [] : (tensor<f32>) -> tensor<1x64x1x1xf32>
  :: StableHlo.binary main_v230 main_v245 main_v246 (addf : (⟨S1x64x1x1, .f32⟩ : BufTy).Contents (Elt F) → (⟨S1x64x1x1, .f32⟩ : BufTy).Contents (Elt F) → (⟨S1x64x1x1, .f32⟩ : BufTy).Contents (Elt F)) -- %246 = stablehlo.add %230, %245 : tensor<1x64x1x1xf32>
  :: StableHlo.unary main_v246 main_v247 (broadcastInDim S16x64x4096x4 ![0, 1, 2, 3] bcast_S1x64x1x1_S16x64x4096x4_0_1_2_3 : (⟨S1x64x1x1, .f32⟩ : BufTy).Contents (Elt F) → (⟨S16x64x4096x4, .f32⟩ : BufTy).Contents (Elt F)) -- %247 = stablehlo.broadcast_in_dim %246, dims = [0, 1, 2, 3] : (tensor<1x64x1x1xf32>) -> tensor<16x64x4096x4...
  :: StableHlo.binary main_v247 main_v221 main_v248 (subf : (⟨S16x64x4096x4, .f32⟩ : BufTy).Contents (Elt F) → (⟨S16x64x4096x4, .f32⟩ : BufTy).Contents (Elt F) → (⟨S16x64x4096x4, .f32⟩ : BufTy).Contents (Elt F)) -- %248 = stablehlo.subtract %247, %221 : tensor<16x64x4096x4xf32>
  :: StableHlo.nullary main_call6_cst (constant S_ .f32 0x00000000#32) -- %249 = call @relu: %cst = stablehlo.constant dense<0.000000e+00> : tensor<f32>
  :: StableHlo.unary main_call6_cst main_call6_v0 ((broadcastInDim S16x64x4096x4 ![] bcast_S_S16x64x4096x4) : (⟨S_, .f32⟩ : BufTy).Contents (Elt F) → (⟨S16x64x4096x4, .f32⟩ : BufTy).Contents (Elt F)) -- %249 = call @relu: %0 = stablehlo.broadcast_in_dim %cst, dims = [] : (tensor<f32>) -> tensor<16x64x4096x4xf32>
  :: StableHlo.binary main_v248 main_call6_v0 main_v249 (maximumf : (⟨S16x64x4096x4, .f32⟩ : BufTy).Contents (Elt F) → (⟨S16x64x4096x4, .f32⟩ : BufTy).Contents (Elt F) → (⟨S16x64x4096x4, .f32⟩ : BufTy).Contents (Elt F)) -- %249 = call @relu: %1 = stablehlo.maximum %arg0, %0 : tensor<16x64x4096x4xf32>
  :: StableHlo.nullary main_cst_18 (constant S_ .f32 0x00000000#32) -- %cst_18 = stablehlo.constant dense<0.000000e+00> : tensor<f32>
  :: StableHlo.unary main_cst_18 main_v250 (broadcastInDim S1x64x1x1 ![] bcast_S_S1x64x1x1 : (⟨S_, .f32⟩ : BufTy).Contents (Elt F) → (⟨S1x64x1x1, .f32⟩ : BufTy).Contents (Elt F)) -- %250 = stablehlo.broadcast_in_dim %cst_18, dims = [] : (tensor<f32>) -> tensor<1x64x1x1xf32>
  :: StableHlo.binary main_v233 main_v250 main_v251 (addf : (⟨S1x64x1x1, .f32⟩ : BufTy).Contents (Elt F) → (⟨S1x64x1x1, .f32⟩ : BufTy).Contents (Elt F) → (⟨S1x64x1x1, .f32⟩ : BufTy).Contents (Elt F)) -- %251 = stablehlo.add %233, %250 : tensor<1x64x1x1xf32>
  :: StableHlo.unary main_v251 main_v252 (broadcastInDim S16x64x4096x4 ![0, 1, 2, 3] bcast_S1x64x1x1_S16x64x4096x4_0_1_2_3 : (⟨S1x64x1x1, .f32⟩ : BufTy).Contents (Elt F) → (⟨S16x64x4096x4, .f32⟩ : BufTy).Contents (Elt F)) -- %252 = stablehlo.broadcast_in_dim %251, dims = [0, 1, 2, 3] : (tensor<1x64x1x1xf32>) -> tensor<16x64x4096x4...
  :: StableHlo.binary main_v252 main_v221 main_v253 (addf : (⟨S16x64x4096x4, .f32⟩ : BufTy).Contents (Elt F) → (⟨S16x64x4096x4, .f32⟩ : BufTy).Contents (Elt F) → (⟨S16x64x4096x4, .f32⟩ : BufTy).Contents (Elt F)) -- %253 = stablehlo.add %252, %221 : tensor<16x64x4096x4xf32>
  :: StableHlo.nullary main_call7_cst (constant S_ .f32 0x00000000#32) -- %254 = call @relu: %cst = stablehlo.constant dense<0.000000e+00> : tensor<f32>
  :: StableHlo.unary main_call7_cst main_call7_v0 ((broadcastInDim S16x64x4096x4 ![] bcast_S_S16x64x4096x4) : (⟨S_, .f32⟩ : BufTy).Contents (Elt F) → (⟨S16x64x4096x4, .f32⟩ : BufTy).Contents (Elt F)) -- %254 = call @relu: %0 = stablehlo.broadcast_in_dim %cst, dims = [] : (tensor<f32>) -> tensor<16x64x4096x4xf32>
  :: StableHlo.binary main_v253 main_call7_v0 main_v254 (maximumf : (⟨S16x64x4096x4, .f32⟩ : BufTy).Contents (Elt F) → (⟨S16x64x4096x4, .f32⟩ : BufTy).Contents (Elt F) → (⟨S16x64x4096x4, .f32⟩ : BufTy).Contents (Elt F)) -- %254 = call @relu: %1 = stablehlo.maximum %arg0, %0 : tensor<16x64x4096x4xf32>
  :: StableHlo.binary main_v249 main_v254 main_v255 (minimumf : (⟨S16x64x4096x4, .f32⟩ : BufTy).Contents (Elt F) → (⟨S16x64x4096x4, .f32⟩ : BufTy).Contents (Elt F) → (⟨S16x64x4096x4, .f32⟩ : BufTy).Contents (Elt F)) -- %255 = stablehlo.minimum %249, %254 : tensor<16x64x4096x4xf32>
  :: StableHlo.binary main_v244 main_v255 main_v256 (minimumf : (⟨S16x64x4096x4, .f32⟩ : BufTy).Contents (Elt F) → (⟨S16x64x4096x4, .f32⟩ : BufTy).Contents (Elt F) → (⟨S16x64x4096x4, .f32⟩ : BufTy).Contents (Elt F)) -- %256 = stablehlo.minimum %244, %255 : tensor<16x64x4096x4xf32>
  :: StableHlo.nullary main_cst_19 (constant S_ .f32 0xFF800000#32) -- %cst_19 = stablehlo.constant dense<0xFF800000> : tensor<f32>
  :: StableHlo.binary main_v256 main_cst_19 main_v257 ((fun x v => Host.reduce FloatOps.maximumf x v reducesTo_S16x64x4096x4_S16x64x4096_d3 h_S_) : (⟨S16x64x4096x4, .f32⟩ : BufTy).Contents (Elt F) → (⟨S_, .f32⟩ : BufTy).Contents (Elt F) → (⟨S16x64x4096, .f32⟩ : BufTy).Contents (Elt F)) -- %257 = stablehlo.reduce(%256 init: %cst_19) applies stablehlo.maximum across dimensions = [3] : (tensor<16x...
  :: StableHlo.reshape main_v119 main_v258 rfl shapeCasts_S16x64x4096_S4194304 -- %258 = stablehlo.reshape %119 : (tensor<16x64x4096xi1>) -> tensor<4194304xi1>
  :: StableHlo.unary main_v119 main_v259 ((transpose S16x4096x64 [0, 2, 1] · transposes_S16x64x4096_S16x4096x64_0_2_1) : (⟨S16x64x4096, .i1⟩ : BufTy).Contents (Elt F) → (⟨S16x4096x64, .i1⟩ : BufTy).Contents (Elt F)) -- %259 = stablehlo.transpose %119, dims = [0, 2, 1] : (tensor<16x64x4096xi1>) -> tensor<16x4096x64xi1>
  :: StableHlo.reshape main_v259 main_v260 rfl shapeCasts_S16x4096x64_S4194304 -- %260 = stablehlo.reshape %259 : (tensor<16x4096x64xi1>) -> tensor<4194304xi1>
  :: StableHlo.unary main_v258 main_v261 ((extui 32 · natLt_1_32) : (⟨S4194304, .i1⟩ : BufTy).Contents (Elt F) → (⟨S4194304, .i32⟩ : BufTy).Contents (Elt F)) -- %261 = stablehlo.convert %258 : (tensor<4194304xi1>) -> tensor<4194304xi32>
  :: StableHlo.nullary main_call8_call0_c (constantI S_ 32 0#32) -- %262 = call @cumsum: %c = stablehlo.constant dense<0> : tensor<i32>
  :: StableHlo.unary main_call8_call0_c main_call8_call0_v0 ((broadcastInDim S_ ![] bcast_S_S_) : (⟨S_, .i32⟩ : BufTy).Contents (Elt F) → (⟨S_, .i32⟩ : BufTy).Contents (Elt F)) -- %262 = call @cumsum: %0 = stablehlo.broadcast_in_dim %c, dims = [] : (tensor<i32>) -> tensor<i32>
  :: StableHlo.binary main_v261 main_call8_call0_v0 main_v262 ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) -- %262 = call @cumsum: %1 = "stablehlo.reduce_window"(%arg0, %0) <{base_dilations = array<i64: 1>, padding = dense<[[4194303, 0]]>...
  :: StableHlo.nullary main_c_20 (constantI S_ 32 1#32) -- %c_20 = stablehlo.constant dense<1> : tensor<i32>
  :: StableHlo.unary main_c_20 main_v263 (broadcastInDim S4194304 ![] bcast_S_S4194304 : (⟨S_, .i32⟩ : BufTy).Contents (Elt F) → (⟨S4194304, .i32⟩ : BufTy).Contents (Elt F)) -- %263 = stablehlo.broadcast_in_dim %c_20, dims = [] : (tensor<i32>) -> tensor<4194304xi32>
  :: StableHlo.binary main_v262 main_v263 main_v264 (subi : (⟨S4194304, .i32⟩ : BufTy).Contents (Elt F) → (⟨S4194304, .i32⟩ : BufTy).Contents (Elt F) → (⟨S4194304, .i32⟩ : BufTy).Contents (Elt F)) -- %264 = stablehlo.subtract %262, %263 : tensor<4194304xi32>
  :: StableHlo.unary main_v260 main_v265 ((extui 32 · natLt_1_32) : (⟨S4194304, .i1⟩ : BufTy).Contents (Elt F) → (⟨S4194304, .i32⟩ : BufTy).Contents (Elt F)) -- %265 = stablehlo.convert %260 : (tensor<4194304xi1>) -> tensor<4194304xi32>
  :: StableHlo.nullary main_call9_call0_c (constantI S_ 32 0#32) -- %266 = call @cumsum: %c = stablehlo.constant dense<0> : tensor<i32>
  :: StableHlo.unary main_call9_call0_c main_call9_call0_v0 ((broadcastInDim S_ ![] bcast_S_S_) : (⟨S_, .i32⟩ : BufTy).Contents (Elt F) → (⟨S_, .i32⟩ : BufTy).Contents (Elt F)) -- %266 = call @cumsum: %0 = stablehlo.broadcast_in_dim %c, dims = [] : (tensor<i32>) -> tensor<i32>
  :: StableHlo.binary main_v265 main_call9_call0_v0 main_v266 ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) -- %266 = call @cumsum: %1 = "stablehlo.reduce_window"(%arg0, %0) <{base_dilations = array<i64: 1>, padding = dense<[[4194303, 0]]>...
  :: StableHlo.nullary main_c_21 (constantI S_ 32 1#32) -- %c_21 = stablehlo.constant dense<1> : tensor<i32>
  :: StableHlo.unary main_c_21 main_v267 (broadcastInDim S4194304 ![] bcast_S_S4194304 : (⟨S_, .i32⟩ : BufTy).Contents (Elt F) → (⟨S4194304, .i32⟩ : BufTy).Contents (Elt F)) -- %267 = stablehlo.broadcast_in_dim %c_21, dims = [] : (tensor<i32>) -> tensor<4194304xi32>
  :: StableHlo.binary main_v266 main_v267 main_v268 (subi : (⟨S4194304, .i32⟩ : BufTy).Contents (Elt F) → (⟨S4194304, .i32⟩ : BufTy).Contents (Elt F) → (⟨S4194304, .i32⟩ : BufTy).Contents (Elt F)) -- %268 = stablehlo.subtract %266, %267 : tensor<4194304xi32>
  :: StableHlo.unary main_v257 main_v269 ((transpose S16x4096x64 [0, 2, 1] · transposes_S16x64x4096_S16x4096x64_0_2_1) : (⟨S16x64x4096, .f32⟩ : BufTy).Contents (Elt F) → (⟨S16x4096x64, .f32⟩ : BufTy).Contents (Elt F)) -- %269 = stablehlo.transpose %257, dims = [0, 2, 1] : (tensor<16x64x4096xf32>) -> tensor<16x4096x64xf32>
  :: StableHlo.reshape main_v269 main_v270 rfl shapeCasts_S16x4096x64_S4194304 -- %270 = stablehlo.reshape %269 : (tensor<16x4096x64xf32>) -> tensor<4194304xf32>
  :: StableHlo.nullary main_cst_22 (constant S_ .f32 0x00000000#32) -- %cst_22 = stablehlo.constant dense<0.000000e+00> : tensor<f32>
  :: StableHlo.unary main_cst_22 main_v271 (broadcastInDim S4194305 ![] bcast_S_S4194305 : (⟨S_, .f32⟩ : BufTy).Contents (Elt F) → (⟨S4194305, .f32⟩ : BufTy).Contents (Elt F)) -- %271 = stablehlo.broadcast_in_dim %cst_22, dims = [] : (tensor<f32>) -> tensor<4194305xf32>
  :: StableHlo.nullary main_c_23 (constantI S_ 32 4194304#32) -- %c_23 = stablehlo.constant dense<4194304> : tensor<i32>
  :: StableHlo.unary main_c_23 main_call10_v0 (id : (⟨S_, .i32⟩ : BufTy).Contents (Elt F) → (⟨S_, .i32⟩ : BufTy).Contents (Elt F)) -- %272 = call @where: %0 = stablehlo.convert %arg2 : tensor<i32>
  :: StableHlo.unary main_call10_v0 main_call10_v1 ((broadcastInDim S4194304 ![] bcast_S_S4194304) : (⟨S_, .i32⟩ : BufTy).Contents (Elt F) → (⟨S4194304, .i32⟩ : BufTy).Contents (Elt F)) -- %272 = call @where: %1 = stablehlo.broadcast_in_dim %0, dims = [] : (tensor<i32>) -> tensor<4194304xi32>
  :: StableHlo.ternary main_v260 main_v268 main_call10_v1 main_v272 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) -- %272 = call @where: %2 = stablehlo.select %arg0, %arg1, %1 : tensor<4194304xi1>, tensor<4194304xi32>
  :: StableHlo.nullary main_c_24 (constantI S_ 32 0#32) -- %c_24 = stablehlo.constant dense<0> : tensor<i32>
  :: [] )

/-- The window is the straight line of its operations: both sides are the same chain of steps once the outlined
    functions' bodies are unfolded at their calls. -/
theorem main_part4_eq (c : Dev nD) : main_part4 (F := F) c = seq ops4 := by
  chain_rfl

/-- Each operation reads and writes TensorCore buffers only. -/
theorem ops4_sub : (ops4 : List (HloOp τ sig (Elt F))).Forall fun op => op.bufs ⊆ tcRefs τ sig :=
  ⟨reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., binary_bufs_sub .., nullary_bufs_sub .., binary_bufs_sub .., reshape_bufs_sub .., unary_bufs_sub .., reshape_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., reshape_bufs_sub .., nullary_bufs_sub .., unary_bufs_sub .., nullary_bufs_sub .., unary_bufs_sub .., unary_bufs_sub .., ternary_bufs_sub .., nullary_bufs_sub ..⟩

/-- Each operation determines everything it writes. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Hand.RefRun

end
-- ==== Proof.Ref.RunOps5.lean ====
/- Window 5 of the reference's @main (`main_part5`) as the list of its 40 host operations, 323 … 362 in
   program order: each printed operation as it stands, each call of an outlined function as that function's own
   operations written over the buffers of the call's record, with the function's argument buffers in place of its
   parameters. The window is the straight line of that list; every operation touches TensorCore buffers only and
   determines what it writes. -/
import proofs.«124939_j34651796144492_2_alg».proof.Proof.Gen.ReferenceIdeal
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 323 … 362 of @main, in order. -/
abbrev ops5 : List (HloOp τ sig (Elt F)) :=
  ( StableHlo.unary main_c_24 main_v273 (broadcastInDim S4194304 ![] bcast_S_S4194304 : (⟨S_, .i32⟩ : BufTy).Contents (Elt F) → (⟨S4194304, .i32⟩ : BufTy).Contents (Elt F)) -- %273 = stablehlo.broadcast_in_dim %c_24, dims = [] : (tensor<i32>) -> tensor<4194304xi32>
  :: StableHlo.binary main_v272 main_v273 main_v274 (cmpi .slt : (⟨S4194304, .i32⟩ : BufTy).Contents (Elt F) → (⟨S4194304, .i32⟩ : BufTy).Contents (Elt F) → (⟨S4194304, .i1⟩ : BufTy).Contents (Elt F)) -- %274 = stablehlo.compare LT, %272, %273, SIGNED : (tensor<4194304xi32>, tensor<4194304xi32>) -> tensor<4194...
  :: StableHlo.nullary main_c_25 (constantI S_ 32 4194305#32) -- %c_25 = stablehlo.constant dense<4194305> : tensor<i32>
  :: StableHlo.unary main_c_25 main_v275 (broadcastInDim S4194304 ![] bcast_S_S4194304 : (⟨S_, .i32⟩ : BufTy).Contents (Elt F) → (⟨S4194304, .i32⟩ : BufTy).Contents (Elt F)) -- %275 = stablehlo.broadcast_in_dim %c_25, dims = [] : (tensor<i32>) -> tensor<4194304xi32>
  :: StableHlo.binary main_v272 main_v275 main_v276 (addi : (⟨S4194304, .i32⟩ : BufTy).Contents (Elt F) → (⟨S4194304, .i32⟩ : BufTy).Contents (Elt F) → (⟨S4194304, .i32⟩ : BufTy).Contents (Elt F)) -- %276 = stablehlo.add %272, %275 : tensor<4194304xi32>
  :: StableHlo.ternary main_v274 main_v276 main_v272 main_v277 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) -- %277 = stablehlo.select %274, %276, %272 : tensor<4194304xi1>, tensor<4194304xi32>
  :: StableHlo.unary main_v277 main_v278 (broadcastInDim S4194304x1 ![0] bcast_S4194304_S4194304x1_0 : (⟨S4194304, .i32⟩ : BufTy).Contents (Elt F) → (⟨S4194304x1, .i32⟩ : BufTy).Contents (Elt F)) -- %278 = stablehlo.broadcast_in_dim %277, dims = [0] : (tensor<4194304xi32>) -> tensor<4194304x1xi32>
  :: StableHlo.ternary main_v271 main_v278 main_v270 main_v279 ((fun x i u => Host.scatter scatter_S4194305_S4194304x1_S4194304_n_0_0_1 (fun _ b => b) x i u) : (⟨S4194305, .f32⟩ : BufTy).Contents (Elt F) → (⟨S4194304x1, .i32⟩ : BufTy).Contents (Elt F) → (⟨S4194304, .f32⟩ : BufTy).Contents (Elt F) → (⟨S4194305, .f32⟩ : BufTy).Contents (Elt F)) -- %279 = "stablehlo.scatter"(%271, %278, %270) <{indices_are_sorted = false, scatter_dimension_numbers = #sta...
  :: StableHlo.reshape main_v188 main_v280 rfl shapeCasts_S16x64x4096_S4194304 -- %280 = stablehlo.reshape %188 : (tensor<16x64x4096xf32>) -> tensor<4194304xf32>
  :: StableHlo.nullary main_c_26 (constantI S_ 32 4194304#32) -- %c_26 = stablehlo.constant dense<4194304> : tensor<i32>
  :: StableHlo.unary main_c_26 main_call11_v0 (id : (⟨S_, .i32⟩ : BufTy).Contents (Elt F) → (⟨S_, .i32⟩ : BufTy).Contents (Elt F)) -- %281 = call @where: %0 = stablehlo.convert %arg2 : tensor<i32>
  :: StableHlo.unary main_call11_v0 main_call11_v1 ((broadcastInDim S4194304 ![] bcast_S_S4194304) : (⟨S_, .i32⟩ : BufTy).Contents (Elt F) → (⟨S4194304, .i32⟩ : BufTy).Contents (Elt F)) -- %281 = call @where: %1 = stablehlo.broadcast_in_dim %0, dims = [] : (tensor<i32>) -> tensor<4194304xi32>
  :: StableHlo.ternary main_v258 main_v264 main_call11_v1 main_v281 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) -- %281 = call @where: %2 = stablehlo.select %arg0, %arg1, %1 : tensor<4194304xi1>, tensor<4194304xi32>
  :: StableHlo.nullary main_c_27 (constantI S_ 32 0#32) -- %c_27 = stablehlo.constant dense<0> : tensor<i32>
  :: StableHlo.unary main_c_27 main_v282 (broadcastInDim S4194304 ![] bcast_S_S4194304 : (⟨S_, .i32⟩ : BufTy).Contents (Elt F) → (⟨S4194304, .i32⟩ : BufTy).Contents (Elt F)) -- %282 = stablehlo.broadcast_in_dim %c_27, dims = [] : (tensor<i32>) -> tensor<4194304xi32>
  :: StableHlo.binary main_v281 main_v282 main_v283 (cmpi .slt : (⟨S4194304, .i32⟩ : BufTy).Contents (Elt F) → (⟨S4194304, .i32⟩ : BufTy).Contents (Elt F) → (⟨S4194304, .i1⟩ : BufTy).Contents (Elt F)) -- %283 = stablehlo.compare LT, %281, %282, SIGNED : (tensor<4194304xi32>, tensor<4194304xi32>) -> tensor<4194...
  :: StableHlo.nullary main_c_28 (constantI S_ 32 4194305#32) -- %c_28 = stablehlo.constant dense<4194305> : tensor<i32>
  :: StableHlo.unary main_c_28 main_v284 (broadcastInDim S4194304 ![] bcast_S_S4194304 : (⟨S_, .i32⟩ : BufTy).Contents (Elt F) → (⟨S4194304, .i32⟩ : BufTy).Contents (Elt F)) -- %284 = stablehlo.broadcast_in_dim %c_28, dims = [] : (tensor<i32>) -> tensor<4194304xi32>
  :: StableHlo.binary main_v281 main_v284 main_v285 (addi : (⟨S4194304, .i32⟩ : BufTy).Contents (Elt F) → (⟨S4194304, .i32⟩ : BufTy).Contents (Elt F) → (⟨S4194304, .i32⟩ : BufTy).Contents (Elt F)) -- %285 = stablehlo.add %281, %284 : tensor<4194304xi32>
  :: StableHlo.ternary main_v283 main_v285 main_v281 main_v286 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) -- %286 = stablehlo.select %283, %285, %281 : tensor<4194304xi1>, tensor<4194304xi32>
  :: StableHlo.unary main_v286 main_v287 (broadcastInDim S4194304x1 ![0] bcast_S4194304_S4194304x1_0 : (⟨S4194304, .i32⟩ : BufTy).Contents (Elt F) → (⟨S4194304x1, .i32⟩ : BufTy).Contents (Elt F)) -- %287 = stablehlo.broadcast_in_dim %286, dims = [0] : (tensor<4194304xi32>) -> tensor<4194304x1xi32>
  :: StableHlo.binary main_v279 main_v287 main_v288 ((fun x i => Host.gather gather_S4194305_S4194304x1_S4194304_n_0_n_n_0_1_1 x i) : (⟨S4194305, .f32⟩ : BufTy).Contents (Elt F) → (⟨S4194304x1, .i32⟩ : BufTy).Contents (Elt F) → (⟨S4194304, .f32⟩ : BufTy).Contents (Elt F)) -- %288 = "stablehlo.gather"(%279, %287) <{dimension_numbers = #stablehlo.gather<collapsed_slice_dims = [0], s...
  :: StableHlo.binary main_v280 main_v288 main_v289 (maximumf : (⟨S4194304, .f32⟩ : BufTy).Contents (Elt F) → (⟨S4194304, .f32⟩ : BufTy).Contents (Elt F) → (⟨S4194304, .f32⟩ : BufTy).Contents (Elt F)) -- %289 = stablehlo.maximum %280, %288 : tensor<4194304xf32>
  :: StableHlo.nullary main_cst_29 (constant S_ .f32 0xFF7FFFFF#32) -- %cst_29 = stablehlo.constant dense<-3.40282347E+38> : tensor<f32>
  :: StableHlo.unary main_cst_29 main_call12_v0 ((broadcastInDim S4194304 ![] bcast_S_S4194304) : (⟨S_, .f32⟩ : BufTy).Contents (Elt F) → (⟨S4194304, .f32⟩ : BufTy).Contents (Elt F)) -- %290 = call @where_1: %0 = stablehlo.broadcast_in_dim %arg2, dims = [] : (tensor<f32>) -> tensor<4194304xf32>
  :: StableHlo.ternary main_v258 main_v289 main_call12_v0 main_v290 (select : (⟨S4194304, .i1⟩ : BufTy).Contents (Elt F) → (⟨S4194304, .f32⟩ : BufTy).Contents (Elt F) → (⟨S4194304, .f32⟩ : BufTy).Contents (Elt F) → (⟨S4194304, .f32⟩ : BufTy).Contents (Elt F)) -- %290 = call @where_1: %1 = stablehlo.select %arg0, %arg1, %0 : tensor<4194304xi1>, tensor<4194304xf32>
  :: StableHlo.reshape main_v290 main_v291 rfl shapeCasts_S4194304_S16x64x4096 -- %291 = stablehlo.reshape %290 : (tensor<4194304xf32>) -> tensor<16x64x4096xf32>
  :: StableHlo.nullary main_c_30 (constantI S_ 1 0#1) -- %c_30 = stablehlo.constant dense<false> : tensor<i1>
  :: StableHlo.binary main_v119 main_c_30 main_v292 ((fun x v => Host.reduce IntOp.ori x v reducesTo_S16x64x4096_S16x64_d2 h_S_) : (⟨S16x64x4096, .i1⟩ : BufTy).Contents (Elt F) → (⟨S_, .i1⟩ : BufTy).Contents (Elt F) → (⟨S16x64, .i1⟩ : BufTy).Contents (Elt F)) -- %292 = stablehlo.reduce(%119 init: %c_30) applies stablehlo.or across dimensions = [2] : (tensor<16x64x4096...
  :: StableHlo.nullary main_cst_31 (constant S_ .f32 0xFF800000#32) -- %cst_31 = stablehlo.constant dense<0xFF800000> : tensor<f32>
  :: StableHlo.binary main_v291 main_cst_31 main_v293 ((fun x v => Host.reduce FloatOps.maximumf x v reducesTo_S16x64x4096_S16x64_d2 h_S_) : (⟨S16x64x4096, .f32⟩ : BufTy).Contents (Elt F) → (⟨S_, .f32⟩ : BufTy).Contents (Elt F) → (⟨S16x64, .f32⟩ : BufTy).Contents (Elt F)) -- %293 = stablehlo.reduce(%291 init: %cst_31) applies stablehlo.maximum across dimensions = [2] : (tensor<16x...
  :: StableHlo.nullary main_cst_32 (constant S_ .f32 0x00000000#32) -- %cst_32 = stablehlo.constant dense<0.000000e+00> : tensor<f32>
  :: StableHlo.unary main_cst_32 main_v294 (broadcastInDim S16x64 ![] bcast_S_S16x64 : (⟨S_, .f32⟩ : BufTy).Contents (Elt F) → (⟨S16x64, .f32⟩ : BufTy).Contents (Elt F)) -- %294 = stablehlo.broadcast_in_dim %cst_32, dims = [] : (tensor<f32>) -> tensor<16x64xf32>
  :: StableHlo.binary main_v293 main_v294 main_v295 (cmpf .ogt : (⟨S16x64, .f32⟩ : BufTy).Contents (Elt F) → (⟨S16x64, .f32⟩ : BufTy).Contents (Elt F) → (⟨S16x64, .i1⟩ : BufTy).Contents (Elt F)) -- %295 = stablehlo.compare GT, %293, %294, FLOAT : (tensor<16x64xf32>, tensor<16x64xf32>) -> tensor<16x64xi1>
  :: StableHlo.binary main_v292 main_v295 main_v296 (andi : (⟨S16x64, .i1⟩ : BufTy).Contents (Elt F) → (⟨S16x64, .i1⟩ : BufTy).Contents (Elt F) → (⟨S16x64, .i1⟩ : BufTy).Contents (Elt F)) -- %296 = stablehlo.and %292, %295 : tensor<16x64xi1>
  :: StableHlo.unary main_v296 main_v297 (noti : (⟨S16x64, .i1⟩ : BufTy).Contents (Elt F) → (⟨S16x64, .i1⟩ : BufTy).Contents (Elt F)) -- %297 = stablehlo.not %296 : tensor<16x64xi1>
  :: StableHlo.nullary main_c_33 (constantI S_ 1 1#1) -- %c_33 = stablehlo.constant dense<true> : tensor<i1>
  :: StableHlo.binary main_v297 main_c_33 main_v298 ((fun x v => Host.reduce IntOp.andi x v reducesTo_S16x64_S64_d0 h_S_) : (⟨S16x64, .i1⟩ : BufTy).Contents (Elt F) → (⟨S_, .i1⟩ : BufTy).Contents (Elt F) → (⟨S64, .i1⟩ : BufTy).Contents (Elt F)) -- %298 = stablehlo.reduce(%297 init: %c_33) applies stablehlo.and across dimensions = [0] : (tensor<16x64xi1>...
  :: StableHlo.unary main_v298 main_v299 (uitofp .f32 : (⟨S64, .i1⟩ : BufTy).Contents (Elt F) → (⟨S64, .f32⟩ : BufTy).Contents (Elt F)) -- %299 = stablehlo.convert %298 : (tensor<64xi1>) -> tensor<64xf32>
  :: StableHlo.unary main_v296 main_v300 ((transpose S64x16 [1, 0] · transposes_S16x64_S64x16_1_0) : (⟨S16x64, .i1⟩ : BufTy).Contents (Elt F) → (⟨S64x16, .i1⟩ : BufTy).Contents (Elt F)) -- %300 = stablehlo.transpose %296, dims = [1, 0] : (tensor<16x64xi1>) -> tensor<64x16xi1>
  :: [] )

/-- The window is the straight line of its operations: both sides are the same chain of steps once the outlined
    functions' bodies are unfolded at their calls. -/
theorem main_part5_eq (c : Dev nD) : main_part5 (F := F) c = seq ops5 := by
  chain_rfl

/-- Each operation reads and writes TensorCore buffers only. -/
theorem ops5_sub : (ops5 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., ternary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., ternary_bufs_sub .., reshape_bufs_sub .., nullary_bufs_sub .., binary_bufs_sub .., nullary_bufs_sub .., binary_bufs_sub .., nullary_bufs_sub .., unary_bufs_sub .., binary_bufs_sub .., binary_bufs_sub .., unary_bufs_sub .., nullary_bufs_sub .., binary_bufs_sub .., unary_bufs_sub .., unary_bufs_sub ..⟩

/-- Each operation determines everything it writes. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.Hand.RefRun

end
-- ==== Proof.Ref.RunOps.lean ====
/- The reference's @main as ONE list of host operations: the six windows' lists appended in program order, and the
   facts about that list that follow window by window — @main is the straight line of the list, every operation
   touches TensorCore buffers only, every operation determines what it writes. The contents after the whole list are
   the contents after the last window's operations from those after the windows before it (`after_ops`). -/
import proofs.«124939_j34651796144492_2_alg».proof.Proof.Ref.RunOps0
import proofs.«124939_j34651796144492_2_alg».proof.Proof.Ref.RunOps1
import proofs.«124939_j34651796144492_2_alg».proof.Proof.Ref.RunOps2
import proofs.«124939_j34651796144492_2_alg».proof.Proof.Ref.RunOps3
import proofs.«124939_j34651796144492_2_alg».proof.Proof.Ref.RunOps4
import proofs.«124939_j34651796144492_2_alg».proof.Proof.Ref.RunOps5

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 362 operations, in order: the windows' lists one after the other. -/
abbrev ops : List (HloOp τ sig (Elt F)) :=
  ops0 ++ (ops1 ++ (ops2 ++ (ops3 ++ (ops4 ++ ops5))))

/-- The contents after two lines run one after the other: the second line's, from the first line's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The contents after @main's operations, window by window. -/
theorem after_ops (V : Valuation τ sig (Elt F)) :
    after (ops (F := F)) V = after ops5 (after ops4 (after ops3 (after ops2 (after ops1 (after ops0 V))))) := by
  simp only [ops, after_app]

/-- @main is the straight line of its operations: its windows in order, each the line of its own list. -/
theorem main_eq (c : Dev nD) : main (F := F) c = seq ops := by
  simp only [ops, seq_append, ← main_part0_eq c, ← main_part1_eq c, ← main_part2_eq c, ← main_part3_eq c,
    ← main_part4_eq c, ← main_part5_eq c]
  rfl

/-- Each operation reads and writes TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

/-- Each operation determines everything it writes. -/
theorem ops_fresh : ∀ op ∈ (ops : List (HloOp τ sig (Elt F))), op.fresh = ∅ := fun op h => by
  simp only [ops, List.mem_append] at h
  rcases h with h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h]

end Cert.Hand.RefRun

end
-- ==== Proof.Ref.RunKeep0.lean ====
/- The buffers that window 0 of the reference's @main writes, one per operation, in order: a buffer outside this
   list keeps its contents through the window. -/
import proofs.«124939_j34651796144492_2_alg».proof.Proof.Gen.ReferenceIdeal
import proofs.«124939_j34651796144492_2_alg».proof.Proof.Ref.RunOps0
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- The result buffers of operations 1 … 60. -/
abbrev W0 : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_c, main_v58]

set_option maxRecDepth 8192 in
/-- Every operation of the window writes inside that list. -/
theorem ops0_writes : (ops0 : List (HloOp τ sig (Elt F))).Forall fun op =>
    op.writes ⊆ (W0.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write holds after it what it held before. -/
theorem keep0 (V : Valuation τ sig (Elt F)) (r : Ref sig .tc) (h : r ∉ W0) :
    after ops0 V (Proc.devRef .tc r) = V (Proc.devRef .tc r) :=
  after_of_writes_sub ops0 V ops0_writes h

end Cert.Hand.RefRun

end
-- ==== Proof.Ref.RunKeep1.lean ====
/- The buffers that window 1 of the reference's @main writes, one per operation, in order: a buffer outside this
   list keeps its contents through the window. -/
import proofs.«124939_j34651796144492_2_alg».proof.Proof.Gen.ReferenceIdeal
import proofs.«124939_j34651796144492_2_alg».proof.Proof.Ref.RunOps1
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- The result buffers of operations 61 … 120. -/
abbrev W1 : List (Ref sig .tc) :=
  [main_v59, main_c_0, main_v60, main_v61, main_v62, main_v63, main_v64, main_c_1, main_v65, main_v66, main_c_2, main_v67, main_v68, main_v69, main_v70, main_v71, main_c_3, main_v72, main_v73, main_c_4, main_v74, main_v75, main_v76, main_v77, main_v78, main_c_5, main_v79, main_v80, main_c_6, main_v81, main_v82, main_v83, main_v84, main_v85, main_c_7, main_v86, main_v87, main_c_8, main_v88, main_v89, main_v90, main_v91, main_v92, main_c_9, main_v93, main_v94, main_c_10, main_v95, main_v96, main_v97, main_v98, main_v99, main_v100, main_v101, main_v102, main_v103, main_v104, main_v105, main_v106, main_v107]

set_option maxRecDepth 8192 in
/-- Every operation of the window writes inside that list. -/
theorem ops1_writes : (ops1 : List (HloOp τ sig (Elt F))).Forall fun op =>
    op.writes ⊆ (W1.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write holds after it what it held before. -/
theorem keep1 (V : Valuation τ sig (Elt F)) (r : Ref sig .tc) (h : r ∉ W1) :
    after ops1 V (Proc.devRef .tc r) = V (Proc.devRef .tc r) :=
  after_of_writes_sub ops1 V ops1_writes h

end Cert.Hand.RefRun

end
-- ==== Proof.Ref.RunKeep2.lean ====
/- The buffers that window 2 of the reference's @main writes, one per operation, in order: a buffer outside this
   list keeps its contents through the window. -/
import proofs.«124939_j34651796144492_2_alg».proof.Proof.Gen.ReferenceIdeal
import proofs.«124939_j34651796144492_2_alg».proof.Proof.Ref.RunOps2
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- The result buffers of operations 121 … 180. -/
abbrev W2 : List (Ref sig .tc) :=
  [main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_cst, main_v165, main_v166]

set_option maxRecDepth 8192 in
/-- Every operation of the window writes inside that list. -/
theorem ops2_writes : (ops2 : List (HloOp τ sig (Elt F))).Forall fun op =>
    op.writes ⊆ (W2.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write holds after it what it held before. -/
theorem keep2 (V : Valuation τ sig (Elt F)) (r : Ref sig .tc) (h : r ∉ W2) :
    after ops2 V (Proc.devRef .tc r) = V (Proc.devRef .tc r) :=
  after_of_writes_sub ops2 V ops2_writes h

end Cert.Hand.RefRun

end
-- ==== Proof.Ref.RunKeep3.lean ====
/- The buffers that window 3 of the reference's @main writes, one per operation, in order: a buffer outside this
   list keeps its contents through the window. -/
import proofs.«124939_j34651796144492_2_alg».proof.Proof.Gen.ReferenceIdeal
import proofs.«124939_j34651796144492_2_alg».proof.Proof.Ref.RunOps3
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- The result buffers of operations 181 … 248. -/
abbrev W3 : List (Ref sig .tc) :=
  [main_v167, main_v168, main_call0_cst, main_call0_v0, main_v169, main_cst_11, main_v170, main_v171, main_v172, main_v173, main_call1_cst, main_call1_v0, main_v174, main_v175, main_cst_12, main_v176, main_v177, main_v178, main_v179, main_call2_cst, main_call2_v0, main_v180, main_cst_13, main_v181, main_v182, main_v183, main_v184, main_call3_cst, main_call3_v0, main_v185, main_v186, main_v187, main_cst_14, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222]

set_option maxRecDepth 8192 in
/-- Every operation of the window writes inside that list. -/
theorem ops3_writes : (ops3 : List (HloOp τ sig (Elt F))).Forall fun op =>
    op.writes ⊆ (W3.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write holds after it what it held before. -/
theorem keep3 (V : Valuation τ sig (Elt F)) (r : Ref sig .tc) (h : r ∉ W3) :
    after ops3 V (Proc.devRef .tc r) = V (Proc.devRef .tc r) :=
  after_of_writes_sub ops3 V ops3_writes h

end Cert.Hand.RefRun

end
-- ==== Proof.Ref.RunKeep4.lean ====
/- The buffers that window 4 of the reference's @main writes, one per operation, in order: a buffer outside this
   list keeps its contents through the window. -/
import proofs.«124939_j34651796144492_2_alg».proof.Proof.Gen.ReferenceIdeal
import proofs.«124939_j34651796144492_2_alg».proof.Proof.Ref.RunOps4
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- The result buffers of operations 249 … 322. -/
abbrev W4 : List (Ref sig .tc) :=
  [main_v223, main_v224, main_v225, main_v226, main_v227, main_v228, main_v229, main_v230, main_v231, main_v232, main_v233, main_cst_15, main_v234, main_v235, main_v236, main_v237, main_call4_cst, main_call4_v0, main_v238, main_cst_16, main_v239, main_v240, main_v241, main_v242, main_call5_cst, main_call5_v0, main_v243, main_v244, main_cst_17, main_v245, main_v246, main_v247, main_v248, main_call6_cst, main_call6_v0, main_v249, main_cst_18, main_v250, main_v251, main_v252, main_v253, main_call7_cst, main_call7_v0, main_v254, main_v255, main_v256, main_cst_19, main_v257, main_v258, main_v259, main_v260, main_v261, main_call8_call0_c, main_call8_call0_v0, main_v262, main_c_20, main_v263, main_v264, main_v265, main_call9_call0_c, main_call9_call0_v0, main_v266, main_c_21, main_v267, main_v268, main_v269, main_v270, main_cst_22, main_v271, main_c_23, main_call10_v0, main_call10_v1, main_v272, main_c_24]

set_option maxRecDepth 8192 in
/-- Every operation of the window writes inside that list. -/
theorem ops4_writes : (ops4 : List (HloOp τ sig (Elt F))).Forall fun op =>
    op.writes ⊆ (W4.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write holds after it what it held before. -/
theorem keep4 (V : Valuation τ sig (Elt F)) (r : Ref sig .tc) (h : r ∉ W4) :
    after ops4 V (Proc.devRef .tc r) = V (Proc.devRef .tc r) :=
  after_of_writes_sub ops4 V ops4_writes h

end Cert.Hand.RefRun

end
-- ==== Proof.Ref.RunKeep5.lean ====
/- The buffers that window 5 of the reference's @main writes, one per operation, in order: a buffer outside this
   list keeps its contents through the window. -/
import proofs.«124939_j34651796144492_2_alg».proof.Proof.Gen.ReferenceIdeal
import proofs.«124939_j34651796144492_2_alg».proof.Proof.Ref.RunOps5
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- The result buffers of operations 323 … 362. -/
abbrev W5 : List (Ref sig .tc) :=
  [main_v273, main_v274, main_c_25, main_v275, main_v276, main_v277, main_v278, main_v279, main_v280, main_c_26, main_call11_v0, main_call11_v1, main_v281, main_c_27, main_v282, main_v283, main_c_28, main_v284, main_v285, main_v286, main_v287, main_v288, main_v289, main_cst_29, main_call12_v0, main_v290, main_v291, main_c_30, main_v292, main_cst_31, main_v293, main_cst_32, main_v294, main_v295, main_v296, main_v297, main_c_33, main_v298, main_v299, main_v300]

set_option maxRecDepth 8192 in
/-- Every operation of the window writes inside that list. -/
theorem ops5_writes : (ops5 : List (HloOp τ sig (Elt F))).Forall fun op =>
    op.writes ⊆ (W5.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write holds after it what it held before. -/
theorem keep5 (V : Valuation τ sig (Elt F)) (r : Ref sig .tc) (h : r ∉ W5) :
    after ops5 V (Proc.devRef .tc r) = V (Proc.devRef .tc r) :=
  after_of_writes_sub ops5 V ops5_writes h

end Cert.Hand.RefRun

end
-- ==== Proof.Ref.Run.lean ====
/- The reference's run read back. The reference is a host-only program: on every device its @main is the straight
   line of the 362 operations `ops`, so every weakly fair execution terminates without a fault, and each TensorCore
   buffer ends at the fold of the operations' results over what the device held at launch. The two result buffers
   are left at that fold; an argument buffer is written by no operation (it is in none of the windows' lists of
   written buffers), so it ends as it started — which is the reference's frame. -/
import proofs.«124939_j34651796144492_2_alg».proof.Proof.Ref.RunOps
import proofs.«124939_j34651796144492_2_alg».proof.Proof.Ref.RunKeep0
import proofs.«124939_j34651796144492_2_alg».proof.Proof.Ref.RunKeep1
import proofs.«124939_j34651796144492_2_alg».proof.Proof.Ref.RunKeep2
import proofs.«124939_j34651796144492_2_alg».proof.Proof.Ref.RunKeep3
import proofs.«124939_j34651796144492_2_alg».proof.Proof.Ref.RunKeep4
import proofs.«124939_j34651796144492_2_alg».proof.Proof.Ref.RunKeep5

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- The program scopes no buffer and no semaphore: it has no kernel. -/
theorem scopedRefs_eq : (Finset.univ.filter fun b : Ref sig .tc => b.isScoped) = ∅ := by decide +kernel
theorem scopedSems_eq : (Finset.univ.filter fun sm : SemLoc sig => sm.isScoped .tc) = ∅ := by decide +kernel

/-- A buffer that no window writes holds after @main's operations what it held before them. -/
theorem kept (V : Valuation τ sig (Elt F)) (r : Ref sig .tc) (h0 : r ∉ W0) (h1 : r ∉ W1) (h2 : r ∉ W2) (h3 : r ∉ W3)
    (h4 : r ∉ W4) (h5 : r ∉ W5) : after (ops (F := F)) V (Proc.devRef .tc r) = V (Proc.devRef .tc r) := by
  rw [after_ops, keep5 _ r h5, keep4 _ r h4, keep3 _ r h3, keep2 _ r h2, keep1 _ r h1, keep0 _ r h0]

theorem kept_main_arg0 (V : Valuation τ sig (Elt F)) :
    after (ops (F := F)) V (Proc.devRef .tc main_arg0) = V (Proc.devRef .tc main_arg0) :=
  kept V main_arg0 (by decide +kernel) (by decide +kernel) (by decide +kernel) (by decide +kernel) (by decide +kernel) (by decide +kernel)
theorem kept_main_arg1 (V : Valuation τ sig (Elt F)) :
    after (ops (F := F)) V (Proc.devRef .tc main_arg1) = V (Proc.devRef .tc main_arg1) :=
  kept V main_arg1 (by decide +kernel) (by decide +kernel) (by decide +kernel) (by decide +kernel) (by decide +kernel) (by decide +kernel)
theorem kept_main_arg2 (V : Valuation τ sig (Elt F)) :
    after (ops (F := F)) V (Proc.devRef .tc main_arg2) = V (Proc.devRef .tc main_arg2) :=
  kept V main_arg2 (by decide +kernel) (by decide +kernel) (by decide +kernel) (by decide +kernel) (by decide +kernel) (by decide +kernel)
theorem kept_main_arg3 (V : Valuation τ sig (Elt F)) :
    after (ops (F := F)) V (Proc.devRef .tc main_arg3) = V (Proc.devRef .tc main_arg3) :=
  kept V main_arg3 (by decide +kernel) (by decide +kernel) (by decide +kernel) (by decide +kernel) (by decide +kernel) (by decide +kernel)
theorem kept_main_arg4 (V : Valuation τ sig (Elt F)) :
    after (ops (F := F)) V (Proc.devRef .tc main_arg4) = V (Proc.devRef .tc main_arg4) :=
  kept V main_arg4 (by decide +kernel) (by decide +kernel) (by decide +kernel) (by decide +kernel) (by decide +kernel) (by decide +kernel)
theorem kept_main_arg5 (V : Valuation τ sig (Elt F)) :
    after (ops (F := F)) V (Proc.devRef .tc main_arg5) = V (Proc.devRef .tc main_arg5) :=
  kept V main_arg5 (by decide +kernel) (by decide +kernel) (by decide +kernel) (by decide +kernel) (by decide +kernel) (by decide +kernel)

/-- On every device, for any float values, from any memory with zero counters: every weakly fair execution of @main
    terminates with each result buffer at the operations' fold over the device's launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v300) = after ops (fun b => m (c, b)) (Proc.devRef .tc main_v300)
      ∧ r.2.mem ((c.tc : Thread nD τ).loc main_v299) = after ops (fun b => m (c, b)) (Proc.devRef .tc main_v299)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v300, h c main_v299,
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _)⟩)
    (run_seq scopedRefs_eq scopedSems_eq defs main (fun _ => ops) main_eq (fun _ => ops_sub) m ρ (fun _ => ops_fresh))

/-- The reference's frame: it runs to the end without a fault and its argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2.2) (run m ρ)

end Cert.Hand.RefRun

end
-- ==== Proof.KI.Blocks.lean ====
import proofs.«124939_j34651796144492_2_alg».proof.Proof.KI.Runs
import Idealize.ShloMosaic.Lib.ValueIdx
import Idealize.ShloMosaic.Lib.Pipeline.Value

set_option maxRecDepth 16384

noncomputable section

namespace Cert.Hand.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## Where each window's block sits in its array

Point t of the grid of eight takes columns 512·t … 512·t + 511 of the agent axis: of the three [16,1,4096] arrays,
of the box table's rows, and of the two [16,64,4096] outputs. The seven ego-side arrays are taken whole. -/

theorem idx_facts : ∀ t : Fin cfg0.N,
    (win0_0.index t (0 : Fin 3) = 0 ∧ win0_0.index t (1 : Fin 3) = 0 ∧ win0_0.index t (2 : Fin 3) = t.val) ∧ (win0_1.index t (0 : Fin 3) = 0 ∧ win0_1.index t (1 : Fin 3) = 0 ∧ win0_1.index t (2 : Fin 3) = t.val) ∧ (win0_2.index t (0 : Fin 3) = 0 ∧ win0_2.index t (1 : Fin 3) = 0 ∧ win0_2.index t (2 : Fin 3) = t.val)
    ∧ (win0_3.index t (0 : Fin 2) = t.val ∧ win0_3.index t (1 : Fin 2) = 0)
    ∧ (win0_4.index t (0 : Fin 3) = 0 ∧ win0_4.index t (1 : Fin 3) = 0 ∧ win0_4.index t (2 : Fin 3) = 0) ∧ (win0_5.index t (0 : Fin 3) = 0 ∧ win0_5.index t (1 : Fin 3) = 0 ∧ win0_5.index t (2 : Fin 3) = 0) ∧ (win0_6.index t (0 : Fin 3) = 0 ∧ win0_6.index t (1 : Fin 3) = 0 ∧ win0_6.index t (2 : Fin 3) = 0) ∧ (win0_7.index t (0 : Fin 3) = 0 ∧ win0_7.index t (1 : Fin 3) = 0 ∧ win0_7.index t (2 : Fin 3) = 0) ∧ (win0_8.index t (0 : Fin 3) = 0 ∧ win0_8.index t (1 : Fin 3) = 0 ∧ win0_8.index t (2 : Fin 3) = 0) ∧ (win0_9.index t (0 : Fin 3) = 0 ∧ win0_9.index t (1 : Fin 3) = 0 ∧ win0_9.index t (2 : Fin 3) = 0)
    ∧ (win0_10.index t (0 : Fin 2) = 0 ∧ win0_10.index t (1 : Fin 2) = 0)
    ∧ (win0_11.index t (0 : Fin 3) = 0 ∧ win0_11.index t (1 : Fin 3) = 0 ∧ win0_11.index t (2 : Fin 3) = t.val) ∧ (win0_12.index t (0 : Fin 3) = 0 ∧ win0_12.index t (1 : Fin 3) = 0 ∧ win0_12.index t (2 : Fin 3) = t.val) :=
  (by decide +kernel : ∀ t : Fin grid0.N, _)

theorem t_lt (t : Fin cfg0.N) : t.val < 8 := by have h := t.isLt; have hN : grid0.N = 8 := N_0; exact hN ▸ h

/-- Column j of point t's tile, in the agent axis. -/
def col (t : Fin cfg0.N) (j : Fin 512) : Fin 4096 := ⟨t.val * 512 + j.val, by have := t_lt t; omega⟩

theorem iblk0_apply (c : Dev nD) (t : Fin cfg0.N) (tt : Fin 16) (u : Fin 1) (j : Fin 512) :
    iblk m c 0 t (ix3 tt u j) = V m c main_v125 (ix3 tt (0 : Fin 1) (col t j)) := by
  show V m c main_v125 (((cfg0.win 0).blk t).view.emb (ix3 tt u j)) = V m c main_v125 _
  refine congrArg _ ?_
  obtain ⟨⟨a0, a1, a2⟩, ⟨b0, b1, b2⟩, ⟨c0, c1, c2⟩, -⟩ := idx_facts t
  funext a; apply Fin.ext
  match a with
  | ⟨0, _⟩ => show win0_0.index t (0 : Fin 3) * 16 + 1 * tt.val = tt.val; omega
  | ⟨1, _⟩ => show win0_0.index t (1 : Fin 3) * 1 + 1 * u.val = 0; have := u.isLt; omega
  | ⟨2, _⟩ => show win0_0.index t (2 : Fin 3) * 512 + 1 * j.val = t.val * 512 + j.val; omega

theorem iblk1_apply (c : Dev nD) (t : Fin cfg0.N) (tt : Fin 16) (u : Fin 1) (j : Fin 512) :
    iblk m c 1 t (ix3 tt u j) = V m c main_v126 (ix3 tt (0 : Fin 1) (col t j)) := by
  show V m c main_v126 (((cfg0.win 1).blk t).view.emb (ix3 tt u j)) = V m c main_v126 _
  refine congrArg _ ?_
  obtain ⟨⟨a0, a1, a2⟩, ⟨b0, b1, b2⟩, ⟨c0, c1, c2⟩, -⟩ := idx_facts t
  funext a; apply Fin.ext
  match a with
  | ⟨0, _⟩ => show win0_1.index t (0 : Fin 3) * 16 + 1 * tt.val = tt.val; omega
  | ⟨1, _⟩ => show win0_1.index t (1 : Fin 3) * 1 + 1 * u.val = 0; have := u.isLt; omega
  | ⟨2, _⟩ => show win0_1.index t (2 : Fin 3) * 512 + 1 * j.val = t.val * 512 + j.val; omega

theorem iblk2_apply (c : Dev nD) (t : Fin cfg0.N) (tt : Fin 16) (u : Fin 1) (j : Fin 512) :
    iblk m c 2 t (ix3 tt u j) = V m c main_v127 (ix3 tt (0 : Fin 1) (col t j)) := by
  show V m c main_v127 (((cfg0.win 2).blk t).view.emb (ix3 tt u j)) = V m c main_v127 _
  refine congrArg _ ?_
  obtain ⟨⟨a0, a1, a2⟩, ⟨b0, b1, b2⟩, ⟨c0, c1, c2⟩, -⟩ := idx_facts t
  funext a; apply Fin.ext
  match a with
  | ⟨0, _⟩ => show win0_2.index t (0 : Fin 3) * 16 + 1 * tt.val = tt.val; omega
  | ⟨1, _⟩ => show win0_2.index t (1 : Fin 3) * 1 + 1 * u.val = 0; have := u.isLt; omega
  | ⟨2, _⟩ => show win0_2.index t (2 : Fin 3) * 512 + 1 * j.val = t.val * 512 + j.val; omega

theorem iblk3_apply (c : Dev nD) (t : Fin cfg0.N) (j : Fin 512) (q : Fin 4) :
    iblk m c 3 t (ix2 j q) = V m c main_arg3 (ix2 (col t j) q) := by
  show V m c main_arg3 (((cfg0.win 3).blk t).view.emb (ix2 j q)) = V m c main_arg3 _
  refine congrArg _ ?_
  obtain ⟨-, -, -, ⟨d0, d1⟩, -⟩ := idx_facts t
  funext a; apply Fin.ext
  match a with
  | ⟨0, _⟩ => show win0_3.index t (0 : Fin 2) * 512 + 1 * j.val = t.val * 512 + j.val; omega
  | ⟨1, _⟩ => show win0_3.index t (1 : Fin 2) * 4 + 1 * q.val = q.val; omega

/-! ## The two outputs' blocks cover their arrays -/

theorem mem_blk11 (t : Fin cfg0.N) (i : S16x64x4096.Idx) :
    i ∈ ((cfg0.win 11).blk t).view.set ↔ ∀ a : Fin 3, win0_11.index t a * S16x64x512.size a ≤ (i a).val ∧ (i a).val < win0_11.index t a * S16x64x512.size a + S16x64x512.size a := by
  show i ∈ ((View.whole main_v132_0).slice (win0_11.rect t)).set ↔ _
  rw [View.set_slice_whole, Rect.mem_set_unit]
  exact Iff.rfl

/-- Column n of the agent axis lies in the tile of point n / 512. -/
theorem cover11 (i : S16x64x4096.Idx) : ∃ t : Fin cfg0.N, (cfg0.win 11).flush t = true ∧ i ∈ ((cfg0.win 11).blk t).view.set := by
  have h0 : (i 0).val < 16 := (i 0).isLt
  have h1 : (i 1).val < 64 := (i 1).isLt
  have h2 : (i 2).val < 4096 := (i 2).isLt
  have hN : grid0.N = 8 := N_0
  refine ⟨⟨(i 2).val / 512, by show _ < grid0.N; omega⟩, flush0_11 _, ?_⟩
  obtain ⟨-, -, -, -, -, -, -, -, -, -, -, ⟨p0, p1, p2⟩, ⟨q0, q1, q2⟩⟩ := idx_facts (⟨(i 2).val / 512, by show _ < grid0.N; omega⟩ : Fin cfg0.N)
  rw [mem_blk11]
  intro a
  match a with
  | ⟨0, _⟩ => show win0_11.index _ (0 : Fin 3) * 16 ≤ (i 0).val ∧ (i 0).val < win0_11.index _ (0 : Fin 3) * 16 + 16; omega
  | ⟨1, _⟩ => show win0_11.index _ (1 : Fin 3) * 64 ≤ (i 1).val ∧ (i 1).val < win0_11.index _ (1 : Fin 3) * 64 + 64; omega
  | ⟨2, _⟩ => show win0_11.index _ (2 : Fin 3) * 512 ≤ (i 2).val ∧ (i 2).val < win0_11.index _ (2 : Fin 3) * 512 + 512; simp only at p2 q2; omega

theorem mem_blk12 (t : Fin cfg0.N) (i : S16x64x4096.Idx) :
    i ∈ ((cfg0.win 12).blk t).view.set ↔ ∀ a : Fin 3, win0_12.index t a * S16x64x512.size a ≤ (i a).val ∧ (i a).val < win0_12.index t a * S16x64x512.size a + S16x64x512.size a := by
  show i ∈ ((View.whole main_v132_1).slice (win0_12.rect t)).set ↔ _
  rw [View.set_slice_whole, Rect.mem_set_unit]
  exact Iff.rfl

/-- Column n of the agent axis lies in the tile of point n / 512. -/
theorem cover12 (i : S16x64x4096.Idx) : ∃ t : Fin cfg0.N, (cfg0.win 12).flush t = true ∧ i ∈ ((cfg0.win 12).blk t).view.set := by
  have h0 : (i 0).val < 16 := (i 0).isLt
  have h1 : (i 1).val < 64 := (i 1).isLt
  have h2 : (i 2).val < 4096 := (i 2).isLt
  have hN : grid0.N = 8 := N_0
  refine ⟨⟨(i 2).val / 512, by show _ < grid0.N; omega⟩, flush0_12 _, ?_⟩
  obtain ⟨-, -, -, -, -, -, -, -, -, -, -, ⟨p0, p1, p2⟩, ⟨q0, q1, q2⟩⟩ := idx_facts (⟨(i 2).val / 512, by show _ < grid0.N; omega⟩ : Fin cfg0.N)
  rw [mem_blk12]
  intro a
  match a with
  | ⟨0, _⟩ => show win0_12.index _ (0 : Fin 3) * 16 ≤ (i 0).val ∧ (i 0).val < win0_12.index _ (0 : Fin 3) * 16 + 16; omega
  | ⟨1, _⟩ => show win0_12.index _ (1 : Fin 3) * 64 ≤ (i 1).val ∧ (i 1).val < win0_12.index _ (1 : Fin 3) * 64 + 64; omega
  | ⟨2, _⟩ => show win0_12.index _ (2 : Fin 3) * 512 ≤ (i 2).val ∧ (i 2).val < win0_12.index _ (2 : Fin 3) * 512 + 512; simp only at p2 q2; omega

/-- An entry of a block of an output window sits at the block's column in the array. -/
theorem emb11 (t : Fin cfg0.N) (tt : Fin 16) (e : Fin 64) (j : Fin 512) :
    ((cfg0.win 11).blk t).view.emb (ix3 tt e j) = ix3 tt e (col t j) := by
  obtain ⟨-, -, -, -, -, -, -, -, -, -, -, ⟨p0, p1, p2⟩, ⟨q0, q1, q2⟩⟩ := idx_facts t
  funext a; apply Fin.ext
  match a with
  | ⟨0, _⟩ => show win0_11.index t (0 : Fin 3) * 16 + 1 * tt.val = tt.val; omega
  | ⟨1, _⟩ => show win0_11.index t (1 : Fin 3) * 64 + 1 * e.val = e.val; omega
  | ⟨2, _⟩ => show win0_11.index t (2 : Fin 3) * 512 + 1 * j.val = t.val * 512 + j.val; omega

theorem emb12 (t : Fin cfg0.N) (tt : Fin 16) (e : Fin 64) (j : Fin 512) :
    ((cfg0.win 12).blk t).view.emb (ix3 tt e j) = ix3 tt e (col t j) := by
  obtain ⟨-, -, -, -, -, -, -, -, -, -, -, ⟨p0, p1, p2⟩, ⟨q0, q1, q2⟩⟩ := idx_facts t
  funext a; apply Fin.ext
  match a with
  | ⟨0, _⟩ => show win0_12.index t (0 : Fin 3) * 16 + 1 * tt.val = tt.val; omega
  | ⟨1, _⟩ => show win0_12.index t (1 : Fin 3) * 64 + 1 * e.val = e.val; omega
  | ⟨2, _⟩ => show win0_12.index t (2 : Fin 3) * 512 + 1 * j.val = t.val * 512 + j.val; omega

/-! ## The seven ego-side arrays are taken whole at every point -/

theorem iblk4_apply (c : Dev nD) (t : Fin cfg0.N) (y : S16x64x4.Idx) : iblk m c 4 t y = V m c main_v90 y := by
  show V m c main_v90 (((cfg0.win 4).blk t).view.emb y) = V m c main_v90 y
  refine congrArg _ ?_
  obtain ⟨-, -, -, -, ⟨e40, e41, e42⟩, ⟨e50, e51, e52⟩, ⟨e60, e61, e62⟩, ⟨e70, e71, e72⟩, ⟨e80, e81, e82⟩, ⟨e90, e91, e92⟩, -⟩ := idx_facts t
  funext a; apply Fin.ext
  match a with
  | ⟨0, _⟩ => show win0_4.index t (0 : Fin 3) * 16 + 1 * (y 0).val = (y 0).val; omega
  | ⟨1, _⟩ => show win0_4.index t (1 : Fin 3) * 64 + 1 * (y 1).val = (y 1).val; omega
  | ⟨2, _⟩ => show win0_4.index t (2 : Fin 3) * 4 + 1 * (y 2).val = (y 2).val; omega

theorem iblk5_apply (c : Dev nD) (t : Fin cfg0.N) (y : S16x64x4.Idx) : iblk m c 5 t y = V m c main_v104 y := by
  show V m c main_v104 (((cfg0.win 5).blk t).view.emb y) = V m c main_v104 y
  refine congrArg _ ?_
  obtain ⟨-, -, -, -, ⟨e40, e41, e42⟩, ⟨e50, e51, e52⟩, ⟨e60, e61, e62⟩, ⟨e70, e71, e72⟩, ⟨e80, e81, e82⟩, ⟨e90, e91, e92⟩, -⟩ := idx_facts t
  funext a; apply Fin.ext
  match a with
  | ⟨0, _⟩ => show win0_5.index t (0 : Fin 3) * 16 + 1 * (y 0).val = (y 0).val; omega
  | ⟨1, _⟩ => show win0_5.index t (1 : Fin 3) * 64 + 1 * (y 1).val = (y 1).val; omega
  | ⟨2, _⟩ => show win0_5.index t (2 : Fin 3) * 4 + 1 * (y 2).val = (y 2).val; omega

theorem iblk6_apply (c : Dev nD) (t : Fin cfg0.N) (y : S16x64x1.Idx) : iblk m c 6 t y = V m c main_v128 y := by
  show V m c main_v128 (((cfg0.win 6).blk t).view.emb y) = V m c main_v128 y
  refine congrArg _ ?_
  obtain ⟨-, -, -, -, ⟨e40, e41, e42⟩, ⟨e50, e51, e52⟩, ⟨e60, e61, e62⟩, ⟨e70, e71, e72⟩, ⟨e80, e81, e82⟩, ⟨e90, e91, e92⟩, -⟩ := idx_facts t
  funext a; apply Fin.ext
  match a with
  | ⟨0, _⟩ => show win0_6.index t (0 : Fin 3) * 16 + 1 * (y 0).val = (y 0).val; omega
  | ⟨1, _⟩ => show win0_6.index t (1 : Fin 3) * 64 + 1 * (y 1).val = (y 1).val; omega
  | ⟨2, _⟩ => show win0_6.index t (2 : Fin 3) * 1 + 1 * (y 2).val = (y 2).val; omega

theorem iblk7_apply (c : Dev nD) (t : Fin cfg0.N) (y : S16x64x1.Idx) : iblk m c 7 t y = V m c main_v129 y := by
  show V m c main_v129 (((cfg0.win 7).blk t).view.emb y) = V m c main_v129 y
  refine congrArg _ ?_
  obtain ⟨-, -, -, -, ⟨e40, e41, e42⟩, ⟨e50, e51, e52⟩, ⟨e60, e61, e62⟩, ⟨e70, e71, e72⟩, ⟨e80, e81, e82⟩, ⟨e90, e91, e92⟩, -⟩ := idx_facts t
  funext a; apply Fin.ext
  match a with
  | ⟨0, _⟩ => show win0_7.index t (0 : Fin 3) * 16 + 1 * (y 0).val = (y 0).val; omega
  | ⟨1, _⟩ => show win0_7.index t (1 : Fin 3) * 64 + 1 * (y 1).val = (y 1).val; omega
  | ⟨2, _⟩ => show win0_7.index t (2 : Fin 3) * 1 + 1 * (y 2).val = (y 2).val; omega

theorem iblk8_apply (c : Dev nD) (t : Fin cfg0.N) (y : S16x64x1.Idx) : iblk m c 8 t y = V m c main_v130 y := by
  show V m c main_v130 (((cfg0.win 8).blk t).view.emb y) = V m c main_v130 y
  refine congrArg _ ?_
  obtain ⟨-, -, -, -, ⟨e40, e41, e42⟩, ⟨e50, e51, e52⟩, ⟨e60, e61, e62⟩, ⟨e70, e71, e72⟩, ⟨e80, e81, e82⟩, ⟨e90, e91, e92⟩, -⟩ := idx_facts t
  funext a; apply Fin.ext
  match a with
  | ⟨0, _⟩ => show win0_8.index t (0 : Fin 3) * 16 + 1 * (y 0).val = (y 0).val; omega
  | ⟨1, _⟩ => show win0_8.index t (1 : Fin 3) * 64 + 1 * (y 1).val = (y 1).val; omega
  | ⟨2, _⟩ => show win0_8.index t (2 : Fin 3) * 1 + 1 * (y 2).val = (y 2).val; omega

theorem iblk9_apply (c : Dev nD) (t : Fin cfg0.N) (y : S16x64x1.Idx) : iblk m c 9 t y = V m c main_v131 y := by
  show V m c main_v131 (((cfg0.win 9).blk t).view.emb y) = V m c main_v131 y
  refine congrArg _ ?_
  obtain ⟨-, -, -, -, ⟨e40, e41, e42⟩, ⟨e50, e51, e52⟩, ⟨e60, e61, e62⟩, ⟨e70, e71, e72⟩, ⟨e80, e81, e82⟩, ⟨e90, e91, e92⟩, -⟩ := idx_facts t
  funext a; apply Fin.ext
  match a with
  | ⟨0, _⟩ => show win0_9.index t (0 : Fin 3) * 16 + 1 * (y 0).val = (y 0).val; omega
  | ⟨1, _⟩ => show win0_9.index t (1 : Fin 3) * 64 + 1 * (y 1).val = (y 1).val; omega
  | ⟨2, _⟩ => show win0_9.index t (2 : Fin 3) * 1 + 1 * (y 2).val = (y 2).val; omega

theorem iblk10_apply (c : Dev nD) (t : Fin cfg0.N) (y : S64x4.Idx) : iblk m c 10 t y = V m c main_v52 y := by
  show V m c main_v52 (((cfg0.win 10).blk t).view.emb y) = V m c main_v52 y
  refine congrArg _ ?_
  obtain ⟨-, -, -, -, -, -, -, -, -, -, ⟨g0, g1⟩, -⟩ := idx_facts t
  funext a; apply Fin.ext
  match a with
  | ⟨0, _⟩ => show win0_10.index t (0 : Fin 2) * 64 + 1 * (y 0).val = (y 0).val; omega
  | ⟨1, _⟩ => show win0_10.index t (1 : Fin 2) * 4 + 1 * (y 1).val = (y 1).val; omega

end Cert.Hand.KI

end
-- ==== Proof.Spec.lean ====
import Idealize.ShloMosaic.PureOps.Ideal
import Idealize.ShloMosaic.Lib.ValueIdx

/-!
The specification, index by index, over the extended reals.

At time step t an agent is a point (px, py), a heading given by its cosine c and sine s, and a box of half-extents
f (front), r (rear), l (left), rt (right). Corner q of an agent's box, q = 0..3, has local coordinates
(f, l), (f, -rt), (-r, -rt), (-r, l) and global coordinates (px + c·lx − s·ly, py + s·lx + c·ly).
A point with coordinates (lx, ly) in a box's own frame overlaps the box by
min (min (f − lx)⁺ (r + lx)⁺) (min (l − ly)⁺ (rt + ly)⁺), where x⁺ = max x 0.
For an ego i and an agent j the two tensors are the best overlap over the four corners:
A[t, i, j]: the ego's corners seen in the agent's frame against the agent's box;
B[t, i, j]: the agent's corners seen in the ego's frame against the ego's box.
The ego of row i is the agent at the clamped index of the integer ego_index[i] (a negative index counted from the end).
-/

noncomputable section

namespace Cert.Hand.Spec

open Idealize.ShloMosaic Idealize.ShloMosaic.ValueIdx

/-- The positive part. -/
def pos (x : EReal) : EReal := max x 0

/-- How far the point (lx, ly), in a box's own frame, lies inside the box of half-extents f, r, l, rt. -/
def ov (lx ly f r l rt : EReal) : EReal :=
  min (min (pos (f - lx)) (pos (r + lx))) (min (pos (l - ly)) (pos (rt + ly)))

/-- An agent at one time step: position, cosine and sine of the heading, the box's four half-extents. -/
structure Agent where
  px : EReal
  py : EReal
  c : EReal
  s : EReal
  f : EReal
  r : EReal
  l : EReal
  rt : EReal

/-- Local x of corner q: f, f, −r, −r. -/
def lxq (b : Agent) : Fin 4 → EReal := ![b.f, b.f, -b.r, -b.r]
/-- Local y of corner q: l, −rt, −rt, l. -/
def lyq (b : Agent) : Fin 4 → EReal := ![b.l, -b.rt, -b.rt, b.l]

/-- Global x of corner q of b. -/
def cornX (b : Agent) (q : Fin 4) : EReal := b.px + b.c * lxq b q - b.s * lyq b q
/-- Global y of corner q of b. -/
def cornY (b : Agent) (q : Fin 4) : EReal := b.py + b.s * lxq b q + b.c * lyq b q

/-- Corner q of b, taken into a's frame, against a's box. -/
def ovOf (a b : Agent) (q : Fin 4) : EReal :=
  ov (a.c * (cornX b q - a.px) + a.s * (cornY b q - a.py))
     (-a.s * (cornX b q - a.px) + a.c * (cornY b q - a.py)) a.f a.r a.l a.rt

/-- The best overlap of b's four corners with a's box. -/
def best (a b : Agent) : EReal := max (max (max (ovOf a b 0) (ovOf a b 1)) (ovOf a b 2)) (ovOf a b 3)

/-- Every overlap is nonnegative. -/
theorem pos_nonneg (x : EReal) : 0 ≤ pos x := le_max_right _ _
theorem ov_nonneg (lx ly f r l rt : EReal) : 0 ≤ ov lx ly f r l rt :=
  le_min (le_min (pos_nonneg _) (pos_nonneg _)) (le_min (pos_nonneg _) (pos_nonneg _))
theorem ovOf_nonneg (a b : Agent) (q : Fin 4) : 0 ≤ ovOf a b q := ov_nonneg _ _ _ _ _ _
theorem best_nonneg (a b : Agent) : 0 ≤ best a b := le_trans (ovOf_nonneg a b 3) (le_max_right _ _)

/-- A running maximum from zero over the four corners is the best overlap. -/
theorem best_from_zero (a b : Agent) :
    max (max (max (max 0 (ovOf a b 0)) (ovOf a b 1)) (ovOf a b 2)) (ovOf a b 3) = best a b := by
  unfold best; rw [max_eq_right (ovOf_nonneg a b 0)]

/-- A maximum over the four corners from −∞ is the best overlap. -/
theorem best_from_bot (a b : Agent) :
    max (max (max (max ⊥ (ovOf a b 0)) (ovOf a b 1)) (ovOf a b 2)) (ovOf a b 3) = best a b := by
  unfold best; rw [max_eq_right bot_le]

/-- Time step t of the window of the last sixteen of the twenty steps. -/
def step (t : Fin 16) : Fin 20 := ⟨t.val + 4, by omega⟩

/-- Agent n at time step t, from the input arrays. -/
def agentAt (position : (⟨3, ![4096, 20, 2]⟩ : Shape).Idx → EReal) (heading : (⟨2, ![4096, 20]⟩ : Shape).Idx → EReal)
    (box : (⟨2, ![4096, 4]⟩ : Shape).Idx → EReal) (t : Fin 16) (n : Fin 4096) : Agent where
  px := position (ix3 n (step t) (0 : Fin 2))
  py := position (ix3 n (step t) (1 : Fin 2))
  c := Ideal.cos (heading (ix2 n (step t)))
  s := Ideal.sin (heading (ix2 n (step t)))
  f := box (ix2 n (0 : Fin 4))
  r := box (ix2 n (1 : Fin 4))
  l := box (ix2 n (2 : Fin 4))
  rt := box (ix2 n (3 : Fin 4))

/-- An integer index normalised as jnp does: a negative one counted from the end of an axis of extent 4096. -/
def normIdx (e : BitVec 32) : BitVec 32 := Scalar.select (Scalar.cmpi .slt e 0#32) (Scalar.addi e 4096#32) e

/-- The row a gather reads for the index word e: clamped into the axis. -/
def rowOf (e : BitVec 32) : Fin 4096 := ⟨min (normIdx e).toInt.toNat 4095, by omega⟩

/-- The agent that is ego i. -/
def egoRow (ego : (⟨1, ![64]⟩ : Shape).Idx → BitVec 32) (i : Fin 64) : Fin 4096 := rowOf (ego (ix1 i))

/-- A[t, i, j]. -/
def A (position : (⟨3, ![4096, 20, 2]⟩ : Shape).Idx → EReal) (heading : (⟨2, ![4096, 20]⟩ : Shape).Idx → EReal)
    (box : (⟨2, ![4096, 4]⟩ : Shape).Idx → EReal) (ego : (⟨1, ![64]⟩ : Shape).Idx → BitVec 32) (t : Fin 16) (i : Fin 64) (j : Fin 4096) : EReal :=
  best (agentAt position heading box t j) (agentAt position heading box t (egoRow ego i))

/-- B[t, i, j]. -/
def B (position : (⟨3, ![4096, 20, 2]⟩ : Shape).Idx → EReal) (heading : (⟨2, ![4096, 20]⟩ : Shape).Idx → EReal)
    (box : (⟨2, ![4096, 4]⟩ : Shape).Idx → EReal) (ego : (⟨1, ![64]⟩ : Shape).Idx → BitVec 32) (t : Fin 16) (i : Fin 64) (j : Fin 4096) : EReal :=
  best (agentAt position heading box t (egoRow ego i)) (agentAt position heading box t j)

end Cert.Hand.Spec

end
-- ==== Proof.Tail.lean ====
import Idealize.ShloMosaic.PureOps
import Idealize.ShloMosaic.PureOps.Ideal

/-!
The part the two programs share, as two functions of arrays, stated once and never opened.

`mask`: which (time step, ego, agent) triples are edges — the ego valid at that step, the agent valid at that step,
both in the same scene, and the agent not the ego itself — from the validity bits, the scene ids and the ego indices.

`tail`: from the edge mask and the two overlap tensors A and B, the pair (done transposed, reward): the edges of A in
(step, ego, agent) order are paired with the edges of B in (step, agent, ego) order by their running counts, the larger
overlap of each pair is kept, and an ego is done at a step when it has an edge whose kept overlap is positive; the reward
of an ego is 1 when it is done at no step.

Both are written operation by operation in the order the programs apply them, over literal shapes, with the shapes' side
conditions proved here, so that each program's own chain of operations is this term up to the proofs it carries.
-/

set_option synthInstance.maxSize 4096

noncomputable section

namespace Cert.Hand.Tail

open Idealize.ShloMosaic

abbrev S4096x20 : Shape := ⟨2, ![4096, 20]⟩
abbrev S4096x16 : Shape := ⟨2, ![4096, 16]⟩
abbrev S16x4096 : Shape := ⟨2, ![16, 4096]⟩
abbrev S_ : Shape := ⟨0, ![]⟩
abbrev S64 : Shape := ⟨1, ![64]⟩
abbrev S64x1 : Shape := ⟨2, ![64, 1]⟩
abbrev S16x64 : Shape := ⟨2, ![16, 64]⟩
abbrev S4096 : Shape := ⟨1, ![4096]⟩
abbrev S16x64x1 : Shape := ⟨3, ![16, 64, 1]⟩
abbrev S16x1x4096 : Shape := ⟨3, ![16, 1, 4096]⟩
abbrev S16x64x4096 : Shape := ⟨3, ![16, 64, 4096]⟩
abbrev S1x64x1 : Shape := ⟨3, ![1, 64, 1]⟩
abbrev S1x1x4096 : Shape := ⟨3, ![1, 1, 4096]⟩
abbrev S1x64x4096 : Shape := ⟨3, ![1, 64, 4096]⟩
abbrev S4194304 : Shape := ⟨1, ![4194304]⟩
abbrev S16x4096x64 : Shape := ⟨3, ![16, 4096, 64]⟩
abbrev S4194305 : Shape := ⟨1, ![4194305]⟩
abbrev S4194304x1 : Shape := ⟨2, ![4194304, 1]⟩
abbrev S64x16 : Shape := ⟨2, ![64, 16]⟩

/-! The shapes' side conditions. -/

theorem slices_S4096x20_S4096x16_0_4 : S4096x20.Slices ![0, 4] S4096x16 := by decide
theorem transposes_S4096x16_S16x4096_1_0 : S4096x16.Transposes [1, 0] S16x4096 := by decide
theorem bcast_S_S64 : S_.BroadcastsInDim S64 (![] : Fin 0 → Fin S64.rank) := by decide
theorem bcast_S64_S64x1_0 : S64.BroadcastsInDim S64x1 (![0] : Fin 1 → Fin S64x1.rank) := by decide
theorem gather_S16x4096_S64x1_S16x64_0_1_n_n_1_1_161_wf : GatherDims.WF S16x4096 S64x1 S16x64 [0] [1] [] [1] [] 1 ![16, 1] := by decide
theorem gather_S4096_S64x1_S64_n_0_n_n_0_1_1_wf : GatherDims.WF S4096 S64x1 S64 [] [0] [] [0] [] 1 ![1] := by decide
theorem bcast_S16x64_S16x64x1_0_1 : S16x64.BroadcastsInDim S16x64x1 (![0, 1] : Fin 2 → Fin S16x64x1.rank) := by decide
theorem bcast_S16x4096_S16x1x4096_0_2 : S16x4096.BroadcastsInDim S16x1x4096 (![0, 2] : Fin 2 → Fin S16x1x4096.rank) := by decide
theorem bcast_S16x64x1_S16x64x4096_0_1_2 : S16x64x1.BroadcastsInDim S16x64x4096 (![0, 1, 2] : Fin 3 → Fin S16x64x4096.rank) := by decide
theorem bcast_S16x1x4096_S16x64x4096_0_1_2 : S16x1x4096.BroadcastsInDim S16x64x4096 (![0, 1, 2] : Fin 3 → Fin S16x64x4096.rank) := by decide
theorem bcast_S64_S1x64x1_1 : S64.BroadcastsInDim S1x64x1 (![1] : Fin 1 → Fin S1x64x1.rank) := by decide
theorem bcast_S4096_S1x1x4096_2 : S4096.BroadcastsInDim S1x1x4096 (![2] : Fin 1 → Fin S1x1x4096.rank) := by decide
theorem bcast_S1x64x1_S1x64x4096_0_1_2 : S1x64x1.BroadcastsInDim S1x64x4096 (![0, 1, 2] : Fin 3 → Fin S1x64x4096.rank) := by decide
theorem bcast_S1x1x4096_S1x64x4096_0_1_2 : S1x1x4096.BroadcastsInDim S1x64x4096 (![0, 1, 2] : Fin 3 → Fin S1x64x4096.rank) := by decide
theorem bcast_S1x64x4096_S16x64x4096_0_1_2 : S1x64x4096.BroadcastsInDim S16x64x4096 (![0, 1, 2] : Fin 3 → Fin S16x64x4096.rank) := by decide
theorem shapeCasts_S16x64x4096_S4194304 : S16x64x4096.ShapeCasts S4194304 := by decide
theorem transposes_S16x64x4096_S16x4096x64_0_2_1 : S16x64x4096.Transposes [0, 2, 1] S16x4096x64 := by decide
theorem shapeCasts_S16x4096x64_S4194304 : S16x4096x64.ShapeCasts S4194304 := by decide
theorem natLt_1_32 : 1 < 32 := by decide
theorem bcast_S_S_ : S_.BroadcastsInDim S_ (![] : Fin 0 → Fin S_.rank) := by decide
theorem reduceWindows_S4194304_S4194304_w4194304s1p4194303_0 : S4194304.ReduceWindows (![4194304] : Fin 1 → Nat) ![1] ![4194303] ![0] S4194304 := by decide
theorem h_S_ : 0 < S_.numel := by decide
theorem bcast_S_S4194304 : S_.BroadcastsInDim S4194304 (![] : Fin 0 → Fin S4194304.rank) := by decide
theorem bcast_S_S4194305 : S_.BroadcastsInDim S4194305 (![] : Fin 0 → Fin S4194305.rank) := by decide
theorem bcast_S4194304_S4194304x1_0 : S4194304.BroadcastsInDim S4194304x1 (![0] : Fin 1 → Fin S4194304x1.rank) := by decide
theorem scatter_S4194305_S4194304x1_S4194304_n_0_0_1_wf : ScatterDims.WF S4194305 S4194304x1 S4194304 [] [0] [0] 1 := by decide
theorem gather_S4194305_S4194304x1_S4194304_n_0_n_n_0_1_1_wf : GatherDims.WF S4194305 S4194304x1 S4194304 [] [0] [] [0] [] 1 ![1] := by decide
theorem shapeCasts_S4194304_S16x64x4096 : S4194304.ShapeCasts S16x64x4096 := by decide
theorem reducesTo_S16x64x4096_S16x64_d2 : S16x64x4096.ReducesTo [2] S16x64 := by decide
theorem bcast_S_S16x64 : S_.BroadcastsInDim S16x64 (![] : Fin 0 → Fin S16x64.rank) := by decide
theorem reducesTo_S16x64_S64_d0 : S16x64.ReducesTo [0] S64 := by decide
theorem transposes_S16x64_S64x16_1_0 : S16x64.Transposes [1, 0] S64x16 := by decide

/-- Reading `x[idx]` along the second axis of a [16, 4096] array at 64 start indices. -/
def gather_S16x4096_S64x1_S16x64_0_1_n_n_1_1_161 : GatherDims S16x4096 S64x1 S16x64 where
  offsetDims := [0]
  collapsedSliceDims := [1]
  operandBatchingDims := []
  startIndicesBatchingDims := []
  startIndexMap := [1]
  indexVectorDim := 1
  sliceSizes := ![16, 1]
  wf := gather_S16x4096_S64x1_S16x64_0_1_n_n_1_1_161_wf
/-- Reading `x[idx]` of a flat [4096] array at 64 start indices. -/
def gather_S4096_S64x1_S64_n_0_n_n_0_1_1 : GatherDims S4096 S64x1 S64 where
  offsetDims := []
  collapsedSliceDims := [0]
  operandBatchingDims := []
  startIndicesBatchingDims := []
  startIndexMap := [0]
  indexVectorDim := 1
  sliceSizes := ![1]
  wf := gather_S4096_S64x1_S64_n_0_n_n_0_1_1_wf
/-- Writing one element per update into a flat [4194305] array. -/
def scatter_S4194305_S4194304x1_S4194304_n_0_0_1 : ScatterDims S4194305 S4194304x1 S4194304 where
  updateWindowDims := []
  insertedWindowDims := [0]
  scatterDimsToOperandDims := [0]
  indexVectorDim := 1
  wf := scatter_S4194305_S4194304x1_S4194304_n_0_0_1_wf
/-- Reading `x[idx]` of a flat [4194305] array at 4194304 start indices. -/
def gather_S4194305_S4194304x1_S4194304_n_0_n_n_0_1_1 : GatherDims S4194305 S4194304x1 S4194304 where
  offsetDims := []
  collapsedSliceDims := [0]
  operandBatchingDims := []
  startIndicesBatchingDims := []
  startIndexMap := [0]
  indexVectorDim := 1
  sliceSizes := ![1]
  wf := gather_S4194305_S4194304x1_S4194304_n_0_n_n_0_1_1_wf

/-- An integer index as jnp normalises it before a gather (a negative one counted from the end), as a column of
    start indices. -/
def startIdx (ego : IVec S64 32) : IVec S64x1 32 :=
  broadcastInDim S64x1 ![0] bcast_S64_S64x1_0
    (select (cmpi .slt ego (broadcastInDim S64 ![] bcast_S_S64 (constantI S_ 32 0#32)))
      (addi ego (broadcastInDim S64 ![] bcast_S_S64 (constantI S_ 32 4096#32))) ego)

/-- The edge mask [16, 64, 4096] from the validity bits [4096, 20], the scene ids [4096] and the ego indices [64]. -/
def mask (valid : IVec S4096x20 1) (batch : IVec S4096 32) (ego : IVec S64 32) : IVec S16x64x4096 1 :=
  let mskT : IVec S16x4096 1 :=
    transpose S16x4096 [1, 0] (extractStridedSlice S4096x16 ![0, 4] valid slices_S4096x20_S4096x16_0_4) transposes_S4096x16_S16x4096_1_0
  let emsk : IVec S16x64 1 := Host.gather gather_S16x4096_S64x1_S16x64_0_1_n_n_1_1_161 mskT (startIdx ego)
  let ebatch : IVec S64 32 := Host.gather gather_S4096_S64x1_S64_n_0_n_n_0_1_1 batch (startIdx ego)
  andi
    (andi
      (andi
        (broadcastInDim S16x64x4096 ![0, 1, 2] bcast_S16x64x1_S16x64x4096_0_1_2
          (broadcastInDim S16x64x1 ![0, 1] bcast_S16x64_S16x64x1_0_1 emsk))
        (broadcastInDim S16x64x4096 ![0, 1, 2] bcast_S16x1x4096_S16x64x4096_0_1_2
          (broadcastInDim S16x1x4096 ![0, 2] bcast_S16x4096_S16x1x4096_0_2 mskT)))
      (broadcastInDim S16x64x4096 ![0, 1, 2] bcast_S1x64x4096_S16x64x4096_0_1_2
        (cmpi .eq
          (broadcastInDim S1x64x4096 ![0, 1, 2] bcast_S1x64x1_S1x64x4096_0_1_2
            (broadcastInDim S1x64x1 ![1] bcast_S64_S1x64x1_1 ebatch))
          (broadcastInDim S1x64x4096 ![0, 1, 2] bcast_S1x1x4096_S1x64x4096_0_1_2
            (broadcastInDim S1x1x4096 ![2] bcast_S4096_S1x1x4096_2 batch)))))
    (broadcastInDim S16x64x4096 ![0, 1, 2] bcast_S1x64x4096_S16x64x4096_0_1_2
      (cmpi .ne
        (broadcastInDim S1x64x4096 ![0, 1, 2] bcast_S1x64x1_S1x64x4096_0_1_2
          (broadcastInDim S1x64x1 ![1] bcast_S64_S1x64x1_1 ego))
        (broadcastInDim S1x64x4096 ![0, 1, 2] bcast_S1x1x4096_S1x64x4096_0_1_2
          (broadcastInDim S1x1x4096 ![2] bcast_S4096_S1x1x4096_2 (iotaInDim S4096 32 0)))))

/-- The running count of set bits, less one: the position of each edge in its list. -/
def rank (m : IVec S4194304 1) : IVec S4194304 32 :=
  subi
    (Host.reduceWindow IntOp.addi ![4194304] ![1] ![4194303] ![0] (extui 32 m natLt_1_32)
      (broadcastInDim S_ ![] bcast_S_S_ (constantI S_ 32 0#32)) reduceWindows_S4194304_S4194304_w4194304s1p4194303_0 h_S_)
    (broadcastInDim S4194304 ![] bcast_S_S4194304 (constantI S_ 32 1#32))

/-- Where an element goes or comes from: its rank where the mask is set, the spare last slot elsewhere; as a column
    of normalised start indices. -/
def slot (m : IVec S4194304 1) : IVec S4194304x1 32 :=
  let w : IVec S4194304 32 :=
    select m (rank m) (broadcastInDim S4194304 ![] bcast_S_S4194304 (id (constantI S_ 32 4194304#32)))
  broadcastInDim S4194304x1 ![0] bcast_S4194304_S4194304x1_0
    (select (cmpi .slt w (broadcastInDim S4194304 ![] bcast_S_S4194304 (constantI S_ 32 0#32)))
      (addi w (broadcastInDim S4194304 ![] bcast_S_S4194304 (constantI S_ 32 4194305#32))) w)

/-- (done transposed [64, 16], reward [64]) from the edge mask and the two overlap tensors. -/
def tail (mask : IVec S16x64x4096 1) (A B : FVec Ideal S16x64x4096 .f32) : IVec S64x16 1 × FVec Ideal S64 .f32 :=
  let m1 : IVec S4194304 1 := shapeCast S4194304 mask shapeCasts_S16x64x4096_S4194304
  let m2 : IVec S4194304 1 :=
    shapeCast S4194304 (transpose S16x4096x64 [0, 2, 1] mask transposes_S16x64x4096_S16x4096x64_0_2_1) shapeCasts_S16x4096x64_S4194304
  let Bflat : FVec Ideal S4194304 .f32 :=
    shapeCast S4194304 (transpose S16x4096x64 [0, 2, 1] B transposes_S16x64x4096_S16x4096x64_0_2_1) shapeCasts_S16x4096x64_S4194304
  let Bsorted : FVec Ideal S4194305 .f32 :=
    Host.scatter scatter_S4194305_S4194304x1_S4194304_n_0_0_1 (fun _ b => b)
      (broadcastInDim S4194305 ![] bcast_S_S4194305 (constant (F := Ideal) S_ .f32 0x00000000#32)) (slot m2) Bflat
  let loss : FVec Ideal S4194304 .f32 :=
    maximumf (shapeCast S4194304 A shapeCasts_S16x64x4096_S4194304)
      (Host.gather gather_S4194305_S4194304x1_S4194304_n_0_n_n_0_1_1 Bsorted (slot m1))
  let loss3 : FVec Ideal S16x64x4096 .f32 :=
    shapeCast S16x64x4096
      (select m1 loss (broadcastInDim S4194304 ![] bcast_S_S4194304 (constant (F := Ideal) S_ .f32 0xFF7FFFFF#32)))
      shapeCasts_S4194304_S16x64x4096
  let hasEdge : IVec S16x64 1 := Host.reduce IntOp.ori mask (constantI S_ 1 0#1) reducesTo_S16x64x4096_S16x64_d2 h_S_
  let maxLoss : FVec Ideal S16x64 .f32 :=
    Host.reduce FloatOps.maximumf loss3 (constant (F := Ideal) S_ .f32 0xFF800000#32) reducesTo_S16x64x4096_S16x64_d2 h_S_
  let done : IVec S16x64 1 :=
    andi hasEdge (cmpf .ogt maxLoss (broadcastInDim S16x64 ![] bcast_S_S16x64 (constant (F := Ideal) S_ .f32 0x00000000#32)))
  (transpose S64x16 [1, 0] done transposes_S16x64_S64x16_1_0,
   uitofp .f32 (Host.reduce IntOp.andi (noti done) (constantI S_ 1 1#1) reducesTo_S16x64_S64_d0 h_S_))

end Cert.Hand.Tail

end
-- ==== Proof.KBody.Formula.lean ====
import Idealize.ShloMosaic.PureOps.Ideal
import Idealize.ShloMosaic.Lib.ValueIdx

/-!
The two stored slabs of one time step, entry by entry, as formulas over the extended reals.

For an agent column j and an ego row e at time step t the kernel keeps a running maximum, started at zero, over the four
corners q of a box: for the first slab the ego's corner q (its global coordinates are loaded) is taken into the agent's
frame — rotated by the agent's heading about the agent's position — and measured against the agent's box; for the
second slab the agent's corner q is first built from the agent's position, heading and box columns, then taken into the
ego's frame and measured against the ego's box. The measure of a point (x, y) in a box's frame against the half-extents
f, r, l, rt is min (min (f + 0 − x)⁺ (r + 0 + x)⁺) (min (l + 0 − y)⁺ (rt + 0 + y)⁺): the two zero thresholds are kept as the
kernel adds them.
-/

noncomputable section

namespace Cert.Hand.KBody

open Idealize.ShloMosaic Idealize.ShloMosaic.ValueIdx

/-- The positive part. -/
def relu (x : EReal) : EReal := max x 0

/-- A point (x, y) in a box's own frame against the box's half-extents f, r, l, rt, each with its zero threshold added. -/
def ovl (f r l rt x y : EReal) : EReal :=
  min (min (relu (f + 0 - x)) (relu (r + 0 + x))) (min (relu (l + 0 - y)) (relu (rt + 0 + y)))

/-- First coordinate of (dx, dy) turned by the heading (c, s) into the frame. -/
def rotx (c s dx dy : EReal) : EReal := c * dx + s * dy
/-- Second coordinate of (dx, dy) turned by the heading (c, s) into the frame; the sine is negated as 0 − s. -/
def roty (c s dx dy : EReal) : EReal := (0 - s) * dx + c * dy

/-- The point (ex, ey) seen from the frame at (px, py) with heading (c, s), against the box f, r, l, rt. -/
def ovA (f r l rt c s px py ex ey : EReal) : EReal :=
  ovl f r l rt (rotx c s (ex - px) (ey - py)) (roty c s (ex - px) (ey - py))

/-- The corner with local coordinates (lx, ly) of the box at (px, py) with heading (c, s), seen from the frame at
    (epx, epy) with heading (ce, se), against the box ef, er, el, ert. -/
def ovB (ef er el ert ce se epx epy c s px py lx ly : EReal) : EReal :=
  ovl ef er el ert (rotx ce se (px + c * lx - s * ly - epx) (py + s * lx + c * ly - epy))
    (roty ce se (px + c * lx - s * ly - epx) (py + s * lx + c * ly - epy))

/-- Corner q of ego row e against agent column j at time step t, from the loaded blocks. -/
def cornerA (box : (⟨2, ![512, 4]⟩ : Shape).Idx → EReal) (px py yw : (⟨3, ![16, 1, 512]⟩ : Shape).Idx → EReal)
    (ecx ecy : (⟨3, ![16, 64, 4]⟩ : Shape).Idx → EReal) (t : Fin 16) (e : Fin 64) (j : Fin 512) (q : Fin 4) : EReal :=
  ovA (box (ix2 j (0 : Fin 4))) (box (ix2 j (1 : Fin 4))) (box (ix2 j (2 : Fin 4))) (box (ix2 j (3 : Fin 4)))
    (Ideal.cos (yw (ix3 t (0 : Fin 1) j))) (Ideal.sin (yw (ix3 t (0 : Fin 1) j)))
    (px (ix3 t (0 : Fin 1) j)) (py (ix3 t (0 : Fin 1) j)) (ecx (ix3 t e q)) (ecy (ix3 t e q))

/-- The first slab's entry (t, e, j): the running maximum from zero over the ego's four corners. -/
def cellA (box : (⟨2, ![512, 4]⟩ : Shape).Idx → EReal) (px py yw : (⟨3, ![16, 1, 512]⟩ : Shape).Idx → EReal)
    (ecx ecy : (⟨3, ![16, 64, 4]⟩ : Shape).Idx → EReal) (t : Fin 16) (e : Fin 64) (j : Fin 512) : EReal :=
  max (max (max (max 0 (cornerA box px py yw ecx ecy t e j 0)) (cornerA box px py yw ecx ecy t e j 1))
    (cornerA box px py yw ecx ecy t e j 2)) (cornerA box px py yw ecx ecy t e j 3)

/-- The agent's corner with local coordinates (lx, ly) against ego row e at time step t, from the loaded blocks. -/
def cornerB (px py yw : (⟨3, ![16, 1, 512]⟩ : Shape).Idx → EReal) (epx epy ce se : (⟨3, ![16, 64, 1]⟩ : Shape).Idx → EReal)
    (ebox : (⟨2, ![64, 4]⟩ : Shape).Idx → EReal) (t : Fin 16) (e : Fin 64) (j : Fin 512) (lx ly : EReal) : EReal :=
  ovB (ebox (ix2 e (0 : Fin 4))) (ebox (ix2 e (1 : Fin 4))) (ebox (ix2 e (2 : Fin 4))) (ebox (ix2 e (3 : Fin 4)))
    (ce (ix3 t e (0 : Fin 1))) (se (ix3 t e (0 : Fin 1))) (epx (ix3 t e (0 : Fin 1))) (epy (ix3 t e (0 : Fin 1)))
    (Ideal.cos (yw (ix3 t (0 : Fin 1) j))) (Ideal.sin (yw (ix3 t (0 : Fin 1) j)))
    (px (ix3 t (0 : Fin 1) j)) (py (ix3 t (0 : Fin 1) j)) lx ly

/-- The second slab's entry (t, e, j): the running maximum from zero over the agent's four corners
    (f, l), (f, 0 − rt), (0 − r, 0 − rt), (0 − r, l). -/
def cellB (box : (⟨2, ![512, 4]⟩ : Shape).Idx → EReal) (px py yw : (⟨3, ![16, 1, 512]⟩ : Shape).Idx → EReal)
    (epx epy ce se : (⟨3, ![16, 64, 1]⟩ : Shape).Idx → EReal) (ebox : (⟨2, ![64, 4]⟩ : Shape).Idx → EReal)
    (t : Fin 16) (e : Fin 64) (j : Fin 512) : EReal :=
  max (max (max (max 0
    (cornerB px py yw epx epy ce se ebox t e j (box (ix2 j (0 : Fin 4))) (box (ix2 j (2 : Fin 4)))))
    (cornerB px py yw epx epy ce se ebox t e j (box (ix2 j (0 : Fin 4))) (0 - box (ix2 j (3 : Fin 4)))))
    (cornerB px py yw epx epy ce se ebox t e j (0 - box (ix2 j (1 : Fin 4))) (0 - box (ix2 j (3 : Fin 4)))))
    (cornerB px py yw epx epy ce se ebox t e j (0 - box (ix2 j (1 : Fin 4))) (box (ix2 j (2 : Fin 4))))

end Cert.Hand.KBody

end
-- ==== Proof.Bridge.lean ====
import proofs.«124939_j34651796144492_2_alg».proof.Proof.Spec
import proofs.«124939_j34651796144492_2_alg».proof.Proof.KBody.Formula

/-!
The body's two slab entries are the specification's best overlaps, once the entries they read are an agent's fields:
adding the zero threshold changes nothing, 0 − s is −s, and a running maximum from zero over nonnegative overlaps is
their maximum.
-/

noncomputable section

namespace Cert.Hand.Bridge

open Idealize.ShloMosaic Idealize.ShloMosaic.ValueIdx Cert.Hand Cert.Hand.KBody

theorem lxq_0 (b : Spec.Agent) : Spec.lxq b 0 = b.f := rfl
theorem lxq_1 (b : Spec.Agent) : Spec.lxq b 1 = b.f := rfl
theorem lxq_2 (b : Spec.Agent) : Spec.lxq b 2 = -b.r := rfl
theorem lxq_3 (b : Spec.Agent) : Spec.lxq b 3 = -b.r := rfl
theorem lyq_0 (b : Spec.Agent) : Spec.lyq b 0 = b.l := rfl
theorem lyq_1 (b : Spec.Agent) : Spec.lyq b 1 = -b.rt := rfl
theorem lyq_2 (b : Spec.Agent) : Spec.lyq b 2 = -b.rt := rfl
theorem lyq_3 (b : Spec.Agent) : Spec.lyq b 3 = b.l := rfl

/-- A point against a box: the body's spelling is the specification's. -/
theorem ovl_eq (f r l rt x y : EReal) : ovl f r l rt x y = Spec.ov x y f r l rt := by
  unfold ovl Spec.ov relu Spec.pos
  simp only [add_zero]

/-- The ego's corner q, given by its global coordinates, in the agent's frame against the agent's box. -/
theorem ovA_eq (a b : Spec.Agent) (q : Fin 4) :
    ovA a.f a.r a.l a.rt a.c a.s a.px a.py (Spec.cornX b q) (Spec.cornY b q) = Spec.ovOf a b q := by
  unfold ovA Spec.ovOf rotx roty
  rw [ovl_eq, zero_sub]

/-- The agent's corner with local coordinates (lx, ly), computed in the body, in the ego's frame against the ego's box. -/
theorem ovB_eq (a b : Spec.Agent) (q : Fin 4) :
    ovB a.f a.r a.l a.rt a.c a.s a.px a.py b.c b.s b.px b.py (Spec.lxq b q) (Spec.lyq b q) = Spec.ovOf a b q := by
  unfold ovB Spec.ovOf rotx roty Spec.cornX Spec.cornY
  rw [ovl_eq, zero_sub]

/-- The first slab's entry is the best overlap of the ego's corners with the agent's box. -/
theorem cellA_eq_best (box : (⟨2, ![512, 4]⟩ : Shape).Idx → EReal) (px py yw : (⟨3, ![16, 1, 512]⟩ : Shape).Idx → EReal)
    (ecx ecy : (⟨3, ![16, 64, 4]⟩ : Shape).Idx → EReal) (t : Fin 16) (e : Fin 64) (j : Fin 512) (a b : Spec.Agent)
    (hf : box (ix2 j (0 : Fin 4)) = a.f) (hr : box (ix2 j (1 : Fin 4)) = a.r) (hl : box (ix2 j (2 : Fin 4)) = a.l)
    (hrt : box (ix2 j (3 : Fin 4)) = a.rt)
    (hc : Ideal.cos (yw (ix3 t (0 : Fin 1) j)) = a.c) (hs : Ideal.sin (yw (ix3 t (0 : Fin 1) j)) = a.s)
    (hpx : px (ix3 t (0 : Fin 1) j) = a.px) (hpy : py (ix3 t (0 : Fin 1) j) = a.py)
    (hex : ∀ q : Fin 4, ecx (ix3 t e q) = Spec.cornX b q) (hey : ∀ q : Fin 4, ecy (ix3 t e q) = Spec.cornY b q) :
    cellA box px py yw ecx ecy t e j = Spec.best a b := by
  unfold cellA cornerA
  rw [hf, hr, hl, hrt, hc, hs, hpx, hpy, hex 0, hex 1, hex 2, hex 3, hey 0, hey 1, hey 2, hey 3,
    ovA_eq, ovA_eq, ovA_eq, ovA_eq]
  exact Spec.best_from_zero a b

/-- The second slab's entry is the best overlap of the agent's corners with the ego's box. -/
theorem cellB_eq_best (box : (⟨2, ![512, 4]⟩ : Shape).Idx → EReal) (px py yw : (⟨3, ![16, 1, 512]⟩ : Shape).Idx → EReal)
    (epx epy ce se : (⟨3, ![16, 64, 1]⟩ : Shape).Idx → EReal) (ebox : (⟨2, ![64, 4]⟩ : Shape).Idx → EReal)
    (t : Fin 16) (e : Fin 64) (j : Fin 512) (a b : Spec.Agent)
    (hf : box (ix2 j (0 : Fin 4)) = b.f) (hr : box (ix2 j (1 : Fin 4)) = b.r) (hl : box (ix2 j (2 : Fin 4)) = b.l)
    (hrt : box (ix2 j (3 : Fin 4)) = b.rt)
    (hc : Ideal.cos (yw (ix3 t (0 : Fin 1) j)) = b.c) (hs : Ideal.sin (yw (ix3 t (0 : Fin 1) j)) = b.s)
    (hpx : px (ix3 t (0 : Fin 1) j) = b.px) (hpy : py (ix3 t (0 : Fin 1) j) = b.py)
    (hef : ebox (ix2 e (0 : Fin 4)) = a.f) (her : ebox (ix2 e (1 : Fin 4)) = a.r) (hel : ebox (ix2 e (2 : Fin 4)) = a.l)
    (hert : ebox (ix2 e (3 : Fin 4)) = a.rt)
    (hce : ce (ix3 t e (0 : Fin 1)) = a.c) (hse : se (ix3 t e (0 : Fin 1)) = a.s)
    (hepx : epx (ix3 t e (0 : Fin 1)) = a.px) (hepy : epy (ix3 t e (0 : Fin 1)) = a.py) :
    cellB box px py yw epx epy ce se ebox t e j = Spec.best a b := by
  unfold cellB cornerB
  rw [hf, hr, hl, hrt, hc, hs, hpx, hpy, hef, her, hel, hert, hce, hse, hepx, hepy, zero_sub, zero_sub]
  have h0 := ovB_eq a b 0
  have h1 := ovB_eq a b 1
  have h2 := ovB_eq a b 2
  have h3 := ovB_eq a b 3
  rw [lxq_0, lyq_0] at h0
  rw [lxq_1, lyq_1] at h1
  rw [lxq_2, lyq_2] at h2
  rw [lxq_3, lyq_3] at h3
  rw [h0, h1, h2, h3]
  exact Spec.best_from_zero a b

end Cert.Hand.Bridge

end
-- ==== Proof.KBody.Slab.lean ====
import proofs.«124939_j34651796144492_2_alg».proof.Proof.Gen.KernelIdeal.Skeleton

/-!
The two slabs one time step stores, each as ONE pure term of the step's loads.

The body computes each slab in four rounds, one per box corner; a round takes the running maximum so far and the
step's loaded rows. `a0 … a3` are the first slab after corners 0 … 3 and `b0 … b2` the second after corners 0 … 2
(its last corner is folded into the stored value). The loads of one step are v29, v32, v35 (the agents' x, y and
heading rows), v40, v43 (the egos' corner x and y), v46, v49, v52, v55 (the egos' x, y, cosine and sine); v0 and v13
are the agents' and the egos' box blocks, loaded once before the steps.
-/

noncomputable section

namespace Cert.Hand.KBody

open Idealize.ShloMosaic
open Cert.KernelIdeal Cert.KernelIdeal.Gen

variable {F : FTy → Type} [FloatOps F]
variable (v0 : Vec F S512x4 .f32) (v13 : Vec F S64x4 .f32) (v29 v32 v35 : Vec F S1x1x512 .f32)
  (v40 v43 : Vec F S1x64x4 .f32) (v46 v49 v52 v55 : Vec F S1x64x1 .f32)

/-- The first slab after corner 0. -/
def a0 : FVec F S64x512 .f32 :=
  k0_pay31 (k0_pay5 v0) (k0_pay6 v0) (k0_pay7 v0) (k0_pay8 v0) (k0_pay19 v35) (k0_pay20 v35) k0_pay27
    (k0_pay29 v29 v40) (k0_pay30 v32 v43)

/-- The first slab after corner 1. -/
def a1 : FVec F S64x512 .f32 :=
  k0_pay39 (k0_pay5 v0) (k0_pay6 v0) (k0_pay7 v0) (k0_pay8 v0) (k0_pay17 v32) (k0_pay19 v35) (k0_pay20 v35)
    (a0 v0 v29 v32 v35 v40 v43) (k0_pay37 (k0_pay16 v29) (k0_pay21 v40)) (k0_pay38 (k0_pay22 v43))

/-- The first slab after corner 2. -/
def a2 : FVec F S64x512 .f32 :=
  k0_pay45 (k0_pay5 v0) (k0_pay6 v0) (k0_pay7 v0) (k0_pay8 v0) (k0_pay16 v29) (k0_pay17 v32) (k0_pay19 v35) (k0_pay20 v35)
    (k0_pay22 v43) (a1 v0 v29 v32 v35 v40 v43) (k0_pay44 (k0_pay21 v40))

/-- The first slab after corner 3. -/
def a3 : FVec F S64x512 .f32 :=
  k0_pay63 (a2 v0 v29 v32 v35 v40 v43)
    (k0_pay59 (k0_pay5 v0) (k0_pay6 v0) (k0_pay16 v29) (k0_pay17 v32) (k0_pay19 v35) (k0_pay20 v35) (k0_pay21 v40) (k0_pay22 v43))
    (k0_pay60 (k0_pay7 v0) (k0_pay16 v29) (k0_pay17 v32) (k0_pay19 v35) (k0_pay20 v35) (k0_pay21 v40) (k0_pay22 v43))
    (k0_pay61 (k0_pay8 v0) (k0_pay16 v29) (k0_pay17 v32) (k0_pay19 v35) (k0_pay20 v35) (k0_pay21 v40) (k0_pay22 v43))
    k0_pay62

/-- The first slab as stored: one row of the output block. -/
def slabA : FVec F S1x64x512 .f32 := k0_pay14 (a3 v0 v29 v32 v35 v40 v43)

/-- The second slab after corner 0. -/
def b0 : FVec F S64x512 .f32 :=
  k0_pay36 (k0_pay10 v13) (k0_pay11 v13) (k0_pay12 v13) (k0_pay13 v13) (k0_pay23 v46) (k0_pay24 v49) (k0_pay25 v52) (k0_pay26 v55)
    k0_pay28 (k0_pay34 (k0_pay1 v0) (k0_pay3 v0) (k0_pay17 v32) (k0_pay19 v35) (k0_pay20 v35))
    (k0_pay35 (k0_pay1 v0) (k0_pay3 v0) (k0_pay16 v29) (k0_pay19 v35) (k0_pay20 v35))

/-- The second slab after corner 1. -/
def b1 : FVec F S64x512 .f32 :=
  k0_pay43 (k0_pay10 v13) (k0_pay11 v13) (k0_pay12 v13) (k0_pay13 v13) (k0_pay17 v32) (k0_pay19 v35) (k0_pay20 v35)
    (k0_pay23 v46) (k0_pay24 v49) (k0_pay25 v52) (k0_pay26 v55) (b0 v0 v13 v29 v32 v35 v46 v49 v52 v55)
    (k0_pay40 (k0_pay1 v0)) (k0_pay41 (k0_pay4 v0)) (k0_pay42 (k0_pay1 v0) (k0_pay4 v0) (k0_pay16 v29) (k0_pay19 v35) (k0_pay20 v35))

/-- The second slab after corner 2. -/
def b2 : FVec F S64x512 .f32 :=
  k0_pay55 (b1 v0 v13 v29 v32 v35 v46 v49 v52 v55)
    (k0_pay51 (k0_pay4 v0) (k0_pay16 v29) (k0_pay17 v32) (k0_pay19 v35) (k0_pay20 v35) (k0_pay23 v46) (k0_pay24 v49) (k0_pay25 v52)
      (k0_pay26 v55) (k0_pay46 (k0_pay2 v0)) (FloatOps.ofBits .f32 0#32))
    (k0_pay52 (k0_pay4 v0) (k0_pay10 v13) (k0_pay11 v13) (k0_pay16 v29) (k0_pay17 v32) (k0_pay19 v35) (k0_pay20 v35) (k0_pay23 v46)
      (k0_pay24 v49) (k0_pay25 v52) (k0_pay26 v55) (k0_pay46 (k0_pay2 v0)) (FloatOps.ofBits .f32 0#32))
    (k0_pay53 (k0_pay4 v0) (k0_pay12 v13) (k0_pay16 v29) (k0_pay17 v32) (k0_pay19 v35) (k0_pay20 v35) (k0_pay23 v46) (k0_pay24 v49)
      (k0_pay25 v52) (k0_pay26 v55) (k0_pay46 (k0_pay2 v0)) (FloatOps.ofBits .f32 0#32))
    (k0_pay54 (k0_pay13 v13))

/-- The second slab as stored (corner 3 folded in): one row of the output block. -/
def slabB : FVec F S1x64x512 .f32 :=
  k0_pay15 v13 (b2 v0 v13 v29 v32 v35 v46 v49 v52 v55)
    (k0_pay68 (k0_pay2 v0) (k0_pay3 v0) (k0_pay16 v29) (k0_pay17 v32) (k0_pay19 v35) (k0_pay20 v35) (k0_pay23 v46) (k0_pay24 v49)
      (k0_pay25 v52) (k0_pay26 v55))
    (k0_pay69 (k0_pay2 v0) (k0_pay3 v0) (k0_pay10 v13) (k0_pay11 v13) (k0_pay16 v29) (k0_pay17 v32) (k0_pay19 v35) (k0_pay20 v35)
      (k0_pay23 v46) (k0_pay24 v49) (k0_pay25 v52) (k0_pay26 v55))
    (k0_pay70 (k0_pay2 v0) (k0_pay3 v0) (k0_pay12 v13) (k0_pay16 v29) (k0_pay17 v32) (k0_pay19 v35) (k0_pay20 v35) (k0_pay23 v46)
      (k0_pay24 v49) (k0_pay25 v52) (k0_pay26 v55))
    k0_pay71

end Cert.Hand.KBody

end
-- ==== Proof.KBody.Trip.lean ====
import proofs.«124939_j34651796144492_2_alg».proof.Proof.Gen.KernelIdeal.Loops
import proofs.«124939_j34651796144492_2_alg».proof.Proof.KBody.Slab

set_option maxRecDepth 8192
set_option maxHeartbeats 4000000

noncomputable section

/-!
One time step's stores, read off the step's run: each of the two output blocks receives ONE piece, the row of the
block at the step's offset, holding the slab term of the step's loaded rows.
-/

namespace Cert.Hand.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- Row k of an agents' array ([16, 1, 512]) as step k loads it. -/
def row1 (arg : Memref sig .tc .vmem S16x1x512 .f32) (X : BufTy.Contents (Elt F) arg.view.ty) (k : Fin k0_t1_loop.trips) :
    Vec F S1x1x512 .f32 :=
  View.readAt (Elt F) arg.view (Rect.unit (s := S16x1x512) (k0_off1 k) S1x1x512.size (k0_off1_inb k)).toLoadRect X

/-- Row k of an egos' corner array ([16, 64, 4]) as step k loads it. -/
def row2 (arg : Memref sig .tc .vmem S16x64x4 .f32) (X : BufTy.Contents (Elt F) arg.view.ty) (k : Fin k0_t1_loop.trips) :
    Vec F S1x64x4 .f32 :=
  View.readAt (Elt F) arg.view (Rect.unit (s := S16x64x4) (k0_off2 k) S1x64x4.size (k0_off2_inb k)).toLoadRect X

/-- Row k of an egos' column array ([16, 64, 1]) as step k loads it. -/
def row3 (arg : Memref sig .tc .vmem S16x64x1 .f32) (X : BufTy.Contents (Elt F) arg.view.ty) (k : Fin k0_t1_loop.trips) :
    Vec F S1x64x1 .f32 :=
  View.readAt (Elt F) arg.view (Rect.unit (s := S16x64x1) (k0_off3 k) S1x64x1.size (k0_off3_inb k)).toLoadRect X

/-- Step k stores into the first output block one piece: row k, the first slab of the step's loads. -/
theorem tripL_fst (𝒱 : Variants) (c : Dev nD) (bd : Option 𝒱.V) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole) (v0 : Vec F S512x4 .f32) (v13 : Vec F S64x4 .f32) (X_arg1 : BufTy.Contents (Elt F) arg1.view.ty) (X_arg2 : BufTy.Contents (Elt F) arg2.view.ty) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v13 X_arg1 X_arg2 X_arg3 X_arg5 X_arg6 X_arg7 X_arg8 X_arg9 X_arg10 k).1
      = [(⟨Rect.unit (s := S16x64x512) (k0_off4 k) S1x64x512.size (k0_off4_inb k),
          slabA v0 (row1 arg1 X_arg1 k) (row1 arg2 X_arg2 k) (row1 arg3 X_arg3 k) (row2 arg5 X_arg5 k) (row2 arg6 X_arg6 k)⟩ :
          View.Piece (Elt F) S16x64x512 .f32)] := by
  unfold tripL_k0_t1 trip_k0_t1
  rfl

/-- Step k stores into the second output block one piece: row k, the second slab of the step's loads. -/
theorem tripL_snd (𝒱 : Variants) (c : Dev nD) (bd : Option 𝒱.V) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole) (v0 : Vec F S512x4 .f32) (v13 : Vec F S64x4 .f32) (X_arg1 : BufTy.Contents (Elt F) arg1.view.ty) (X_arg2 : BufTy.Contents (Elt F) arg2.view.ty) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v13 X_arg1 X_arg2 X_arg3 X_arg5 X_arg6 X_arg7 X_arg8 X_arg9 X_arg10 k).2
      = [(⟨Rect.unit (s := S16x64x512) (k0_off4 k) S1x64x512.size (k0_off4_inb k),
          slabB v0 v13 (row1 arg1 X_arg1 k) (row1 arg2 X_arg2 k) (row1 arg3 X_arg3 k) (row3 arg7 X_arg7 k) (row3 arg8 X_arg8 k)
            (row3 arg9 X_arg9 k) (row3 arg10 X_arg10 k)⟩ : View.Piece (Elt F) S16x64x512 .f32)] := by
  unfold tripL_k0_t1 trip_k0_t1
  rfl

end Cert.Hand.KBody

end
-- ==== Proof.KBody.Rows.lean ====
import proofs.«124939_j34651796144492_2_alg».proof.Proof.KBody.Trip
import Idealize.ShloMosaic.Lib.ValueIdx

set_option maxRecDepth 8192
set_option maxHeartbeats 4000000

noncomputable section

/-!
The rows one time step loads, read at an index: row k of an input block at its own coordinates is the block at the
time-step coordinate k and the same remaining coordinates.
-/

namespace Cert.Hand.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

/-- The loop runs sixteen steps. -/
theorem trips_eq : k0_t1_loop.trips = 16 := by decide

/-- Row k of the array, at its own index (u, u', j), is the array at (t, u', j), t = k. -/
theorem row1_apply (arg : Memref sig .tc .vmem S16x1x512 .f32) (X : BufTy.Contents (Elt F) arg.view.ty) (k : Fin k0_t1_loop.trips)
    (t : Fin 16) (ht : t.val = k.val) (u : Fin 1) (u' : Fin 1) (j : Fin 512) :
    row1 arg X k (ix3 u u' j) = arg.view.read (Elt F) X (ix3 t u' j) := by
  unfold row1
  show arg.view.read (Elt F) X ((Rect.unit (s := S16x1x512) (k0_off1 k) S1x1x512.size (k0_off1_inb k)).toLoadRect.idx (ix3 u u' j)) = _
  refine congrArg _ (funext fun a => Fin.ext ?_)
  have hu : u.val = 0 := by omega
  match a with
  | ⟨0, _⟩ =>
    have h := congrFun (k0_off1_eq k) 0
    show (k0_off1 k) 0 + 1 * u.val = t.val
    rw [h]; show k.val + 1 * u.val = t.val; omega
  | ⟨1, _⟩ =>
    have h := congrFun (k0_off1_eq k) 1
    show (k0_off1 k) 1 + 1 * u'.val = u'.val
    rw [h]; show 0 + 1 * u'.val = u'.val; omega
  | ⟨2, _⟩ =>
    have h := congrFun (k0_off1_eq k) 2
    show (k0_off1 k) 2 + 1 * j.val = j.val
    rw [h]; show 0 + 1 * j.val = j.val; omega

/-- Row k of the array, at its own index (u, e, q), is the array at (t, e, q), t = k. -/
theorem row2_apply (arg : Memref sig .tc .vmem S16x64x4 .f32) (X : BufTy.Contents (Elt F) arg.view.ty) (k : Fin k0_t1_loop.trips)
    (t : Fin 16) (ht : t.val = k.val) (u : Fin 1) (e : Fin 64) (q : Fin 4) :
    row2 arg X k (ix3 u e q) = arg.view.read (Elt F) X (ix3 t e q) := by
  unfold row2
  show arg.view.read (Elt F) X ((Rect.unit (s := S16x64x4) (k0_off2 k) S1x64x4.size (k0_off2_inb k)).toLoadRect.idx (ix3 u e q)) = _
  refine congrArg _ (funext fun a => Fin.ext ?_)
  have hu : u.val = 0 := by omega
  match a with
  | ⟨0, _⟩ =>
    have h := congrFun (k0_off2_eq k) 0
    show (k0_off2 k) 0 + 1 * u.val = t.val
    rw [h]; show k.val + 1 * u.val = t.val; omega
  | ⟨1, _⟩ =>
    have h := congrFun (k0_off2_eq k) 1
    show (k0_off2 k) 1 + 1 * e.val = e.val
    rw [h]; show 0 + 1 * e.val = e.val; omega
  | ⟨2, _⟩ =>
    have h := congrFun (k0_off2_eq k) 2
    show (k0_off2 k) 2 + 1 * q.val = q.val
    rw [h]; show 0 + 1 * q.val = q.val; omega

/-- Row k of the array, at its own index (u, e, u'), is the array at (t, e, u'), t = k. -/
theorem row3_apply (arg : Memref sig .tc .vmem S16x64x1 .f32) (X : BufTy.Contents (Elt F) arg.view.ty) (k : Fin k0_t1_loop.trips)
    (t : Fin 16) (ht : t.val = k.val) (u : Fin 1) (e : Fin 64) (u' : Fin 1) :
    row3 arg X k (ix3 u e u') = arg.view.read (Elt F) X (ix3 t e u') := by
  unfold row3
  show arg.view.read (Elt F) X ((Rect.unit (s := S16x64x1) (k0_off3 k) S1x64x1.size (k0_off3_inb k)).toLoadRect.idx (ix3 u e u')) = _
  refine congrArg _ (funext fun a => Fin.ext ?_)
  have hu : u.val = 0 := by omega
  match a with
  | ⟨0, _⟩ =>
    have h := congrFun (k0_off3_eq k) 0
    show (k0_off3 k) 0 + 1 * u.val = t.val
    rw [h]; show k.val + 1 * u.val = t.val; omega
  | ⟨1, _⟩ =>
    have h := congrFun (k0_off3_eq k) 1
    show (k0_off3 k) 1 + 1 * e.val = e.val
    rw [h]; show 0 + 1 * e.val = e.val; omega
  | ⟨2, _⟩ =>
    have h := congrFun (k0_off3_eq k) 2
    show (k0_off3 k) 2 + 1 * u'.val = u'.val
    rw [h]; show 0 + 1 * u'.val = u'.val; omega

end Cert.Hand.KBody

end
-- ==== Proof.KBody.Layout.lean ====
import Idealize.ShloMosaic.Lib.ValueLayout

/-!
Column forms of the layout operations, read at an index given by coordinates: a column [a, 1] flattened to [a], a vector
[a] stood up as a column [a, 1], and a column [a, 1] spread over the columns of [a, b]. Each reads the operand at the
row of the index, its unit coordinate zero.
-/

namespace Cert.Hand.KBody

open Idealize.ShloMosaic Idealize.ShloMosaic.ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Hand.KBody
-- ==== Proof.KBody.ReadLeaf.lean ====
import proofs.«124939_j34651796144492_2_alg».proof.Proof.Gen.KernelIdeal.Skeleton
import proofs.«124939_j34651796144492_2_alg».proof.Proof.KBody.Layout
import Idealize.ShloMosaic.PureOps.Ideal.Laws

set_option maxRecDepth 8192

noncomputable section

/-!
The small values of the body read at an index, over the extended reals: a column of a box block, a loaded row with its
unit axes dropped, the cosine and sine of the heading row, a zero fill, a negated column. Each is the operand at the
index's coordinates, unit coordinates zero.
-/

namespace Cert.Hand.KBody

open Idealize.ShloMosaic Idealize.ShloMosaic.ValueIdx
open Cert.KernelIdeal Cert.KernelIdeal.Gen

/-- One column `o` of a matrix, kept as a column `[n0, 1]`, reads at `(a, u)` the matrix at `(a, k)`, `k` the column. -/
theorem slice_col_apply {α : Type} {n0 n1 : ℕ} (o : ℕ) (k : Fin n1) (hk : k.val = o) (X : (⟨2, ![n0, n1]⟩ : Shape).Idx → α)
    (h : (⟨2, ![n0, n1]⟩ : Shape).Slices ![0, o] ⟨2, ![n0, 1]⟩) (a : Fin n0) (u : Fin 1) :
    extractStridedSlice ⟨2, ![n0, 1]⟩ ![0, o] X h (ix2 a u) = X (ix2 a k) :=
  slice2_axis1_apply o X h a u k (by omega)

/-- The cosine of a vector at an index is the cosine of the element. -/
theorem cos_apply {s : Shape} {φ : FTy} (x : FVec Ideal s φ) (i : s.Idx) : cos x i = Ideal.cos (x i) := rfl
/-- The sine of a vector at an index is the sine of the element. -/
theorem sin_apply {s : Shape} {φ : FTy} (x : FVec Ideal s φ) (i : s.Idx) : sin x i = Ideal.sin (x i) := rfl

/-! ### The agents' box block: its four columns as vectors and as rows -/

theorem pay1_apply (v0 : Vec Ideal S512x4 .f32) (j : Fin 512) : k0_pay1 v0 (ix1 j) = v0 (ix2 j (0 : Fin 4)) := by
  unfold k0_pay1
  simp only [shapeCast_a1_a_apply, slice_col_apply 0 (0 : Fin 4) rfl]
theorem pay2_apply (v0 : Vec Ideal S512x4 .f32) (j : Fin 512) : k0_pay2 v0 (ix1 j) = v0 (ix2 j (1 : Fin 4)) := by
  unfold k0_pay2
  simp only [shapeCast_a1_a_apply, slice_col_apply 1 (1 : Fin 4) rfl]
theorem pay3_apply (v0 : Vec Ideal S512x4 .f32) (j : Fin 512) : k0_pay3 v0 (ix1 j) = v0 (ix2 j (2 : Fin 4)) := by
  unfold k0_pay3
  simp only [shapeCast_a1_a_apply, slice_col_apply 2 (2 : Fin 4) rfl]
theorem pay4_apply (v0 : Vec Ideal S512x4 .f32) (j : Fin 512) : k0_pay4 v0 (ix1 j) = v0 (ix2 j (3 : Fin 4)) := by
  unfold k0_pay4
  simp only [shapeCast_a1_a_apply, slice_col_apply 3 (3 : Fin 4) rfl]

theorem pay5_apply (v0 : Vec Ideal S512x4 .f32) (u : Fin 1) (j : Fin 512) : k0_pay5 v0 (ix2 u j) = v0 (ix2 j (0 : Fin 4)) := by
  unfold k0_pay5
  simp only [shapeCast_a_1a_apply, pay1_apply]
theorem pay6_apply (v0 : Vec Ideal S512x4 .f32) (u : Fin 1) (j : Fin 512) : k0_pay6 v0 (ix2 u j) = v0 (ix2 j (1 : Fin 4)) := by
  unfold k0_pay6
  simp only [shapeCast_a_1a_apply, pay2_apply]
theorem pay7_apply (v0 : Vec Ideal S512x4 .f32) (u : Fin 1) (j : Fin 512) : k0_pay7 v0 (ix2 u j) = v0 (ix2 j (2 : Fin 4)) := by
  unfold k0_pay7
  simp only [shapeCast_a_1a_apply, pay3_apply]
theorem pay8_apply (v0 : Vec Ideal S512x4 .f32) (u : Fin 1) (j : Fin 512) : k0_pay8 v0 (ix2 u j) = v0 (ix2 j (3 : Fin 4)) := by
  unfold k0_pay8
  simp only [shapeCast_a_1a_apply, pay4_apply]

/-! ### The egos' box block: its four columns -/

theorem pay9_eq (v13 : Vec Ideal S64x4 .f32) : k0_pay9 v13 = v13 := shapeCast_self _ _

theorem pay10_apply (v13 : Vec Ideal S64x4 .f32) (e : Fin 64) (u : Fin 1) : k0_pay10 v13 (ix2 e u) = v13 (ix2 e (0 : Fin 4)) := by
  unfold k0_pay10
  simp only [shapeCast_a_a1_apply, shapeCast_a1_a_apply, slice_col_apply 0 (0 : Fin 4) rfl, pay9_eq]
theorem pay11_apply (v13 : Vec Ideal S64x4 .f32) (e : Fin 64) (u : Fin 1) : k0_pay11 v13 (ix2 e u) = v13 (ix2 e (1 : Fin 4)) := by
  unfold k0_pay11
  simp only [shapeCast_a_a1_apply, shapeCast_a1_a_apply, slice_col_apply 1 (1 : Fin 4) rfl, pay9_eq]
theorem pay12_apply (v13 : Vec Ideal S64x4 .f32) (e : Fin 64) (u : Fin 1) : k0_pay12 v13 (ix2 e u) = v13 (ix2 e (2 : Fin 4)) := by
  unfold k0_pay12
  simp only [shapeCast_a_a1_apply, shapeCast_a1_a_apply, slice_col_apply 2 (2 : Fin 4) rfl, pay9_eq]
theorem pay13_apply (v13 : Vec Ideal S64x4 .f32) (e : Fin 64) (u : Fin 1) : k0_pay13 v13 (ix2 e u) = v13 (ix2 e (3 : Fin 4)) := by
  unfold k0_pay13
  simp only [shapeCast_a_a1_apply, shapeCast_a1_a_apply, slice_col_apply 3 (3 : Fin 4) rfl, pay9_eq]

/-! ### The rows one step loads, their leading unit axis dropped -/

theorem pay16_apply (v29 : Vec Ideal S1x1x512 .f32) (u : Fin 1) (j : Fin 512) : k0_pay16 v29 (ix2 u j) = v29 (ix3 (0 : Fin 1) u j) := by
  unfold k0_pay16
  simp only [shapeCast_1ab_ab_apply]
theorem pay17_apply (v32 : Vec Ideal S1x1x512 .f32) (u : Fin 1) (j : Fin 512) : k0_pay17 v32 (ix2 u j) = v32 (ix3 (0 : Fin 1) u j) := by
  unfold k0_pay17
  simp only [shapeCast_1ab_ab_apply]
theorem pay18_apply (v35 : Vec Ideal S1x1x512 .f32) (u : Fin 1) (j : Fin 512) : k0_pay18 v35 (ix2 u j) = v35 (ix3 (0 : Fin 1) u j) := by
  unfold k0_pay18
  simp only [shapeCast_1ab_ab_apply]

theorem pay19_apply (v35 : Vec Ideal S1x1x512 .f32) (u : Fin 1) (j : Fin 512) :
    k0_pay19 v35 (ix2 u j) = Ideal.cos (v35 (ix3 (0 : Fin 1) u j)) := by
  unfold k0_pay19
  simp only [cos_apply, pay18_apply]
theorem pay20_apply (v35 : Vec Ideal S1x1x512 .f32) (u : Fin 1) (j : Fin 512) :
    k0_pay20 v35 (ix2 u j) = Ideal.sin (v35 (ix3 (0 : Fin 1) u j)) := by
  unfold k0_pay20
  simp only [sin_apply, pay18_apply]

theorem pay21_apply (v40 : Vec Ideal S1x64x4 .f32) (e : Fin 64) (q : Fin 4) : k0_pay21 v40 (ix2 e q) = v40 (ix3 (0 : Fin 1) e q) := by
  unfold k0_pay21
  simp only [shapeCast_1ab_ab_apply]
theorem pay22_apply (v43 : Vec Ideal S1x64x4 .f32) (e : Fin 64) (q : Fin 4) : k0_pay22 v43 (ix2 e q) = v43 (ix3 (0 : Fin 1) e q) := by
  unfold k0_pay22
  simp only [shapeCast_1ab_ab_apply]

theorem pay23_apply (v46 : Vec Ideal S1x64x1 .f32) (e : Fin 64) (u : Fin 1) : k0_pay23 v46 (ix2 e u) = v46 (ix3 (0 : Fin 1) e u) := by
  unfold k0_pay23
  simp only [shapeCast_1ab_ab_apply]
theorem pay24_apply (v49 : Vec Ideal S1x64x1 .f32) (e : Fin 64) (u : Fin 1) : k0_pay24 v49 (ix2 e u) = v49 (ix3 (0 : Fin 1) e u) := by
  unfold k0_pay24
  simp only [shapeCast_1ab_ab_apply]
theorem pay25_apply (v52 : Vec Ideal S1x64x1 .f32) (e : Fin 64) (u : Fin 1) : k0_pay25 v52 (ix2 e u) = v52 (ix3 (0 : Fin 1) e u) := by
  unfold k0_pay25
  simp only [shapeCast_1ab_ab_apply]
theorem pay26_apply (v55 : Vec Ideal S1x64x1 .f32) (e : Fin 64) (u : Fin 1) : k0_pay26 v55 (ix2 e u) = v55 (ix3 (0 : Fin 1) e u) := by
  unfold k0_pay26
  simp only [shapeCast_1ab_ab_apply]

/-! ### Zero fills -/

theorem pay27_apply (i : S64x512.Idx) : (k0_pay27 : FVec Ideal S64x512 .f32) i = 0 := by
  unfold k0_pay27
  simp only [broadcast_apply, Ideal.ofBits_def, Ideal.ofBits_zero_f32]
theorem pay28_apply (i : S64x512.Idx) : (k0_pay28 : FVec Ideal S64x512 .f32) i = 0 := by
  unfold k0_pay28
  simp only [broadcast_apply, Ideal.ofBits_def, Ideal.ofBits_zero_f32]
theorem pay62_apply (i : S64x512.Idx) : (k0_pay62 : FVec Ideal S64x512 .f32) i = 0 := by
  unfold k0_pay62
  simp only [broadcast_apply, Ideal.ofBits_def, Ideal.ofBits_zero_f32]
theorem pay71_apply (i : S64x512.Idx) : (k0_pay71 : FVec Ideal S64x512 .f32) i = 0 := by
  unfold k0_pay71
  simp only [broadcast_apply, Ideal.ofBits_def, Ideal.ofBits_zero_f32]

/-! ### Box columns stood up as rows, plain and negated -/

theorem pay32_apply (v2 : FVec Ideal S512 .f32) (u : Fin 1) (j : Fin 512) : k0_pay32 v2 (ix2 u j) = v2 (ix1 j) := by
  unfold k0_pay32
  simp only [shapeCast_a_1a_apply]
theorem pay33_apply (v6 : FVec Ideal S512 .f32) (u : Fin 1) (j : Fin 512) : k0_pay33 v6 (ix2 u j) = v6 (ix1 j) := by
  unfold k0_pay33
  simp only [shapeCast_a_1a_apply]
theorem pay40_apply (v2 : FVec Ideal S512 .f32) (u : Fin 1) (j : Fin 512) : k0_pay40 v2 (ix2 u j) = v2 (ix1 j) := by
  unfold k0_pay40
  simp only [shapeCast_a_1a_apply]
theorem pay47_apply (v318 : FVec Ideal S512 .f32) (u : Fin 1) (j : Fin 512) : k0_pay47 v318 (ix2 u j) = v318 (ix1 j) := by
  unfold k0_pay47
  simp only [shapeCast_a_1a_apply]
theorem pay65_apply (v6 : FVec Ideal S512 .f32) (u : Fin 1) (j : Fin 512) : k0_pay65 v6 (ix2 u j) = v6 (ix1 j) := by
  unfold k0_pay65
  simp only [shapeCast_a_1a_apply]

theorem pay41_apply (v8 : FVec Ideal S512 .f32) (u : Fin 1) (j : Fin 512) : k0_pay41 v8 (ix2 u j) = 0 - v8 (ix1 j) := by
  unfold k0_pay41
  simp only [shapeCast_a_1a_apply, subf_apply, broadcast_apply, Ideal.ofBits_def, Ideal.ofBits_zero_f32]
theorem pay46_apply (v4 : FVec Ideal S512 .f32) (j : Fin 512) : k0_pay46 v4 (ix1 j) = 0 - v4 (ix1 j) := by
  unfold k0_pay46
  simp only [subf_apply, broadcast_apply, Ideal.ofBits_def, Ideal.ofBits_zero_f32]
theorem pay48_apply (v8 : FVec Ideal S512 .f32) (cst : Ideal .f32) (u : Fin 1) (j : Fin 512) :
    k0_pay48 v8 cst (ix2 u j) = cst - v8 (ix1 j) := by
  unfold k0_pay48
  simp only [shapeCast_a_1a_apply, subf_apply, broadcast_apply]
theorem pay64_apply (v4 : FVec Ideal S512 .f32) (u : Fin 1) (j : Fin 512) : k0_pay64 v4 (ix2 u j) = 0 - v4 (ix1 j) := by
  unfold k0_pay64
  simp only [shapeCast_a_1a_apply, subf_apply, broadcast_apply, Ideal.ofBits_def, Ideal.ofBits_zero_f32]

/-! ### One column of the egos' corner rows; a slab stood up as one row of the output block -/

theorem pay44_apply (v41 : FVec Ideal S64x4 .f32) (e : Fin 64) (u : Fin 1) : k0_pay44 v41 (ix2 e u) = v41 (ix2 e (2 : Fin 4)) := by
  unfold k0_pay44
  simp only [slice_col_apply 2 (2 : Fin 4) rfl]

theorem pay14_apply (v : FVec Ideal S64x512 .f32) (u : Fin 1) (e : Fin 64) (j : Fin 512) : k0_pay14 v (ix3 u e j) = v (ix2 e j) := by
  unfold k0_pay14
  simp only [shapeCast_ab_1ab_apply]

end Cert.Hand.KBody

end
-- ==== Proof.KBody.ReadA.lean ====
import proofs.«124939_j34651796144492_2_alg».proof.Proof.KBody.ReadLeaf
import proofs.«124939_j34651796144492_2_alg».proof.Proof.KBody.Formula
import proofs.«124939_j34651796144492_2_alg».proof.Proof.KBody.Slab

set_option maxRecDepth 8192

noncomputable section

/-!
The first slab read at an index: each round of the body takes the running maximum so far and adds one ego corner's
overlap with the agent's box; the stored row is the running maximum from zero over the four corners.
-/

namespace Cert.Hand.KBody

open Idealize.ShloMosaic Idealize.ShloMosaic.ValueIdx
open Cert.KernelIdeal Cert.KernelIdeal.Gen

/-! ### The rounds' values in their own operands -/

theorem pay29_apply (v29 : Vec Ideal S1x1x512 .f32) (v40 : Vec Ideal S1x64x4 .f32) (e : Fin 64) (j : Fin 512) :
    k0_pay29 v29 v40 (ix2 e j) = v40 (ix3 (0 : Fin 1) e (0 : Fin 4)) - v29 (ix3 (0 : Fin 1) (0 : Fin 1) j) := by
  unfold k0_pay29
  simp only [subf_apply, broadcastTo_a1_ab_apply, broadcastTo_1b_ab_apply, slice_col_apply 0 (0 : Fin 4) rfl, pay21_apply, pay16_apply]

theorem pay30_apply (v32 : Vec Ideal S1x1x512 .f32) (v43 : Vec Ideal S1x64x4 .f32) (e : Fin 64) (j : Fin 512) :
    k0_pay30 v32 v43 (ix2 e j) = v43 (ix3 (0 : Fin 1) e (0 : Fin 4)) - v32 (ix3 (0 : Fin 1) (0 : Fin 1) j) := by
  unfold k0_pay30
  simp only [subf_apply, broadcastTo_a1_ab_apply, broadcastTo_1b_ab_apply, slice_col_apply 0 (0 : Fin 4) rfl, pay22_apply, pay17_apply]

theorem pay31_apply (v9 v10 v11 v12 v37 v38 : FVec Ideal S1x512 .f32) (v57 v63 v66 : FVec Ideal S64x512 .f32) (e : Fin 64) (j : Fin 512) :
    k0_pay31 v9 v10 v11 v12 v37 v38 v57 v63 v66 (ix2 e j)
      = max (v57 (ix2 e j)) (ovl (v9 (ix2 (0 : Fin 1) j)) (v10 (ix2 (0 : Fin 1) j)) (v11 (ix2 (0 : Fin 1) j)) (v12 (ix2 (0 : Fin 1) j))
          (rotx (v37 (ix2 (0 : Fin 1) j)) (v38 (ix2 (0 : Fin 1) j)) (v63 (ix2 e j)) (v66 (ix2 e j))) (roty (v37 (ix2 (0 : Fin 1) j)) (v38 (ix2 (0 : Fin 1) j)) (v63 (ix2 e j)) (v66 (ix2 e j)))) := by
  unfold k0_pay31 ovl rotx roty relu
  simp only [maximumf_apply, minimumf_apply, addf_apply, subf_apply, mulf_apply, broadcast_apply, broadcastTo_1b_ab_apply,
    Ideal.ofBits_def, Ideal.ofBits_zero_f32]

theorem pay37_apply (v30 : FVec Ideal S1x512 .f32) (v41 : FVec Ideal S64x4 .f32) (e : Fin 64) (j : Fin 512) :
    k0_pay37 v30 v41 (ix2 e j) = v41 (ix2 e (1 : Fin 4)) - v30 (ix2 (0 : Fin 1) j) := by
  unfold k0_pay37
  simp only [subf_apply, broadcastTo_a1_ab_apply, broadcastTo_1b_ab_apply, slice_col_apply 1 (1 : Fin 4) rfl]

theorem pay38_apply (v44 : FVec Ideal S64x4 .f32) (e : Fin 64) (j : Fin 512) : k0_pay38 v44 (ix2 e j) = v44 (ix2 e (1 : Fin 4)) := by
  unfold k0_pay38
  simp only [broadcastTo_a1_ab_apply, slice_col_apply 1 (1 : Fin 4) rfl]

theorem pay39_apply (v9 v10 v11 v12 v33 v37 v38 : FVec Ideal S1x512 .f32) (v106 v167 v168 : FVec Ideal S64x512 .f32) (e : Fin 64) (j : Fin 512) :
    k0_pay39 v9 v10 v11 v12 v33 v37 v38 v106 v167 v168 (ix2 e j)
      = max (v106 (ix2 e j)) (ovl (v9 (ix2 (0 : Fin 1) j)) (v10 (ix2 (0 : Fin 1) j)) (v11 (ix2 (0 : Fin 1) j)) (v12 (ix2 (0 : Fin 1) j))
          (rotx (v37 (ix2 (0 : Fin 1) j)) (v38 (ix2 (0 : Fin 1) j)) (v167 (ix2 e j)) (v168 (ix2 e j) - v33 (ix2 (0 : Fin 1) j)))
          (roty (v37 (ix2 (0 : Fin 1) j)) (v38 (ix2 (0 : Fin 1) j)) (v167 (ix2 e j)) (v168 (ix2 e j) - v33 (ix2 (0 : Fin 1) j)))) := by
  unfold k0_pay39 ovl rotx roty relu
  simp only [maximumf_apply, minimumf_apply, addf_apply, subf_apply, mulf_apply, broadcast_apply, broadcastTo_1b_ab_apply,
    Ideal.ofBits_def, Ideal.ofBits_zero_f32]

theorem pay45_apply (v9 v10 v11 v12 v30 v33 v37 v38 : FVec Ideal S1x512 .f32) (v44 : FVec Ideal S64x4 .f32) (v210 : FVec Ideal S64x512 .f32)
    (v269 : FVec Ideal S64x1 .f32) (e : Fin 64) (j : Fin 512) :
    k0_pay45 v9 v10 v11 v12 v30 v33 v37 v38 v44 v210 v269 (ix2 e j)
      = max (v210 (ix2 e j)) (ovl (v9 (ix2 (0 : Fin 1) j)) (v10 (ix2 (0 : Fin 1) j)) (v11 (ix2 (0 : Fin 1) j)) (v12 (ix2 (0 : Fin 1) j))
          (rotx (v37 (ix2 (0 : Fin 1) j)) (v38 (ix2 (0 : Fin 1) j)) (v269 (ix2 e (0 : Fin 1)) - v30 (ix2 (0 : Fin 1) j)) (v44 (ix2 e (2 : Fin 4)) - v33 (ix2 (0 : Fin 1) j)))
          (roty (v37 (ix2 (0 : Fin 1) j)) (v38 (ix2 (0 : Fin 1) j)) (v269 (ix2 e (0 : Fin 1)) - v30 (ix2 (0 : Fin 1) j)) (v44 (ix2 e (2 : Fin 4)) - v33 (ix2 (0 : Fin 1) j)))) := by
  unfold k0_pay45 ovl rotx roty relu
  simp only [maximumf_apply, minimumf_apply, addf_apply, subf_apply, mulf_apply, broadcast_apply, broadcastTo_1b_ab_apply,
    broadcastTo_a1_ab_apply, slice_col_apply 2 (2 : Fin 4) rfl, Ideal.ofBits_def, Ideal.ofBits_zero_f32]

theorem pay56_apply (v30 : FVec Ideal S1x512 .f32) (v41 : FVec Ideal S64x4 .f32) (e : Fin 64) (j : Fin 512) :
    k0_pay56 v30 v41 (ix2 e j) = v41 (ix2 e (3 : Fin 4)) - v30 (ix2 (0 : Fin 1) j) := by
  unfold k0_pay56
  simp only [subf_apply, broadcastTo_a1_ab_apply, broadcastTo_1b_ab_apply, slice_col_apply 3 (3 : Fin 4) rfl]

theorem pay57_apply (v33 : FVec Ideal S1x512 .f32) (v44 : FVec Ideal S64x4 .f32) (e : Fin 64) (j : Fin 512) :
    k0_pay57 v33 v44 (ix2 e j) = v44 (ix2 e (3 : Fin 4)) - v33 (ix2 (0 : Fin 1) j) := by
  unfold k0_pay57
  simp only [subf_apply, broadcastTo_a1_ab_apply, broadcastTo_1b_ab_apply, slice_col_apply 3 (3 : Fin 4) rfl]

theorem pay58_apply (v30 v33 v37 v38 : FVec Ideal S1x512 .f32) (v41 v44 : FVec Ideal S64x4 .f32) (e : Fin 64) (j : Fin 512) :
    k0_pay58 v30 v33 v37 v38 v41 v44 (ix2 e j)
      = roty (v37 (ix2 (0 : Fin 1) j)) (v38 (ix2 (0 : Fin 1) j)) (v41 (ix2 e (3 : Fin 4)) - v30 (ix2 (0 : Fin 1) j)) (v44 (ix2 e (3 : Fin 4)) - v33 (ix2 (0 : Fin 1) j)) := by
  unfold k0_pay58 roty
  simp only [addf_apply, subf_apply, mulf_apply, broadcast_apply, broadcastTo_1b_ab_apply, pay56_apply, pay57_apply,
    Ideal.ofBits_def, Ideal.ofBits_zero_f32]

theorem pay59_apply (v9 v10 v30 v33 v37 v38 : FVec Ideal S1x512 .f32) (v41 v44 : FVec Ideal S64x4 .f32) (e : Fin 64) (j : Fin 512) :
    k0_pay59 v9 v10 v30 v33 v37 v38 v41 v44 (ix2 e j)
      = min (relu (v9 (ix2 (0 : Fin 1) j) + 0 - rotx (v37 (ix2 (0 : Fin 1) j)) (v38 (ix2 (0 : Fin 1) j)) (v41 (ix2 e (3 : Fin 4)) - v30 (ix2 (0 : Fin 1) j)) (v44 (ix2 e (3 : Fin 4)) - v33 (ix2 (0 : Fin 1) j))))
          (relu (v10 (ix2 (0 : Fin 1) j) + 0 + rotx (v37 (ix2 (0 : Fin 1) j)) (v38 (ix2 (0 : Fin 1) j)) (v41 (ix2 e (3 : Fin 4)) - v30 (ix2 (0 : Fin 1) j)) (v44 (ix2 e (3 : Fin 4)) - v33 (ix2 (0 : Fin 1) j)))) := by
  unfold k0_pay59 rotx relu
  simp only [maximumf_apply, minimumf_apply, addf_apply, subf_apply, mulf_apply, broadcast_apply, broadcastTo_1b_ab_apply,
    pay56_apply, pay57_apply, Ideal.ofBits_def, Ideal.ofBits_zero_f32]

theorem pay60_apply (v11 v30 v33 v37 v38 : FVec Ideal S1x512 .f32) (v41 v44 : FVec Ideal S64x4 .f32) (e : Fin 64) (j : Fin 512) :
    k0_pay60 v11 v30 v33 v37 v38 v41 v44 (ix2 e j)
      = relu (v11 (ix2 (0 : Fin 1) j) + 0 - roty (v37 (ix2 (0 : Fin 1) j)) (v38 (ix2 (0 : Fin 1) j)) (v41 (ix2 e (3 : Fin 4)) - v30 (ix2 (0 : Fin 1) j)) (v44 (ix2 e (3 : Fin 4)) - v33 (ix2 (0 : Fin 1) j))) := by
  unfold k0_pay60 relu
  simp only [maximumf_apply, addf_apply, subf_apply, broadcast_apply, broadcastTo_1b_ab_apply, pay58_apply,
    Ideal.ofBits_def, Ideal.ofBits_zero_f32]

theorem pay61_apply (v12 v30 v33 v37 v38 : FVec Ideal S1x512 .f32) (v41 v44 : FVec Ideal S64x4 .f32) (e : Fin 64) (j : Fin 512) :
    k0_pay61 v12 v30 v33 v37 v38 v41 v44 (ix2 e j)
      = v12 (ix2 (0 : Fin 1) j) + 0 + roty (v37 (ix2 (0 : Fin 1) j)) (v38 (ix2 (0 : Fin 1) j)) (v41 (ix2 e (3 : Fin 4)) - v30 (ix2 (0 : Fin 1) j)) (v44 (ix2 e (3 : Fin 4)) - v33 (ix2 (0 : Fin 1) j)) := by
  unfold k0_pay61
  simp only [addf_apply, broadcast_apply, broadcastTo_1b_ab_apply, pay58_apply, Ideal.ofBits_def, Ideal.ofBits_zero_f32]

theorem pay63_apply (v316 v409 v415 v419 v420 : FVec Ideal S64x512 .f32) (i : S64x512.Idx) :
    k0_pay63 v316 v409 v415 v419 v420 i = max (v316 i) (min (v409 i) (min (v415 i) (max (v419 i) (v420 i)))) := by
  unfold k0_pay63
  simp only [maximumf_apply, minimumf_apply]

/-! ### The slab after each corner -/

section Rounds
variable (v0 : Vec Ideal S512x4 .f32) (v29 v32 v35 : Vec Ideal S1x1x512 .f32) (v40 v43 : Vec Ideal S1x64x4 .f32)

/-- Ego corner q of row e against agent column j, from one step's loaded blocks. -/
def cnrA (e : Fin 64) (j : Fin 512) (q : Fin 4) : EReal :=
  ovA (v0 (ix2 j (0 : Fin 4))) (v0 (ix2 j (1 : Fin 4))) (v0 (ix2 j (2 : Fin 4))) (v0 (ix2 j (3 : Fin 4)))
    (Ideal.cos (v35 (ix3 (0 : Fin 1) (0 : Fin 1) j))) (Ideal.sin (v35 (ix3 (0 : Fin 1) (0 : Fin 1) j)))
    (v29 (ix3 (0 : Fin 1) (0 : Fin 1) j)) (v32 (ix3 (0 : Fin 1) (0 : Fin 1) j)) (v40 (ix3 (0 : Fin 1) e q)) (v43 (ix3 (0 : Fin 1) e q))

theorem a0_apply (e : Fin 64) (j : Fin 512) :
    a0 v0 v29 v32 v35 v40 v43 (ix2 e j) = max 0 (cnrA v0 v29 v32 v35 v40 v43 e j 0) := by
  unfold a0 cnrA ovA
  rw [pay31_apply]
  simp only [pay5_apply, pay6_apply, pay7_apply, pay8_apply, pay19_apply, pay20_apply, pay27_apply, pay29_apply, pay30_apply]

theorem a1_apply (e : Fin 64) (j : Fin 512) :
    a1 v0 v29 v32 v35 v40 v43 (ix2 e j) = max (a0 v0 v29 v32 v35 v40 v43 (ix2 e j)) (cnrA v0 v29 v32 v35 v40 v43 e j 1) := by
  unfold a1 cnrA ovA
  rw [pay39_apply]
  simp only [pay5_apply, pay6_apply, pay7_apply, pay8_apply, pay16_apply, pay17_apply, pay19_apply, pay20_apply, pay21_apply, pay22_apply,
    pay37_apply, pay38_apply]

theorem a2_apply (e : Fin 64) (j : Fin 512) :
    a2 v0 v29 v32 v35 v40 v43 (ix2 e j) = max (a1 v0 v29 v32 v35 v40 v43 (ix2 e j)) (cnrA v0 v29 v32 v35 v40 v43 e j 2) := by
  unfold a2 cnrA ovA
  rw [pay45_apply]
  simp only [pay5_apply, pay6_apply, pay7_apply, pay8_apply, pay16_apply, pay17_apply, pay19_apply, pay20_apply, pay21_apply, pay22_apply,
    pay44_apply]

theorem a3_apply (e : Fin 64) (j : Fin 512) :
    a3 v0 v29 v32 v35 v40 v43 (ix2 e j) = max (a2 v0 v29 v32 v35 v40 v43 (ix2 e j)) (cnrA v0 v29 v32 v35 v40 v43 e j 3) := by
  unfold a3 cnrA ovA ovl
  rw [pay63_apply, pay59_apply, pay60_apply, pay61_apply, pay62_apply]
  simp only [pay5_apply, pay6_apply, pay7_apply, pay8_apply, pay16_apply, pay17_apply, pay19_apply, pay20_apply, pay21_apply, pay22_apply]
  rfl

/-- THE FIRST SLAB AT AN INDEX: the running maximum from zero over the ego's four corners. -/
theorem slabA_apply (u : Fin 1) (e : Fin 64) (j : Fin 512) :
    slabA v0 v29 v32 v35 v40 v43 (ix3 u e j)
      = max (max (max (max 0 (cnrA v0 v29 v32 v35 v40 v43 e j 0)) (cnrA v0 v29 v32 v35 v40 v43 e j 1))
          (cnrA v0 v29 v32 v35 v40 v43 e j 2)) (cnrA v0 v29 v32 v35 v40 v43 e j 3) := by
  unfold slabA
  rw [pay14_apply, a3_apply, a2_apply, a1_apply, a0_apply]

end Rounds

end Cert.Hand.KBody

end
-- ==== Proof.KBody.ReadB.lean ====
import proofs.«124939_j34651796144492_2_alg».proof.Proof.KBody.ReadLeaf
import proofs.«124939_j34651796144492_2_alg».proof.Proof.KBody.Formula
import proofs.«124939_j34651796144492_2_alg».proof.Proof.KBody.Slab

set_option maxRecDepth 8192

noncomputable section

/-!
The second slab read at an index: each round builds one corner of the agent's box from the agent's position, heading
and box columns, takes it into the ego's frame and adds its overlap with the ego's box to the running maximum; the last
corner is folded into the stored row.
-/

namespace Cert.Hand.KBody

open Idealize.ShloMosaic Idealize.ShloMosaic.ValueIdx
open Cert.KernelIdeal Cert.KernelIdeal.Gen

/-! ### The rounds' values in their own operands -/

theorem pay34_apply (v2 v6 : FVec Ideal S512 .f32) (v33 v37 v38 : FVec Ideal S1x512 .f32) (u : Fin 1) (j : Fin 512) :
    k0_pay34 v2 v6 v33 v37 v38 (ix2 u j) = v33 (ix2 u j) + v38 (ix2 u j) * v2 (ix1 j) + v37 (ix2 u j) * v6 (ix1 j) := by
  unfold k0_pay34
  simp only [addf_apply, mulf_apply, pay32_apply, pay33_apply]

theorem pay35_apply (v2 v6 : FVec Ideal S512 .f32) (v30 v37 v38 : FVec Ideal S1x512 .f32) (e : Fin 64) (j : Fin 512) :
    k0_pay35 v2 v6 v30 v37 v38 (ix2 e j) = v30 (ix2 (0 : Fin 1) j) + v37 (ix2 (0 : Fin 1) j) * v2 (ix1 j) - v38 (ix2 (0 : Fin 1) j) * v6 (ix1 j) := by
  unfold k0_pay35
  simp only [addf_apply, subf_apply, mulf_apply, broadcastTo_1b_ab_apply, pay32_apply, pay33_apply]

theorem pay36_apply (v17 v20 v23 v26 v47 v50 v53 v56 : FVec Ideal S64x1 .f32) (v58 : FVec Ideal S64x512 .f32) (v116 : FVec Ideal S1x512 .f32)
    (v117 : FVec Ideal S64x512 .f32) (e : Fin 64) (j : Fin 512) :
    k0_pay36 v17 v20 v23 v26 v47 v50 v53 v56 v58 v116 v117 (ix2 e j)
      = max (v58 (ix2 e j)) (ovl (v17 (ix2 e (0 : Fin 1))) (v20 (ix2 e (0 : Fin 1))) (v23 (ix2 e (0 : Fin 1))) (v26 (ix2 e (0 : Fin 1)))
          (rotx (v53 (ix2 e (0 : Fin 1))) (v56 (ix2 e (0 : Fin 1))) (v117 (ix2 e j) - v47 (ix2 e (0 : Fin 1))) (v116 (ix2 (0 : Fin 1) j) - v50 (ix2 e (0 : Fin 1))))
          (roty (v53 (ix2 e (0 : Fin 1))) (v56 (ix2 e (0 : Fin 1))) (v117 (ix2 e j) - v47 (ix2 e (0 : Fin 1))) (v116 (ix2 (0 : Fin 1) j) - v50 (ix2 e (0 : Fin 1))))) := by
  unfold k0_pay36 ovl rotx roty relu
  simp only [maximumf_apply, minimumf_apply, addf_apply, subf_apply, mulf_apply, broadcast_apply, broadcastTo_1b_ab_apply,
    broadcastTo_a1_ab_apply, Ideal.ofBits_def, Ideal.ofBits_zero_f32]

theorem pay42_apply (v2 v8 : FVec Ideal S512 .f32) (v30 v37 v38 : FVec Ideal S1x512 .f32) (u : Fin 1) (j : Fin 512) :
    k0_pay42 v2 v8 v30 v37 v38 (ix2 u j) = v30 (ix2 u j) + v37 (ix2 u j) * v2 (ix1 j) - v38 (ix2 u j) * (0 - v8 (ix1 j)) := by
  unfold k0_pay42
  simp only [addf_apply, subf_apply, mulf_apply, pay40_apply, pay41_apply]

theorem pay43_apply (v17 v20 v23 v26 : FVec Ideal S64x1 .f32) (v33 v37 v38 : FVec Ideal S1x512 .f32) (v47 v50 v53 v56 : FVec Ideal S64x1 .f32)
    (v162 : FVec Ideal S64x512 .f32) (v213 v214 v218 : FVec Ideal S1x512 .f32) (e : Fin 64) (j : Fin 512) :
    k0_pay43 v17 v20 v23 v26 v33 v37 v38 v47 v50 v53 v56 v162 v213 v214 v218 (ix2 e j)
      = max (v162 (ix2 e j)) (ovl (v17 (ix2 e (0 : Fin 1))) (v20 (ix2 e (0 : Fin 1))) (v23 (ix2 e (0 : Fin 1))) (v26 (ix2 e (0 : Fin 1)))
          (rotx (v53 (ix2 e (0 : Fin 1))) (v56 (ix2 e (0 : Fin 1))) (v218 (ix2 (0 : Fin 1) j) - v47 (ix2 e (0 : Fin 1))) (v33 (ix2 (0 : Fin 1) j) + v38 (ix2 (0 : Fin 1) j) * v213 (ix2 (0 : Fin 1) j) + v37 (ix2 (0 : Fin 1) j) * v214 (ix2 (0 : Fin 1) j) - v50 (ix2 e (0 : Fin 1))))
          (roty (v53 (ix2 e (0 : Fin 1))) (v56 (ix2 e (0 : Fin 1))) (v218 (ix2 (0 : Fin 1) j) - v47 (ix2 e (0 : Fin 1))) (v33 (ix2 (0 : Fin 1) j) + v38 (ix2 (0 : Fin 1) j) * v213 (ix2 (0 : Fin 1) j) + v37 (ix2 (0 : Fin 1) j) * v214 (ix2 (0 : Fin 1) j) - v50 (ix2 e (0 : Fin 1))))) := by
  unfold k0_pay43 ovl rotx roty relu
  simp only [maximumf_apply, minimumf_apply, addf_apply, subf_apply, mulf_apply, broadcast_apply, broadcastTo_1b_ab_apply,
    broadcastTo_a1_ab_apply, Ideal.ofBits_def, Ideal.ofBits_zero_f32]

theorem pay49_apply (v8 : FVec Ideal S512 .f32) (v30 v37 v38 : FVec Ideal S1x512 .f32) (v47 : FVec Ideal S64x1 .f32) (v318 : FVec Ideal S512 .f32)
    (cst : Ideal .f32) (e : Fin 64) (j : Fin 512) :
    k0_pay49 v8 v30 v37 v38 v47 v318 cst (ix2 e j) = v30 (ix2 (0 : Fin 1) j) + v37 (ix2 (0 : Fin 1) j) * v318 (ix1 j) - v38 (ix2 (0 : Fin 1) j) * (cst - v8 (ix1 j)) - v47 (ix2 e (0 : Fin 1)) := by
  unfold k0_pay49
  simp only [addf_apply, subf_apply, mulf_apply, broadcastTo_1b_ab_apply, broadcastTo_a1_ab_apply, pay47_apply, pay48_apply]

theorem pay50_apply (v8 : FVec Ideal S512 .f32) (v33 v37 v38 : FVec Ideal S1x512 .f32) (v50 : FVec Ideal S64x1 .f32) (v318 : FVec Ideal S512 .f32)
    (cst : Ideal .f32) (e : Fin 64) (j : Fin 512) :
    k0_pay50 v8 v33 v37 v38 v50 v318 cst (ix2 e j) = v33 (ix2 (0 : Fin 1) j) + v38 (ix2 (0 : Fin 1) j) * v318 (ix1 j) + v37 (ix2 (0 : Fin 1) j) * (cst - v8 (ix1 j)) - v50 (ix2 e (0 : Fin 1)) := by
  unfold k0_pay50
  simp only [addf_apply, subf_apply, mulf_apply, broadcastTo_1b_ab_apply, broadcastTo_a1_ab_apply, pay47_apply, pay48_apply]

theorem pay51_apply (v8 : FVec Ideal S512 .f32) (v30 v33 v37 v38 : FVec Ideal S1x512 .f32) (v47 v50 v53 v56 : FVec Ideal S64x1 .f32)
    (v318 : FVec Ideal S512 .f32) (cst : Ideal .f32) (e : Fin 64) (j : Fin 512) :
    k0_pay51 v8 v30 v33 v37 v38 v47 v50 v53 v56 v318 cst (ix2 e j)
      = roty (v53 (ix2 e (0 : Fin 1))) (v56 (ix2 e (0 : Fin 1))) (k0_pay49 v8 v30 v37 v38 v47 v318 cst (ix2 e j)) (k0_pay50 v8 v33 v37 v38 v50 v318 cst (ix2 e j)) := by
  unfold k0_pay51 roty
  simp only [addf_apply, subf_apply, mulf_apply, broadcast_apply, broadcastTo_a1_ab_apply, Ideal.ofBits_def, Ideal.ofBits_zero_f32]

theorem pay52_apply (v8 : FVec Ideal S512 .f32) (v17 v20 : FVec Ideal S64x1 .f32) (v30 v33 v37 v38 : FVec Ideal S1x512 .f32)
    (v47 v50 v53 v56 : FVec Ideal S64x1 .f32) (v318 : FVec Ideal S512 .f32) (cst : Ideal .f32) (e : Fin 64) (j : Fin 512) :
    k0_pay52 v8 v17 v20 v30 v33 v37 v38 v47 v50 v53 v56 v318 cst (ix2 e j)
      = min (relu (v17 (ix2 e (0 : Fin 1)) + 0 - rotx (v53 (ix2 e (0 : Fin 1))) (v56 (ix2 e (0 : Fin 1))) (k0_pay49 v8 v30 v37 v38 v47 v318 cst (ix2 e j)) (k0_pay50 v8 v33 v37 v38 v50 v318 cst (ix2 e j))))
          (relu (v20 (ix2 e (0 : Fin 1)) + 0 + rotx (v53 (ix2 e (0 : Fin 1))) (v56 (ix2 e (0 : Fin 1))) (k0_pay49 v8 v30 v37 v38 v47 v318 cst (ix2 e j)) (k0_pay50 v8 v33 v37 v38 v50 v318 cst (ix2 e j)))) := by
  unfold k0_pay52 rotx relu
  simp only [maximumf_apply, minimumf_apply, addf_apply, subf_apply, mulf_apply, broadcast_apply, broadcastTo_a1_ab_apply,
    Ideal.ofBits_def, Ideal.ofBits_zero_f32]

theorem pay53_apply (v8 : FVec Ideal S512 .f32) (v23 : FVec Ideal S64x1 .f32) (v30 v33 v37 v38 : FVec Ideal S1x512 .f32)
    (v47 v50 v53 v56 : FVec Ideal S64x1 .f32) (v318 : FVec Ideal S512 .f32) (cst : Ideal .f32) (e : Fin 64) (j : Fin 512) :
    k0_pay53 v8 v23 v30 v33 v37 v38 v47 v50 v53 v56 v318 cst (ix2 e j)
      = relu (v23 (ix2 e (0 : Fin 1)) + 0 - k0_pay51 v8 v30 v33 v37 v38 v47 v50 v53 v56 v318 cst (ix2 e j)) := by
  unfold k0_pay53 relu
  simp only [maximumf_apply, addf_apply, subf_apply, broadcast_apply, broadcastTo_a1_ab_apply, Ideal.ofBits_def, Ideal.ofBits_zero_f32]

theorem pay54_apply (v26 : FVec Ideal S64x1 .f32) (e : Fin 64) (j : Fin 512) : k0_pay54 v26 (ix2 e j) = v26 (ix2 e (0 : Fin 1)) + 0 := by
  unfold k0_pay54
  simp only [addf_apply, broadcast_apply, broadcastTo_a1_ab_apply, Ideal.ofBits_def, Ideal.ofBits_zero_f32]

theorem pay55_apply (v268 v348 v361 v367 v370 : FVec Ideal S64x512 .f32) (i : S64x512.Idx) :
    k0_pay55 v268 v348 v361 v367 v370 i = max (v268 i) (min (v361 i) (min (v367 i) (max (v370 i + v348 i) 0))) := by
  unfold k0_pay55
  simp only [maximumf_apply, minimumf_apply, addf_apply, broadcast_apply, Ideal.ofBits_def, Ideal.ofBits_zero_f32]

theorem pay66_apply (v4 v6 : FVec Ideal S512 .f32) (v30 v37 v38 : FVec Ideal S1x512 .f32) (v47 : FVec Ideal S64x1 .f32) (e : Fin 64) (j : Fin 512) :
    k0_pay66 v4 v6 v30 v37 v38 v47 (ix2 e j) = v30 (ix2 (0 : Fin 1) j) + v37 (ix2 (0 : Fin 1) j) * (0 - v4 (ix1 j)) - v38 (ix2 (0 : Fin 1) j) * v6 (ix1 j) - v47 (ix2 e (0 : Fin 1)) := by
  unfold k0_pay66
  simp only [addf_apply, subf_apply, mulf_apply, broadcastTo_1b_ab_apply, broadcastTo_a1_ab_apply, pay64_apply, pay65_apply]

theorem pay67_apply (v4 v6 : FVec Ideal S512 .f32) (v33 v37 v38 : FVec Ideal S1x512 .f32) (v50 : FVec Ideal S64x1 .f32) (e : Fin 64) (j : Fin 512) :
    k0_pay67 v4 v6 v33 v37 v38 v50 (ix2 e j) = v33 (ix2 (0 : Fin 1) j) + v38 (ix2 (0 : Fin 1) j) * (0 - v4 (ix1 j)) + v37 (ix2 (0 : Fin 1) j) * v6 (ix1 j) - v50 (ix2 e (0 : Fin 1)) := by
  unfold k0_pay67
  simp only [addf_apply, subf_apply, mulf_apply, broadcastTo_1b_ab_apply, broadcastTo_a1_ab_apply, pay64_apply, pay65_apply]

theorem pay68_apply (v4 v6 : FVec Ideal S512 .f32) (v30 v33 v37 v38 : FVec Ideal S1x512 .f32) (v47 v50 v53 v56 : FVec Ideal S64x1 .f32)
    (e : Fin 64) (j : Fin 512) :
    k0_pay68 v4 v6 v30 v33 v37 v38 v47 v50 v53 v56 (ix2 e j)
      = roty (v53 (ix2 e (0 : Fin 1))) (v56 (ix2 e (0 : Fin 1))) (k0_pay66 v4 v6 v30 v37 v38 v47 (ix2 e j)) (k0_pay67 v4 v6 v33 v37 v38 v50 (ix2 e j)) := by
  unfold k0_pay68 roty
  simp only [addf_apply, subf_apply, mulf_apply, broadcast_apply, broadcastTo_a1_ab_apply, Ideal.ofBits_def, Ideal.ofBits_zero_f32]

theorem pay69_apply (v4 v6 : FVec Ideal S512 .f32) (v17 v20 : FVec Ideal S64x1 .f32) (v30 v33 v37 v38 : FVec Ideal S1x512 .f32)
    (v47 v50 v53 v56 : FVec Ideal S64x1 .f32) (e : Fin 64) (j : Fin 512) :
    k0_pay69 v4 v6 v17 v20 v30 v33 v37 v38 v47 v50 v53 v56 (ix2 e j)
      = min (relu (v17 (ix2 e (0 : Fin 1)) + 0 - rotx (v53 (ix2 e (0 : Fin 1))) (v56 (ix2 e (0 : Fin 1))) (k0_pay66 v4 v6 v30 v37 v38 v47 (ix2 e j)) (k0_pay67 v4 v6 v33 v37 v38 v50 (ix2 e j))))
          (relu (v20 (ix2 e (0 : Fin 1)) + 0 + rotx (v53 (ix2 e (0 : Fin 1))) (v56 (ix2 e (0 : Fin 1))) (k0_pay66 v4 v6 v30 v37 v38 v47 (ix2 e j)) (k0_pay67 v4 v6 v33 v37 v38 v50 (ix2 e j)))) := by
  unfold k0_pay69 rotx relu
  simp only [maximumf_apply, minimumf_apply, addf_apply, subf_apply, mulf_apply, broadcast_apply, broadcastTo_a1_ab_apply,
    Ideal.ofBits_def, Ideal.ofBits_zero_f32]

theorem pay70_apply (v4 v6 : FVec Ideal S512 .f32) (v23 : FVec Ideal S64x1 .f32) (v30 v33 v37 v38 : FVec Ideal S1x512 .f32)
    (v47 v50 v53 v56 : FVec Ideal S64x1 .f32) (e : Fin 64) (j : Fin 512) :
    k0_pay70 v4 v6 v23 v30 v33 v37 v38 v47 v50 v53 v56 (ix2 e j)
      = v23 (ix2 e (0 : Fin 1)) + 0 - k0_pay68 v4 v6 v30 v33 v37 v38 v47 v50 v53 v56 (ix2 e j) := by
  unfold k0_pay70
  simp only [addf_apply, subf_apply, broadcast_apply, broadcastTo_a1_ab_apply, Ideal.ofBits_def, Ideal.ofBits_zero_f32]

theorem pay15_apply (v13 : Vec Ideal S64x4 .f32) (v376 v454 v467 v471 v472 : FVec Ideal S64x512 .f32) (u : Fin 1) (e : Fin 64) (j : Fin 512) :
    k0_pay15 v13 v376 v454 v467 v471 v472 (ix3 u e j)
      = max (v376 (ix2 e j)) (min (v467 (ix2 e j)) (min (max (v471 (ix2 e j)) (v472 (ix2 e j))) (max (v13 (ix2 e (3 : Fin 4)) + 0 + v454 (ix2 e j)) 0))) := by
  unfold k0_pay15
  simp only [shapeCast_ab_1ab_apply, maximumf_apply, minimumf_apply, addf_apply, broadcast_apply, broadcastTo_a1_ab_apply, pay13_apply,
    Ideal.ofBits_def, Ideal.ofBits_zero_f32]

/-! ### The slab after each corner -/

section Rounds
variable (v0 : Vec Ideal S512x4 .f32) (v13 : Vec Ideal S64x4 .f32) (v29 v32 v35 : Vec Ideal S1x1x512 .f32)
  (v46 v49 v52 v55 : Vec Ideal S1x64x1 .f32)

/-- The agent's corner with local coordinates (lx, ly), column j, against ego row e, from one step's loaded blocks. -/
def cnrB (e : Fin 64) (j : Fin 512) (lx ly : EReal) : EReal :=
  ovB (v13 (ix2 e (0 : Fin 4))) (v13 (ix2 e (1 : Fin 4))) (v13 (ix2 e (2 : Fin 4))) (v13 (ix2 e (3 : Fin 4)))
    (v52 (ix3 (0 : Fin 1) e (0 : Fin 1))) (v55 (ix3 (0 : Fin 1) e (0 : Fin 1))) (v46 (ix3 (0 : Fin 1) e (0 : Fin 1))) (v49 (ix3 (0 : Fin 1) e (0 : Fin 1)))
    (Ideal.cos (v35 (ix3 (0 : Fin 1) (0 : Fin 1) j))) (Ideal.sin (v35 (ix3 (0 : Fin 1) (0 : Fin 1) j)))
    (v29 (ix3 (0 : Fin 1) (0 : Fin 1) j)) (v32 (ix3 (0 : Fin 1) (0 : Fin 1) j)) lx ly

theorem b0_apply (e : Fin 64) (j : Fin 512) :
    b0 v0 v13 v29 v32 v35 v46 v49 v52 v55 (ix2 e j)
      = max 0 (cnrB v13 v29 v32 v35 v46 v49 v52 v55 e j (v0 (ix2 j (0 : Fin 4))) (v0 (ix2 j (2 : Fin 4)))) := by
  unfold b0 cnrB ovB
  rw [pay36_apply]
  simp only [pay1_apply, pay3_apply, pay10_apply, pay11_apply, pay12_apply, pay13_apply, pay16_apply, pay17_apply, pay19_apply, pay20_apply,
    pay23_apply, pay24_apply, pay25_apply, pay26_apply, pay28_apply, pay34_apply, pay35_apply]

theorem b1_apply (e : Fin 64) (j : Fin 512) :
    b1 v0 v13 v29 v32 v35 v46 v49 v52 v55 (ix2 e j)
      = max (b0 v0 v13 v29 v32 v35 v46 v49 v52 v55 (ix2 e j))
          (cnrB v13 v29 v32 v35 v46 v49 v52 v55 e j (v0 (ix2 j (0 : Fin 4))) (0 - v0 (ix2 j (3 : Fin 4)))) := by
  unfold b1 cnrB ovB
  rw [pay43_apply]
  simp only [pay1_apply, pay4_apply, pay10_apply, pay11_apply, pay12_apply, pay13_apply, pay16_apply, pay17_apply, pay19_apply, pay20_apply,
    pay23_apply, pay24_apply, pay25_apply, pay26_apply, pay40_apply, pay41_apply, pay42_apply]

theorem b2_apply (e : Fin 64) (j : Fin 512) :
    b2 v0 v13 v29 v32 v35 v46 v49 v52 v55 (ix2 e j)
      = max (b1 v0 v13 v29 v32 v35 v46 v49 v52 v55 (ix2 e j))
          (cnrB v13 v29 v32 v35 v46 v49 v52 v55 e j (0 - v0 (ix2 j (1 : Fin 4))) (0 - v0 (ix2 j (3 : Fin 4)))) := by
  unfold b2 cnrB ovB ovl
  rw [pay55_apply, pay52_apply, pay53_apply, pay54_apply, pay51_apply, pay49_apply, pay50_apply]
  simp only [pay2_apply, pay4_apply, pay10_apply, pay11_apply, pay12_apply, pay13_apply, pay16_apply, pay17_apply, pay19_apply, pay20_apply,
    pay23_apply, pay24_apply, pay25_apply, pay26_apply, pay46_apply, Ideal.ofBits_def, Ideal.ofBits_zero_f32]
  rfl

/-- THE SECOND SLAB AT AN INDEX: the running maximum from zero over the agent's four corners. -/
theorem slabB_apply (u : Fin 1) (e : Fin 64) (j : Fin 512) :
    slabB v0 v13 v29 v32 v35 v46 v49 v52 v55 (ix3 u e j)
      = max (max (max (max 0
          (cnrB v13 v29 v32 v35 v46 v49 v52 v55 e j (v0 (ix2 j (0 : Fin 4))) (v0 (ix2 j (2 : Fin 4)))))
          (cnrB v13 v29 v32 v35 v46 v49 v52 v55 e j (v0 (ix2 j (0 : Fin 4))) (0 - v0 (ix2 j (3 : Fin 4)))))
          (cnrB v13 v29 v32 v35 v46 v49 v52 v55 e j (0 - v0 (ix2 j (1 : Fin 4))) (0 - v0 (ix2 j (3 : Fin 4)))))
          (cnrB v13 v29 v32 v35 v46 v49 v52 v55 e j (0 - v0 (ix2 j (1 : Fin 4))) (v0 (ix2 j (2 : Fin 4)))) := by
  unfold slabB
  rw [pay15_apply, b2_apply, b1_apply, b0_apply]
  unfold cnrB ovB ovl
  rw [pay69_apply, pay70_apply, pay71_apply, pay68_apply, pay66_apply, pay67_apply]
  simp only [pay2_apply, pay3_apply, pay10_apply, pay11_apply, pay12_apply, pay16_apply, pay17_apply, pay19_apply, pay20_apply,
    pay23_apply, pay24_apply, pay25_apply, pay26_apply]
  rfl

end Rounds

end Cert.Hand.KBody

end
-- ==== Proof.KBody.Pieces.lean ====
import proofs.«124939_j34651796144492_2_alg».proof.Proof.KBody.Rows
import proofs.«124939_j34651796144492_2_alg».proof.Proof.KBody.ReadA
import proofs.«124939_j34651796144492_2_alg».proof.Proof.KBody.ReadB
import Idealize.ShloMosaic.Lib.WritesUnit

set_option maxRecDepth 8192
set_option maxHeartbeats 4000000

noncomputable section

/-!
What the steps before step n leave in the two output blocks, read at an index: entry (t, e, j) with t < n holds the
first (second) slab formula of row t, whatever the block held before and through whichever view it is read — the step
that stored row t is found by going back through the steps one at a time; later steps store other rows.
-/

namespace Cert.Hand.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

/-- Step k's first slab at (u, e, j) is the first slab formula at (t, e, j), t = k, over the whole input blocks. -/
theorem slabA_cell (arg1 arg2 arg3 : Memref sig .tc .vmem S16x1x512 .f32) (arg5 arg6 : Memref sig .tc .vmem S16x64x4 .f32)
    (v0 : Vec Ideal S512x4 .f32) (X_arg1 : BufTy.Contents (Elt Ideal) arg1.view.ty) (X_arg2 : BufTy.Contents (Elt Ideal) arg2.view.ty)
    (X_arg3 : BufTy.Contents (Elt Ideal) arg3.view.ty) (X_arg5 : BufTy.Contents (Elt Ideal) arg5.view.ty)
    (X_arg6 : BufTy.Contents (Elt Ideal) arg6.view.ty) (k : Fin k0_t1_loop.trips) (t : Fin 16) (ht : t.val = k.val)
    (u : Fin 1) (e : Fin 64) (j : Fin 512) :
    slabA v0 (row1 arg1 X_arg1 k) (row1 arg2 X_arg2 k) (row1 arg3 X_arg3 k) (row2 arg5 X_arg5 k) (row2 arg6 X_arg6 k) (ix3 u e j)
      = cellA v0 (arg1.view.read (Elt Ideal) X_arg1) (arg2.view.read (Elt Ideal) X_arg2) (arg3.view.read (Elt Ideal) X_arg3) (arg5.view.read (Elt Ideal) X_arg5) (arg6.view.read (Elt Ideal) X_arg6) t e j := by
  rw [slabA_apply]
  unfold cellA cornerA cnrA
  simp only [row1_apply _ _ k t ht, row2_apply _ _ k t ht]

/-- Step k's second slab at (u, e, j) is the second slab formula at (t, e, j), t = k, over the whole input blocks. -/
theorem slabB_cell (arg1 arg2 arg3 : Memref sig .tc .vmem S16x1x512 .f32) (arg7 arg8 arg9 arg10 : Memref sig .tc .vmem S16x64x1 .f32)
    (v0 : Vec Ideal S512x4 .f32) (v13 : Vec Ideal S64x4 .f32) (X_arg1 : BufTy.Contents (Elt Ideal) arg1.view.ty)
    (X_arg2 : BufTy.Contents (Elt Ideal) arg2.view.ty) (X_arg3 : BufTy.Contents (Elt Ideal) arg3.view.ty)
    (X_arg7 : BufTy.Contents (Elt Ideal) arg7.view.ty) (X_arg8 : BufTy.Contents (Elt Ideal) arg8.view.ty)
    (X_arg9 : BufTy.Contents (Elt Ideal) arg9.view.ty) (X_arg10 : BufTy.Contents (Elt Ideal) arg10.view.ty)
    (k : Fin k0_t1_loop.trips) (t : Fin 16) (ht : t.val = k.val) (u : Fin 1) (e : Fin 64) (j : Fin 512) :
    slabB v0 v13 (row1 arg1 X_arg1 k) (row1 arg2 X_arg2 k) (row1 arg3 X_arg3 k) (row3 arg7 X_arg7 k) (row3 arg8 X_arg8 k)
        (row3 arg9 X_arg9 k) (row3 arg10 X_arg10 k) (ix3 u e j)
      = cellB v0 (arg1.view.read (Elt Ideal) X_arg1) (arg2.view.read (Elt Ideal) X_arg2) (arg3.view.read (Elt Ideal) X_arg3) (arg7.view.read (Elt Ideal) X_arg7) (arg8.view.read (Elt Ideal) X_arg8) (arg9.view.read (Elt Ideal) X_arg9) (arg10.view.read (Elt Ideal) X_arg10) v13 t e j := by
  rw [slabB_apply]
  unfold cellB cornerB cnrB
  simp only [row1_apply _ _ k t ht, row3_apply _ _ k t ht]

/-- THE FIRST OUTPUT BLOCK after the steps before n, at an entry of a row t < n. -/
theorem read_pb_fst {sig' : RefSig} {κ' : Kind} {sp' : Space} (VO : View sig' κ' sp' S16x64x512 .f32) (f : VO.ty.Contents (Elt Ideal))
    (𝒱 : Variants) (c : Dev nD) (bd : Option 𝒱.V) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole) (v0 : Vec Ideal S512x4 .f32) (v13 : Vec Ideal S64x4 .f32) (X_arg1 : BufTy.Contents (Elt Ideal) arg1.view.ty) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (n : ℕ) (hn : n ≤ k0_t1_loop.trips) (t : Fin 16) (ht : t.val < n) (e : Fin 64) (j : Fin 512) :
    VO.read (Elt Ideal) (VO.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 v13 X_arg1 X_arg2 X_arg3 X_arg5 X_arg6 X_arg7 X_arg8 X_arg9 X_arg10 n).1) (ix3 t e j)
      = cellA v0 (arg1.view.read (Elt Ideal) X_arg1) (arg2.view.read (Elt Ideal) X_arg2) (arg3.view.read (Elt Ideal) X_arg3) (arg5.view.read (Elt Ideal) X_arg5) (arg6.view.read (Elt Ideal) X_arg6) t e j := by
  induction n with
  | zero => exact absurd ht (Nat.not_lt_zero _)
  | succ n ih =>
    have hk : n < k0_t1_loop.trips := hn
    rw [show n + 1 = (⟨n, hk⟩ : Fin k0_t1_loop.trips).val + 1 from rfl, pb_k0_t1_succ]
    rw [show ∀ (a b : List (View.Piece (Elt Ideal) S16x64x512 .f32)), (a, b).1 = a from fun _ _ => rfl,
      tripL_fst, List.cons_append, List.nil_append]
    by_cases h : t.val = n
    · refine (View.read_writes_cons_unit_of_mem VO f (k0_off4_inb ⟨n, hk⟩) _ _ (ix3 t e j) (ix3 (0 : Fin 1) e j)
        (k0_off4_eq ⟨n, hk⟩) (fun a => ?_)).trans ?_
      · match a with
        | ⟨0, _⟩ => show t.val = n + 0; omega
        | ⟨1, _⟩ => show e.val = 0 + e.val; omega
        | ⟨2, _⟩ => show j.val = 0 + j.val; omega
      · exact slabA_cell arg1 arg2 arg3 arg5 arg6 v0 X_arg1 X_arg2 X_arg3 X_arg5 X_arg6 ⟨n, hk⟩ t h (0 : Fin 1) e j
    · refine (View.read_writes_cons_unit_of_not_mem VO f (k0_off4_inb ⟨n, hk⟩) _ _ (ix3 t e j) (k0_off4_eq ⟨n, hk⟩)
        (0 : Fin 3) (Or.inl ?_)).trans (ih (Nat.le_of_lt hk) (by omega))
      show t.val < n; omega

/-- THE SECOND OUTPUT BLOCK after the steps before n, at an entry of a row t < n. -/
theorem read_pb_snd {sig' : RefSig} {κ' : Kind} {sp' : Space} (VO : View sig' κ' sp' S16x64x512 .f32) (f : VO.ty.Contents (Elt Ideal))
    (𝒱 : Variants) (c : Dev nD) (bd : Option 𝒱.V) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole) (v0 : Vec Ideal S512x4 .f32) (v13 : Vec Ideal S64x4 .f32) (X_arg1 : BufTy.Contents (Elt Ideal) arg1.view.ty) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (n : ℕ) (hn : n ≤ k0_t1_loop.trips) (t : Fin 16) (ht : t.val < n) (e : Fin 64) (j : Fin 512) :
    VO.read (Elt Ideal) (VO.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 v13 X_arg1 X_arg2 X_arg3 X_arg5 X_arg6 X_arg7 X_arg8 X_arg9 X_arg10 n).2) (ix3 t e j)
      = cellB v0 (arg1.view.read (Elt Ideal) X_arg1) (arg2.view.read (Elt Ideal) X_arg2) (arg3.view.read (Elt Ideal) X_arg3) (arg7.view.read (Elt Ideal) X_arg7) (arg8.view.read (Elt Ideal) X_arg8) (arg9.view.read (Elt Ideal) X_arg9) (arg10.view.read (Elt Ideal) X_arg10) v13 t e j := by
  induction n with
  | zero => exact absurd ht (Nat.not_lt_zero _)
  | succ n ih =>
    have hk : n < k0_t1_loop.trips := hn
    rw [show n + 1 = (⟨n, hk⟩ : Fin k0_t1_loop.trips).val + 1 from rfl, pb_k0_t1_succ]
    rw [show ∀ (a b : List (View.Piece (Elt Ideal) S16x64x512 .f32)), (a, b).2 = b from fun _ _ => rfl,
      tripL_snd, List.cons_append, List.nil_append]
    by_cases h : t.val = n
    · refine (View.read_writes_cons_unit_of_mem VO f (k0_off4_inb ⟨n, hk⟩) _ _ (ix3 t e j) (ix3 (0 : Fin 1) e j)
        (k0_off4_eq ⟨n, hk⟩) (fun a => ?_)).trans ?_
      · match a with
        | ⟨0, _⟩ => show t.val = n + 0; omega
        | ⟨1, _⟩ => show e.val = 0 + e.val; omega
        | ⟨2, _⟩ => show j.val = 0 + j.val; omega
      · exact slabB_cell arg1 arg2 arg3 arg7 arg8 arg9 arg10 v0 v13 X_arg1 X_arg2 X_arg3 X_arg7 X_arg8 X_arg9 X_arg10 ⟨n, hk⟩ t h
          (0 : Fin 1) e j
    · refine (View.read_writes_cons_unit_of_not_mem VO f (k0_off4_inb ⟨n, hk⟩) _ _ (ix3 t e j) (k0_off4_eq ⟨n, hk⟩)
        (0 : Fin 3) (Or.inl ?_)).trans (ih (Nat.le_of_lt hk) (by omega))
      show t.val < n; omega

end Cert.Hand.KBody

end
-- ==== Proof.KBody.Out.lean ====
import proofs.«124939_j34651796144492_2_alg».proof.Proof.KI.RunA
import proofs.«124939_j34651796144492_2_alg».proof.Proof.KBody.Pieces

set_option maxRecDepth 8192
set_option maxHeartbeats 4000000

noncomputable section

/-!
The two output blocks after the body's run, read at an index: the run's piece lists are those of the sixteen steps over
the input blocks' contents, so entry (t, e, j) of the first block is the first slab formula and of the second block the
second slab formula, over the contents of the eleven input blocks.
-/

namespace Cert.Hand.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

section Run
variable {F : FTy → Type} [FloatOps F]

/-- The first output block's pieces after the run: the sixteen steps' first pieces, over the input blocks' contents. -/
theorem run_fst (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) :
    (Cert.Hand.KI.kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1
      = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (View.readAt (Elt F) arg4.view (Rect.unit (s := S512x4) ![0, 0] S512x4.size inb_S512x4_S512x4_0_0).toLoadRect (harg4.unread x3)) (View.readAt (Elt F) arg11.view (Rect.unit (s := S64x4) ![0, 0] S64x4.size inb_S64x4_S64x4_0_0).toLoadRect (harg11.unread x10)) (harg1.unread x0) (harg2.unread x1) (harg3.unread x2) (harg5.unread x4) (harg6.unread x5) (harg7.unread x6) (harg8.unread x7) (harg9.unread x8) (harg10.unread x9) k0_t1_loop.trips).1 := by
  unfold Cert.Hand.KI.kernelRun0_A
  rfl

/-- The second output block's pieces after the run. -/
theorem run_snd (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec F S16x1x512 .f32) (x1 : Vec F S16x1x512 .f32) (x2 : Vec F S16x1x512 .f32) (x3 : Vec F S512x4 .f32) (x4 : Vec F S16x64x4 .f32) (x5 : Vec F S16x64x4 .f32) (x6 : Vec F S16x64x1 .f32) (x7 : Vec F S16x64x1 .f32) (x8 : Vec F S16x64x1 .f32) (x9 : Vec F S16x64x1 .f32) (x10 : Vec F S64x4 .f32) :
    (Cert.Hand.KI.kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (View.readAt (Elt F) arg4.view (Rect.unit (s := S512x4) ![0, 0] S512x4.size inb_S512x4_S512x4_0_0).toLoadRect (harg4.unread x3)) (View.readAt (Elt F) arg11.view (Rect.unit (s := S64x4) ![0, 0] S64x4.size inb_S64x4_S64x4_0_0).toLoadRect (harg11.unread x10)) (harg1.unread x0) (harg2.unread x1) (harg3.unread x2) (harg5.unread x4) (harg6.unread x5) (harg7.unread x6) (harg8.unread x7) (harg9.unread x8) (harg10.unread x9) k0_t1_loop.trips).2 := by
  unfold Cert.Hand.KI.kernelRun0_A
  rfl

end Run

/-- A load of a whole block through the whole-shape rectangle reads the block's contents. -/
theorem whole_S512x4 (arg4 : Memref sig .tc .vmem S512x4 .f32) (harg4 : arg4.IsWhole) (x3 : Vec Ideal S512x4 .f32) :
    View.readAt (Elt Ideal) arg4.view (Rect.unit (s := S512x4) ![0, 0] S512x4.size inb_S512x4_S512x4_0_0).toLoadRect (harg4.unread x3) = x3 := by
  rw [View.readAt_eq_ld, harg4.read_unread]
  exact View.ld_unit_zero (funext fun a => by match a with | ⟨0, _⟩ => rfl | ⟨1, _⟩ => rfl) _ x3

theorem whole_S64x4 (arg11 : Memref sig .tc .vmem S64x4 .f32) (harg11 : arg11.IsWhole) (x10 : Vec Ideal S64x4 .f32) :
    View.readAt (Elt Ideal) arg11.view (Rect.unit (s := S64x4) ![0, 0] S64x4.size inb_S64x4_S64x4_0_0).toLoadRect (harg11.unread x10) = x10 := by
  rw [View.readAt_eq_ld, harg11.read_unread]
  exact View.ld_unit_zero (funext fun a => by match a with | ⟨0, _⟩ => rfl | ⟨1, _⟩ => rfl) _ x10

/-- THE FIRST OUTPUT BLOCK AFTER THE BODY, at an index, through any view and over any prior contents. -/
theorem outA_apply {sig' : RefSig} {κ' : Kind} {sp' : Space} (VO : View sig' κ' sp' S16x64x512 .f32) (f : VO.ty.Contents (Elt Ideal))
    (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec Ideal S16x1x512 .f32) (x1 : Vec Ideal S16x1x512 .f32) (x2 : Vec Ideal S16x1x512 .f32) (x3 : Vec Ideal S512x4 .f32) (x4 : Vec Ideal S16x64x4 .f32) (x5 : Vec Ideal S16x64x4 .f32) (x6 : Vec Ideal S16x64x1 .f32) (x7 : Vec Ideal S16x64x1 .f32) (x8 : Vec Ideal S16x64x1 .f32) (x9 : Vec Ideal S16x64x1 .f32) (x10 : Vec Ideal S64x4 .f32) (t : Fin 16) (e : Fin 64) (j : Fin 512) :
    VO.read (Elt Ideal) (VO.writes (Elt Ideal) f (Cert.Hand.KI.kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1) (ix3 t e j)
      = cellA x3 x0 x1 x2 x4 x5 t e j := by
  rw [run_fst]
  refine (read_pb_fst VO f Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S512x4) ![0, 0] S512x4.size inb_S512x4_S512x4_0_0).toLoadRect (harg4.unread x3)) (View.readAt (Elt Ideal) arg11.view (Rect.unit (s := S64x4) ![0, 0] S64x4.size inb_S64x4_S64x4_0_0).toLoadRect (harg11.unread x10)) (harg1.unread x0) (harg2.unread x1) (harg3.unread x2) (harg5.unread x4) (harg6.unread x5) (harg7.unread x6) (harg8.unread x7) (harg9.unread x8) (harg10.unread x9) k0_t1_loop.trips (le_refl _) t (by rw [trips_eq]; exact t.isLt) e j).trans ?_
  rw [harg1.read_unread, harg2.read_unread, harg3.read_unread, harg5.read_unread, harg6.read_unread, whole_S512x4]

/-- THE SECOND OUTPUT BLOCK AFTER THE BODY, at an index, through any view and over any prior contents. -/
theorem outB_apply {sig' : RefSig} {κ' : Kind} {sp' : Space} (VO : View sig' κ' sp' S16x64x512 .f32) (f : VO.ty.Contents (Elt Ideal))
    (c : Dev nD) (i : grid0.Coords) (arg1 : Memref sig .tc .vmem S16x1x512 .f32) (harg1 : arg1.IsWhole) (arg2 : Memref sig .tc .vmem S16x1x512 .f32) (harg2 : arg2.IsWhole) (arg3 : Memref sig .tc .vmem S16x1x512 .f32) (harg3 : arg3.IsWhole) (arg4 : Memref sig .tc .vmem S512x4 .f32) (harg4 : arg4.IsWhole) (arg5 : Memref sig .tc .vmem S16x64x4 .f32) (harg5 : arg5.IsWhole) (arg6 : Memref sig .tc .vmem S16x64x4 .f32) (harg6 : arg6.IsWhole) (arg7 : Memref sig .tc .vmem S16x64x1 .f32) (harg7 : arg7.IsWhole) (arg8 : Memref sig .tc .vmem S16x64x1 .f32) (harg8 : arg8.IsWhole) (arg9 : Memref sig .tc .vmem S16x64x1 .f32) (harg9 : arg9.IsWhole) (arg10 : Memref sig .tc .vmem S16x64x1 .f32) (harg10 : arg10.IsWhole) (arg11 : Memref sig .tc .vmem S64x4 .f32) (harg11 : arg11.IsWhole) (arg12 : Memref sig .tc .vmem S16x64x512 .f32) (harg12 : arg12.IsWhole) (arg13 : Memref sig .tc .vmem S16x64x512 .f32) (harg13 : arg13.IsWhole)
    (x0 : Vec Ideal S16x1x512 .f32) (x1 : Vec Ideal S16x1x512 .f32) (x2 : Vec Ideal S16x1x512 .f32) (x3 : Vec Ideal S512x4 .f32) (x4 : Vec Ideal S16x64x4 .f32) (x5 : Vec Ideal S16x64x4 .f32) (x6 : Vec Ideal S16x64x1 .f32) (x7 : Vec Ideal S16x64x1 .f32) (x8 : Vec Ideal S16x64x1 .f32) (x9 : Vec Ideal S16x64x1 .f32) (x10 : Vec Ideal S64x4 .f32) (t : Fin 16) (e : Fin 64) (j : Fin 512) :
    VO.read (Elt Ideal) (VO.writes (Elt Ideal) f (Cert.Hand.KI.kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1) (ix3 t e j)
      = cellB x3 x0 x1 x2 x6 x7 x8 x9 x10 t e j := by
  rw [run_snd]
  refine (read_pb_snd VO f Variants.none c none i arg1 harg1 arg2 harg2 arg3 harg3 arg4 harg4 arg5 harg5 arg6 harg6 arg7 harg7 arg8 harg8 arg9 harg9 arg10 harg10 arg11 harg11 arg12 harg12 arg13 harg13 (View.readAt (Elt Ideal) arg4.view (Rect.unit (s := S512x4) ![0, 0] S512x4.size inb_S512x4_S512x4_0_0).toLoadRect (harg4.unread x3)) (View.readAt (Elt Ideal) arg11.view (Rect.unit (s := S64x4) ![0, 0] S64x4.size inb_S64x4_S64x4_0_0).toLoadRect (harg11.unread x10)) (harg1.unread x0) (harg2.unread x1) (harg3.unread x2) (harg5.unread x4) (harg6.unread x5) (harg7.unread x6) (harg8.unread x7) (harg9.unread x8) (harg10.unread x9) k0_t1_loop.trips (le_refl _) t (by rw [trips_eq]; exact t.isLt) e j).trans ?_
  rw [harg1.read_unread, harg2.read_unread, harg3.read_unread, harg7.read_unread, harg8.read_unread, harg9.read_unread,
    harg10.read_unread, whole_S512x4, whole_S64x4]

end Cert.Hand.KBody

end
-- ==== Proof.KHost.StageDefs.lean ====
import proofs.«124939_j34651796144492_2_alg».proof.Proof.Gen.KernelIdeal.Launch
import Idealize.ShloMosaic.PureOps.Ideal

/-!
The arrays the host computes before the kernel is launched, each as a function of the argument arrays, in the order
the program applies its operations: the last sixteen time steps' positions and headings transposed to [16, 4096], the
start indices of the ego gathers, the egos' positions, headings and boxes, the egos' local corner coordinates
(f, f, −r, −r) and (l, −rt, −rt, l), and the egos' global corner coordinates.
-/

set_option maxRecDepth 16384

noncomputable section

namespace Cert.Hand.KHost

open Idealize.ShloMosaic Idealize.ShloMosaic.TcCoe
open Cert.KernelIdeal Cert.KernelIdeal.Gen

/-- Positions of the last sixteen steps, [4096, 16, 2]. -/
def pos16 (pos : FVec Ideal S4096x20x2 .f32) : FVec Ideal S4096x16x2 .f32 :=
  extractStridedSlice S4096x16x2 ![0, 4, 0] pos slices_S4096x20x2_S4096x16x2_0_4_0

/-- x coordinates by (step, agent), [16, 4096]. -/
def posxT (pos : FVec Ideal S4096x20x2 .f32) : FVec Ideal S16x4096 .f32 :=
  transpose S16x4096 [1, 0]
    (shapeCast S4096x16 (extractStridedSlice S4096x16x1 ![0, 0, 0] (pos16 pos) slices_S4096x16x2_S4096x16x1_0_0_0)
      shapeCasts_S4096x16x1_S4096x16) transposes_S4096x16_S16x4096_1_0

/-- y coordinates by (step, agent), [16, 4096]. -/
def posyT (pos : FVec Ideal S4096x20x2 .f32) : FVec Ideal S16x4096 .f32 :=
  transpose S16x4096 [1, 0]
    (shapeCast S4096x16 (extractStridedSlice S4096x16x1 ![0, 0, 1] (pos16 pos) slices_S4096x16x2_S4096x16x1_0_0_1)
      shapeCasts_S4096x16x1_S4096x16) transposes_S4096x16_S16x4096_1_0

/-- Headings by (step, agent), [16, 4096]. -/
def yawT (hd : FVec Ideal S4096x20 .f32) : FVec Ideal S16x4096 .f32 :=
  transpose S16x4096 [1, 0] (extractStridedSlice S4096x16 ![0, 4] hd slices_S4096x20_S4096x16_0_4)
    transposes_S4096x16_S16x4096_1_0

/-- The ego indices normalised (a negative one counted from the end), as a column of start indices. -/
def sidx (eg : IVec S64 32) : IVec S64x1 32 :=
  broadcastInDim S64x1 ![0] bcast_S64_S64x1_0
    (select (cmpi .slt eg (broadcastInDim S64 ![] bcast_S_S64 (constantI S_ 32 0#32)))
      (addi eg (broadcastInDim S64 ![] bcast_S_S64 (constantI S_ 32 4096#32))) eg)

/-- Ego x by (step, ego). -/
def epx (pos : FVec Ideal S4096x20x2 .f32) (eg : IVec S64 32) : FVec Ideal S16x64 .f32 :=
  Host.gather gather_S16x4096_S64x1_S16x64_0_1_n_n_1_1_161 (posxT pos) (sidx eg)
/-- Ego y by (step, ego). -/
def epy (pos : FVec Ideal S4096x20x2 .f32) (eg : IVec S64 32) : FVec Ideal S16x64 .f32 :=
  Host.gather gather_S16x4096_S64x1_S16x64_0_1_n_n_1_1_161 (posyT pos) (sidx eg)
/-- Ego heading by (step, ego). -/
def eyaw (hd : FVec Ideal S4096x20 .f32) (eg : IVec S64 32) : FVec Ideal S16x64 .f32 :=
  Host.gather gather_S16x4096_S64x1_S16x64_0_1_n_n_1_1_161 (yawT hd) (sidx eg)
/-- Ego boxes, [64, 4]. -/
def ebox (box : FVec Ideal S4096x4 .f32) (eg : IVec S64 32) : FVec Ideal S64x4 .f32 :=
  Host.gather gather_S4096x4_S64x1_S64x4_1_0_n_n_0_1_14 box (sidx eg)
/-- Cosine of the ego heading. -/
def ce (hd : FVec Ideal S4096x20 .f32) (eg : IVec S64 32) : FVec Ideal S16x64 .f32 := Host.cos (F := Ideal) (eyaw hd eg)
/-- Sine of the ego heading. -/
def se (hd : FVec Ideal S4096x20 .f32) (eg : IVec S64 32) : FVec Ideal S16x64 .f32 := Host.sin (F := Ideal) (eyaw hd eg)

/-- A [64] vector as a column. -/
def col64 (x : FVec Ideal S64 .f32) : FVec Ideal S64x1 .f32 := broadcastInDim S64x1 ![0] bcast_S64_S64x1_0 x

/-- Front extent of the ego boxes. -/
def ef (b : FVec Ideal S64x4 .f32) : FVec Ideal S64 .f32 :=
  shapeCast S64 (extractStridedSlice S64x1 ![0, 0] b slices_S64x4_S64x1_0_0) shapeCasts_S64x1_S64
/-- Rear extent. -/
def er (b : FVec Ideal S64x4 .f32) : FVec Ideal S64 .f32 :=
  shapeCast S64 (extractStridedSlice S64x1 ![0, 1] b slices_S64x4_S64x1_0_1) shapeCasts_S64x1_S64
/-- Left extent. -/
def el (b : FVec Ideal S64x4 .f32) : FVec Ideal S64 .f32 :=
  shapeCast S64 (extractStridedSlice S64x1 ![0, 2] b slices_S64x4_S64x1_0_2) shapeCasts_S64x1_S64
/-- Right extent. -/
def ert (b : FVec Ideal S64x4 .f32) : FVec Ideal S64 .f32 :=
  shapeCast S64 (extractStridedSlice S64x1 ![0, 3] b slices_S64x4_S64x1_0_3) shapeCasts_S64x1_S64

/-- Local x of the four corners: f, f, −r, −r. -/
def elx (b : FVec Ideal S64x4 .f32) : FVec Ideal S64x4 .f32 :=
  concatenate S64x4 1 [⟨S64x1, col64 (ef b)⟩, ⟨S64x1, col64 (ef b)⟩, ⟨S64x1, col64 (Host.negf (F := Ideal) (er b))⟩,
    ⟨S64x1, col64 (Host.negf (F := Ideal) (er b))⟩] concatenates_S64x1_S64x1_S64x1_S64x1_S64x4_d1
/-- Local y of the four corners: l, −rt, −rt, l. -/
def ely (b : FVec Ideal S64x4 .f32) : FVec Ideal S64x4 .f32 :=
  concatenate S64x4 1 [⟨S64x1, col64 (el b)⟩, ⟨S64x1, col64 (Host.negf (F := Ideal) (ert b))⟩,
    ⟨S64x1, col64 (Host.negf (F := Ideal) (ert b))⟩, ⟨S64x1, col64 (el b)⟩] concatenates_S64x1_S64x1_S64x1_S64x1_S64x4_d1

/-- A (step, ego) array with a unit last axis. -/
def up1 (x : FVec Ideal S16x64 .f32) : FVec Ideal S16x64x1 .f32 := broadcastInDim S16x64x1 ![0, 1] bcast_S16x64_S16x64x1_0_1 x
/-- A (step, ego) array repeated over the four corners. -/
def up3 (x : FVec Ideal S16x64 .f32) : FVec Ideal S16x64x4 .f32 :=
  broadcastInDim S16x64x4 ![0, 1, 2] bcast_S16x64x1_S16x64x4_0_1_2 (up1 x)
/-- An (ego, corner) array repeated over the sixteen steps. -/
def up4 (x : FVec Ideal S64x4 .f32) : FVec Ideal S16x64x4 .f32 :=
  broadcastInDim S16x64x4 ![0, 1, 2] bcast_S1x64x4_S16x64x4_0_1_2 (broadcastInDim S1x64x4 ![1, 2] bcast_S64x4_S1x64x4_1_2 x)
/-- A (step, agent) array with a unit middle axis. -/
def mid1 (x : FVec Ideal S16x4096 .f32) : FVec Ideal S16x1x4096 .f32 :=
  broadcastInDim S16x1x4096 ![0, 2] bcast_S16x4096_S16x1x4096_0_2 x

/-- Global x of the egos' corners, [16, 64, 4]. -/
def cornXArr (pos : FVec Ideal S4096x20x2 .f32) (hd : FVec Ideal S4096x20 .f32) (box : FVec Ideal S4096x4 .f32)
    (eg : IVec S64 32) : FVec Ideal S16x64x4 .f32 :=
  subf (F := Ideal) (addf (F := Ideal) (up3 (epx pos eg)) (mulf (F := Ideal) (up3 (ce hd eg)) (up4 (elx (ebox box eg)))))
    (mulf (F := Ideal) (up3 (se hd eg)) (up4 (ely (ebox box eg))))

/-- Global y of the egos' corners, [16, 64, 4]. -/
def cornYArr (pos : FVec Ideal S4096x20x2 .f32) (hd : FVec Ideal S4096x20 .f32) (box : FVec Ideal S4096x4 .f32)
    (eg : IVec S64 32) : FVec Ideal S16x64x4 .f32 :=
  addf (F := Ideal) (addf (F := Ideal) (up3 (epy pos eg)) (mulf (F := Ideal) (up3 (se hd eg)) (up4 (elx (ebox box eg)))))
    (mulf (F := Ideal) (up3 (ce hd eg)) (up4 (ely (ebox box eg))))

end Cert.Hand.KHost

end
-- ==== Proof.KHost.StageA.lean ====
import proofs.«124939_j34651796144492_2_alg».proof.Proof.KHost.StageDefs
import Idealize.ShloMosaic.Lib.StableHlo.Run

/-!
The host operations before the launch, folded over any starting contents, leave in each of the kernel's short-chain
operand buffers the named array of the starting contents of the argument buffers: the transposed positions and headings
with a unit middle axis, the egos' positions and the cosine and sine of their headings with a unit last axis, the egos'
boxes; and they leave the box argument as it was.
-/

set_option maxRecDepth 16384

noncomputable section

namespace Cert.Hand.KHost

open Idealize.ShloMosaic Idealize.ShloMosaic.TcCoe
open Cert.KernelIdeal Cert.KernelIdeal.Gen

set_option maxHeartbeats 4000000 in
/-- Window 0: x by (step, 0, agent). -/
theorem v125_eq (M : Valuation τ sig (Elt Ideal)) :
    StableHlo.after (hostOps0 (F := Ideal)) M (Proc.devRef .tc main_v125) = mid1 (posxT (M (Proc.devRef .tc main_arg0))) := by
  after_results_simp
  rfl

set_option maxHeartbeats 4000000 in
/-- Window 1: y by (step, 0, agent). -/
theorem v126_eq (M : Valuation τ sig (Elt Ideal)) :
    StableHlo.after (hostOps0 (F := Ideal)) M (Proc.devRef .tc main_v126) = mid1 (posyT (M (Proc.devRef .tc main_arg0))) := by
  after_results_simp
  rfl

set_option maxHeartbeats 4000000 in
/-- Window 2: heading by (step, 0, agent). -/
theorem v127_eq (M : Valuation τ sig (Elt Ideal)) :
    StableHlo.after (hostOps0 (F := Ideal)) M (Proc.devRef .tc main_v127) = mid1 (yawT (M (Proc.devRef .tc main_arg1))) := by
  after_results_simp
  rfl

set_option maxHeartbeats 4000000 in
/-- Window 6: ego x by (step, ego, 0). -/
theorem v128_eq (M : Valuation τ sig (Elt Ideal)) :
    StableHlo.after (hostOps0 (F := Ideal)) M (Proc.devRef .tc main_v128) = up1 (epx (M (Proc.devRef .tc main_arg0)) (M (Proc.devRef .tc main_arg5))) := by
  after_results_simp
  rfl

set_option maxHeartbeats 4000000 in
/-- Window 7: ego y by (step, ego, 0). -/
theorem v129_eq (M : Valuation τ sig (Elt Ideal)) :
    StableHlo.after (hostOps0 (F := Ideal)) M (Proc.devRef .tc main_v129) = up1 (epy (M (Proc.devRef .tc main_arg0)) (M (Proc.devRef .tc main_arg5))) := by
  after_results_simp
  rfl

set_option maxHeartbeats 4000000 in
/-- Window 8: cosine of the ego heading by (step, ego, 0). -/
theorem v130_eq (M : Valuation τ sig (Elt Ideal)) :
    StableHlo.after (hostOps0 (F := Ideal)) M (Proc.devRef .tc main_v130) = up1 (ce (M (Proc.devRef .tc main_arg1)) (M (Proc.devRef .tc main_arg5))) := by
  after_results_simp
  rfl

set_option maxHeartbeats 4000000 in
/-- Window 9: sine of the ego heading by (step, ego, 0). -/
theorem v131_eq (M : Valuation τ sig (Elt Ideal)) :
    StableHlo.after (hostOps0 (F := Ideal)) M (Proc.devRef .tc main_v131) = up1 (se (M (Proc.devRef .tc main_arg1)) (M (Proc.devRef .tc main_arg5))) := by
  after_results_simp
  rfl

set_option maxHeartbeats 4000000 in
/-- Window 10: the ego boxes. -/
theorem v52_eq (M : Valuation τ sig (Elt Ideal)) :
    StableHlo.after (hostOps0 (F := Ideal)) M (Proc.devRef .tc main_v52) = ebox (M (Proc.devRef .tc main_arg3)) (M (Proc.devRef .tc main_arg5)) := by
  after_results_simp
  rfl

set_option maxHeartbeats 4000000 in
/-- Window 3 reads the box argument itself, which no host operation writes. -/
theorem arg3_eq (M : Valuation τ sig (Elt Ideal)) :
    StableHlo.after (hostOps0 (F := Ideal)) M (Proc.devRef .tc main_arg3) = M (Proc.devRef .tc main_arg3) := by
  after_results_simp

end Cert.Hand.KHost

end
-- ==== Proof.KHost.StageB.lean ====
import proofs.«124939_j34651796144492_2_alg».proof.Proof.KHost.StageDefs
import Idealize.ShloMosaic.Lib.StableHlo.Run

/-!
The host operations before the launch leave in the two corner buffers the egos' global corner coordinates, as the
named arrays of the starting contents of the argument buffers.
-/

set_option maxRecDepth 16384

noncomputable section

namespace Cert.Hand.KHost

open Idealize.ShloMosaic Idealize.ShloMosaic.TcCoe
open Cert.KernelIdeal Cert.KernelIdeal.Gen

set_option maxHeartbeats 4000000 in
/-- Window 4: global x of the egos' corners. -/
theorem v90_eq (M : Valuation τ sig (Elt Ideal)) :
    StableHlo.after (hostOps0 (F := Ideal)) M (Proc.devRef .tc main_v90) = cornXArr (M (Proc.devRef .tc main_arg0)) (M (Proc.devRef .tc main_arg1)) (M (Proc.devRef .tc main_arg3)) (M (Proc.devRef .tc main_arg5)) := by
  after_results_simp
  rfl

set_option maxHeartbeats 4000000 in
/-- Window 5: global y of the egos' corners. -/
theorem v104_eq (M : Valuation τ sig (Elt Ideal)) :
    StableHlo.after (hostOps0 (F := Ideal)) M (Proc.devRef .tc main_v104) = cornYArr (M (Proc.devRef .tc main_arg0)) (M (Proc.devRef .tc main_arg1)) (M (Proc.devRef .tc main_arg3)) (M (Proc.devRef .tc main_arg5)) := by
  after_results_simp
  rfl

end Cert.Hand.KHost

end
-- ==== Proof.KHost.Layout.lean ====
import Idealize.ShloMosaic.Lib.ValueLayout

/-!
Layout operations read at an index given by coordinates, at the ranks and sizes the host side of the kernel's program
uses and the library does not state: a cut of a rank-3 array to one column of its last axis, a trailing unit axis
dropped by a shape cast, the broadcasts that add or stretch unit axes, and four columns laid side by side.
-/

namespace Cert.Hand.KHost

open Idealize.ShloMosaic Idealize.ShloMosaic.ValueIdx

variable {α : Type}

/-! ## Slices -/

/-- A rank-3 array cut to the single column `o` of its last axis reads, at (a, b, 0), the source at (a, b, o). -/
theorem slice3_last_apply {n0 n1 n2 : Nat} (o : Nat) (X : (⟨3, ![n0, n1, n2]⟩ : Shape).Idx → α)
    (h : (⟨3, ![n0, n1, n2]⟩ : Shape).Slices ![0, 0, o] ⟨3, ![n0, n1, 1]⟩)
    (a : Fin n0) (b : Fin n1) (u : Fin 1) (k : Fin n2) (hk : k.val = o) :
    extractStridedSlice ⟨3, ![n0, n1, 1]⟩ ![0, 0, o] X h (ix3 a b u) = X (ix3 a b k) :=
  extractStridedSlice_apply _ _ _ _ _ (fun ax => by
    match ax with
    | ⟨0, _⟩ => exact (Nat.zero_add _).symm
    | ⟨1, _⟩ => exact (Nat.zero_add _).symm
    | ⟨2, _⟩ =>
      show k.val = o + u.val
      have := u.isLt
      omega)

/-- A matrix cut to the single column `o` reads, at (a, 0), the source at (a, o). -/
theorem slice2_last_apply {n0 n1 : Nat} (o : Nat) (X : (⟨2, ![n0, n1]⟩ : Shape).Idx → α)
    (h : (⟨2, ![n0, n1]⟩ : Shape).Slices ![0, o] ⟨2, ![n0, 1]⟩)
    (a : Fin n0) (u : Fin 1) (k : Fin n1) (hk : k.val = o) :
    extractStridedSlice ⟨2, ![n0, 1]⟩ ![0, o] X h (ix2 a u) = X (ix2 a k) :=
  slice2_axis1_apply o X h a u k (by have := u.isLt; omega)

/-! ## A trailing unit axis dropped by a shape cast -/

/-- An [a, b, 1] array cast to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- An [a, 1] array cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## Broadcasts that add or stretch unit axes -/

/-- A scalar broadcast to [64]. -/
theorem bcast_0_64_apply (x : (⟨0, ![]⟩ : Shape).Idx → α)
    (h : (⟨0, ![]⟩ : Shape).BroadcastsInDim ⟨1, ![64]⟩ (![] : Fin 0 → Fin 1)) (i : Fin 64) :
    broadcastInDim ⟨1, ![64]⟩ ![] h x (ix1 i) = x ix0 :=
  broadcastInDim_apply _ h x _ _ fun a => a.elim0

/-- [64] as a column [64, 1]. -/
theorem bcast_64_64x1_apply (x : (⟨1, ![64]⟩ : Shape).Idx → α)
    (h : (⟨1, ![64]⟩ : Shape).BroadcastsInDim ⟨2, ![64, 1]⟩ (![0] : Fin 1 → Fin 2)) (i : Fin 64) (u : Fin 1) :
    broadcastInDim ⟨2, ![64, 1]⟩ ![0] h x (ix2 i u) = x (ix1 i) :=
  broadcastInDim_apply _ h x _ _ fun a => match a with | ⟨0, _⟩ => rfl

/-- [16, 4096] with a unit middle axis, [16, 1, 4096]. -/
theorem bcast_16x4096_16x1x4096_apply (x : (⟨2, ![16, 4096]⟩ : Shape).Idx → α)
    (h : (⟨2, ![16, 4096]⟩ : Shape).BroadcastsInDim ⟨3, ![16, 1, 4096]⟩ (![0, 2] : Fin 2 → Fin 3))
    (t : Fin 16) (u : Fin 1) (j : Fin 4096) :
    broadcastInDim ⟨3, ![16, 1, 4096]⟩ ![0, 2] h x (ix3 t u j) = x (ix2 t j) :=
  broadcastInDim_apply _ h x _ _ fun a => match a with | ⟨0, _⟩ => rfl | ⟨1, _⟩ => rfl

/-- [16, 64] with a unit last axis, [16, 64, 1]. -/
theorem bcast_16x64_16x64x1_apply (x : (⟨2, ![16, 64]⟩ : Shape).Idx → α)
    (h : (⟨2, ![16, 64]⟩ : Shape).BroadcastsInDim ⟨3, ![16, 64, 1]⟩ (![0, 1] : Fin 2 → Fin 3))
    (t : Fin 16) (i : Fin 64) (u : Fin 1) :
    broadcastInDim ⟨3, ![16, 64, 1]⟩ ![0, 1] h x (ix3 t i u) = x (ix2 t i) :=
  broadcastInDim_apply _ h x _ _ fun a => match a with | ⟨0, _⟩ => rfl | ⟨1, _⟩ => rfl

/-- [64, 4] with a unit leading axis, [1, 64, 4]. -/
theorem bcast_64x4_1x64x4_apply (x : (⟨2, ![64, 4]⟩ : Shape).Idx → α)
    (h : (⟨2, ![64, 4]⟩ : Shape).BroadcastsInDim ⟨3, ![1, 64, 4]⟩ (![1, 2] : Fin 2 → Fin 3))
    (u : Fin 1) (i : Fin 64) (q : Fin 4) :
    broadcastInDim ⟨3, ![1, 64, 4]⟩ ![1, 2] h x (ix3 u i q) = x (ix2 i q) :=
  broadcastInDim_apply _ h x _ _ fun a => match a with | ⟨0, _⟩ => rfl | ⟨1, _⟩ => rfl

/-- [16, 64, 1] stretched along its last axis to [16, 64, 4]. -/
theorem bcast_16x64x1_16x64x4_apply (x : (⟨3, ![16, 64, 1]⟩ : Shape).Idx → α)
    (h : (⟨3, ![16, 64, 1]⟩ : Shape).BroadcastsInDim ⟨3, ![16, 64, 4]⟩ (![0, 1, 2] : Fin 3 → Fin 3))
    (t : Fin 16) (i : Fin 64) (q : Fin 4) :
    broadcastInDim ⟨3, ![16, 64, 4]⟩ ![0, 1, 2] h x (ix3 t i q) = x (ix3 t i (0 : Fin 1)) :=
  broadcastInDim_apply _ h x _ _ fun a => match a with | ⟨0, _⟩ => rfl | ⟨1, _⟩ => rfl | ⟨2, _⟩ => rfl

/-- [1, 64, 4] stretched along its first axis to [16, 64, 4]. -/
theorem bcast_1x64x4_16x64x4_apply (x : (⟨3, ![1, 64, 4]⟩ : Shape).Idx → α)
    (h : (⟨3, ![1, 64, 4]⟩ : Shape).BroadcastsInDim ⟨3, ![16, 64, 4]⟩ (![0, 1, 2] : Fin 3 → Fin 3))
    (t : Fin 16) (i : Fin 64) (q : Fin 4) :
    broadcastInDim ⟨3, ![16, 64, 4]⟩ ![0, 1, 2] h x (ix3 t i q) = x (ix3 (0 : Fin 1) i q) :=
  broadcastInDim_apply _ h x _ _ fun a => match a with | ⟨0, _⟩ => rfl | ⟨1, _⟩ => rfl | ⟨2, _⟩ => rfl

/-! ## Four columns side by side -/

/-- Four [64, 1] columns concatenated along axis 1 read, at (i, q), column q at (i, 0). -/
theorem concat4_cols_apply (x0 x1 x2 x3 : (⟨2, ![64, 1]⟩ : Shape).Idx → α)
    (h : Shape.Concatenates [(⟨2, ![64, 1]⟩ : Shape), ⟨2, ![64, 1]⟩, ⟨2, ![64, 1]⟩, ⟨2, ![64, 1]⟩] ⟨2, ![64, 4]⟩ 1)
    (i : Fin 64) (q : Fin 4) :
    concatenate ⟨2, ![64, 4]⟩ 1 [⟨⟨2, ![64, 1]⟩, x0⟩, ⟨⟨2, ![64, 1]⟩, x1⟩, ⟨⟨2, ![64, 1]⟩, x2⟩, ⟨⟨2, ![64, 1]⟩, x3⟩] h (ix2 i q)
      = (![x0, x1, x2, x3] q) (ix2 i (0 : Fin 1)) := by
  have hi : ∀ (q : Fin 4) (b : Fin 2), b.cast (rfl : (2 : ℕ) = 2) ≠ (1 : Fin 2) →
      ((ix2 i (0 : Fin 1) : (⟨2, ![64, 1]⟩ : Shape).Idx) b).val
        = ((ix2 i q : (⟨2, ![64, 4]⟩ : Shape).Idx) (b.cast rfl)).val := fun q b hb => by
    match b with
    | ⟨0, _⟩ => rfl
    | ⟨1, _⟩ => exact absurd rfl hb
  match q with
  | ⟨0, _⟩ =>
    exact concatenate_apply_piece (t := ⟨2, ![64, 4]⟩) (1 : Fin 2) [⟨⟨2, ![64, 1]⟩, x0⟩, ⟨⟨2, ![64, 1]⟩, x1⟩, ⟨⟨2, ![64, 1]⟩, x2⟩, ⟨⟨2, ![64, 1]⟩, x3⟩] h (ix2 i _) 0
      (by show (0 : ℕ) < 4; omega) ⟨2, ![64, 1]⟩ x0 rfl rfl 0 rfl (ix2 i 0) (hi _) rfl
  | ⟨1, _⟩ =>
    exact concatenate_apply_piece (t := ⟨2, ![64, 4]⟩) (1 : Fin 2) [⟨⟨2, ![64, 1]⟩, x0⟩, ⟨⟨2, ![64, 1]⟩, x1⟩, ⟨⟨2, ![64, 1]⟩, x2⟩, ⟨⟨2, ![64, 1]⟩, x3⟩] h (ix2 i _) 1
      (by show (1 : ℕ) < 4; omega) ⟨2, ![64, 1]⟩ x1 rfl rfl 1 rfl (ix2 i 0) (hi _) rfl
  | ⟨2, _⟩ =>
    exact concatenate_apply_piece (t := ⟨2, ![64, 4]⟩) (1 : Fin 2) [⟨⟨2, ![64, 1]⟩, x0⟩, ⟨⟨2, ![64, 1]⟩, x1⟩, ⟨⟨2, ![64, 1]⟩, x2⟩, ⟨⟨2, ![64, 1]⟩, x3⟩] h (ix2 i _) 2
      (by show (2 : ℕ) < 4; omega) ⟨2, ![64, 1]⟩ x2 rfl rfl 2 rfl (ix2 i 0) (hi _) rfl
  | ⟨3, _⟩ =>
    exact concatenate_apply_piece (t := ⟨2, ![64, 4]⟩) (1 : Fin 2) [⟨⟨2, ![64, 1]⟩, x0⟩, ⟨⟨2, ![64, 1]⟩, x1⟩, ⟨⟨2, ![64, 1]⟩, x2⟩, ⟨⟨2, ![64, 1]⟩, x3⟩] h (ix2 i _) 3
      (by show (3 : ℕ) < 4; omega) ⟨2, ![64, 1]⟩ x3 rfl rfl 3 rfl (ix2 i 0) (hi _) rfl

end Cert.Hand.KHost
-- ==== Proof.KHost.Gather.lean ====
import Idealize.ShloMosaic.PureOps.Ideal
import Idealize.ShloMosaic.Lib.ValueIdx

/-!
Two gathers of a matrix by a column of start indices, read at an index.

`x[:, idx]` of a [16, 4096] matrix at 64 indices: result element (t, i) is x at (t, r), and `x[idx]` (rows) of a
[4096, 4] matrix at 64 indices: result element (i, q) is x at (r, q), where in both r is the start index idx[i, 0]
read as a signed integer and clamped into [0, 4095], as the gather clamps every start index.
-/

noncomputable section

namespace Cert.Hand.KHost

open Idealize.ShloMosaic Idealize.ShloMosaic.ValueIdx

variable {α : Type}

private theorem zero_not_mem_one : (0 : Fin 2) ∉ ([1] : List (Fin 2)) := by decide
private theorem one_not_mem_zero : (1 : Fin 2) ∉ ([0] : List (Fin 2)) := by decide

/-- The dimension numbers of `x[:, idx]`: operand [16, 4096], start indices [64, 1], result [16, 64]. -/
abbrev colDims (wf : GatherDims.WF ⟨2, ![16, 4096]⟩ ⟨2, ![64, 1]⟩ ⟨2, ![16, 64]⟩ [0] [1] [] [1] [] 1 ![16, 1]) :
    GatherDims ⟨2, ![16, 4096]⟩ ⟨2, ![64, 1]⟩ ⟨2, ![16, 64]⟩ where
  offsetDims := [0]
  collapsedSliceDims := [1]
  operandBatchingDims := []
  startIndicesBatchingDims := []
  startIndexMap := [1]
  indexVectorDim := 1
  sliceSizes := ![16, 1]
  wf := wf

/-- The dimension numbers of `x[idx]` by rows: operand [4096, 4], start indices [64, 1], result [64, 4]. -/
abbrev rowDims (wf : GatherDims.WF ⟨2, ![4096, 4]⟩ ⟨2, ![64, 1]⟩ ⟨2, ![64, 4]⟩ [1] [0] [] [0] [] 1 ![1, 4]) :
    GatherDims ⟨2, ![4096, 4]⟩ ⟨2, ![64, 1]⟩ ⟨2, ![64, 4]⟩ where
  offsetDims := [1]
  collapsedSliceDims := [0]
  operandBatchingDims := []
  startIndicesBatchingDims := []
  startIndexMap := [0]
  indexVectorDim := 1
  sliceSizes := ![1, 4]
  wf := wf

/-- The row a start-index word selects in an axis of extent 4096: read signed, clamped. -/
def clampRow {w : Nat} (e : BitVec w) : Fin 4096 := ⟨min e.toInt.toNat 4095, by omega⟩

/-- `x[:, idx]` at (t, i) is x at (t, the clamped idx[i, 0]). -/
theorem gather_cols_apply {w : Nat}
    (wf : GatherDims.WF ⟨2, ![16, 4096]⟩ ⟨2, ![64, 1]⟩ ⟨2, ![16, 64]⟩ [0] [1] [] [1] [] 1 ![16, 1])
    (x : (⟨2, ![16, 4096]⟩ : Shape).Idx → α) (idx : IVec ⟨2, ![64, 1]⟩ w) (t : Fin 16) (i : Fin 64) :
    Host.gather (colDims wf) x idx (ix2 t i) = x (ix2 t (clampRow (idx (ix2 i (0 : Fin 1))))) := by
  unfold Host.gather
  congr 1
  funext a
  refine Fin.ext ?_
  match a with
  | ⟨0, _⟩ =>
    show (colDims wf).start (ix2 t i) idx 0 + (colDims wf).batchCoord (ix2 t i) 0 + (colDims wf).offCoord (ix2 t i) 0 = t.val
    rw [GatherDims.batchCoord_eq_zero _ _ _ List.not_mem_nil]
    unfold GatherDims.start
    rw [dif_neg (show (0 : Fin 2) ∉ (colDims wf).startIndexMap from zero_not_mem_one)]
    unfold GatherDims.offCoord
    rw [dif_pos (show (0 : Fin 2) ∈ (colDims wf).sKept from (GatherDims.mem_sKept _ _).mpr ⟨zero_not_mem_one, List.not_mem_nil⟩)]
    simp only [Nat.zero_add]
    rfl
  | ⟨1, _⟩ =>
    show (colDims wf).start (ix2 t i) idx 1 + (colDims wf).batchCoord (ix2 t i) 1 + (colDims wf).offCoord (ix2 t i) 1
      = (clampRow (idx (ix2 i (0 : Fin 1)))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims wf).startIndexMap from List.mem_singleton.mpr rfl)]
    have hsi : (colDims wf).siIdx (ix2 t i) ⟨List.idxOf (1 : Fin 2) (colDims wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl

/-- `x[idx]` by rows at (i, q) is x at (the clamped idx[i, 0], q). -/
theorem gather_rows_apply {w : Nat}
    (wf : GatherDims.WF ⟨2, ![4096, 4]⟩ ⟨2, ![64, 1]⟩ ⟨2, ![64, 4]⟩ [1] [0] [] [0] [] 1 ![1, 4])
    (x : (⟨2, ![4096, 4]⟩ : Shape).Idx → α) (idx : IVec ⟨2, ![64, 1]⟩ w) (i : Fin 64) (q : Fin 4) :
    Host.gather (rowDims wf) x idx (ix2 i q) = x (ix2 (clampRow (idx (ix2 i (0 : Fin 1)))) q) := by
  unfold Host.gather
  congr 1
  funext a
  refine Fin.ext ?_
  match a with
  | ⟨0, _⟩ =>
    show (rowDims wf).start (ix2 i q) idx 0 + (rowDims wf).batchCoord (ix2 i q) 0 + (rowDims wf).offCoord (ix2 i q) 0
      = (clampRow (idx (ix2 i (0 : Fin 1)))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix2 i q) ⟨List.idxOf (0 : Fin 2) (rowDims wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims wf).start (ix2 i q) idx 1 + (rowDims wf).batchCoord (ix2 i q) 1 + (rowDims wf).offCoord (ix2 i q) 1 = q.val
    rw [GatherDims.batchCoord_eq_zero _ _ _ List.not_mem_nil]
    unfold GatherDims.start
    rw [dif_neg (show (1 : Fin 2) ∉ (rowDims wf).startIndexMap from one_not_mem_zero)]
    unfold GatherDims.offCoord
    rw [dif_pos (show (1 : Fin 2) ∈ (rowDims wf).sKept from (GatherDims.mem_sKept _ _).mpr ⟨one_not_mem_zero, List.not_mem_nil⟩)]
    simp only [Nat.zero_add]
    rfl

end Cert.Hand.KHost

end
-- ==== Proof.KHost.StageRead.lean ====
import proofs.«124939_j34651796144492_2_alg».proof.Proof.KHost.StageDefs
import proofs.«124939_j34651796144492_2_alg».proof.Proof.KHost.Layout
import proofs.«124939_j34651796144492_2_alg».proof.Proof.KHost.Gather
import proofs.«124939_j34651796144492_2_alg».proof.Proof.Spec

/-!
The host-computed arrays read at an index, in the specification's terms.

Entry (t, j) of the transposed positions and headings is the argument's entry for agent j at step t + 4. A gather by the
normalised ego indices reads the row of the ego's agent: the clamped index is the specification's `rowOf`. The egos'
local corner coordinates are (f, f, −r, −r) and (l, −rt, −rt, l) of the ego's box, and the egos' global corner
coordinates are the specification's `cornX` and `cornY` of the ego's agent, term for term.
-/

set_option maxRecDepth 16384

noncomputable section

namespace Cert.Hand.KHost

open Idealize.ShloMosaic Idealize.ShloMosaic.TcCoe Idealize.ShloMosaic.ValueIdx
open Cert.KernelIdeal Cert.KernelIdeal.Gen

variable (pos : FVec Ideal S4096x20x2 .f32) (hd : FVec Ideal S4096x20 .f32) (box : FVec Ideal S4096x4 .f32) (eg : IVec S64 32)

/-- Step t of the window is step t + 4 of the twenty: the cut's coordinate 4 + t is the specification's. -/
theorem step_eq (t : Fin 16) (h : 4 + t.val < 20) : (⟨4 + t.val, h⟩ : Fin 20) = Spec.step t := Fin.ext (Nat.add_comm 4 t.val)

/-! ## The transposed arrays -/

theorem posxT_apply (t : Fin 16) (j : Fin 4096) : posxT pos (ix2 t j) = pos (ix3 j (Spec.step t) (0 : Fin 2)) := by
  unfold posxT pos16
  refine (transpose_ix2_apply _ _ t j).trans ?_
  refine (shapeCast_ab1_ab_apply _ _ j t).trans ?_
  refine (slice3_last_apply 0 _ _ j t 0 (0 : Fin 2) rfl).trans ?_
  refine (slice3_axis1_eq 4 _ _ j t (0 : Fin 2)).trans ?_
  rw [step_eq]

theorem posyT_apply (t : Fin 16) (j : Fin 4096) : posyT pos (ix2 t j) = pos (ix3 j (Spec.step t) (1 : Fin 2)) := by
  unfold posyT pos16
  refine (transpose_ix2_apply _ _ t j).trans ?_
  refine (shapeCast_ab1_ab_apply _ _ j t).trans ?_
  refine (slice3_last_apply 1 _ _ j t 0 (1 : Fin 2) rfl).trans ?_
  refine (slice3_axis1_eq 4 _ _ j t (1 : Fin 2)).trans ?_
  rw [step_eq]

theorem yawT_apply (t : Fin 16) (j : Fin 4096) : yawT hd (ix2 t j) = hd (ix2 j (Spec.step t)) := by
  unfold yawT
  refine (transpose_ix2_apply _ _ t j).trans ?_
  refine (slice2_axis1_eq 4 _ _ j t).trans ?_
  rw [step_eq]

/-! ## The gathers by the ego indices -/

/-- The start index of ego i is its index word normalised. -/
theorem sidx_apply (i : Fin 64) (u : Fin 1) : sidx eg (ix2 i u) = Spec.normIdx (eg (ix1 i)) := by
  unfold sidx
  exact (bcast_64_64x1_apply _ _ i u).trans rfl

/-- The clamped start index of ego i is the row of the ego's agent. -/
theorem clampRow_sidx (i : Fin 64) : clampRow (sidx eg (ix2 i (0 : Fin 1))) = Spec.egoRow eg i := by
  rw [sidx_apply]; rfl

theorem epx_apply (t : Fin 16) (i : Fin 64) : epx pos eg (ix2 t i) = pos (ix3 (Spec.egoRow eg i) (Spec.step t) (0 : Fin 2)) := by
  unfold epx
  refine (gather_cols_apply gather_S16x4096_S64x1_S16x64_0_1_n_n_1_1_161_wf (posxT pos) (sidx eg) t i).trans ?_
  rw [clampRow_sidx, posxT_apply]

theorem epy_apply (t : Fin 16) (i : Fin 64) : epy pos eg (ix2 t i) = pos (ix3 (Spec.egoRow eg i) (Spec.step t) (1 : Fin 2)) := by
  unfold epy
  refine (gather_cols_apply gather_S16x4096_S64x1_S16x64_0_1_n_n_1_1_161_wf (posyT pos) (sidx eg) t i).trans ?_
  rw [clampRow_sidx, posyT_apply]

theorem eyaw_apply (t : Fin 16) (i : Fin 64) : eyaw hd eg (ix2 t i) = hd (ix2 (Spec.egoRow eg i) (Spec.step t)) := by
  unfold eyaw
  refine (gather_cols_apply gather_S16x4096_S64x1_S16x64_0_1_n_n_1_1_161_wf (yawT hd) (sidx eg) t i).trans ?_
  rw [clampRow_sidx, yawT_apply]

theorem ebox_apply (i : Fin 64) (q : Fin 4) : ebox box eg (ix2 i q) = box (ix2 (Spec.egoRow eg i) q) := by
  unfold ebox
  refine (gather_rows_apply gather_S4096x4_S64x1_S64x4_1_0_n_n_0_1_14_wf box (sidx eg) i q).trans ?_
  rw [clampRow_sidx]

theorem ce_apply (t : Fin 16) (i : Fin 64) : ce hd eg (ix2 t i) = Ideal.cos (hd (ix2 (Spec.egoRow eg i) (Spec.step t))) := by
  show Ideal.cos (eyaw hd eg (ix2 t i)) = _
  rw [eyaw_apply]

theorem se_apply (t : Fin 16) (i : Fin 64) : se hd eg (ix2 t i) = Ideal.sin (hd (ix2 (Spec.egoRow eg i) (Spec.step t))) := by
  show Ideal.sin (eyaw hd eg (ix2 t i)) = _
  rw [eyaw_apply]

/-! ## The egos' local corner coordinates -/

variable (b : FVec Ideal S64x4 .f32)

theorem col64_apply (x : FVec Ideal S64 .f32) (i : Fin 64) (u : Fin 1) : col64 x (ix2 i u) = x (ix1 i) :=
  bcast_64_64x1_apply _ _ i u

theorem ef_apply (i : Fin 64) : ef b (ix1 i) = b (ix2 i (0 : Fin 4)) := by
  unfold ef
  exact (shapeCast_a1_a_apply _ _ i).trans (slice2_last_apply 0 _ _ i 0 (0 : Fin 4) rfl)
theorem er_apply (i : Fin 64) : er b (ix1 i) = b (ix2 i (1 : Fin 4)) := by
  unfold er
  exact (shapeCast_a1_a_apply _ _ i).trans (slice2_last_apply 1 _ _ i 0 (1 : Fin 4) rfl)
theorem el_apply (i : Fin 64) : el b (ix1 i) = b (ix2 i (2 : Fin 4)) := by
  unfold el
  exact (shapeCast_a1_a_apply _ _ i).trans (slice2_last_apply 2 _ _ i 0 (2 : Fin 4) rfl)
theorem ert_apply (i : Fin 64) : ert b (ix1 i) = b (ix2 i (3 : Fin 4)) := by
  unfold ert
  exact (shapeCast_a1_a_apply _ _ i).trans (slice2_last_apply 3 _ _ i 0 (3 : Fin 4) rfl)

theorem negcol_apply (x : FVec Ideal S64 .f32) (i : Fin 64) (u : Fin 1) :
    col64 (Host.negf (F := Ideal) x) (ix2 i u) = -(x (ix1 i)) := col64_apply _ i u

/-- Local x of corner q of ego i: f, f, −r, −r. -/
theorem elx_apply (i : Fin 64) (q : Fin 4) :
    elx b (ix2 i q) = (![b (ix2 i (0 : Fin 4)), b (ix2 i (0 : Fin 4)), -(b (ix2 i (1 : Fin 4))), -(b (ix2 i (1 : Fin 4)))] : Fin 4 → EReal) q := by
  unfold elx
  refine (concat4_cols_apply _ _ _ _ _ i q).trans ?_
  match q with
  | ⟨0, _⟩ => exact (col64_apply _ i 0).trans (ef_apply b i)
  | ⟨1, _⟩ => exact (col64_apply _ i 0).trans (ef_apply b i)
  | ⟨2, _⟩ => exact (negcol_apply _ i 0).trans (congrArg Neg.neg (er_apply b i))
  | ⟨3, _⟩ => exact (negcol_apply _ i 0).trans (congrArg Neg.neg (er_apply b i))

/-- Local y of corner q of ego i: l, −rt, −rt, l. -/
theorem ely_apply (i : Fin 64) (q : Fin 4) :
    ely b (ix2 i q) = (![b (ix2 i (2 : Fin 4)), -(b (ix2 i (3 : Fin 4))), -(b (ix2 i (3 : Fin 4))), b (ix2 i (2 : Fin 4))] : Fin 4 → EReal) q := by
  unfold ely
  refine (concat4_cols_apply _ _ _ _ _ i q).trans ?_
  match q with
  | ⟨0, _⟩ => exact (col64_apply _ i 0).trans (el_apply b i)
  | ⟨1, _⟩ => exact (negcol_apply _ i 0).trans (congrArg Neg.neg (ert_apply b i))
  | ⟨2, _⟩ => exact (negcol_apply _ i 0).trans (congrArg Neg.neg (ert_apply b i))
  | ⟨3, _⟩ => exact (col64_apply _ i 0).trans (el_apply b i)

/-! ## The broadcasts -/

theorem up1_apply (x : FVec Ideal S16x64 .f32) (t : Fin 16) (i : Fin 64) (u : Fin 1) : up1 x (ix3 t i u) = x (ix2 t i) :=
  bcast_16x64_16x64x1_apply _ _ t i u
theorem up3_apply (x : FVec Ideal S16x64 .f32) (t : Fin 16) (i : Fin 64) (q : Fin 4) : up3 x (ix3 t i q) = x (ix2 t i) :=
  (bcast_16x64x1_16x64x4_apply _ _ t i q).trans (up1_apply x t i 0)
theorem up4_apply (x : FVec Ideal S64x4 .f32) (t : Fin 16) (i : Fin 64) (q : Fin 4) : up4 x (ix3 t i q) = x (ix2 i q) :=
  (bcast_1x64x4_16x64x4_apply _ _ t i q).trans (bcast_64x4_1x64x4_apply _ _ 0 i q)
theorem mid1_apply (x : FVec Ideal S16x4096 .f32) (t : Fin 16) (u : Fin 1) (j : Fin 4096) : mid1 x (ix3 t u j) = x (ix2 t j) :=
  bcast_16x4096_16x1x4096_apply _ _ t u j

/-! ## The egos' global corner coordinates -/

/-- The ego of row i at step t, as the specification's agent. -/
abbrev egoAt (t : Fin 16) (i : Fin 64) : Spec.Agent := Spec.agentAt pos hd box t (Spec.egoRow eg i)

theorem cornXArr_apply (t : Fin 16) (i : Fin 64) (q : Fin 4) :
    cornXArr pos hd box eg (ix3 t i q) = Spec.cornX (egoAt pos hd box eg t i) q := by
  show up3 (epx pos eg) (ix3 t i q) + up3 (ce hd eg) (ix3 t i q) * up4 (elx (ebox box eg)) (ix3 t i q)
      - up3 (se hd eg) (ix3 t i q) * up4 (ely (ebox box eg)) (ix3 t i q) = _
  rw [up3_apply, up3_apply, up3_apply, up4_apply, up4_apply, epx_apply, ce_apply, se_apply, elx_apply, ely_apply,
    ebox_apply, ebox_apply, ebox_apply, ebox_apply]
  rfl

theorem cornYArr_apply (t : Fin 16) (i : Fin 64) (q : Fin 4) :
    cornYArr pos hd box eg (ix3 t i q) = Spec.cornY (egoAt pos hd box eg t i) q := by
  show up3 (epy pos eg) (ix3 t i q) + up3 (se hd eg) (ix3 t i q) * up4 (elx (ebox box eg)) (ix3 t i q)
      + up3 (ce hd eg) (ix3 t i q) * up4 (ely (ebox box eg)) (ix3 t i q) = _
  rw [up3_apply, up3_apply, up3_apply, up4_apply, up4_apply, epy_apply, ce_apply, se_apply, elx_apply, ely_apply,
    ebox_apply, ebox_apply, ebox_apply, ebox_apply]
  rfl

end Cert.Hand.KHost

end
-- ==== Proof.KHost.Mask.lean ====
import proofs.«124939_j34651796144492_2_alg».proof.Proof.Gen.KernelIdeal.Launch
import proofs.«124939_j34651796144492_2_alg».proof.Proof.Tail
import Idealize.ShloMosaic.Lib.StableHlo.Run

/-!
The edge mask the host computes before the launch is the shared function `Tail.mask` of the starting contents of the
validity, scene-id and ego-index arguments: the same operations in the same order, so the two terms agree up to the
proofs of the shapes' side conditions they carry.
-/

set_option maxRecDepth 16384

noncomputable section

namespace Cert.Hand.KHost

open Idealize.ShloMosaic Idealize.ShloMosaic.TcCoe
open Cert.KernelIdeal Cert.KernelIdeal.Gen
open Cert.Hand

set_option maxHeartbeats 4000000 in
/-- The mask buffer at the launch. -/
theorem v124_eq (M : Valuation τ sig (Elt Ideal)) :
    StableHlo.after (hostOps0 (F := Ideal)) M (Proc.devRef .tc main_v124)
      = Tail.mask (M (Proc.devRef .tc main_arg2)) (M (Proc.devRef .tc main_arg4)) (M (Proc.devRef .tc main_arg5)) := by
  after_results_simp
  rfl

end Cert.Hand.KHost

end
-- ==== Proof.KHost.Read.lean ====
import proofs.«124939_j34651796144492_2_alg».proof.Proof.KHost.StageA
import proofs.«124939_j34651796144492_2_alg».proof.Proof.KHost.StageB
import proofs.«124939_j34651796144492_2_alg».proof.Proof.KHost.StageRead
import proofs.«124939_j34651796144492_2_alg».proof.Proof.KHost.Mask

/-!
What the kernel's windows read, index by index, in the specification's terms.

From any starting contents M of the buffers, after the host operations that precede the launch: the three agent arrays
hold agent j's position and heading at step t + 4; the ego arrays hold the position, the cosine and sine of the heading,
the box and the four global corners of the ego's agent — the agent at the clamped, normalised ego index —; and the box
argument is untouched.
-/

set_option maxRecDepth 16384

noncomputable section

namespace Cert.Hand.KHost

open Idealize.ShloMosaic Idealize.ShloMosaic.TcCoe Idealize.ShloMosaic.ValueIdx
open Cert.KernelIdeal Cert.KernelIdeal.Gen

variable (M : Valuation τ sig (Elt Ideal))

/-- Agent j at step t, from the starting contents of the argument buffers. -/
abbrev agentOf (t : Fin 16) (j : Fin 4096) : Spec.Agent :=
  Spec.agentAt (M (Proc.devRef .tc main_arg0)) (M (Proc.devRef .tc main_arg1)) (M (Proc.devRef .tc main_arg3)) t j

/-- The agent that is ego i. -/
abbrev egoIdx (i : Fin 64) : Fin 4096 := Spec.egoRow (M (Proc.devRef .tc main_arg5)) i

/-- Ego i at step t. -/
abbrev egoOf (t : Fin 16) (i : Fin 64) : Spec.Agent := agentOf M t (egoIdx M i)

/-- Window 0 at (t, 0, j): agent j's x at step t. -/
theorem v125_apply (t : Fin 16) (j : Fin 4096) :
    StableHlo.after (hostOps0 (F := Ideal)) M (Proc.devRef .tc main_v125) (ix3 t (0 : Fin 1) j) = (agentOf M t j).px :=
  (congrFun (v125_eq M) _).trans ((mid1_apply _ t 0 j).trans (posxT_apply _ t j))

/-- Window 1 at (t, 0, j): agent j's y at step t. -/
theorem v126_apply (t : Fin 16) (j : Fin 4096) :
    StableHlo.after (hostOps0 (F := Ideal)) M (Proc.devRef .tc main_v126) (ix3 t (0 : Fin 1) j) = (agentOf M t j).py :=
  (congrFun (v126_eq M) _).trans ((mid1_apply _ t 0 j).trans (posyT_apply _ t j))

/-- Window 2 at (t, 0, j): agent j's heading at step t (the kernel takes its cosine and sine itself). -/
theorem v127_apply (t : Fin 16) (j : Fin 4096) :
    StableHlo.after (hostOps0 (F := Ideal)) M (Proc.devRef .tc main_v127) (ix3 t (0 : Fin 1) j) = M (Proc.devRef .tc main_arg1) (ix2 j (Spec.step t)) :=
  (congrFun (v127_eq M) _).trans ((mid1_apply _ t 0 j).trans (yawT_apply _ t j))

/-- Window 3 is the box argument itself. -/
theorem arg3_kept : StableHlo.after (hostOps0 (F := Ideal)) M (Proc.devRef .tc main_arg3) = M (Proc.devRef .tc main_arg3) := arg3_eq M

/-- Window 4 at (t, i, q): global x of corner q of ego i at step t. -/
theorem v90_apply (t : Fin 16) (i : Fin 64) (q : Fin 4) :
    StableHlo.after (hostOps0 (F := Ideal)) M (Proc.devRef .tc main_v90) (ix3 t i q) = Spec.cornX (egoOf M t i) q :=
  (congrFun (v90_eq M) _).trans (cornXArr_apply _ _ _ _ t i q)

/-- Window 5 at (t, i, q): global y of corner q of ego i at step t. -/
theorem v104_apply (t : Fin 16) (i : Fin 64) (q : Fin 4) :
    StableHlo.after (hostOps0 (F := Ideal)) M (Proc.devRef .tc main_v104) (ix3 t i q) = Spec.cornY (egoOf M t i) q :=
  (congrFun (v104_eq M) _).trans (cornYArr_apply _ _ _ _ t i q)

/-- Window 6 at (t, i, 0): ego i's x at step t. -/
theorem v128_apply (t : Fin 16) (i : Fin 64) :
    StableHlo.after (hostOps0 (F := Ideal)) M (Proc.devRef .tc main_v128) (ix3 t i (0 : Fin 1)) = (egoOf M t i).px :=
  (congrFun (v128_eq M) _).trans ((up1_apply _ t i 0).trans (epx_apply _ _ t i))

/-- Window 7 at (t, i, 0): ego i's y at step t. -/
theorem v129_apply (t : Fin 16) (i : Fin 64) :
    StableHlo.after (hostOps0 (F := Ideal)) M (Proc.devRef .tc main_v129) (ix3 t i (0 : Fin 1)) = (egoOf M t i).py :=
  (congrFun (v129_eq M) _).trans ((up1_apply _ t i 0).trans (epy_apply _ _ t i))

/-- Window 8 at (t, i, 0): the cosine of ego i's heading at step t. -/
theorem v130_apply (t : Fin 16) (i : Fin 64) :
    StableHlo.after (hostOps0 (F := Ideal)) M (Proc.devRef .tc main_v130) (ix3 t i (0 : Fin 1)) = (egoOf M t i).c :=
  (congrFun (v130_eq M) _).trans ((up1_apply _ t i 0).trans (ce_apply _ _ t i))

/-- Window 9 at (t, i, 0): the sine of ego i's heading at step t. -/
theorem v131_apply (t : Fin 16) (i : Fin 64) :
    StableHlo.after (hostOps0 (F := Ideal)) M (Proc.devRef .tc main_v131) (ix3 t i (0 : Fin 1)) = (egoOf M t i).s :=
  (congrFun (v131_eq M) _).trans ((up1_apply _ t i 0).trans (se_apply _ _ t i))

/-- Window 10 at (i, q): column q of the box of ego i's agent. -/
theorem v52_apply (i : Fin 64) (q : Fin 4) :
    StableHlo.after (hostOps0 (F := Ideal)) M (Proc.devRef .tc main_v52) (ix2 i q) = M (Proc.devRef .tc main_arg3) (ix2 (egoIdx M i) q) :=
  (congrFun (v52_eq M) _).trans (ebox_apply _ _ i q)

/-- The four columns of window 10 are the ego's half-extents, at every step. -/
theorem v52_f (t : Fin 16) (i : Fin 64) : StableHlo.after (hostOps0 (F := Ideal)) M (Proc.devRef .tc main_v52) (ix2 i (0 : Fin 4)) = (egoOf M t i).f := v52_apply M i 0
theorem v52_r (t : Fin 16) (i : Fin 64) : StableHlo.after (hostOps0 (F := Ideal)) M (Proc.devRef .tc main_v52) (ix2 i (1 : Fin 4)) = (egoOf M t i).r := v52_apply M i 1
theorem v52_l (t : Fin 16) (i : Fin 64) : StableHlo.after (hostOps0 (F := Ideal)) M (Proc.devRef .tc main_v52) (ix2 i (2 : Fin 4)) = (egoOf M t i).l := v52_apply M i 2
theorem v52_rt (t : Fin 16) (i : Fin 64) : StableHlo.after (hostOps0 (F := Ideal)) M (Proc.devRef .tc main_v52) (ix2 i (3 : Fin 4)) = (egoOf M t i).rt := v52_apply M i 3

/-- Window 3 at (j, q): column q of agent j's box; its four columns are agent j's half-extents at every step. -/
theorem arg3_f (t : Fin 16) (j : Fin 4096) : StableHlo.after (hostOps0 (F := Ideal)) M (Proc.devRef .tc main_arg3) (ix2 j (0 : Fin 4)) = (agentOf M t j).f := congrFun (arg3_eq M) _
theorem arg3_r (t : Fin 16) (j : Fin 4096) : StableHlo.after (hostOps0 (F := Ideal)) M (Proc.devRef .tc main_arg3) (ix2 j (1 : Fin 4)) = (agentOf M t j).r := congrFun (arg3_eq M) _
theorem arg3_l (t : Fin 16) (j : Fin 4096) : StableHlo.after (hostOps0 (F := Ideal)) M (Proc.devRef .tc main_arg3) (ix2 j (2 : Fin 4)) = (agentOf M t j).l := congrFun (arg3_eq M) _
theorem arg3_rt (t : Fin 16) (j : Fin 4096) : StableHlo.after (hostOps0 (F := Ideal)) M (Proc.devRef .tc main_arg3) (ix2 j (3 : Fin 4)) = (agentOf M t j).rt := congrFun (arg3_eq M) _

end Cert.Hand.KHost

end
-- ==== Proof.KHost.TailOpsR.lean ====
/- The 66 host operations that follow the kernel's region, as one list: the eleven stretches of the program's
   own account in order, every operation written with the builder of its arity at its buffers' own types. The list is
   the stretches' concatenation: the same operations over the same buffers. -/
import proofs.«124939_j34651796144492_2_alg».proof.Proof.Gen.KernelIdeal.Launch
import Idealize.ShloMosaic.Lib.StableHlo.Run
import Idealize.ShloMosaic.Lib.Pipeline.Regions

noncomputable section

namespace Cert.Hand.KHost

open Cert.KernelIdeal Cert.KernelIdeal.Gen Idealize.ShloMosaic Idealize.ShloMosaic.TcCoe Idealize.SL.Sem Idealize.ShloMosaic.StableHlo

variable {F : FTy → Type} [FloatOps F]

set_option maxHeartbeats 40000000 in
/-- The operations after the region, in order. -/
abbrev kTail : List (HloOp τ sig (Elt F)) :=
  ( StableHlo.reshape main_v124 main_v133 rfl shapeCasts_S16x64x4096_S4194304 -- hostOps1
  :: StableHlo.unary main_v124 main_v134 ((transpose S16x4096x64 [0, 2, 1] · transposes_S16x64x4096_S16x4096x64_0_2_1) : (⟨S16x64x4096, .i1⟩ : BufTy).Contents (Elt F) → (⟨S16x4096x64, .i1⟩ : BufTy).Contents (Elt F)) -- hostOps1
  :: StableHlo.reshape main_v134 main_v135 rfl shapeCasts_S16x4096x64_S4194304 -- hostOps1
  :: StableHlo.unary main_v133 main_v136 ((extui 32 · natLt_1_32) : (⟨S4194304, .i1⟩ : BufTy).Contents (Elt F) → (⟨S4194304, .i32⟩ : BufTy).Contents (Elt F)) -- hostOps1
  :: StableHlo.nullary main_call0_call0_c (constantI S_ 32 0#32) -- hostOps1_1
  :: StableHlo.unary main_call0_call0_c main_call0_call0_v0 ((broadcastInDim S_ ![] bcast_S_S_) : (⟨S_, .i32⟩ : BufTy).Contents (Elt F) → (⟨S_, .i32⟩ : BufTy).Contents (Elt F)) -- hostOps1_1
  :: StableHlo.binary main_v136 main_call0_call0_v0 main_v137 ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) -- hostOps1_1
  :: StableHlo.nullary main_c_11 (constantI S_ 32 1#32) -- hostOps1_2
  :: StableHlo.unary main_c_11 main_v138 (broadcastInDim S4194304 ![] bcast_S_S4194304 : (⟨S_, .i32⟩ : BufTy).Contents (Elt F) → (⟨S4194304, .i32⟩ : BufTy).Contents (Elt F)) -- hostOps1_2
  :: StableHlo.binary main_v137 main_v138 main_v139 (subi : (⟨S4194304, .i32⟩ : BufTy).Contents (Elt F) → (⟨S4194304, .i32⟩ : BufTy).Contents (Elt F) → (⟨S4194304, .i32⟩ : BufTy).Contents (Elt F)) -- hostOps1_2
  :: StableHlo.unary main_v135 main_v140 ((extui 32 · natLt_1_32) : (⟨S4194304, .i1⟩ : BufTy).Contents (Elt F) → (⟨S4194304, .i32⟩ : BufTy).Contents (Elt F)) -- hostOps1_2
  :: StableHlo.nullary main_call1_call0_c (constantI S_ 32 0#32) -- hostOps1_3
  :: StableHlo.unary main_call1_call0_c main_call1_call0_v0 ((broadcastInDim S_ ![] bcast_S_S_) : (⟨S_, .i32⟩ : BufTy).Contents (Elt F) → (⟨S_, .i32⟩ : BufTy).Contents (Elt F)) -- hostOps1_3
  :: StableHlo.binary main_v140 main_call1_call0_v0 main_v141 ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) -- hostOps1_3
  :: StableHlo.nullary main_c_12 (constantI S_ 32 1#32) -- hostOps1_4
  :: StableHlo.unary main_c_12 main_v142 (broadcastInDim S4194304 ![] bcast_S_S4194304 : (⟨S_, .i32⟩ : BufTy).Contents (Elt F) → (⟨S4194304, .i32⟩ : BufTy).Contents (Elt F)) -- hostOps1_4
  :: StableHlo.binary main_v141 main_v142 main_v143 (subi : (⟨S4194304, .i32⟩ : BufTy).Contents (Elt F) → (⟨S4194304, .i32⟩ : BufTy).Contents (Elt F) → (⟨S4194304, .i32⟩ : BufTy).Contents (Elt F)) -- hostOps1_4
  :: StableHlo.unary main_v132_1 main_v144 ((transpose S16x4096x64 [0, 2, 1] · transposes_S16x64x4096_S16x4096x64_0_2_1) : (⟨S16x64x4096, .f32⟩ : BufTy).Contents (Elt F) → (⟨S16x4096x64, .f32⟩ : BufTy).Contents (Elt F)) -- hostOps1_4
  :: StableHlo.reshape main_v144 main_v145 rfl shapeCasts_S16x4096x64_S4194304 -- hostOps1_4
  :: StableHlo.nullary main_cst (constant S_ .f32 0x00000000#32) -- hostOps1_4
  :: StableHlo.unary main_cst main_v146 (broadcastInDim S4194305 ![] bcast_S_S4194305 : (⟨S_, .f32⟩ : BufTy).Contents (Elt F) → (⟨S4194305, .f32⟩ : BufTy).Contents (Elt F)) -- hostOps1_4
  :: StableHlo.nullary main_c_13 (constantI S_ 32 4194304#32) -- hostOps1_4
  :: StableHlo.unary main_c_13 main_call2_v0 (id : (⟨S_, .i32⟩ : BufTy).Contents (Elt F) → (⟨S_, .i32⟩ : BufTy).Contents (Elt F)) -- hostOps1_5
  :: StableHlo.unary main_call2_v0 main_call2_v1 ((broadcastInDim S4194304 ![] bcast_S_S4194304) : (⟨S_, .i32⟩ : BufTy).Contents (Elt F) → (⟨S4194304, .i32⟩ : BufTy).Contents (Elt F)) -- hostOps1_5
  :: StableHlo.ternary main_v135 main_v143 main_call2_v1 main_v147 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) -- hostOps1_5
  :: StableHlo.nullary main_c_14 (constantI S_ 32 0#32) -- hostOps1_6
  :: StableHlo.unary main_c_14 main_v148 (broadcastInDim S4194304 ![] bcast_S_S4194304 : (⟨S_, .i32⟩ : BufTy).Contents (Elt F) → (⟨S4194304, .i32⟩ : BufTy).Contents (Elt F)) -- hostOps1_6
  :: StableHlo.binary main_v147 main_v148 main_v149 (cmpi .slt : (⟨S4194304, .i32⟩ : BufTy).Contents (Elt F) → (⟨S4194304, .i32⟩ : BufTy).Contents (Elt F) → (⟨S4194304, .i1⟩ : BufTy).Contents (Elt F)) -- hostOps1_6
  :: StableHlo.nullary main_c_15 (constantI S_ 32 4194305#32) -- hostOps1_6
  :: StableHlo.unary main_c_15 main_v150 (broadcastInDim S4194304 ![] bcast_S_S4194304 : (⟨S_, .i32⟩ : BufTy).Contents (Elt F) → (⟨S4194304, .i32⟩ : BufTy).Contents (Elt F)) -- hostOps1_6
  :: StableHlo.binary main_v147 main_v150 main_v151 (addi : (⟨S4194304, .i32⟩ : BufTy).Contents (Elt F) → (⟨S4194304, .i32⟩ : BufTy).Contents (Elt F) → (⟨S4194304, .i32⟩ : BufTy).Contents (Elt F)) -- hostOps1_6
  :: StableHlo.ternary main_v149 main_v151 main_v147 main_v152 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) -- hostOps1_6
  :: StableHlo.unary main_v152 main_v153 (broadcastInDim S4194304x1 ![0] bcast_S4194304_S4194304x1_0 : (⟨S4194304, .i32⟩ : BufTy).Contents (Elt F) → (⟨S4194304x1, .i32⟩ : BufTy).Contents (Elt F)) -- hostOps1_6
  :: StableHlo.ternary main_v146 main_v153 main_v145 main_v154 ((fun x i u => Host.scatter scatter_S4194305_S4194304x1_S4194304_n_0_0_1 (fun _ b => b) x i u) : (⟨S4194305, .f32⟩ : BufTy).Contents (Elt F) → (⟨S4194304x1, .i32⟩ : BufTy).Contents (Elt F) → (⟨S4194304, .f32⟩ : BufTy).Contents (Elt F) → (⟨S4194305, .f32⟩ : BufTy).Contents (Elt F)) -- hostOps1_6
  :: StableHlo.reshape main_v132_0 main_v155 rfl shapeCasts_S16x64x4096_S4194304 -- hostOps1_6
  :: StableHlo.nullary main_c_16 (constantI S_ 32 4194304#32) -- hostOps1_6
  :: StableHlo.unary main_c_16 main_call3_v0 (id : (⟨S_, .i32⟩ : BufTy).Contents (Elt F) → (⟨S_, .i32⟩ : BufTy).Contents (Elt F)) -- hostOps1_7
  :: StableHlo.unary main_call3_v0 main_call3_v1 ((broadcastInDim S4194304 ![] bcast_S_S4194304) : (⟨S_, .i32⟩ : BufTy).Contents (Elt F) → (⟨S4194304, .i32⟩ : BufTy).Contents (Elt F)) -- hostOps1_7
  :: StableHlo.ternary main_v133 main_v139 main_call3_v1 main_v156 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) -- hostOps1_7
  :: StableHlo.nullary main_c_17 (constantI S_ 32 0#32) -- hostOps1_8
  :: StableHlo.unary main_c_17 main_v157 (broadcastInDim S4194304 ![] bcast_S_S4194304 : (⟨S_, .i32⟩ : BufTy).Contents (Elt F) → (⟨S4194304, .i32⟩ : BufTy).Contents (Elt F)) -- hostOps1_8
  :: StableHlo.binary main_v156 main_v157 main_v158 (cmpi .slt : (⟨S4194304, .i32⟩ : BufTy).Contents (Elt F) → (⟨S4194304, .i32⟩ : BufTy).Contents (Elt F) → (⟨S4194304, .i1⟩ : BufTy).Contents (Elt F)) -- hostOps1_8
  :: StableHlo.nullary main_c_18 (constantI S_ 32 4194305#32) -- hostOps1_8
  :: StableHlo.unary main_c_18 main_v159 (broadcastInDim S4194304 ![] bcast_S_S4194304 : (⟨S_, .i32⟩ : BufTy).Contents (Elt F) → (⟨S4194304, .i32⟩ : BufTy).Contents (Elt F)) -- hostOps1_8
  :: StableHlo.binary main_v156 main_v159 main_v160 (addi : (⟨S4194304, .i32⟩ : BufTy).Contents (Elt F) → (⟨S4194304, .i32⟩ : BufTy).Contents (Elt F) → (⟨S4194304, .i32⟩ : BufTy).Contents (Elt F)) -- hostOps1_8
  :: StableHlo.ternary main_v158 main_v160 main_v156 main_v161 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) -- hostOps1_8
  :: StableHlo.unary main_v161 main_v162 (broadcastInDim S4194304x1 ![0] bcast_S4194304_S4194304x1_0 : (⟨S4194304, .i32⟩ : BufTy).Contents (Elt F) → (⟨S4194304x1, .i32⟩ : BufTy).Contents (Elt F)) -- hostOps1_8
  :: StableHlo.binary main_v154 main_v162 main_v163 ((fun x i => Host.gather gather_S4194305_S4194304x1_S4194304_n_0_n_n_0_1_1 x i) : (⟨S4194305, .f32⟩ : BufTy).Contents (Elt F) → (⟨S4194304x1, .i32⟩ : BufTy).Contents (Elt F) → (⟨S4194304, .f32⟩ : BufTy).Contents (Elt F)) -- hostOps1_8
  :: StableHlo.binary main_v155 main_v163 main_v164 (maximumf : (⟨S4194304, .f32⟩ : BufTy).Contents (Elt F) → (⟨S4194304, .f32⟩ : BufTy).Contents (Elt F) → (⟨S4194304, .f32⟩ : BufTy).Contents (Elt F)) -- hostOps1_8
  :: StableHlo.nullary main_cst_19 (constant S_ .f32 0xFF7FFFFF#32) -- hostOps1_8
  :: StableHlo.unary main_cst_19 main_call4_v0 ((broadcastInDim S4194304 ![] bcast_S_S4194304) : (⟨S_, .f32⟩ : BufTy).Contents (Elt F) → (⟨S4194304, .f32⟩ : BufTy).Contents (Elt F)) -- hostOps1_9
  :: StableHlo.ternary main_v133 main_v164 main_call4_v0 main_v165 (select : (⟨S4194304, .i1⟩ : BufTy).Contents (Elt F) → (⟨S4194304, .f32⟩ : BufTy).Contents (Elt F) → (⟨S4194304, .f32⟩ : BufTy).Contents (Elt F) → (⟨S4194304, .f32⟩ : BufTy).Contents (Elt F)) -- hostOps1_9
  :: StableHlo.reshape main_v165 main_v166 rfl shapeCasts_S4194304_S16x64x4096 -- hostOps1_10
  :: StableHlo.nullary main_c_20 (constantI S_ 1 0#1) -- hostOps1_10
  :: StableHlo.binary main_v124 main_c_20 main_v167 ((fun x v => Host.reduce IntOp.ori x v reducesTo_S16x64x4096_S16x64_d2 h_S_) : (⟨S16x64x4096, .i1⟩ : BufTy).Contents (Elt F) → (⟨S_, .i1⟩ : BufTy).Contents (Elt F) → (⟨S16x64, .i1⟩ : BufTy).Contents (Elt F)) -- hostOps1_10
  :: StableHlo.nullary main_cst_21 (constant S_ .f32 0xFF800000#32) -- hostOps1_10
  :: StableHlo.binary main_v166 main_cst_21 main_v168 ((fun x v => Host.reduce FloatOps.maximumf x v reducesTo_S16x64x4096_S16x64_d2 h_S_) : (⟨S16x64x4096, .f32⟩ : BufTy).Contents (Elt F) → (⟨S_, .f32⟩ : BufTy).Contents (Elt F) → (⟨S16x64, .f32⟩ : BufTy).Contents (Elt F)) -- hostOps1_10
  :: StableHlo.nullary main_cst_22 (constant S_ .f32 0x00000000#32) -- hostOps1_10
  :: StableHlo.unary main_cst_22 main_v169 (broadcastInDim S16x64 ![] bcast_S_S16x64 : (⟨S_, .f32⟩ : BufTy).Contents (Elt F) → (⟨S16x64, .f32⟩ : BufTy).Contents (Elt F)) -- hostOps1_10
  :: StableHlo.binary main_v168 main_v169 main_v170 (cmpf .ogt : (⟨S16x64, .f32⟩ : BufTy).Contents (Elt F) → (⟨S16x64, .f32⟩ : BufTy).Contents (Elt F) → (⟨S16x64, .i1⟩ : BufTy).Contents (Elt F)) -- hostOps1_10
  :: StableHlo.binary main_v167 main_v170 main_v171 (andi : (⟨S16x64, .i1⟩ : BufTy).Contents (Elt F) → (⟨S16x64, .i1⟩ : BufTy).Contents (Elt F) → (⟨S16x64, .i1⟩ : BufTy).Contents (Elt F)) -- hostOps1_10
  :: StableHlo.unary main_v171 main_v172 (noti : (⟨S16x64, .i1⟩ : BufTy).Contents (Elt F) → (⟨S16x64, .i1⟩ : BufTy).Contents (Elt F)) -- hostOps1_10
  :: StableHlo.nullary main_c_23 (constantI S_ 1 1#1) -- hostOps1_10
  :: StableHlo.binary main_v172 main_c_23 main_v173 ((fun x v => Host.reduce IntOp.andi x v reducesTo_S16x64_S64_d0 h_S_) : (⟨S16x64, .i1⟩ : BufTy).Contents (Elt F) → (⟨S_, .i1⟩ : BufTy).Contents (Elt F) → (⟨S64, .i1⟩ : BufTy).Contents (Elt F)) -- hostOps1_10
  :: StableHlo.unary main_v173 main_v174 (uitofp .f32 : (⟨S64, .i1⟩ : BufTy).Contents (Elt F) → (⟨S64, .f32⟩ : BufTy).Contents (Elt F)) -- hostOps1_10
  :: StableHlo.unary main_v171 main_v175 ((transpose S64x16 [1, 0] · transposes_S16x64_S64x16_1_0) : (⟨S16x64, .i1⟩ : BufTy).Contents (Elt F) → (⟨S64x16, .i1⟩ : BufTy).Contents (Elt F)) -- hostOps1_10
  :: [] )

/-- The stretches, one after the other, are that list. -/
theorem kTail_eq : List.flatten [hostOps1 (F := F), hostOps1_1, hostOps1_2, hostOps1_3, hostOps1_4, hostOps1_5, hostOps1_6, hostOps1_7, hostOps1_8, hostOps1_9, hostOps1_10] = kTail := by
  chain_rfl

end Cert.Hand.KHost

end
-- ==== Proof.KHost.TailEqR.lean ====
/- The kernel program's tail. The 66 host operations that follow the region read only the edge mask main_v124 and the
   two overlap tensors main_v132_0 and main_v132_1 of what the region and the operations before it left: they flatten
   the mask in (step, ego, agent) and in (step, agent, ego) order, rank the edges of each order by a running count,
   send the second tensor's edges to their ranks, fetch them back at the first order's ranks, keep the larger overlap of
   each pair, and reduce over agents and steps — the shared function `Tail.tail` of the three buffers' contents,
   whatever those contents are. -/
import proofs.«124939_j34651796144492_2_alg».proof.Proof.KHost.TailOpsR
import proofs.«124939_j34651796144492_2_alg».proof.Proof.Tail
import Idealize.ShloMosaic.PureOps.Ideal

noncomputable section

namespace Cert.Hand.KHost

open Cert.KernelIdeal Cert.KernelIdeal.Gen Idealize.ShloMosaic Idealize.ShloMosaic.TcCoe Idealize.SL.Sem Idealize.ShloMosaic.StableHlo

set_option maxRecDepth 8192 in
set_option maxHeartbeats 4000000 in
/-- From any contents `W`, the operations after the region leave the first result (done, transposed) at the first
    component of `Tail.tail` of the mask and the two overlap tensors. -/
theorem tail_v175 (W : Valuation τ sig (Elt Ideal)) :
    after (List.flatten [hostOps1 (F := Ideal), hostOps1_1, hostOps1_2, hostOps1_3, hostOps1_4, hostOps1_5, hostOps1_6, hostOps1_7, hostOps1_8, hostOps1_9, hostOps1_10]) W (Proc.devRef .tc main_v175)
      = (Cert.Hand.Tail.tail (W (Proc.devRef .tc main_v124)) (W (Proc.devRef .tc main_v132_0)) (W (Proc.devRef .tc main_v132_1))).1 := by
  rw [kTail_eq]
  after_results_simp
  generalize W (Proc.devRef .tc main_v124) = mk
  generalize W (Proc.devRef .tc main_v132_0) = A
  generalize W (Proc.devRef .tc main_v132_1) = B
  rfl

set_option maxRecDepth 8192 in
set_option maxHeartbeats 4000000 in
/-- Likewise the second result (the reward) and the second component. -/
theorem tail_v174 (W : Valuation τ sig (Elt Ideal)) :
    after (List.flatten [hostOps1 (F := Ideal), hostOps1_1, hostOps1_2, hostOps1_3, hostOps1_4, hostOps1_5, hostOps1_6, hostOps1_7, hostOps1_8, hostOps1_9, hostOps1_10]) W (Proc.devRef .tc main_v174)
      = (Cert.Hand.Tail.tail (W (Proc.devRef .tc main_v124)) (W (Proc.devRef .tc main_v132_0)) (W (Proc.devRef .tc main_v132_1))).2 := by
  rw [kTail_eq]
  after_results_simp
  generalize W (Proc.devRef .tc main_v124) = mk
  generalize W (Proc.devRef .tc main_v132_0) = A
  generalize W (Proc.devRef .tc main_v132_1) = B
  rfl

end Cert.Hand.KHost

end
-- ==== Proof.KI.Value.lean ====
import proofs.«124939_j34651796144492_2_alg».proof.Proof.KI.Frame
import proofs.«124939_j34651796144492_2_alg».proof.Proof.KI.Blocks
import proofs.«124939_j34651796144492_2_alg».proof.Proof.Spec
import proofs.«124939_j34651796144492_2_alg».proof.Proof.Tail
import proofs.«124939_j34651796144492_2_alg».proof.Proof.Bridge
import proofs.«124939_j34651796144492_2_alg».proof.Proof.KBody.Out
import proofs.«124939_j34651796144492_2_alg».proof.Proof.KHost.Read
import proofs.«124939_j34651796144492_2_alg».proof.Proof.KHost.TailEqR

set_option maxRecDepth 16384

noncomputable section

namespace Cert.Hand.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Hand

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-! ## The two output arrays after the run, entry by entry

Point t writes back, for the two outputs, the tile of columns 512·t … 512·t + 511; entry (t', e, j) of the tile is the
body's slab entry, which reads column j of the agent-side blocks — column 512·t + j of the arrays — and row e of the
ego-side arrays; these are the fields of the agent at that column and of ego e, so the entry is the specification's. -/

/-- The launch memory of core c, as a valuation. -/
abbrev M0 (c : Dev nD) : Valuation τ sig (Elt Ideal) := fun b => m (c, b)

theorem V_eq_H (c : Dev nD) (b : Ref sig .tc) : V m c b = StableHlo.after (hostOps0 (F := Ideal)) (M0 m c) (Proc.devRef .tc b) :=
  congrFun (V0_eq m c) _

/-- Agent n at step t, and ego i at step t, from the launch memory. -/
abbrev agentK (c : Dev nD) (t : Fin 16) (n : Fin 4096) : Spec.Agent :=
  Spec.agentAt (M0 m c (Proc.devRef .tc main_arg0)) (M0 m c (Proc.devRef .tc main_arg1)) (M0 m c (Proc.devRef .tc main_arg3)) t n
abbrev egoK (c : Dev nD) (t : Fin 16) (i : Fin 64) : Spec.Agent :=
  agentK m c t (Spec.egoRow (M0 m c (Proc.devRef .tc main_arg5)) i)

/-- The two overlap tensors, entry by entry, from the launch memory. -/
def GA (c : Dev nD) : S16x64x4096.Idx → EReal := fun i =>
  Spec.A (M0 m c (Proc.devRef .tc main_arg0)) (M0 m c (Proc.devRef .tc main_arg1)) (M0 m c (Proc.devRef .tc main_arg3)) (M0 m c (Proc.devRef .tc main_arg5)) (i 0) (i 1) (i 2)
def GB (c : Dev nD) : S16x64x4096.Idx → EReal := fun i =>
  Spec.B (M0 m c (Proc.devRef .tc main_arg0)) (M0 m c (Proc.devRef .tc main_arg1)) (M0 m c (Proc.devRef .tc main_arg3)) (M0 m c (Proc.devRef .tc main_arg5)) (i 0) (i 1) (i 2)

/-! ### The blocks' entries are the agents' fields -/

theorem box_entry (c : Dev nD) (t : Fin cfg0.N) (j : Fin 512) (q : Fin 4) :
    iblk m c 3 t (ix2 j q) = M0 m c (Proc.devRef .tc main_arg3) (ix2 (col t j) q) := by
  rw [iblk3_apply, V_arg m c main_arg3 (by decide)]

theorem px_entry (c : Dev nD) (t : Fin cfg0.N) (tt : Fin 16) (j : Fin 512) :
    iblk m c 0 t (ix3 tt (0 : Fin 1) j) = (agentK m c tt (col t j)).px := by
  rw [iblk0_apply, V_eq_H]; exact KHost.v125_apply (M0 m c) tt (col t j)

theorem py_entry (c : Dev nD) (t : Fin cfg0.N) (tt : Fin 16) (j : Fin 512) :
    iblk m c 1 t (ix3 tt (0 : Fin 1) j) = (agentK m c tt (col t j)).py := by
  rw [iblk1_apply, V_eq_H]; exact KHost.v126_apply (M0 m c) tt (col t j)

theorem cos_entry (c : Dev nD) (t : Fin cfg0.N) (tt : Fin 16) (j : Fin 512) :
    Ideal.cos (iblk m c 2 t (ix3 tt (0 : Fin 1) j)) = (agentK m c tt (col t j)).c := by
  rw [iblk2_apply, V_eq_H]; exact congrArg Ideal.cos (KHost.v127_apply (M0 m c) tt (col t j))

theorem sin_entry (c : Dev nD) (t : Fin cfg0.N) (tt : Fin 16) (j : Fin 512) :
    Ideal.sin (iblk m c 2 t (ix3 tt (0 : Fin 1) j)) = (agentK m c tt (col t j)).s := by
  rw [iblk2_apply, V_eq_H]; exact congrArg Ideal.sin (KHost.v127_apply (M0 m c) tt (col t j))

theorem ecx_entry (c : Dev nD) (t : Fin cfg0.N) (tt : Fin 16) (e : Fin 64) (q : Fin 4) :
    iblk m c 4 t (ix3 tt e q) = Spec.cornX (egoK m c tt e) q := by
  rw [iblk4_apply, V_eq_H]; exact KHost.v90_apply (M0 m c) tt e q

theorem ecy_entry (c : Dev nD) (t : Fin cfg0.N) (tt : Fin 16) (e : Fin 64) (q : Fin 4) :
    iblk m c 5 t (ix3 tt e q) = Spec.cornY (egoK m c tt e) q := by
  rw [iblk5_apply, V_eq_H]; exact KHost.v104_apply (M0 m c) tt e q

theorem epx_entry (c : Dev nD) (t : Fin cfg0.N) (tt : Fin 16) (e : Fin 64) :
    iblk m c 6 t (ix3 tt e (0 : Fin 1)) = (egoK m c tt e).px := by
  rw [iblk6_apply, V_eq_H]; exact KHost.v128_apply (M0 m c) tt e

theorem epy_entry (c : Dev nD) (t : Fin cfg0.N) (tt : Fin 16) (e : Fin 64) :
    iblk m c 7 t (ix3 tt e (0 : Fin 1)) = (egoK m c tt e).py := by
  rw [iblk7_apply, V_eq_H]; exact KHost.v129_apply (M0 m c) tt e

theorem ec_entry (c : Dev nD) (t : Fin cfg0.N) (tt : Fin 16) (e : Fin 64) :
    iblk m c 8 t (ix3 tt e (0 : Fin 1)) = (egoK m c tt e).c := by
  rw [iblk8_apply, V_eq_H]; exact KHost.v130_apply (M0 m c) tt e

theorem es_entry (c : Dev nD) (t : Fin cfg0.N) (tt : Fin 16) (e : Fin 64) :
    iblk m c 9 t (ix3 tt e (0 : Fin 1)) = (egoK m c tt e).s := by
  rw [iblk9_apply, V_eq_H]; exact KHost.v131_apply (M0 m c) tt e

theorem ebox_entry (c : Dev nD) (t : Fin cfg0.N) (e : Fin 64) (q : Fin 4) :
    iblk m c 10 t (ix2 e q) = M0 m c (Proc.devRef .tc main_arg3) (ix2 (Spec.egoRow (M0 m c (Proc.devRef .tc main_arg5)) e) q) := by
  rw [iblk10_apply, V_eq_H]; exact KHost.v52_apply (M0 m c) e q

/-! ### What a point writes back -/

theorem flushed11_eq (c : Dev nD) (t : Fin cfg0.N) :
    (dats m 0 c).flushed 11 t = ((cfg0.win 11).blk t).view.read (Elt Ideal) (GA m c) := by
  show (cfg0.win 11).cut (grid0.coords t) ((dats m 0 c).after 11 t) = _
  rw [after0_11]
  funext y
  obtain ⟨tt, e, j, rfl⟩ : ∃ (tt : Fin 16) (e : Fin 64) (j : Fin 512), y = ix3 tt e j := ⟨y 0, y 1, y 2, eq_ix3 y⟩
  show outsAt0_11 m c t (ix3 tt e j) = GA m c (((cfg0.win 11).blk t).view.emb (ix3 tt e j))
  rw [emb11]
  show outsAt0_11 m c t (ix3 tt e j) = Spec.best (agentK m c tt (col t j)) (egoK m c tt e)
  unfold outsAt0_11 out0_A_11
  rw [KBody.outA_apply]
  exact Bridge.cellA_eq_best _ _ _ _ _ _ tt e j _ _
    (box_entry m c t j 0) (box_entry m c t j 1) (box_entry m c t j 2) (box_entry m c t j 3)
    (cos_entry m c t tt j) (sin_entry m c t tt j) (px_entry m c t tt j) (py_entry m c t tt j)
    (fun q => ecx_entry m c t tt e q) (fun q => ecy_entry m c t tt e q)

theorem flushed12_eq (c : Dev nD) (t : Fin cfg0.N) :
    (dats m 0 c).flushed 12 t = ((cfg0.win 12).blk t).view.read (Elt Ideal) (GB m c) := by
  show (cfg0.win 12).cut (grid0.coords t) ((dats m 0 c).after 12 t) = _
  rw [after0_12]
  funext y
  obtain ⟨tt, e, j, rfl⟩ : ∃ (tt : Fin 16) (e : Fin 64) (j : Fin 512), y = ix3 tt e j := ⟨y 0, y 1, y 2, eq_ix3 y⟩
  show outsAt0_12 m c t (ix3 tt e j) = GB m c (((cfg0.win 12).blk t).view.emb (ix3 tt e j))
  rw [emb12]
  show outsAt0_12 m c t (ix3 tt e j) = Spec.best (egoK m c tt e) (agentK m c tt (col t j))
  unfold outsAt0_12 out0_A_12
  rw [KBody.outB_apply]
  exact Bridge.cellB_eq_best _ _ _ _ _ _ _ _ _ tt e j _ _
    (box_entry m c t j 0) (box_entry m c t j 1) (box_entry m c t j 2) (box_entry m c t j 3)
    (cos_entry m c t tt j) (sin_entry m c t tt j) (px_entry m c t tt j) (py_entry m c t tt j)
    (ebox_entry m c t e 0) (ebox_entry m c t e 1) (ebox_entry m c t e 2) (ebox_entry m c t e 3)
    (ec_entry m c t tt e) (es_entry m c t tt e) (epx_entry m c t tt e) (epy_entry m c t tt e)

/-- The output arrays after the run. -/
theorem final11 (c : Dev nD) : (dats m 0 c).arrAt 11 cfg0.N = GA m c :=
  (dats m 0 c).arrAt_eq_of_cover 11 (GA m c) (fun t _ => flushed11_eq m c t) cover11
theorem final12 (c : Dev nD) : (dats m 0 c).arrAt 12 cfg0.N = GB m c :=
  (dats m 0 c).arrAt_eq_of_cover 12 (GB m c) (fun t _ => flushed12_eq m c t) cover12

/-! ## The two results -/

/-- The edge mask, from the launch memory. -/
abbrev maskK (c : Dev nD) := Tail.mask (M0 m c (Proc.devRef .tc main_arg2)) (M0 m c (Proc.devRef .tc main_arg4)) (M0 m c (Proc.devRef .tc main_arg5))

theorem tail_inputs (c : Dev nD) :
    let W := Pipeline.withArrays (cfgs 0).spec c (V0 m c) fun w => (dats m 0 c).arrAt w (cfgs 0).N
    W (Proc.devRef .tc main_v124) = maskK m c ∧ W (Proc.devRef .tc main_v132_0) = GA m c ∧ W (Proc.devRef .tc main_v132_1) = GB m c := by
  refine ⟨?_, ?_, ?_⟩
  · rw [Pipeline.withArrays_of_ne _ c (V0 m c) _ main_v124 (by decide : ∀ w, Pipeline.arrRef spec0 w ≠ main_v124)]
    exact (V_eq_H m c main_v124).trans (KHost.v124_eq _)
  · exact (Pipeline.withArrays_arr spec0 launch0.win.arr_inj c _ _ 11).trans (final11 m c)
  · exact (Pipeline.withArrays_arr spec0 launch0.win.arr_inj c _ _ 12).trans (final12 m c)

theorem result175 (c : Dev nD) :
    Pipeline.afterTail₀ cfgs (dats m) 0 (V0 m) tailOps c main_v175 = (Tail.tail (maskK m c) (GA m c) (GB m c)).1 := by
  unfold Pipeline.afterTail₀
  obtain ⟨h1, h2, h3⟩ := tail_inputs m c
  refine (KHost.tail_v175 _).trans ?_
  rw [h1, h2, h3]

theorem result174 (c : Dev nD) :
    Pipeline.afterTail₀ cfgs (dats m) 0 (V0 m) tailOps c main_v174 = (Tail.tail (maskK m c) (GA m c) (GB m c)).2 := by
  unfold Pipeline.afterTail₀
  obtain ⟨h1, h2, h3⟩ := tail_inputs m c
  refine (KHost.tail_v174 _).trans ?_
  rw [h1, h2, h3]

/-- The idealized kernel's program runs to the end with its two results at the shared tail of the mask and the two
    specified tensors, and its arguments as launched. -/
theorem run_results : θ_run defs (onTc (τ := τ) (main (F := Ideal))) ⟨m, fun _ => 0, ρ⟩ (fun r => ∀ c : Dev nD,
      r.2.mem ((c.tc : Thread nD τ).loc main_v175) = (Tail.tail (maskK m c) (GA m c) (GB m c)).1
      ∧ r.2.mem ((c.tc : Thread nD τ).loc main_v174) = (Tail.tail (maskK m c) (GA m c) (GB m c)).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v175 (Pipeline.mem_restRefs_of main_v175 (by decide) (by decide))).trans (result175 m c),
     ((h c).2 main_v174 (Pipeline.mem_restRefs_of main_v174 (by decide) (by decide))).trans (result174 m c),
     ((h c).2 main_arg0 (Pipeline.mem_restRefs_of main_arg0 (by decide) (by decide))).trans (W_arg m (dats m) c main_arg0 (by decide) (by decide) (by decide)),
     ((h c).2 main_arg1 (Pipeline.mem_restRefs_of main_arg1 (by decide) (by decide))).trans (W_arg m (dats m) c main_arg1 (by decide) (by decide) (by decide)),
     ((h c).2 main_arg2 (Pipeline.mem_restRefs_of main_arg2 (by decide) (by decide))).trans (W_arg m (dats m) c main_arg2 (by decide) (by decide) (by decide)),
     ((h c).1 3).trans (((dats m 0 c).arrAt_in 3 rfl _).trans ((A_eq m c 3).trans (V_arg m c main_arg3 (by decide)))),
     ((h c).2 main_arg4 (Pipeline.mem_restRefs_of main_arg4 (by decide) (by decide))).trans (W_arg m (dats m) c main_arg4 (by decide) (by decide) (by decide)),
     ((h c).2 main_arg5 (Pipeline.mem_restRefs_of main_arg5 (by decide) (by decide))).trans (W_arg m (dats m) c main_arg5 (by decide) (by decide) (by decide))⟩) (run_main m ρ)

end Cert.Hand.KI

end
-- ==== Proof.Ref.TailMask.lean ====
/- The reference's edge mask. The buffer main_v119 is written in the third window of @main and by nothing after
   it; read back through the three windows, its contents are the conjunction of four broadcast conditions — the ego
   valid at the step (the validity bits of steps 4 … 19, transposed, gathered at the normalised ego indices), the
   agent valid at the step, the ego's scene id equal to the agent's, the ego index different from the agent's own
   index — which is the shared function `Tail.mask` of the validity bits, the scene ids and the ego indices. -/
import proofs.«124939_j34651796144492_2_alg».proof.Proof.Ref.RunOps
import proofs.«124939_j34651796144492_2_alg».proof.Proof.Ref.RunKeep3
import proofs.«124939_j34651796144492_2_alg».proof.Proof.Ref.RunKeep4
import proofs.«124939_j34651796144492_2_alg».proof.Proof.Ref.RunKeep5
import proofs.«124939_j34651796144492_2_alg».proof.Proof.Tail
import Idealize.ShloMosaic.PureOps.Ideal

noncomputable section

namespace Cert.Hand.RefTail

open Cert.ReferenceIdeal Cert.ReferenceIdeal.Gen Idealize.ShloMosaic Idealize.ShloMosaic.TcCoe Idealize.SL.Sem Idealize.ShloMosaic.StableHlo
open Cert.Hand.RefRun

set_option maxRecDepth 8192 in
set_option maxHeartbeats 4000000 in
/-- After @main's operations, from any contents `M`, the mask buffer holds `Tail.mask` of the three argument arrays
    it is computed from. -/
theorem ref_mask (M : Valuation τ sig (Elt Ideal)) :
    after (ops (F := Ideal)) M (Proc.devRef .tc main_v119)
      = Cert.Hand.Tail.mask (M (Proc.devRef .tc main_arg2)) (M (Proc.devRef .tc main_arg4)) (M (Proc.devRef .tc main_arg5)) := by
  rw [after_ops, keep5 _ main_v119 (by decide +kernel), keep4 _ main_v119 (by decide +kernel),
    keep3 _ main_v119 (by decide +kernel)]
  after_results_simp
  generalize M (Proc.devRef .tc main_arg2) = a2
  generalize M (Proc.devRef .tc main_arg4) = a4
  generalize M (Proc.devRef .tc main_arg5) = a5
  rfl

end Cert.Hand.RefTail

end
-- ==== Proof.Ref.RunCut4.lean ====
/- Window 4 of the reference's @main cut in two: its operations 249 … 296 and its operations
   297 … 322. The window's list is the first stretch followed by the second. -/
import proofs.«124939_j34651796144492_2_alg».proof.Proof.Gen.ReferenceIdeal
import proofs.«124939_j34651796144492_2_alg».proof.Proof.Ref.RunOps4
import Idealize.ShloMosaic.Lib.StableHlo.Run
import Idealize.ShloMosaic.Lib.Pipeline.Regions

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 249 … 296 of @main, in order. -/
abbrev ops4a : List (HloOp τ sig (Elt F)) :=
  ( StableHlo.reshape main_v222 main_v223 rfl shapeCasts_S64x1_S64 -- %223 = stablehlo.reshape %222 : (tensor<64x1xf32>) -> tensor<64xf32>
  :: StableHlo.unary main_v223 main_v224 (broadcastInDim S1x64x1x1 ![1] bcast_S64_S1x64x1x1_1 : (⟨S64, .f32⟩ : BufTy).Contents (Elt F) → (⟨S1x64x1x1, .f32⟩ : BufTy).Contents (Elt F)) -- %224 = stablehlo.broadcast_in_dim %223, dims = [1] : (tensor<64xf32>) -> tensor<1x64x1x1xf32>
  :: StableHlo.unary main_v99 main_v225 ((extractStridedSlice S64x1 ![0, 1] · slices_S64x4_S64x1_0_1) : (⟨S64x4, .f32⟩ : BufTy).Contents (Elt F) → (⟨S64x1, .f32⟩ : BufTy).Contents (Elt F)) -- %225 = stablehlo.slice %99 [0:64, 1:2] : (tensor<64x4xf32>) -> tensor<64x1xf32>
  :: StableHlo.reshape main_v225 main_v226 rfl shapeCasts_S64x1_S64 -- %226 = stablehlo.reshape %225 : (tensor<64x1xf32>) -> tensor<64xf32>
  :: StableHlo.unary main_v226 main_v227 (broadcastInDim S1x64x1x1 ![1] bcast_S64_S1x64x1x1_1 : (⟨S64, .f32⟩ : BufTy).Contents (Elt F) → (⟨S1x64x1x1, .f32⟩ : BufTy).Contents (Elt F)) -- %227 = stablehlo.broadcast_in_dim %226, dims = [1] : (tensor<64xf32>) -> tensor<1x64x1x1xf32>
  :: StableHlo.unary main_v99 main_v228 ((extractStridedSlice S64x1 ![0, 2] · slices_S64x4_S64x1_0_2) : (⟨S64x4, .f32⟩ : BufTy).Contents (Elt F) → (⟨S64x1, .f32⟩ : BufTy).Contents (Elt F)) -- %228 = stablehlo.slice %99 [0:64, 2:3] : (tensor<64x4xf32>) -> tensor<64x1xf32>
  :: StableHlo.reshape main_v228 main_v229 rfl shapeCasts_S64x1_S64 -- %229 = stablehlo.reshape %228 : (tensor<64x1xf32>) -> tensor<64xf32>
  :: StableHlo.unary main_v229 main_v230 (broadcastInDim S1x64x1x1 ![1] bcast_S64_S1x64x1x1_1 : (⟨S64, .f32⟩ : BufTy).Contents (Elt F) → (⟨S1x64x1x1, .f32⟩ : BufTy).Contents (Elt F)) -- %230 = stablehlo.broadcast_in_dim %229, dims = [1] : (tensor<64xf32>) -> tensor<1x64x1x1xf32>
  :: StableHlo.unary main_v99 main_v231 ((extractStridedSlice S64x1 ![0, 3] · slices_S64x4_S64x1_0_3) : (⟨S64x4, .f32⟩ : BufTy).Contents (Elt F) → (⟨S64x1, .f32⟩ : BufTy).Contents (Elt F)) -- %231 = stablehlo.slice %99 [0:64, 3:4] : (tensor<64x4xf32>) -> tensor<64x1xf32>
  :: StableHlo.reshape main_v231 main_v232 rfl shapeCasts_S64x1_S64 -- %232 = stablehlo.reshape %231 : (tensor<64x1xf32>) -> tensor<64xf32>
  :: StableHlo.unary main_v232 main_v233 (broadcastInDim S1x64x1x1 ![1] bcast_S64_S1x64x1x1_1 : (⟨S64, .f32⟩ : BufTy).Contents (Elt F) → (⟨S1x64x1x1, .f32⟩ : BufTy).Contents (Elt F)) -- %233 = stablehlo.broadcast_in_dim %232, dims = [1] : (tensor<64xf32>) -> tensor<1x64x1x1xf32>
  :: StableHlo.nullary main_cst_15 (constant S_ .f32 0x00000000#32) -- %cst_15 = stablehlo.constant dense<0.000000e+00> : tensor<f32>
  :: StableHlo.unary main_cst_15 main_v234 (broadcastInDim S1x64x1x1 ![] bcast_S_S1x64x1x1 : (⟨S_, .f32⟩ : BufTy).Contents (Elt F) → (⟨S1x64x1x1, .f32⟩ : BufTy).Contents (Elt F)) -- %234 = stablehlo.broadcast_in_dim %cst_15, dims = [] : (tensor<f32>) -> tensor<1x64x1x1xf32>
  :: StableHlo.binary main_v224 main_v234 main_v235 (addf : (⟨S1x64x1x1, .f32⟩ : BufTy).Contents (Elt F) → (⟨S1x64x1x1, .f32⟩ : BufTy).Contents (Elt F) → (⟨S1x64x1x1, .f32⟩ : BufTy).Contents (Elt F)) -- %235 = stablehlo.add %224, %234 : tensor<1x64x1x1xf32>
  :: StableHlo.unary main_v235 main_v236 (broadcastInDim S16x64x4096x4 ![0, 1, 2, 3] bcast_S1x64x1x1_S16x64x4096x4_0_1_2_3 : (⟨S1x64x1x1, .f32⟩ : BufTy).Contents (Elt F) → (⟨S16x64x4096x4, .f32⟩ : BufTy).Contents (Elt F)) -- %236 = stablehlo.broadcast_in_dim %235, dims = [0, 1, 2, 3] : (tensor<1x64x1x1xf32>) -> tensor<16x64x4096x4...
  :: StableHlo.binary main_v236 main_v215 main_v237 (subf : (⟨S16x64x4096x4, .f32⟩ : BufTy).Contents (Elt F) → (⟨S16x64x4096x4, .f32⟩ : BufTy).Contents (Elt F) → (⟨S16x64x4096x4, .f32⟩ : BufTy).Contents (Elt F)) -- %237 = stablehlo.subtract %236, %215 : tensor<16x64x4096x4xf32>
  :: StableHlo.nullary main_call4_cst (constant S_ .f32 0x00000000#32) -- %238 = call @relu: %cst = stablehlo.constant dense<0.000000e+00> : tensor<f32>
  :: StableHlo.unary main_call4_cst main_call4_v0 ((broadcastInDim S16x64x4096x4 ![] bcast_S_S16x64x4096x4) : (⟨S_, .f32⟩ : BufTy).Contents (Elt F) → (⟨S16x64x4096x4, .f32⟩ : BufTy).Contents (Elt F)) -- %238 = call @relu: %0 = stablehlo.broadcast_in_dim %cst, dims = [] : (tensor<f32>) -> tensor<16x64x4096x4xf32>
  :: StableHlo.binary main_v237 main_call4_v0 main_v238 (maximumf : (⟨S16x64x4096x4, .f32⟩ : BufTy).Contents (Elt F) → (⟨S16x64x4096x4, .f32⟩ : BufTy).Contents (Elt F) → (⟨S16x64x4096x4, .f32⟩ : BufTy).Contents (Elt F)) -- %238 = call @relu: %1 = stablehlo.maximum %arg0, %0 : tensor<16x64x4096x4xf32>
  :: StableHlo.nullary main_cst_16 (constant S_ .f32 0x00000000#32) -- %cst_16 = stablehlo.constant dense<0.000000e+00> : tensor<f32>
  :: StableHlo.unary main_cst_16 main_v239 (broadcastInDim S1x64x1x1 ![] bcast_S_S1x64x1x1 : (⟨S_, .f32⟩ : BufTy).Contents (Elt F) → (⟨S1x64x1x1, .f32⟩ : BufTy).Contents (Elt F)) -- %239 = stablehlo.broadcast_in_dim %cst_16, dims = [] : (tensor<f32>) -> tensor<1x64x1x1xf32>
  :: StableHlo.binary main_v227 main_v239 main_v240 (addf : (⟨S1x64x1x1, .f32⟩ : BufTy).Contents (Elt F) → (⟨S1x64x1x1, .f32⟩ : BufTy).Contents (Elt F) → (⟨S1x64x1x1, .f32⟩ : BufTy).Contents (Elt F)) -- %240 = stablehlo.add %227, %239 : tensor<1x64x1x1xf32>
  :: StableHlo.unary main_v240 main_v241 (broadcastInDim S16x64x4096x4 ![0, 1, 2, 3] bcast_S1x64x1x1_S16x64x4096x4_0_1_2_3 : (⟨S1x64x1x1, .f32⟩ : BufTy).Contents (Elt F) → (⟨S16x64x4096x4, .f32⟩ : BufTy).Contents (Elt F)) -- %241 = stablehlo.broadcast_in_dim %240, dims = [0, 1, 2, 3] : (tensor<1x64x1x1xf32>) -> tensor<16x64x4096x4...
  :: StableHlo.binary main_v241 main_v215 main_v242 (addf : (⟨S16x64x4096x4, .f32⟩ : BufTy).Contents (Elt F) → (⟨S16x64x4096x4, .f32⟩ : BufTy).Contents (Elt F) → (⟨S16x64x4096x4, .f32⟩ : BufTy).Contents (Elt F)) -- %242 = stablehlo.add %241, %215 : tensor<16x64x4096x4xf32>
  :: StableHlo.nullary main_call5_cst (constant S_ .f32 0x00000000#32) -- %243 = call @relu: %cst = stablehlo.constant dense<0.000000e+00> : tensor<f32>
  :: StableHlo.unary main_call5_cst main_call5_v0 ((broadcastInDim S16x64x4096x4 ![] bcast_S_S16x64x4096x4) : (⟨S_, .f32⟩ : BufTy).Contents (Elt F) → (⟨S16x64x4096x4, .f32⟩ : BufTy).Contents (Elt F)) -- %243 = call @relu: %0 = stablehlo.broadcast_in_dim %cst, dims = [] : (tensor<f32>) -> tensor<16x64x4096x4xf32>
  :: StableHlo.binary main_v242 main_call5_v0 main_v243 (maximumf : (⟨S16x64x4096x4, .f32⟩ : BufTy).Contents (Elt F) → (⟨S16x64x4096x4, .f32⟩ : BufTy).Contents (Elt F) → (⟨S16x64x4096x4, .f32⟩ : BufTy).Contents (Elt F)) -- %243 = call @relu: %1 = stablehlo.maximum %arg0, %0 : tensor<16x64x4096x4xf32>
  :: StableHlo.binary main_v238 main_v243 main_v244 (minimumf : (⟨S16x64x4096x4, .f32⟩ : BufTy).Contents (Elt F) → (⟨S16x64x4096x4, .f32⟩ : BufTy).Contents (Elt F) → (⟨S16x64x4096x4, .f32⟩ : BufTy).Contents (Elt F)) -- %244 = stablehlo.minimum %238, %243 : tensor<16x64x4096x4xf32>
  :: StableHlo.nullary main_cst_17 (constant S_ .f32 0x00000000#32) -- %cst_17 = stablehlo.constant dense<0.000000e+00> : tensor<f32>
  :: StableHlo.unary main_cst_17 main_v245 (broadcastInDim S1x64x1x1 ![] bcast_S_S1x64x1x1 : (⟨S_, .f32⟩ : BufTy).Contents (Elt F) → (⟨S1x64x1x1, .f32⟩ : BufTy).Contents (Elt F)) -- %245 = stablehlo.broadcast_in_dim %cst_17, dims = [] : (tensor<f32>) -> tensor<1x64x1x1xf32>
  :: StableHlo.binary main_v230 main_v245 main_v246 (addf : (⟨S1x64x1x1, .f32⟩ : BufTy).Contents (Elt F) → (⟨S1x64x1x1, .f32⟩ : BufTy).Contents (Elt F) → (⟨S1x64x1x1, .f32⟩ : BufTy).Contents (Elt F)) -- %246 = stablehlo.add %230, %245 : tensor<1x64x1x1xf32>
  :: StableHlo.unary main_v246 main_v247 (broadcastInDim S16x64x4096x4 ![0, 1, 2, 3] bcast_S1x64x1x1_S16x64x4096x4_0_1_2_3 : (⟨S1x64x1x1, .f32⟩ : BufTy).Contents (Elt F) → (⟨S16x64x4096x4, .f32⟩ : BufTy).Contents (Elt F)) -- %247 = stablehlo.broadcast_in_dim %246, dims = [0, 1, 2, 3] : (tensor<1x64x1x1xf32>) -> tensor<16x64x4096x4...
  :: StableHlo.binary main_v247 main_v221 main_v248 (subf : (⟨S16x64x4096x4, .f32⟩ : BufTy).Contents (Elt F) → (⟨S16x64x4096x4, .f32⟩ : BufTy).Contents (Elt F) → (⟨S16x64x4096x4, .f32⟩ : BufTy).Contents (Elt F)) -- %248 = stablehlo.subtract %247, %221 : tensor<16x64x4096x4xf32>
  :: StableHlo.nullary main_call6_cst (constant S_ .f32 0x00000000#32) -- %249 = call @relu: %cst = stablehlo.constant dense<0.000000e+00> : tensor<f32>
  :: StableHlo.unary main_call6_cst main_call6_v0 ((broadcastInDim S16x64x4096x4 ![] bcast_S_S16x64x4096x4) : (⟨S_, .f32⟩ : BufTy).Contents (Elt F) → (⟨S16x64x4096x4, .f32⟩ : BufTy).Contents (Elt F)) -- %249 = call @relu: %0 = stablehlo.broadcast_in_dim %cst, dims = [] : (tensor<f32>) -> tensor<16x64x4096x4xf32>
  :: StableHlo.binary main_v248 main_call6_v0 main_v249 (maximumf : (⟨S16x64x4096x4, .f32⟩ : BufTy).Contents (Elt F) → (⟨S16x64x4096x4, .f32⟩ : BufTy).Contents (Elt F) → (⟨S16x64x4096x4, .f32⟩ : BufTy).Contents (Elt F)) -- %249 = call @relu: %1 = stablehlo.maximum %arg0, %0 : tensor<16x64x4096x4xf32>
  :: StableHlo.nullary main_cst_18 (constant S_ .f32 0x00000000#32) -- %cst_18 = stablehlo.constant dense<0.000000e+00> : tensor<f32>
  :: StableHlo.unary main_cst_18 main_v250 (broadcastInDim S1x64x1x1 ![] bcast_S_S1x64x1x1 : (⟨S_, .f32⟩ : BufTy).Contents (Elt F) → (⟨S1x64x1x1, .f32⟩ : BufTy).Contents (Elt F)) -- %250 = stablehlo.broadcast_in_dim %cst_18, dims = [] : (tensor<f32>) -> tensor<1x64x1x1xf32>
  :: StableHlo.binary main_v233 main_v250 main_v251 (addf : (⟨S1x64x1x1, .f32⟩ : BufTy).Contents (Elt F) → (⟨S1x64x1x1, .f32⟩ : BufTy).Contents (Elt F) → (⟨S1x64x1x1, .f32⟩ : BufTy).Contents (Elt F)) -- %251 = stablehlo.add %233, %250 : tensor<1x64x1x1xf32>
  :: StableHlo.unary main_v251 main_v252 (broadcastInDim S16x64x4096x4 ![0, 1, 2, 3] bcast_S1x64x1x1_S16x64x4096x4_0_1_2_3 : (⟨S1x64x1x1, .f32⟩ : BufTy).Contents (Elt F) → (⟨S16x64x4096x4, .f32⟩ : BufTy).Contents (Elt F)) -- %252 = stablehlo.broadcast_in_dim %251, dims = [0, 1, 2, 3] : (tensor<1x64x1x1xf32>) -> tensor<16x64x4096x4...
  :: StableHlo.binary main_v252 main_v221 main_v253 (addf : (⟨S16x64x4096x4, .f32⟩ : BufTy).Contents (Elt F) → (⟨S16x64x4096x4, .f32⟩ : BufTy).Contents (Elt F) → (⟨S16x64x4096x4, .f32⟩ : BufTy).Contents (Elt F)) -- %253 = stablehlo.add %252, %221 : tensor<16x64x4096x4xf32>
  :: StableHlo.nullary main_call7_cst (constant S_ .f32 0x00000000#32) -- %254 = call @relu: %cst = stablehlo.constant dense<0.000000e+00> : tensor<f32>
  :: StableHlo.unary main_call7_cst main_call7_v0 ((broadcastInDim S16x64x4096x4 ![] bcast_S_S16x64x4096x4) : (⟨S_, .f32⟩ : BufTy).Contents (Elt F) → (⟨S16x64x4096x4, .f32⟩ : BufTy).Contents (Elt F)) -- %254 = call @relu: %0 = stablehlo.broadcast_in_dim %cst, dims = [] : (tensor<f32>) -> tensor<16x64x4096x4xf32>
  :: StableHlo.binary main_v253 main_call7_v0 main_v254 (maximumf : (⟨S16x64x4096x4, .f32⟩ : BufTy).Contents (Elt F) → (⟨S16x64x4096x4, .f32⟩ : BufTy).Contents (Elt F) → (⟨S16x64x4096x4, .f32⟩ : BufTy).Contents (Elt F)) -- %254 = call @relu: %1 = stablehlo.maximum %arg0, %0 : tensor<16x64x4096x4xf32>
  :: StableHlo.binary main_v249 main_v254 main_v255 (minimumf : (⟨S16x64x4096x4, .f32⟩ : BufTy).Contents (Elt F) → (⟨S16x64x4096x4, .f32⟩ : BufTy).Contents (Elt F) → (⟨S16x64x4096x4, .f32⟩ : BufTy).Contents (Elt F)) -- %255 = stablehlo.minimum %249, %254 : tensor<16x64x4096x4xf32>
  :: StableHlo.binary main_v244 main_v255 main_v256 (minimumf : (⟨S16x64x4096x4, .f32⟩ : BufTy).Contents (Elt F) → (⟨S16x64x4096x4, .f32⟩ : BufTy).Contents (Elt F) → (⟨S16x64x4096x4, .f32⟩ : BufTy).Contents (Elt F)) -- %256 = stablehlo.minimum %244, %255 : tensor<16x64x4096x4xf32>
  :: StableHlo.nullary main_cst_19 (constant S_ .f32 0xFF800000#32) -- %cst_19 = stablehlo.constant dense<0xFF800000> : tensor<f32>
  :: StableHlo.binary main_v256 main_cst_19 main_v257 ((fun x v => Host.reduce FloatOps.maximumf x v reducesTo_S16x64x4096x4_S16x64x4096_d3 h_S_) : (⟨S16x64x4096x4, .f32⟩ : BufTy).Contents (Elt F) → (⟨S_, .f32⟩ : BufTy).Contents (Elt F) → (⟨S16x64x4096, .f32⟩ : BufTy).Contents (Elt F)) -- %257 = stablehlo.reduce(%256 init: %cst_19) applies stablehlo.maximum across dimensions = [3] : (tensor<16x...
  :: [] )

/-- Operations 297 … 322 of @main, in order. -/
abbrev ops4b : List (HloOp τ sig (Elt F)) :=
  ( StableHlo.reshape main_v119 main_v258 rfl shapeCasts_S16x64x4096_S4194304 -- %258 = stablehlo.reshape %119 : (tensor<16x64x4096xi1>) -> tensor<4194304xi1>
  :: StableHlo.unary main_v119 main_v259 ((transpose S16x4096x64 [0, 2, 1] · transposes_S16x64x4096_S16x4096x64_0_2_1) : (⟨S16x64x4096, .i1⟩ : BufTy).Contents (Elt F) → (⟨S16x4096x64, .i1⟩ : BufTy).Contents (Elt F)) -- %259 = stablehlo.transpose %119, dims = [0, 2, 1] : (tensor<16x64x4096xi1>) -> tensor<16x4096x64xi1>
  :: StableHlo.reshape main_v259 main_v260 rfl shapeCasts_S16x4096x64_S4194304 -- %260 = stablehlo.reshape %259 : (tensor<16x4096x64xi1>) -> tensor<4194304xi1>
  :: StableHlo.unary main_v258 main_v261 ((extui 32 · natLt_1_32) : (⟨S4194304, .i1⟩ : BufTy).Contents (Elt F) → (⟨S4194304, .i32⟩ : BufTy).Contents (Elt F)) -- %261 = stablehlo.convert %258 : (tensor<4194304xi1>) -> tensor<4194304xi32>
  :: StableHlo.nullary main_call8_call0_c (constantI S_ 32 0#32) -- %262 = call @cumsum: %c = stablehlo.constant dense<0> : tensor<i32>
  :: StableHlo.unary main_call8_call0_c main_call8_call0_v0 ((broadcastInDim S_ ![] bcast_S_S_) : (⟨S_, .i32⟩ : BufTy).Contents (Elt F) → (⟨S_, .i32⟩ : BufTy).Contents (Elt F)) -- %262 = call @cumsum: %0 = stablehlo.broadcast_in_dim %c, dims = [] : (tensor<i32>) -> tensor<i32>
  :: StableHlo.binary main_v261 main_call8_call0_v0 main_v262 ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) -- %262 = call @cumsum: %1 = "stablehlo.reduce_window"(%arg0, %0) <{base_dilations = array<i64: 1>, padding = dense<[[4194303, 0]]>...
  :: StableHlo.nullary main_c_20 (constantI S_ 32 1#32) -- %c_20 = stablehlo.constant dense<1> : tensor<i32>
  :: StableHlo.unary main_c_20 main_v263 (broadcastInDim S4194304 ![] bcast_S_S4194304 : (⟨S_, .i32⟩ : BufTy).Contents (Elt F) → (⟨S4194304, .i32⟩ : BufTy).Contents (Elt F)) -- %263 = stablehlo.broadcast_in_dim %c_20, dims = [] : (tensor<i32>) -> tensor<4194304xi32>
  :: StableHlo.binary main_v262 main_v263 main_v264 (subi : (⟨S4194304, .i32⟩ : BufTy).Contents (Elt F) → (⟨S4194304, .i32⟩ : BufTy).Contents (Elt F) → (⟨S4194304, .i32⟩ : BufTy).Contents (Elt F)) -- %264 = stablehlo.subtract %262, %263 : tensor<4194304xi32>
  :: StableHlo.unary main_v260 main_v265 ((extui 32 · natLt_1_32) : (⟨S4194304, .i1⟩ : BufTy).Contents (Elt F) → (⟨S4194304, .i32⟩ : BufTy).Contents (Elt F)) -- %265 = stablehlo.convert %260 : (tensor<4194304xi1>) -> tensor<4194304xi32>
  :: StableHlo.nullary main_call9_call0_c (constantI S_ 32 0#32) -- %266 = call @cumsum: %c = stablehlo.constant dense<0> : tensor<i32>
  :: StableHlo.unary main_call9_call0_c main_call9_call0_v0 ((broadcastInDim S_ ![] bcast_S_S_) : (⟨S_, .i32⟩ : BufTy).Contents (Elt F) → (⟨S_, .i32⟩ : BufTy).Contents (Elt F)) -- %266 = call @cumsum: %0 = stablehlo.broadcast_in_dim %c, dims = [] : (tensor<i32>) -> tensor<i32>
  :: StableHlo.binary main_v265 main_call9_call0_v0 main_v266 ((fun x v => Host.reduceWindow IntOp.addi ![4194304] ![1] ![4194303] ![0] x v reduceWindows_S4194304_S4194304_w4194304s1p4194303_0 h_S_) : (⟨S4194304, .i32⟩ : BufTy).Contents (Elt F) → (⟨S_, .i32⟩ : BufTy).Contents (Elt F) → (⟨S4194304, .i32⟩ : BufTy).Contents (Elt F)) -- %266 = call @cumsum: %1 = "stablehlo.reduce_window"(%arg0, %0) <{base_dilations = array<i64: 1>, padding = dense<[[4194303, 0]]>...
  :: StableHlo.nullary main_c_21 (constantI S_ 32 1#32) -- %c_21 = stablehlo.constant dense<1> : tensor<i32>
  :: StableHlo.unary main_c_21 main_v267 (broadcastInDim S4194304 ![] bcast_S_S4194304 : (⟨S_, .i32⟩ : BufTy).Contents (Elt F) → (⟨S4194304, .i32⟩ : BufTy).Contents (Elt F)) -- %267 = stablehlo.broadcast_in_dim %c_21, dims = [] : (tensor<i32>) -> tensor<4194304xi32>
  :: StableHlo.binary main_v266 main_v267 main_v268 (subi : (⟨S4194304, .i32⟩ : BufTy).Contents (Elt F) → (⟨S4194304, .i32⟩ : BufTy).Contents (Elt F) → (⟨S4194304, .i32⟩ : BufTy).Contents (Elt F)) -- %268 = stablehlo.subtract %266, %267 : tensor<4194304xi32>
  :: StableHlo.unary main_v257 main_v269 ((transpose S16x4096x64 [0, 2, 1] · transposes_S16x64x4096_S16x4096x64_0_2_1) : (⟨S16x64x4096, .f32⟩ : BufTy).Contents (Elt F) → (⟨S16x4096x64, .f32⟩ : BufTy).Contents (Elt F)) -- %269 = stablehlo.transpose %257, dims = [0, 2, 1] : (tensor<16x64x4096xf32>) -> tensor<16x4096x64xf32>
  :: StableHlo.reshape main_v269 main_v270 rfl shapeCasts_S16x4096x64_S4194304 -- %270 = stablehlo.reshape %269 : (tensor<16x4096x64xf32>) -> tensor<4194304xf32>
  :: StableHlo.nullary main_cst_22 (constant S_ .f32 0x00000000#32) -- %cst_22 = stablehlo.constant dense<0.000000e+00> : tensor<f32>
  :: StableHlo.unary main_cst_22 main_v271 (broadcastInDim S4194305 ![] bcast_S_S4194305 : (⟨S_, .f32⟩ : BufTy).Contents (Elt F) → (⟨S4194305, .f32⟩ : BufTy).Contents (Elt F)) -- %271 = stablehlo.broadcast_in_dim %cst_22, dims = [] : (tensor<f32>) -> tensor<4194305xf32>
  :: StableHlo.nullary main_c_23 (constantI S_ 32 4194304#32) -- %c_23 = stablehlo.constant dense<4194304> : tensor<i32>
  :: StableHlo.unary main_c_23 main_call10_v0 (id : (⟨S_, .i32⟩ : BufTy).Contents (Elt F) → (⟨S_, .i32⟩ : BufTy).Contents (Elt F)) -- %272 = call @where: %0 = stablehlo.convert %arg2 : tensor<i32>
  :: StableHlo.unary main_call10_v0 main_call10_v1 ((broadcastInDim S4194304 ![] bcast_S_S4194304) : (⟨S_, .i32⟩ : BufTy).Contents (Elt F) → (⟨S4194304, .i32⟩ : BufTy).Contents (Elt F)) -- %272 = call @where: %1 = stablehlo.broadcast_in_dim %0, dims = [] : (tensor<i32>) -> tensor<4194304xi32>
  :: StableHlo.ternary main_v260 main_v268 main_call10_v1 main_v272 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) -- %272 = call @where: %2 = stablehlo.select %arg0, %arg1, %1 : tensor<4194304xi1>, tensor<4194304xi32>
  :: StableHlo.nullary main_c_24 (constantI S_ 32 0#32) -- %c_24 = stablehlo.constant dense<0> : tensor<i32>
  :: [] )

/-- The window's operations are the two stretches, one after the other. -/
theorem ops4_cut : (ops4 : List (HloOp τ sig (Elt F))) = ops4a ++ ops4b := rfl

end Cert.Hand.RefRun

end
-- ==== Proof.Ref.TailTail.lean ====
/- The reference's tail. After the operation that writes the second overlap tensor (main_v257, the 296th of @main),
   the remaining 66 operations read only the mask main_v119 and the two overlap tensors main_v188 and main_v257, and
   none of them writes any of the three: they flatten the mask in (step, ego, agent) and in (step, agent, ego) order,
   rank the edges of each order by a running count, send the second tensor's edges to their ranks, fetch them back at
   the first order's ranks, keep the larger overlap of each pair, and reduce over agents and steps. That is the shared
   function `Tail.tail` of the three buffers' contents, whatever those contents are. -/
import proofs.«124939_j34651796144492_2_alg».proof.Proof.Ref.RunOps
import proofs.«124939_j34651796144492_2_alg».proof.Proof.Ref.RunCut4
import proofs.«124939_j34651796144492_2_alg».proof.Proof.Ref.RunKeep5
import proofs.«124939_j34651796144492_2_alg».proof.Proof.Tail
import Idealize.ShloMosaic.PureOps.Ideal

noncomputable section

namespace Cert.Hand.RefTail

open Cert.ReferenceIdeal Cert.ReferenceIdeal.Gen Idealize.ShloMosaic Idealize.ShloMosaic.TcCoe Idealize.SL.Sem Idealize.ShloMosaic.StableHlo
open Cert.Hand.RefRun

/-- The contents after @main's operations, with the fifth window cut after the write of main_v257. -/
theorem after_ops_cut (M : Valuation τ sig (Elt Ideal)) :
    after (ops (F := Ideal)) M
      = after ops5 (after ops4b (after ops4a (after ops3 (after ops2 (after ops1 (after ops0 M)))))) := by
  rw [after_ops, ops4_cut, after_app]

set_option maxRecDepth 8192 in
set_option maxHeartbeats 4000000 in
/-- The last 66 operations leave the three buffers they read as they found them. -/
theorem last_keeps (W : Valuation τ sig (Elt Ideal)) :
    after (ops5 (F := Ideal)) (after ops4b W) (Proc.devRef .tc main_v119) = W (Proc.devRef .tc main_v119)
    ∧ after (ops5 (F := Ideal)) (after ops4b W) (Proc.devRef .tc main_v188) = W (Proc.devRef .tc main_v188)
    ∧ after (ops5 (F := Ideal)) (after ops4b W) (Proc.devRef .tc main_v257) = W (Proc.devRef .tc main_v257) := by
  refine ⟨?_, ?_, ?_⟩ <;> after_results_simp

set_option maxRecDepth 8192 in
set_option maxHeartbeats 4000000 in
/-- From any contents `W`, the last 66 operations leave the first result (done, transposed) at the first component
    of `Tail.tail` of the mask and the two overlap tensors. -/
theorem last_v300 (W : Valuation τ sig (Elt Ideal)) :
    after (ops5 (F := Ideal)) (after ops4b W) (Proc.devRef .tc main_v300)
      = (Cert.Hand.Tail.tail (W (Proc.devRef .tc main_v119)) (W (Proc.devRef .tc main_v188)) (W (Proc.devRef .tc main_v257))).1 := by
  after_results_simp
  generalize W (Proc.devRef .tc main_v119) = mk
  generalize W (Proc.devRef .tc main_v188) = A
  generalize W (Proc.devRef .tc main_v257) = B
  rfl

set_option maxRecDepth 8192 in
set_option maxHeartbeats 4000000 in
/-- Likewise the second result (the reward) and the second component. -/
theorem last_v299 (W : Valuation τ sig (Elt Ideal)) :
    after (ops5 (F := Ideal)) (after ops4b W) (Proc.devRef .tc main_v299)
      = (Cert.Hand.Tail.tail (W (Proc.devRef .tc main_v119)) (W (Proc.devRef .tc main_v188)) (W (Proc.devRef .tc main_v257))).2 := by
  after_results_simp
  generalize W (Proc.devRef .tc main_v119) = mk
  generalize W (Proc.devRef .tc main_v188) = A
  generalize W (Proc.devRef .tc main_v257) = B
  rfl

/-- After @main's operations, from any contents `M`: the first result is the first component of `Tail.tail` of what
    the mask buffer and the two overlap buffers hold at the end. -/
theorem ref_v300 (M : Valuation τ sig (Elt Ideal)) :
    after (ops (F := Ideal)) M (Proc.devRef .tc main_v300)
      = (Cert.Hand.Tail.tail (after (ops (F := Ideal)) M (Proc.devRef .tc main_v119)) (after (ops (F := Ideal)) M (Proc.devRef .tc main_v188))
          (after (ops (F := Ideal)) M (Proc.devRef .tc main_v257))).1 := by
  rw [after_ops_cut]
  generalize after ops4a (after ops3 (after ops2 (after ops1 (after ops0 M)))) = W
  rw [(last_keeps W).1, (last_keeps W).2.1, (last_keeps W).2.2]
  exact last_v300 W

/-- The second result is the second component. -/
theorem ref_v299 (M : Valuation τ sig (Elt Ideal)) :
    after (ops (F := Ideal)) M (Proc.devRef .tc main_v299)
      = (Cert.Hand.Tail.tail (after (ops (F := Ideal)) M (Proc.devRef .tc main_v119)) (after (ops (F := Ideal)) M (Proc.devRef .tc main_v188))
          (after (ops (F := Ideal)) M (Proc.devRef .tc main_v257))).2 := by
  rw [after_ops_cut]
  generalize after ops4a (after ops3 (after ops2 (after ops1 (after ops0 M)))) = W
  rw [(last_keeps W).1, (last_keeps W).2.1, (last_keeps W).2.2]
  exact last_v299 W

end Cert.Hand.RefTail

end
-- ==== Proof.Ref.ValStages.lean ====
import proofs.«124939_j34651796144492_2_alg».proof.ReferenceIdeal
import Idealize.ShloMosaic.PureOps.Ideal

/-!
The reference's values before its tail, as pure functions of the six argument arrays at the ideal instance:
each operation of the printed program is one definition, applied to the definitions of its operands, so the
mask, A and B are the compositions the program computes. The operation's function is the program's own text.
-/

noncomputable section

namespace Cert.Hand.RefVal

open Idealize.ShloMosaic Cert.ReferenceIdeal Cert.ReferenceIdeal.Facts₀

variable [Cert.ReferenceIdeal.Facts₀]

def v0 (a0 : (⟨S4096x20x2, .f32⟩ : BufTy).Contents (Elt Ideal)) : (⟨S4096x16x2, .f32⟩ : BufTy).Contents (Elt Ideal) :=
  ((extractStridedSlice S4096x16x2 ![0, 4, 0] · slices_S4096x20x2_S4096x16x2_0_4_0) : (⟨S4096x20x2, .f32⟩ : BufTy).Contents (Elt Ideal) → (⟨S4096x16x2, .f32⟩ : BufTy).Contents (Elt Ideal)) a0
def v1 (a1 : (⟨S4096x20, .f32⟩ : BufTy).Contents (Elt Ideal)) : (⟨S4096x16, .f32⟩ : BufTy).Contents (Elt Ideal) :=
  ((extractStridedSlice S4096x16 ![0, 4] · slices_S4096x20_S4096x16_0_4) : (⟨S4096x20, .f32⟩ : BufTy).Contents (Elt Ideal) → (⟨S4096x16, .f32⟩ : BufTy).Contents (Elt Ideal)) a1
def v2 (a2 : (⟨S4096x20, .i1⟩ : BufTy).Contents (Elt Ideal)) : (⟨S4096x16, .i1⟩ : BufTy).Contents (Elt Ideal) :=
  ((extractStridedSlice S4096x16 ![0, 4] · slices_S4096x20_S4096x16_0_4) : (⟨S4096x20, .i1⟩ : BufTy).Contents (Elt Ideal) → (⟨S4096x16, .i1⟩ : BufTy).Contents (Elt Ideal)) a2
def v3 (a3 : (⟨S4096x4, .f32⟩ : BufTy).Contents (Elt Ideal)) : (⟨S4096x1, .f32⟩ : BufTy).Contents (Elt Ideal) :=
  ((extractStridedSlice S4096x1 ![0, 0] · slices_S4096x4_S4096x1_0_0) : (⟨S4096x4, .f32⟩ : BufTy).Contents (Elt Ideal) → (⟨S4096x1, .f32⟩ : BufTy).Contents (Elt Ideal)) a3
def v4 (a3 : (⟨S4096x4, .f32⟩ : BufTy).Contents (Elt Ideal)) : (⟨S4096, .f32⟩ : BufTy).Contents (Elt Ideal) :=
  shapeCast S4096 (v3 a3) shapeCasts_S4096x1_S4096
def v5 (a3 : (⟨S4096x4, .f32⟩ : BufTy).Contents (Elt Ideal)) : (⟨S4096x1, .f32⟩ : BufTy).Contents (Elt Ideal) :=
  ((extractStridedSlice S4096x1 ![0, 1] · slices_S4096x4_S4096x1_0_1) : (⟨S4096x4, .f32⟩ : BufTy).Contents (Elt Ideal) → (⟨S4096x1, .f32⟩ : BufTy).Contents (Elt Ideal)) a3
def v6 (a3 : (⟨S4096x4, .f32⟩ : BufTy).Contents (Elt Ideal)) : (⟨S4096, .f32⟩ : BufTy).Contents (Elt Ideal) :=
  shapeCast S4096 (v5 a3) shapeCasts_S4096x1_S4096
def v7 (a3 : (⟨S4096x4, .f32⟩ : BufTy).Contents (Elt Ideal)) : (⟨S4096x1, .f32⟩ : BufTy).Contents (Elt Ideal) :=
  ((extractStridedSlice S4096x1 ![0, 2] · slices_S4096x4_S4096x1_0_2) : (⟨S4096x4, .f32⟩ : BufTy).Contents (Elt Ideal) → (⟨S4096x1, .f32⟩ : BufTy).Contents (Elt Ideal)) a3
def v8 (a3 : (⟨S4096x4, .f32⟩ : BufTy).Contents (Elt Ideal)) : (⟨S4096, .f32⟩ : BufTy).Contents (Elt Ideal) :=
  shapeCast S4096 (v7 a3) shapeCasts_S4096x1_S4096
def v9 (a3 : (⟨S4096x4, .f32⟩ : BufTy).Contents (Elt Ideal)) : (⟨S4096x1, .f32⟩ : BufTy).Contents (Elt Ideal) :=
  ((extractStridedSlice S4096x1 ![0, 3] · slices_S4096x4_S4096x1_0_3) : (⟨S4096x4, .f32⟩ : BufTy).Contents (Elt Ideal) → (⟨S4096x1, .f32⟩ : BufTy).Contents (Elt Ideal)) a3
def v10 (a3 : (⟨S4096x4, .f32⟩ : BufTy).Contents (Elt Ideal)) : (⟨S4096, .f32⟩ : BufTy).Contents (Elt Ideal) :=
  shapeCast S4096 (v9 a3) shapeCasts_S4096x1_S4096
def v11 (a3 : (⟨S4096x4, .f32⟩ : BufTy).Contents (Elt Ideal)) : (⟨S4096, .f32⟩ : BufTy).Contents (Elt Ideal) :=
  (Host.negf (F := Ideal) (φ := .f32) : (⟨S4096, .f32⟩ : BufTy).Contents (Elt Ideal) → (⟨S4096, .f32⟩ : BufTy).Contents (Elt Ideal)) (v6 a3)
def v12 (a3 : (⟨S4096x4, .f32⟩ : BufTy).Contents (Elt Ideal)) : (⟨S4096, .f32⟩ : BufTy).Contents (Elt Ideal) :=
  (Host.negf (F := Ideal) (φ := .f32) : (⟨S4096, .f32⟩ : BufTy).Contents (Elt Ideal) → (⟨S4096, .f32⟩ : BufTy).Contents (Elt Ideal)) (v6 a3)
def v13 (a3 : (⟨S4096x4, .f32⟩ : BufTy).Contents (Elt Ideal)) : (⟨S4096x1, .f32⟩ : BufTy).Contents (Elt Ideal) :=
  (broadcastInDim S4096x1 ![0] bcast_S4096_S4096x1_0 : (⟨S4096, .f32⟩ : BufTy).Contents (Elt Ideal) → (⟨S4096x1, .f32⟩ : BufTy).Contents (Elt Ideal)) (v4 a3)
def v14 (a3 : (⟨S4096x4, .f32⟩ : BufTy).Contents (Elt Ideal)) : (⟨S4096x1, .f32⟩ : BufTy).Contents (Elt Ideal) :=
  (broadcastInDim S4096x1 ![0] bcast_S4096_S4096x1_0 : (⟨S4096, .f32⟩ : BufTy).Contents (Elt Ideal) → (⟨S4096x1, .f32⟩ : BufTy).Contents (Elt Ideal)) (v4 a3)
def v15 (a3 : (⟨S4096x4, .f32⟩ : BufTy).Contents (Elt Ideal)) : (⟨S4096x1, .f32⟩ : BufTy).Contents (Elt Ideal) :=
  (broadcastInDim S4096x1 ![0] bcast_S4096_S4096x1_0 : (⟨S4096, .f32⟩ : BufTy).Contents (Elt Ideal) → (⟨S4096x1, .f32⟩ : BufTy).Contents (Elt Ideal)) (v11 a3)
def v16 (a3 : (⟨S4096x4, .f32⟩ : BufTy).Contents (Elt Ideal)) : (⟨S4096x1, .f32⟩ : BufTy).Contents (Elt Ideal) :=
  (broadcastInDim S4096x1 ![0] bcast_S4096_S4096x1_0 : (⟨S4096, .f32⟩ : BufTy).Contents (Elt Ideal) → (⟨S4096x1, .f32⟩ : BufTy).Contents (Elt Ideal)) (v12 a3)
def v17 (a3 : (⟨S4096x4, .f32⟩ : BufTy).Contents (Elt Ideal)) : (⟨S4096x4, .f32⟩ : BufTy).Contents (Elt Ideal) :=
  concatenate S4096x4 1 [⟨S4096x1, (v13 a3)⟩, ⟨S4096x1, (v14 a3)⟩, ⟨S4096x1, (v15 a3)⟩, ⟨S4096x1, (v16 a3)⟩] concatenates_S4096x1_S4096x1_S4096x1_S4096x1_S4096x4_d1
def v18 (a3 : (⟨S4096x4, .f32⟩ : BufTy).Contents (Elt Ideal)) : (⟨S4096x1x4, .f32⟩ : BufTy).Contents (Elt Ideal) :=
  (broadcastInDim S4096x1x4 ![0, 2] bcast_S4096x4_S4096x1x4_0_2 : (⟨S4096x4, .f32⟩ : BufTy).Contents (Elt Ideal) → (⟨S4096x1x4, .f32⟩ : BufTy).Contents (Elt Ideal)) (v17 a3)
def v19 (a3 : (⟨S4096x4, .f32⟩ : BufTy).Contents (Elt Ideal)) : (⟨S4096, .f32⟩ : BufTy).Contents (Elt Ideal) :=
  (Host.negf (F := Ideal) (φ := .f32) : (⟨S4096, .f32⟩ : BufTy).Contents (Elt Ideal) → (⟨S4096, .f32⟩ : BufTy).Contents (Elt Ideal)) (v10 a3)
def v20 (a3 : (⟨S4096x4, .f32⟩ : BufTy).Contents (Elt Ideal)) : (⟨S4096, .f32⟩ : BufTy).Contents (Elt Ideal) :=
  (Host.negf (F := Ideal) (φ := .f32) : (⟨S4096, .f32⟩ : BufTy).Contents (Elt Ideal) → (⟨S4096, .f32⟩ : BufTy).Contents (Elt Ideal)) (v10 a3)
def v21 (a3 : (⟨S4096x4, .f32⟩ : BufTy).Contents (Elt Ideal)) : (⟨S4096x1, .f32⟩ : BufTy).Contents (Elt Ideal) :=
  (broadcastInDim S4096x1 ![0] bcast_S4096_S4096x1_0 : (⟨S4096, .f32⟩ : BufTy).Contents (Elt Ideal) → (⟨S4096x1, .f32⟩ : BufTy).Contents (Elt Ideal)) (v8 a3)
def v22 (a3 : (⟨S4096x4, .f32⟩ : BufTy).Contents (Elt Ideal)) : (⟨S4096x1, .f32⟩ : BufTy).Contents (Elt Ideal) :=
  (broadcastInDim S4096x1 ![0] bcast_S4096_S4096x1_0 : (⟨S4096, .f32⟩ : BufTy).Contents (Elt Ideal) → (⟨S4096x1, .f32⟩ : BufTy).Contents (Elt Ideal)) (v19 a3)
def v23 (a3 : (⟨S4096x4, .f32⟩ : BufTy).Contents (Elt Ideal)) : (⟨S4096x1, .f32⟩ : BufTy).Contents (Elt Ideal) :=
  (broadcastInDim S4096x1 ![0] bcast_S4096_S4096x1_0 : (⟨S4096, .f32⟩ : BufTy).Contents (Elt Ideal) → (⟨S4096x1, .f32⟩ : BufTy).Contents (Elt Ideal)) (v20 a3)
def v24 (a3 : (⟨S4096x4, .f32⟩ : BufTy).Contents (Elt Ideal)) : (⟨S4096x1, .f32⟩ : BufTy).Contents (Elt Ideal) :=
  (broadcastInDim S4096x1 ![0] bcast_S4096_S4096x1_0 : (⟨S4096, .f32⟩ : BufTy).Contents (Elt Ideal) → (⟨S4096x1, .f32⟩ : BufTy).Contents (Elt Ideal)) (v8 a3)
def v25 (a3 : (⟨S4096x4, .f32⟩ : BufTy).Contents (Elt Ideal)) : (⟨S4096x4, .f32⟩ : BufTy).Contents (Elt Ideal) :=
  concatenate S4096x4 1 [⟨S4096x1, (v21 a3)⟩, ⟨S4096x1, (v22 a3)⟩, ⟨S4096x1, (v23 a3)⟩, ⟨S4096x1, (v24 a3)⟩] concatenates_S4096x1_S4096x1_S4096x1_S4096x1_S4096x4_d1
def v26 (a3 : (⟨S4096x4, .f32⟩ : BufTy).Contents (Elt Ideal)) : (⟨S4096x1x4, .f32⟩ : BufTy).Contents (Elt Ideal) :=
  (broadcastInDim S4096x1x4 ![0, 2] bcast_S4096x4_S4096x1x4_0_2 : (⟨S4096x4, .f32⟩ : BufTy).Contents (Elt Ideal) → (⟨S4096x1x4, .f32⟩ : BufTy).Contents (Elt Ideal)) (v25 a3)
def v27 (a1 : (⟨S4096x20, .f32⟩ : BufTy).Contents (Elt Ideal)) : (⟨S4096x16, .f32⟩ : BufTy).Contents (Elt Ideal) :=
  (Host.cos (F := Ideal) (φ := .f32) : (⟨S4096x16, .f32⟩ : BufTy).Contents (Elt Ideal) → (⟨S4096x16, .f32⟩ : BufTy).Contents (Elt Ideal)) (v1 a1)
def v28 (a1 : (⟨S4096x20, .f32⟩ : BufTy).Contents (Elt Ideal)) : (⟨S4096x16x1, .f32⟩ : BufTy).Contents (Elt Ideal) :=
  (broadcastInDim S4096x16x1 ![0, 1] bcast_S4096x16_S4096x16x1_0_1 : (⟨S4096x16, .f32⟩ : BufTy).Contents (Elt Ideal) → (⟨S4096x16x1, .f32⟩ : BufTy).Contents (Elt Ideal)) (v27 a1)
def v29 (a1 : (⟨S4096x20, .f32⟩ : BufTy).Contents (Elt Ideal)) : (⟨S4096x16, .f32⟩ : BufTy).Contents (Elt Ideal) :=
  (Host.sin (F := Ideal) (φ := .f32) : (⟨S4096x16, .f32⟩ : BufTy).Contents (Elt Ideal) → (⟨S4096x16, .f32⟩ : BufTy).Contents (Elt Ideal)) (v1 a1)
def v30 (a1 : (⟨S4096x20, .f32⟩ : BufTy).Contents (Elt Ideal)) : (⟨S4096x16x1, .f32⟩ : BufTy).Contents (Elt Ideal) :=
  (broadcastInDim S4096x16x1 ![0, 1] bcast_S4096x16_S4096x16x1_0_1 : (⟨S4096x16, .f32⟩ : BufTy).Contents (Elt Ideal) → (⟨S4096x16x1, .f32⟩ : BufTy).Contents (Elt Ideal)) (v29 a1)
def v31 (a0 : (⟨S4096x20x2, .f32⟩ : BufTy).Contents (Elt Ideal)) : (⟨S4096x16x1, .f32⟩ : BufTy).Contents (Elt Ideal) :=
  ((extractStridedSlice S4096x16x1 ![0, 0, 0] · slices_S4096x16x2_S4096x16x1_0_0_0) : (⟨S4096x16x2, .f32⟩ : BufTy).Contents (Elt Ideal) → (⟨S4096x16x1, .f32⟩ : BufTy).Contents (Elt Ideal)) (v0 a0)
def v32 (a1 : (⟨S4096x20, .f32⟩ : BufTy).Contents (Elt Ideal)) : (⟨S4096x16x4, .f32⟩ : BufTy).Contents (Elt Ideal) :=
  (broadcastInDim S4096x16x4 ![0, 1, 2] bcast_S4096x16x1_S4096x16x4_0_1_2 : (⟨S4096x16x1, .f32⟩ : BufTy).Contents (Elt Ideal) → (⟨S4096x16x4, .f32⟩ : BufTy).Contents (Elt Ideal)) (v28 a1)
def v33 (a3 : (⟨S4096x4, .f32⟩ : BufTy).Contents (Elt Ideal)) : (⟨S4096x16x4, .f32⟩ : BufTy).Contents (Elt Ideal) :=
  (broadcastInDim S4096x16x4 ![0, 1, 2] bcast_S4096x1x4_S4096x16x4_0_1_2 : (⟨S4096x1x4, .f32⟩ : BufTy).Contents (Elt Ideal) → (⟨S4096x16x4, .f32⟩ : BufTy).Contents (Elt Ideal)) (v18 a3)
def v34 (a1 : (⟨S4096x20, .f32⟩ : BufTy).Contents (Elt Ideal)) (a3 : (⟨S4096x4, .f32⟩ : BufTy).Contents (Elt Ideal)) : (⟨S4096x16x4, .f32⟩ : BufTy).Contents (Elt Ideal) :=
  (mulf (F := Ideal) (φ := .f32) : (⟨S4096x16x4, .f32⟩ : BufTy).Contents (Elt Ideal) → (⟨S4096x16x4, .f32⟩ : BufTy).Contents (Elt Ideal) → (⟨S4096x16x4, .f32⟩ : BufTy).Contents (Elt Ideal)) (v32 a1) (v33 a3)
def v35 (a0 : (⟨S4096x20x2, .f32⟩ : BufTy).Contents (Elt Ideal)) : (⟨S4096x16x4, .f32⟩ : BufTy).Contents (Elt Ideal) :=
  (broadcastInDim S4096x16x4 ![0, 1, 2] bcast_S4096x16x1_S4096x16x4_0_1_2 : (⟨S4096x16x1, .f32⟩ : BufTy).Contents (Elt Ideal) → (⟨S4096x16x4, .f32⟩ : BufTy).Contents (Elt Ideal)) (v31 a0)
def v36 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S4096x16x4, .f32⟩ : BufTy).Contents (Elt Ideal) :=
  (addf (F := Ideal) (φ := .f32) : (⟨S4096x16x4, .f32⟩ : BufTy).Contents (Elt Ideal) → (⟨S4096x16x4, .f32⟩ : BufTy).Contents (Elt Ideal) → (⟨S4096x16x4, .f32⟩ : BufTy).Contents (Elt Ideal)) (v35 a0) (v34 a1 a3)
def v37 (a1 : (⟨S4096x20, .f32⟩ : BufTy).Contents (Elt Ideal)) : (⟨S4096x16x4, .f32⟩ : BufTy).Contents (Elt Ideal) :=
  (broadcastInDim S4096x16x4 ![0, 1, 2] bcast_S4096x16x1_S4096x16x4_0_1_2 : (⟨S4096x16x1, .f32⟩ : BufTy).Contents (Elt Ideal) → (⟨S4096x16x4, .f32⟩ : BufTy).Contents (Elt Ideal)) (v30 a1)
def v38 (a3 : (⟨S4096x4, .f32⟩ : BufTy).Contents (Elt Ideal)) : (⟨S4096x16x4, .f32⟩ : BufTy).Contents (Elt Ideal) :=
  (broadcastInDim S4096x16x4 ![0, 1, 2] bcast_S4096x1x4_S4096x16x4_0_1_2 : (⟨S4096x1x4, .f32⟩ : BufTy).Contents (Elt Ideal) → (⟨S4096x16x4, .f32⟩ : BufTy).Contents (Elt Ideal)) (v26 a3)
def v39 (a1 : (⟨S4096x20, .f32⟩ : BufTy).Contents (Elt Ideal)) (a3 : (⟨S4096x4, .f32⟩ : BufTy).Contents (Elt Ideal)) : (⟨S4096x16x4, .f32⟩ : BufTy).Contents (Elt Ideal) :=
  (mulf (F := Ideal) (φ := .f32) : (⟨S4096x16x4, .f32⟩ : BufTy).Contents (Elt Ideal) → (⟨S4096x16x4, .f32⟩ : BufTy).Contents (Elt Ideal) → (⟨S4096x16x4, .f32⟩ : BufTy).Contents (Elt Ideal)) (v37 a1) (v38 a3)
def v40 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S4096x16x4, .f32⟩ : BufTy).Contents (Elt Ideal) :=
  (subf (F := Ideal) (φ := .f32) : (⟨S4096x16x4, .f32⟩ : BufTy).Contents (Elt Ideal) → (⟨S4096x16x4, .f32⟩ : BufTy).Contents (Elt Ideal) → (⟨S4096x16x4, .f32⟩ : BufTy).Contents (Elt Ideal)) (v36 a0 a1 a3) (v39 a1 a3)
def v41 (a0 : (⟨S4096x20x2, .f32⟩ : BufTy).Contents (Elt Ideal)) : (⟨S4096x16x1, .f32⟩ : BufTy).Contents (Elt Ideal) :=
  ((extractStridedSlice S4096x16x1 ![0, 0, 1] · slices_S4096x16x2_S4096x16x1_0_0_1) : (⟨S4096x16x2, .f32⟩ : BufTy).Contents (Elt Ideal) → (⟨S4096x16x1, .f32⟩ : BufTy).Contents (Elt Ideal)) (v0 a0)
def v42 (a1 : (⟨S4096x20, .f32⟩ : BufTy).Contents (Elt Ideal)) : (⟨S4096x16x4, .f32⟩ : BufTy).Contents (Elt Ideal) :=
  (broadcastInDim S4096x16x4 ![0, 1, 2] bcast_S4096x16x1_S4096x16x4_0_1_2 : (⟨S4096x16x1, .f32⟩ : BufTy).Contents (Elt Ideal) → (⟨S4096x16x4, .f32⟩ : BufTy).Contents (Elt Ideal)) (v30 a1)
def v43 (a3 : (⟨S4096x4, .f32⟩ : BufTy).Contents (Elt Ideal)) : (⟨S4096x16x4, .f32⟩ : BufTy).Contents (Elt Ideal) :=
  (broadcastInDim S4096x16x4 ![0, 1, 2] bcast_S4096x1x4_S4096x16x4_0_1_2 : (⟨S4096x1x4, .f32⟩ : BufTy).Contents (Elt Ideal) → (⟨S4096x16x4, .f32⟩ : BufTy).Contents (Elt Ideal)) (v18 a3)
def v44 (a1 : (⟨S4096x20, .f32⟩ : BufTy).Contents (Elt Ideal)) (a3 : (⟨S4096x4, .f32⟩ : BufTy).Contents (Elt Ideal)) : (⟨S4096x16x4, .f32⟩ : BufTy).Contents (Elt Ideal) :=
  (mulf (F := Ideal) (φ := .f32) : (⟨S4096x16x4, .f32⟩ : BufTy).Contents (Elt Ideal) → (⟨S4096x16x4, .f32⟩ : BufTy).Contents (Elt Ideal) → (⟨S4096x16x4, .f32⟩ : BufTy).Contents (Elt Ideal)) (v42 a1) (v43 a3)
def v45 (a0 : (⟨S4096x20x2, .f32⟩ : BufTy).Contents (Elt Ideal)) : (⟨S4096x16x4, .f32⟩ : BufTy).Contents (Elt Ideal) :=
  (broadcastInDim S4096x16x4 ![0, 1, 2] bcast_S4096x16x1_S4096x16x4_0_1_2 : (⟨S4096x16x1, .f32⟩ : BufTy).Contents (Elt Ideal) → (⟨S4096x16x4, .f32⟩ : BufTy).Contents (Elt Ideal)) (v41 a0)
def v46 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S4096x16x4, .f32⟩ : BufTy).Contents (Elt Ideal) :=
  (addf (F := Ideal) (φ := .f32) : (⟨S4096x16x4, .f32⟩ : BufTy).Contents (Elt Ideal) → (⟨S4096x16x4, .f32⟩ : BufTy).Contents (Elt Ideal) → (⟨S4096x16x4, .f32⟩ : BufTy).Contents (Elt Ideal)) (v45 a0) (v44 a1 a3)
def v47 (a1 : (⟨S4096x20, .f32⟩ : BufTy).Contents (Elt Ideal)) : (⟨S4096x16x4, .f32⟩ : BufTy).Contents (Elt Ideal) :=
  (broadcastInDim S4096x16x4 ![0, 1, 2] bcast_S4096x16x1_S4096x16x4_0_1_2 : (⟨S4096x16x1, .f32⟩ : BufTy).Contents (Elt Ideal) → (⟨S4096x16x4, .f32⟩ : BufTy).Contents (Elt Ideal)) (v28 a1)
def v48 (a3 : (⟨S4096x4, .f32⟩ : BufTy).Contents (Elt Ideal)) : (⟨S4096x16x4, .f32⟩ : BufTy).Contents (Elt Ideal) :=
  (broadcastInDim S4096x16x4 ![0, 1, 2] bcast_S4096x1x4_S4096x16x4_0_1_2 : (⟨S4096x1x4, .f32⟩ : BufTy).Contents (Elt Ideal) → (⟨S4096x16x4, .f32⟩ : BufTy).Contents (Elt Ideal)) (v26 a3)
def v49 (a1 : (⟨S4096x20, .f32⟩ : BufTy).Contents (Elt Ideal)) (a3 : (⟨S4096x4, .f32⟩ : BufTy).Contents (Elt Ideal)) : (⟨S4096x16x4, .f32⟩ : BufTy).Contents (Elt Ideal) :=
  (mulf (F := Ideal) (φ := .f32) : (⟨S4096x16x4, .f32⟩ : BufTy).Contents (Elt Ideal) → (⟨S4096x16x4, .f32⟩ : BufTy).Contents (Elt Ideal) → (⟨S4096x16x4, .f32⟩ : BufTy).Contents (Elt Ideal)) (v47 a1) (v48 a3)
def v50 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S4096x16x4, .f32⟩ : BufTy).Contents (Elt Ideal) :=
  (addf (F := Ideal) (φ := .f32) : (⟨S4096x16x4, .f32⟩ : BufTy).Contents (Elt Ideal) → (⟨S4096x16x4, .f32⟩ : BufTy).Contents (Elt Ideal) → (⟨S4096x16x4, .f32⟩ : BufTy).Contents (Elt Ideal)) (v46 a0 a1 a3) (v49 a1 a3)
def v51 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S4096x16x4x1, .f32⟩ : BufTy).Contents (Elt Ideal) :=
  (broadcastInDim S4096x16x4x1 ![0, 1, 2] bcast_S4096x16x4_S4096x16x4x1_0_1_2 : (⟨S4096x16x4, .f32⟩ : BufTy).Contents (Elt Ideal) → (⟨S4096x16x4x1, .f32⟩ : BufTy).Contents (Elt Ideal)) (v40 a0 a1 a3)
def v52 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S4096x16x4x1, .f32⟩ : BufTy).Contents (Elt Ideal) :=
  (broadcastInDim S4096x16x4x1 ![0, 1, 2] bcast_S4096x16x4_S4096x16x4x1_0_1_2 : (⟨S4096x16x4, .f32⟩ : BufTy).Contents (Elt Ideal) → (⟨S4096x16x4x1, .f32⟩ : BufTy).Contents (Elt Ideal)) (v50 a0 a1 a3)
def v53 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S4096x16x4x2, .f32⟩ : BufTy).Contents (Elt Ideal) :=
  ((fun a b => concatenate S4096x16x4x2 3 [⟨S4096x16x4x1, a⟩, ⟨S4096x16x4x1, b⟩] concatenates_S4096x16x4x1_S4096x16x4x1_S4096x16x4x2_d3) : (⟨S4096x16x4x1, .f32⟩ : BufTy).Contents (Elt Ideal) → (⟨S4096x16x4x1, .f32⟩ : BufTy).Contents (Elt Ideal) → (⟨S4096x16x4x2, .f32⟩ : BufTy).Contents (Elt Ideal)) (v51 a0 a1 a3) (v52 a0 a1 a3)
def v54 (a0 : (⟨S4096x20x2, .f32⟩ : BufTy).Contents (Elt Ideal)) : (⟨S16x4096x2, .f32⟩ : BufTy).Contents (Elt Ideal) :=
  ((transpose S16x4096x2 [1, 0, 2] · transposes_S4096x16x2_S16x4096x2_1_0_2) : (⟨S4096x16x2, .f32⟩ : BufTy).Contents (Elt Ideal) → (⟨S16x4096x2, .f32⟩ : BufTy).Contents (Elt Ideal)) (v0 a0)
def v55 (a1 : (⟨S4096x20, .f32⟩ : BufTy).Contents (Elt Ideal)) : (⟨S16x4096, .f32⟩ : BufTy).Contents (Elt Ideal) :=
  ((transpose S16x4096 [1, 0] · transposes_S4096x16_S16x4096_1_0) : (⟨S4096x16, .f32⟩ : BufTy).Contents (Elt Ideal) → (⟨S16x4096, .f32⟩ : BufTy).Contents (Elt Ideal)) (v1 a1)
def v56 (a2 : (⟨S4096x20, .i1⟩ : BufTy).Contents (Elt Ideal)) : (⟨S16x4096, .i1⟩ : BufTy).Contents (Elt Ideal) :=
  ((transpose S16x4096 [1, 0] · transposes_S4096x16_S16x4096_1_0) : (⟨S4096x16, .i1⟩ : BufTy).Contents (Elt Ideal) → (⟨S16x4096, .i1⟩ : BufTy).Contents (Elt Ideal)) (v2 a2)
def v57 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S16x4096x4x2, .f32⟩ : BufTy).Contents (Elt Ideal) :=
  ((transpose S16x4096x4x2 [1, 0, 2, 3] · transposes_S4096x16x4x2_S16x4096x4x2_1_0_2_3) : (⟨S4096x16x4x2, .f32⟩ : BufTy).Contents (Elt Ideal) → (⟨S16x4096x4x2, .f32⟩ : BufTy).Contents (Elt Ideal)) (v53 a0 a1 a3)
def c : (⟨S_, .i32⟩ : BufTy).Contents (Elt Ideal) :=
  constantI S_ 32 0#32
def v58 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c
def v59 (a5 : (⟨S64, .i32⟩ : BufTy).Contents (Elt Ideal)) : (⟨S64, .i1⟩ : BufTy).Contents (Elt Ideal) :=
  (cmpi .slt : (⟨S64, .i32⟩ : BufTy).Contents (Elt Ideal) → (⟨S64, .i32⟩ : BufTy).Contents (Elt Ideal) → (⟨S64, .i1⟩ : BufTy).Contents (Elt Ideal)) a5 v58
def c_0 : (⟨S_, .i32⟩ : BufTy).Contents (Elt Ideal) :=
  constantI S_ 32 4096#32
def v60 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_0
def v61 (a5 : (⟨S64, .i32⟩ : BufTy).Contents (Elt Ideal)) : (⟨S64, .i32⟩ : BufTy).Contents (Elt Ideal) :=
  (addi : (⟨S64, .i32⟩ : BufTy).Contents (Elt Ideal) → (⟨S64, .i32⟩ : BufTy).Contents (Elt Ideal) → (⟨S64, .i32⟩ : BufTy).Contents (Elt Ideal)) a5 v60
def v62 (a5 : (⟨S64, .i32⟩ : BufTy).Contents (Elt Ideal)) : (⟨S64, .i32⟩ : BufTy).Contents (Elt Ideal) :=
  (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)) (v59 a5) (v61 a5) a5
def v63 (a5 : (⟨S64, .i32⟩ : BufTy).Contents (Elt Ideal)) : (⟨S64x1, .i32⟩ : BufTy).Contents (Elt Ideal) :=
  (broadcastInDim S64x1 ![0] bcast_S64_S64x1_0 : (⟨S64, .i32⟩ : BufTy).Contents (Elt Ideal) → (⟨S64x1, .i32⟩ : BufTy).Contents (Elt Ideal)) (v62 a5)
def v64 (a0 : (⟨S4096x20x2, .f32⟩ : BufTy).Contents (Elt Ideal)) (a5 : (⟨S64, .i32⟩ : BufTy).Contents (Elt Ideal)) : (⟨S16x64x2, .f32⟩ : BufTy).Contents (Elt Ideal) :=
  ((fun x i => Host.gather gather_S16x4096x2_S64x1_S16x64x2_02_1_n_n_1_1_1612 x i) : (⟨S16x4096x2, .f32⟩ : BufTy).Contents (Elt Ideal) → (⟨S64x1, .i32⟩ : BufTy).Contents (Elt Ideal) → (⟨S16x64x2, .f32⟩ : BufTy).Contents (Elt Ideal)) (v54 a0) (v63 a5)
def c_1 : (⟨S_, .i32⟩ : BufTy).Contents (Elt Ideal) :=
  constantI S_ 32 0#32
def v65 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_1
def v66 (a5 : (⟨S64, .i32⟩ : BufTy).Contents (Elt Ideal)) : (⟨S64, .i1⟩ : BufTy).Contents (Elt Ideal) :=
  (cmpi .slt : (⟨S64, .i32⟩ : BufTy).Contents (Elt Ideal) → (⟨S64, .i32⟩ : BufTy).Contents (Elt Ideal) → (⟨S64, .i1⟩ : BufTy).Contents (Elt Ideal)) a5 v65
def c_2 : (⟨S_, .i32⟩ : BufTy).Contents (Elt Ideal) :=
  constantI S_ 32 4096#32
def v67 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_2
def v68 (a5 : (⟨S64, .i32⟩ : BufTy).Contents (Elt Ideal)) : (⟨S64, .i32⟩ : BufTy).Contents (Elt Ideal) :=
  (addi : (⟨S64, .i32⟩ : BufTy).Contents (Elt Ideal) → (⟨S64, .i32⟩ : BufTy).Contents (Elt Ideal) → (⟨S64, .i32⟩ : BufTy).Contents (Elt Ideal)) a5 v67
def v69 (a5 : (⟨S64, .i32⟩ : BufTy).Contents (Elt Ideal)) : (⟨S64, .i32⟩ : BufTy).Contents (Elt Ideal) :=
  (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)) (v66 a5) (v68 a5) a5
def v70 (a5 : (⟨S64, .i32⟩ : BufTy).Contents (Elt Ideal)) : (⟨S64x1, .i32⟩ : BufTy).Contents (Elt Ideal) :=
  (broadcastInDim S64x1 ![0] bcast_S64_S64x1_0 : (⟨S64, .i32⟩ : BufTy).Contents (Elt Ideal) → (⟨S64x1, .i32⟩ : BufTy).Contents (Elt Ideal)) (v69 a5)
def v71 (a1 : (⟨S4096x20, .f32⟩ : BufTy).Contents (Elt Ideal)) (a5 : (⟨S64, .i32⟩ : BufTy).Contents (Elt Ideal)) : (⟨S16x64, .f32⟩ : BufTy).Contents (Elt Ideal) :=
  ((fun x i => Host.gather gather_S16x4096_S64x1_S16x64_0_1_n_n_1_1_161 x i) : (⟨S16x4096, .f32⟩ : BufTy).Contents (Elt Ideal) → (⟨S64x1, .i32⟩ : BufTy).Contents (Elt Ideal) → (⟨S16x64, .f32⟩ : BufTy).Contents (Elt Ideal)) (v55 a1) (v70 a5)
def c_3 : (⟨S_, .i32⟩ : BufTy).Contents (Elt Ideal) :=
  constantI S_ 32 0#32
def v72 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_3
def v73 (a5 : (⟨S64, .i32⟩ : BufTy).Contents (Elt Ideal)) : (⟨S64, .i1⟩ : BufTy).Contents (Elt Ideal) :=
  (cmpi .slt : (⟨S64, .i32⟩ : BufTy).Contents (Elt Ideal) → (⟨S64, .i32⟩ : BufTy).Contents (Elt Ideal) → (⟨S64, .i1⟩ : BufTy).Contents (Elt Ideal)) a5 v72
def c_4 : (⟨S_, .i32⟩ : BufTy).Contents (Elt Ideal) :=
  constantI S_ 32 4096#32
def v74 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_4
def v75 (a5 : (⟨S64, .i32⟩ : BufTy).Contents (Elt Ideal)) : (⟨S64, .i32⟩ : BufTy).Contents (Elt Ideal) :=
  (addi : (⟨S64, .i32⟩ : BufTy).Contents (Elt Ideal) → (⟨S64, .i32⟩ : BufTy).Contents (Elt Ideal) → (⟨S64, .i32⟩ : BufTy).Contents (Elt Ideal)) a5 v74
def v76 (a5 : (⟨S64, .i32⟩ : BufTy).Contents (Elt Ideal)) : (⟨S64, .i32⟩ : BufTy).Contents (Elt Ideal) :=
  (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)) (v73 a5) (v75 a5) a5
def v77 (a5 : (⟨S64, .i32⟩ : BufTy).Contents (Elt Ideal)) : (⟨S64x1, .i32⟩ : BufTy).Contents (Elt Ideal) :=
  (broadcastInDim S64x1 ![0] bcast_S64_S64x1_0 : (⟨S64, .i32⟩ : BufTy).Contents (Elt Ideal) → (⟨S64x1, .i32⟩ : BufTy).Contents (Elt Ideal)) (v76 a5)
def v78 (a2 : (⟨S4096x20, .i1⟩ : BufTy).Contents (Elt Ideal)) (a5 : (⟨S64, .i32⟩ : BufTy).Contents (Elt Ideal)) : (⟨S16x64, .i1⟩ : BufTy).Contents (Elt Ideal) :=
  ((fun x i => Host.gather gather_S16x4096_S64x1_S16x64_0_1_n_n_1_1_161 x i) : (⟨S16x4096, .i1⟩ : BufTy).Contents (Elt Ideal) → (⟨S64x1, .i32⟩ : BufTy).Contents (Elt Ideal) → (⟨S16x64, .i1⟩ : BufTy).Contents (Elt Ideal)) (v56 a2) (v77 a5)
def c_5 : (⟨S_, .i32⟩ : BufTy).Contents (Elt Ideal) :=
  constantI S_ 32 0#32
def v79 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_5
def v80 (a5 : (⟨S64, .i32⟩ : BufTy).Contents (Elt Ideal)) : (⟨S64, .i1⟩ : BufTy).Contents (Elt Ideal) :=
  (cmpi .slt : (⟨S64, .i32⟩ : BufTy).Contents (Elt Ideal) → (⟨S64, .i32⟩ : BufTy).Contents (Elt Ideal) → (⟨S64, .i1⟩ : BufTy).Contents (Elt Ideal)) a5 v79
def c_6 : (⟨S_, .i32⟩ : BufTy).Contents (Elt Ideal) :=
  constantI S_ 32 4096#32
def v81 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_6
def v82 (a5 : (⟨S64, .i32⟩ : BufTy).Contents (Elt Ideal)) : (⟨S64, .i32⟩ : BufTy).Contents (Elt Ideal) :=
  (addi : (⟨S64, .i32⟩ : BufTy).Contents (Elt Ideal) → (⟨S64, .i32⟩ : BufTy).Contents (Elt Ideal) → (⟨S64, .i32⟩ : BufTy).Contents (Elt Ideal)) a5 v81
def v83 (a5 : (⟨S64, .i32⟩ : BufTy).Contents (Elt Ideal)) : (⟨S64, .i32⟩ : BufTy).Contents (Elt Ideal) :=
  (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)) (v80 a5) (v82 a5) a5
def v84 (a5 : (⟨S64, .i32⟩ : BufTy).Contents (Elt Ideal)) : (⟨S64x1, .i32⟩ : BufTy).Contents (Elt Ideal) :=
  (broadcastInDim S64x1 ![0] bcast_S64_S64x1_0 : (⟨S64, .i32⟩ : BufTy).Contents (Elt Ideal) → (⟨S64x1, .i32⟩ : BufTy).Contents (Elt Ideal)) (v83 a5)
def v85 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4x2, .f32⟩ : BufTy).Contents (Elt Ideal) :=
  ((fun x i => Host.gather gather_S16x4096x4x2_S64x1_S16x64x4x2_023_1_n_n_1_1_16142 x i) : (⟨S16x4096x4x2, .f32⟩ : BufTy).Contents (Elt Ideal) → (⟨S64x1, .i32⟩ : BufTy).Contents (Elt Ideal) → (⟨S16x64x4x2, .f32⟩ : BufTy).Contents (Elt Ideal)) (v57 a0 a1 a3) (v84 a5)
def c_7 : (⟨S_, .i32⟩ : BufTy).Contents (Elt Ideal) :=
  constantI S_ 32 0#32
def v86 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_7
def v87 (a5 : (⟨S64, .i32⟩ : BufTy).Contents (Elt Ideal)) : (⟨S64, .i1⟩ : BufTy).Contents (Elt Ideal) :=
  (cmpi .slt : (⟨S64, .i32⟩ : BufTy).Contents (Elt Ideal) → (⟨S64, .i32⟩ : BufTy).Contents (Elt Ideal) → (⟨S64, .i1⟩ : BufTy).Contents (Elt Ideal)) a5 v86
def c_8 : (⟨S_, .i32⟩ : BufTy).Contents (Elt Ideal) :=
  constantI S_ 32 4096#32
def v88 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_8
def v89 (a5 : (⟨S64, .i32⟩ : BufTy).Contents (Elt Ideal)) : (⟨S64, .i32⟩ : BufTy).Contents (Elt Ideal) :=
  (addi : (⟨S64, .i32⟩ : BufTy).Contents (Elt Ideal) → (⟨S64, .i32⟩ : BufTy).Contents (Elt Ideal) → (⟨S64, .i32⟩ : BufTy).Contents (Elt Ideal)) a5 v88
def v90 (a5 : (⟨S64, .i32⟩ : BufTy).Contents (Elt Ideal)) : (⟨S64, .i32⟩ : BufTy).Contents (Elt Ideal) :=
  (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)) (v87 a5) (v89 a5) a5
def v91 (a5 : (⟨S64, .i32⟩ : BufTy).Contents (Elt Ideal)) : (⟨S64x1, .i32⟩ : BufTy).Contents (Elt Ideal) :=
  (broadcastInDim S64x1 ![0] bcast_S64_S64x1_0 : (⟨S64, .i32⟩ : BufTy).Contents (Elt Ideal) → (⟨S64x1, .i32⟩ : BufTy).Contents (Elt Ideal)) (v90 a5)
def v92 (a4 : (⟨S4096, .i32⟩ : BufTy).Contents (Elt Ideal)) (a5 : (⟨S64, .i32⟩ : BufTy).Contents (Elt Ideal)) : (⟨S64, .i32⟩ : BufTy).Contents (Elt Ideal) :=
  ((fun x i => Host.gather gather_S4096_S64x1_S64_n_0_n_n_0_1_1 x i) : (⟨S4096, .i32⟩ : BufTy).Contents (Elt Ideal) → (⟨S64x1, .i32⟩ : BufTy).Contents (Elt Ideal) → (⟨S64, .i32⟩ : BufTy).Contents (Elt Ideal)) a4 (v91 a5)
def c_9 : (⟨S_, .i32⟩ : BufTy).Contents (Elt Ideal) :=
  constantI S_ 32 0#32
def v93 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_9
def v94 (a5 : (⟨S64, .i32⟩ : BufTy).Contents (Elt Ideal)) : (⟨S64, .i1⟩ : BufTy).Contents (Elt Ideal) :=
  (cmpi .slt : (⟨S64, .i32⟩ : BufTy).Contents (Elt Ideal) → (⟨S64, .i32⟩ : BufTy).Contents (Elt Ideal) → (⟨S64, .i1⟩ : BufTy).Contents (Elt Ideal)) a5 v93
def c_10 : (⟨S_, .i32⟩ : BufTy).Contents (Elt Ideal) :=
  constantI S_ 32 4096#32
def v95 : (⟨S64, .i32⟩ : BufTy).Contents (Elt Ideal) :=
  (broadcastInDim S64 ![] bcast_S_S64 : (⟨S_, .i32⟩ : BufTy).Contents (Elt Ideal) → (⟨S64, .i32⟩ : BufTy).Contents (Elt Ideal)) c_10
def v96 (a5 : (⟨S64, .i32⟩ : BufTy).Contents (Elt Ideal)) : (⟨S64, .i32⟩ : BufTy).Contents (Elt Ideal) :=
  (addi : (⟨S64, .i32⟩ : BufTy).Contents (Elt Ideal) → (⟨S64, .i32⟩ : BufTy).Contents (Elt Ideal) → (⟨S64, .i32⟩ : BufTy).Contents (Elt Ideal)) a5 v95
def v97 (a5 : (⟨S64, .i32⟩ : BufTy).Contents (Elt Ideal)) : (⟨S64, .i32⟩ : BufTy).Contents (Elt Ideal) :=
  (select : (⟨S64, .i1⟩ : BufTy).Contents (Elt Ideal) → (⟨S64, .i32⟩ : BufTy).Contents (Elt Ideal) → (⟨S64, .i32⟩ : BufTy).Contents (Elt Ideal) → (⟨S64, .i32⟩ : BufTy).Contents (Elt Ideal)) (v94 a5) (v96 a5) a5
def v98 (a5 : (⟨S64, .i32⟩ : BufTy).Contents (Elt Ideal)) : (⟨S64x1, .i32⟩ : BufTy).Contents (Elt Ideal) :=
  (broadcastInDim S64x1 ![0] bcast_S64_S64x1_0 : (⟨S64, .i32⟩ : BufTy).Contents (Elt Ideal) → (⟨S64x1, .i32⟩ : BufTy).Contents (Elt Ideal)) (v97 a5)
def v99 (a3 : (⟨S4096x4, .f32⟩ : BufTy).Contents (Elt Ideal)) (a5 : (⟨S64, .i32⟩ : BufTy).Contents (Elt Ideal)) : (⟨S64x4, .f32⟩ : BufTy).Contents (Elt Ideal) :=
  ((fun x i => Host.gather gather_S4096x4_S64x1_S64x4_1_0_n_n_0_1_14 x i) : (⟨S4096x4, .f32⟩ : BufTy).Contents (Elt Ideal) → (⟨S64x1, .i32⟩ : BufTy).Contents (Elt Ideal) → (⟨S64x4, .f32⟩ : BufTy).Contents (Elt Ideal)) a3 (v98 a5)
def v100 (a2 : (⟨S4096x20, .i1⟩ : BufTy).Contents (Elt Ideal)) (a5 : (⟨S64, .i32⟩ : BufTy).Contents (Elt Ideal)) : (⟨S16x64x1, .i1⟩ : BufTy).Contents (Elt Ideal) :=
  (broadcastInDim S16x64x1 ![0, 1] bcast_S16x64_S16x64x1_0_1 : (⟨S16x64, .i1⟩ : BufTy).Contents (Elt Ideal) → (⟨S16x64x1, .i1⟩ : BufTy).Contents (Elt Ideal)) (v78 a2 a5)
def v101 (a2 : (⟨S4096x20, .i1⟩ : BufTy).Contents (Elt Ideal)) : (⟨S16x1x4096, .i1⟩ : BufTy).Contents (Elt Ideal) :=
  (broadcastInDim S16x1x4096 ![0, 2] bcast_S16x4096_S16x1x4096_0_2 : (⟨S16x4096, .i1⟩ : BufTy).Contents (Elt Ideal) → (⟨S16x1x4096, .i1⟩ : BufTy).Contents (Elt Ideal)) (v56 a2)
def v102 (a2 : (⟨S4096x20, .i1⟩ : BufTy).Contents (Elt Ideal)) (a5 : (⟨S64, .i32⟩ : BufTy).Contents (Elt Ideal)) : (⟨S16x64x4096, .i1⟩ : BufTy).Contents (Elt Ideal) :=
  (broadcastInDim S16x64x4096 ![0, 1, 2] bcast_S16x64x1_S16x64x4096_0_1_2 : (⟨S16x64x1, .i1⟩ : BufTy).Contents (Elt Ideal) → (⟨S16x64x4096, .i1⟩ : BufTy).Contents (Elt Ideal)) (v100 a2 a5)
def v103 (a2 : (⟨S4096x20, .i1⟩ : BufTy).Contents (Elt Ideal)) : (⟨S16x64x4096, .i1⟩ : BufTy).Contents (Elt Ideal) :=
  (broadcastInDim S16x64x4096 ![0, 1, 2] bcast_S16x1x4096_S16x64x4096_0_1_2 : (⟨S16x1x4096, .i1⟩ : BufTy).Contents (Elt Ideal) → (⟨S16x64x4096, .i1⟩ : BufTy).Contents (Elt Ideal)) (v101 a2)
def v104 (a2 : (⟨S4096x20, .i1⟩ : BufTy).Contents (Elt Ideal)) (a5 : (⟨S64, .i32⟩ : BufTy).Contents (Elt Ideal)) : (⟨S16x64x4096, .i1⟩ : BufTy).Contents (Elt Ideal) :=
  (andi : (⟨S16x64x4096, .i1⟩ : BufTy).Contents (Elt Ideal) → (⟨S16x64x4096, .i1⟩ : BufTy).Contents (Elt Ideal) → (⟨S16x64x4096, .i1⟩ : BufTy).Contents (Elt Ideal)) (v102 a2 a5) (v103 a2)
def v105 (a4 : (⟨S4096, .i32⟩ : BufTy).Contents (Elt Ideal)) (a5 : (⟨S64, .i32⟩ : BufTy).Contents (Elt Ideal)) : (⟨S1x64x1, .i32⟩ : BufTy).Contents (Elt Ideal) :=
  (broadcastInDim S1x64x1 ![1] bcast_S64_S1x64x1_1 : (⟨S64, .i32⟩ : BufTy).Contents (Elt Ideal) → (⟨S1x64x1, .i32⟩ : BufTy).Contents (Elt Ideal)) (v92 a4 a5)
def v106 (a4 : (⟨S4096, .i32⟩ : BufTy).Contents (Elt Ideal)) : (⟨S1x1x4096, .i32⟩ : BufTy).Contents (Elt Ideal) :=
  (broadcastInDim S1x1x4096 ![2] bcast_S4096_S1x1x4096_2 : (⟨S4096, .i32⟩ : BufTy).Contents (Elt Ideal) → (⟨S1x1x4096, .i32⟩ : BufTy).Contents (Elt Ideal)) a4
def v107 (a4 : (⟨S4096, .i32⟩ : BufTy).Contents (Elt Ideal)) (a5 : (⟨S64, .i32⟩ : BufTy).Contents (Elt Ideal)) : (⟨S1x64x4096, .i32⟩ : BufTy).Contents (Elt Ideal) :=
  (broadcastInDim S1x64x4096 ![0, 1, 2] bcast_S1x64x1_S1x64x4096_0_1_2 : (⟨S1x64x1, .i32⟩ : BufTy).Contents (Elt Ideal) → (⟨S1x64x4096, .i32⟩ : BufTy).Contents (Elt Ideal)) (v105 a4 a5)
def v108 (a4 : (⟨S4096, .i32⟩ : BufTy).Contents (Elt Ideal)) : (⟨S1x64x4096, .i32⟩ : BufTy).Contents (Elt Ideal) :=
  (broadcastInDim S1x64x4096 ![0, 1, 2] bcast_S1x1x4096_S1x64x4096_0_1_2 : (⟨S1x1x4096, .i32⟩ : BufTy).Contents (Elt Ideal) → (⟨S1x64x4096, .i32⟩ : BufTy).Contents (Elt Ideal)) (v106 a4)
def v109 (a4 : (⟨S4096, .i32⟩ : BufTy).Contents (Elt Ideal)) (a5 : (⟨S64, .i32⟩ : BufTy).Contents (Elt Ideal)) : (⟨S1x64x4096, .i1⟩ : BufTy).Contents (Elt Ideal) :=
  (cmpi .eq : (⟨S1x64x4096, .i32⟩ : BufTy).Contents (Elt Ideal) → (⟨S1x64x4096, .i32⟩ : BufTy).Contents (Elt Ideal) → (⟨S1x64x4096, .i1⟩ : BufTy).Contents (Elt Ideal)) (v107 a4 a5) (v108 a4)
def v110 (a4 : (⟨S4096, .i32⟩ : BufTy).Contents (Elt Ideal)) (a5 : (⟨S64, .i32⟩ : BufTy).Contents (Elt Ideal)) : (⟨S16x64x4096, .i1⟩ : BufTy).Contents (Elt Ideal) :=
  (broadcastInDim S16x64x4096 ![0, 1, 2] bcast_S1x64x4096_S16x64x4096_0_1_2 : (⟨S1x64x4096, .i1⟩ : BufTy).Contents (Elt Ideal) → (⟨S16x64x4096, .i1⟩ : BufTy).Contents (Elt Ideal)) (v109 a4 a5)
def v111 (a2 : (⟨S4096x20, .i1⟩ : BufTy).Contents (Elt Ideal)) (a4 : (⟨S4096, .i32⟩ : BufTy).Contents (Elt Ideal)) (a5 : (⟨S64, .i32⟩ : BufTy).Contents (Elt Ideal)) : (⟨S16x64x4096, .i1⟩ : BufTy).Contents (Elt Ideal) :=
  (andi : (⟨S16x64x4096, .i1⟩ : BufTy).Contents (Elt Ideal) → (⟨S16x64x4096, .i1⟩ : BufTy).Contents (Elt Ideal) → (⟨S16x64x4096, .i1⟩ : BufTy).Contents (Elt Ideal)) (v104 a2 a5) (v110 a4 a5)
def v112 (a5 : (⟨S64, .i32⟩ : BufTy).Contents (Elt Ideal)) : (⟨S1x64x1, .i32⟩ : BufTy).Contents (Elt Ideal) :=
  (broadcastInDim S1x64x1 ![1] bcast_S64_S1x64x1_1 : (⟨S64, .i32⟩ : BufTy).Contents (Elt Ideal) → (⟨S1x64x1, .i32⟩ : BufTy).Contents (Elt Ideal)) a5
def v113 : (⟨S4096, .i32⟩ : BufTy).Contents (Elt Ideal) :=
  iotaInDim S4096 32 0
def v114 : (⟨S1x1x4096, .i32⟩ : BufTy).Contents (Elt Ideal) :=
  (broadcastInDim S1x1x4096 ![2] bcast_S4096_S1x1x4096_2 : (⟨S4096, .i32⟩ : BufTy).Contents (Elt Ideal) → (⟨S1x1x4096, .i32⟩ : BufTy).Contents (Elt Ideal)) v113
def v115 (a5 : (⟨S64, .i32⟩ : BufTy).Contents (Elt Ideal)) : (⟨S1x64x4096, .i32⟩ : BufTy).Contents (Elt Ideal) :=
  (broadcastInDim S1x64x4096 ![0, 1, 2] bcast_S1x64x1_S1x64x4096_0_1_2 : (⟨S1x64x1, .i32⟩ : BufTy).Contents (Elt Ideal) → (⟨S1x64x4096, .i32⟩ : BufTy).Contents (Elt Ideal)) (v112 a5)
def v116 : (⟨S1x64x4096, .i32⟩ : BufTy).Contents (Elt Ideal) :=
  (broadcastInDim S1x64x4096 ![0, 1, 2] bcast_S1x1x4096_S1x64x4096_0_1_2 : (⟨S1x1x4096, .i32⟩ : BufTy).Contents (Elt Ideal) → (⟨S1x64x4096, .i32⟩ : BufTy).Contents (Elt Ideal)) v114
def v117 (a5 : (⟨S64, .i32⟩ : BufTy).Contents (Elt Ideal)) : (⟨S1x64x4096, .i1⟩ : BufTy).Contents (Elt Ideal) :=
  (cmpi .ne : (⟨S1x64x4096, .i32⟩ : BufTy).Contents (Elt Ideal) → (⟨S1x64x4096, .i32⟩ : BufTy).Contents (Elt Ideal) → (⟨S1x64x4096, .i1⟩ : BufTy).Contents (Elt Ideal)) (v115 a5) v116
def v118 (a5 : (⟨S64, .i32⟩ : BufTy).Contents (Elt Ideal)) : (⟨S16x64x4096, .i1⟩ : BufTy).Contents (Elt Ideal) :=
  (broadcastInDim S16x64x4096 ![0, 1, 2] bcast_S1x64x4096_S16x64x4096_0_1_2 : (⟨S1x64x4096, .i1⟩ : BufTy).Contents (Elt Ideal) → (⟨S16x64x4096, .i1⟩ : BufTy).Contents (Elt Ideal)) (v117 a5)
def v119 (a2 : (⟨S4096x20, .i1⟩ : BufTy).Contents (Elt Ideal)) (a4 : (⟨S4096, .i32⟩ : BufTy).Contents (Elt Ideal)) (a5 : (⟨S64, .i32⟩ : BufTy).Contents (Elt Ideal)) : (⟨S16x64x4096, .i1⟩ : BufTy).Contents (Elt Ideal) :=
  (andi : (⟨S16x64x4096, .i1⟩ : BufTy).Contents (Elt Ideal) → (⟨S16x64x4096, .i1⟩ : BufTy).Contents (Elt Ideal) → (⟨S16x64x4096, .i1⟩ : BufTy).Contents (Elt Ideal)) (v111 a2 a4 a5) (v118 a5)
def v120 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4x1, .f32⟩ : BufTy).Contents (Elt Ideal) :=
  ((extractStridedSlice S16x64x4x1 ![0, 0, 0, 0] · slices_S16x64x4x2_S16x64x4x1_0_0_0_0) : (⟨S16x64x4x2, .f32⟩ : BufTy).Contents (Elt Ideal) → (⟨S16x64x4x1, .f32⟩ : BufTy).Contents (Elt Ideal)) (v85 a0 a1 a3 a5)
def v121 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4, .f32⟩ : BufTy).Contents (Elt Ideal) :=
  shapeCast S16x64x4 (v120 a0 a1 a3 a5) shapeCasts_S16x64x4x1_S16x64x4
def v122 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x1x4, .f32⟩ : BufTy).Contents (Elt Ideal) :=
  (broadcastInDim S16x64x1x4 ![0, 1, 3] bcast_S16x64x4_S16x64x1x4_0_1_3 : (⟨S16x64x4, .f32⟩ : BufTy).Contents (Elt Ideal) → (⟨S16x64x1x4, .f32⟩ : BufTy).Contents (Elt Ideal)) (v121 a0 a1 a3 a5)
def v123 (a0 : (⟨S4096x20x2, .f32⟩ : BufTy).Contents (Elt Ideal)) : (⟨S16x4096x1, .f32⟩ : BufTy).Contents (Elt Ideal) :=
  ((extractStridedSlice S16x4096x1 ![0, 0, 0] · slices_S16x4096x2_S16x4096x1_0_0_0) : (⟨S16x4096x2, .f32⟩ : BufTy).Contents (Elt Ideal) → (⟨S16x4096x1, .f32⟩ : BufTy).Contents (Elt Ideal)) (v54 a0)
def v124 (a0 : (⟨S4096x20x2, .f32⟩ : BufTy).Contents (Elt Ideal)) : (⟨S16x4096, .f32⟩ : BufTy).Contents (Elt Ideal) :=
  shapeCast S16x4096 (v123 a0) shapeCasts_S16x4096x1_S16x4096
def v125 (a0 : (⟨S4096x20x2, .f32⟩ : BufTy).Contents (Elt Ideal)) : (⟨S16x1x4096x1, .f32⟩ : BufTy).Contents (Elt Ideal) :=
  (broadcastInDim S16x1x4096x1 ![0, 2] bcast_S16x4096_S16x1x4096x1_0_2 : (⟨S16x4096, .f32⟩ : BufTy).Contents (Elt Ideal) → (⟨S16x1x4096x1, .f32⟩ : BufTy).Contents (Elt Ideal)) (v124 a0)
def v126 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S16x64x1x4_S16x64x4096x4_0_1_2_3 : (⟨S16x64x1x4, .f32⟩ : BufTy).Contents (Elt Ideal) → (⟨S16x64x4096x4, .f32⟩ : BufTy).Contents (Elt Ideal)) (v122 a0 a1 a3 a5)
def v127 (a0 : (⟨S4096x20x2, .f32⟩ : BufTy).Contents (Elt Ideal)) : (⟨S16x64x4096x4, .f32⟩ : BufTy).Contents (Elt Ideal) :=
  (broadcastInDim S16x64x4096x4 ![0, 1, 2, 3] bcast_S16x1x4096x1_S16x64x4096x4_0_1_2_3 : (⟨S16x1x4096x1, .f32⟩ : BufTy).Contents (Elt Ideal) → (⟨S16x64x4096x4, .f32⟩ : BufTy).Contents (Elt Ideal)) (v125 a0)
def v128 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (subf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v126 a0 a1 a3 a5) (v127 a0)
def v129 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4x1, .f32⟩ : BufTy).Contents (Elt Ideal) :=
  ((extractStridedSlice S16x64x4x1 ![0, 0, 0, 1] · slices_S16x64x4x2_S16x64x4x1_0_0_0_1) : (⟨S16x64x4x2, .f32⟩ : BufTy).Contents (Elt Ideal) → (⟨S16x64x4x1, .f32⟩ : BufTy).Contents (Elt Ideal)) (v85 a0 a1 a3 a5)
def v130 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4, .f32⟩ : BufTy).Contents (Elt Ideal) :=
  shapeCast S16x64x4 (v129 a0 a1 a3 a5) shapeCasts_S16x64x4x1_S16x64x4
def v131 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x1x4, .f32⟩ : BufTy).Contents (Elt Ideal) :=
  (broadcastInDim S16x64x1x4 ![0, 1, 3] bcast_S16x64x4_S16x64x1x4_0_1_3 : (⟨S16x64x4, .f32⟩ : BufTy).Contents (Elt Ideal) → (⟨S16x64x1x4, .f32⟩ : BufTy).Contents (Elt Ideal)) (v130 a0 a1 a3 a5)
def v132 (a0 : (⟨S4096x20x2, .f32⟩ : BufTy).Contents (Elt Ideal)) : (⟨S16x4096x1, .f32⟩ : BufTy).Contents (Elt Ideal) :=
  ((extractStridedSlice S16x4096x1 ![0, 0, 1] · slices_S16x4096x2_S16x4096x1_0_0_1) : (⟨S16x4096x2, .f32⟩ : BufTy).Contents (Elt Ideal) → (⟨S16x4096x1, .f32⟩ : BufTy).Contents (Elt Ideal)) (v54 a0)
def v133 (a0 : (⟨S4096x20x2, .f32⟩ : BufTy).Contents (Elt Ideal)) : (⟨S16x4096, .f32⟩ : BufTy).Contents (Elt Ideal) :=
  shapeCast S16x4096 (v132 a0) shapeCasts_S16x4096x1_S16x4096
def v134 (a0 : (⟨S4096x20x2, .f32⟩ : BufTy).Contents (Elt Ideal)) : (⟨S16x1x4096x1, .f32⟩ : BufTy).Contents (Elt Ideal) :=
  (broadcastInDim S16x1x4096x1 ![0, 2] bcast_S16x4096_S16x1x4096x1_0_2 : (⟨S16x4096, .f32⟩ : BufTy).Contents (Elt Ideal) → (⟨S16x1x4096x1, .f32⟩ : BufTy).Contents (Elt Ideal)) (v133 a0)
def v135 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S16x64x1x4_S16x64x4096x4_0_1_2_3 : (⟨S16x64x1x4, .f32⟩ : BufTy).Contents (Elt Ideal) → (⟨S16x64x4096x4, .f32⟩ : BufTy).Contents (Elt Ideal)) (v131 a0 a1 a3 a5)
def v136 (a0 : (⟨S4096x20x2, .f32⟩ : BufTy).Contents (Elt Ideal)) : (⟨S16x64x4096x4, .f32⟩ : BufTy).Contents (Elt Ideal) :=
  (broadcastInDim S16x64x4096x4 ![0, 1, 2, 3] bcast_S16x1x4096x1_S16x64x4096x4_0_1_2_3 : (⟨S16x1x4096x1, .f32⟩ : BufTy).Contents (Elt Ideal) → (⟨S16x64x4096x4, .f32⟩ : BufTy).Contents (Elt Ideal)) (v134 a0)
def v137 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (subf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v135 a0 a1 a3 a5) (v136 a0)
def v138 (a1 : (⟨S4096x20, .f32⟩ : BufTy).Contents (Elt Ideal)) : (⟨S16x4096, .f32⟩ : BufTy).Contents (Elt Ideal) :=
  (Host.cos (F := Ideal) (φ := .f32) : (⟨S16x4096, .f32⟩ : BufTy).Contents (Elt Ideal) → (⟨S16x4096, .f32⟩ : BufTy).Contents (Elt Ideal)) (v55 a1)
def v139 (a1 : (⟨S4096x20, .f32⟩ : BufTy).Contents (Elt Ideal)) : (⟨S16x1x4096x1, .f32⟩ : BufTy).Contents (Elt Ideal) :=
  (broadcastInDim S16x1x4096x1 ![0, 2] bcast_S16x4096_S16x1x4096x1_0_2 : (⟨S16x4096, .f32⟩ : BufTy).Contents (Elt Ideal) → (⟨S16x1x4096x1, .f32⟩ : BufTy).Contents (Elt Ideal)) (v138 a1)
def v140 (a1 : (⟨S4096x20, .f32⟩ : BufTy).Contents (Elt Ideal)) : (⟨S16x4096, .f32⟩ : BufTy).Contents (Elt Ideal) :=
  (Host.sin (F := Ideal) (φ := .f32) : (⟨S16x4096, .f32⟩ : BufTy).Contents (Elt Ideal) → (⟨S16x4096, .f32⟩ : BufTy).Contents (Elt Ideal)) (v55 a1)
def v141 (a1 : (⟨S4096x20, .f32⟩ : BufTy).Contents (Elt Ideal)) : (⟨S16x1x4096x1, .f32⟩ : BufTy).Contents (Elt Ideal) :=
  (broadcastInDim S16x1x4096x1 ![0, 2] bcast_S16x4096_S16x1x4096x1_0_2 : (⟨S16x4096, .f32⟩ : BufTy).Contents (Elt Ideal) → (⟨S16x1x4096x1, .f32⟩ : BufTy).Contents (Elt Ideal)) (v140 a1)
def v142 (a1 : (⟨S4096x20, .f32⟩ : BufTy).Contents (Elt Ideal)) : (⟨S16x64x4096x4, .f32⟩ : BufTy).Contents (Elt Ideal) :=
  (broadcastInDim S16x64x4096x4 ![0, 1, 2, 3] bcast_S16x1x4096x1_S16x64x4096x4_0_1_2_3 : (⟨S16x1x4096x1, .f32⟩ : BufTy).Contents (Elt Ideal) → (⟨S16x64x4096x4, .f32⟩ : BufTy).Contents (Elt Ideal)) (v139 a1)
def v143 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (mulf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v142 a1) (v128 a0 a1 a3 a5)
def v144 (a1 : (⟨S4096x20, .f32⟩ : BufTy).Contents (Elt Ideal)) : (⟨S16x64x4096x4, .f32⟩ : BufTy).Contents (Elt Ideal) :=
  (broadcastInDim S16x64x4096x4 ![0, 1, 2, 3] bcast_S16x1x4096x1_S16x64x4096x4_0_1_2_3 : (⟨S16x1x4096x1, .f32⟩ : BufTy).Contents (Elt Ideal) → (⟨S16x64x4096x4, .f32⟩ : BufTy).Contents (Elt Ideal)) (v141 a1)
def v145 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (mulf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v144 a1) (v137 a0 a1 a3 a5)
def v146 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (addf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v143 a0 a1 a3 a5) (v145 a0 a1 a3 a5)
def v147 (a1 : (⟨S4096x20, .f32⟩ : BufTy).Contents (Elt Ideal)) : (⟨S16x1x4096x1, .f32⟩ : BufTy).Contents (Elt Ideal) :=
  (Host.negf (F := Ideal) (φ := .f32) : (⟨S16x1x4096x1, .f32⟩ : BufTy).Contents (Elt Ideal) → (⟨S16x1x4096x1, .f32⟩ : BufTy).Contents (Elt Ideal)) (v141 a1)
def v148 (a1 : (⟨S4096x20, .f32⟩ : BufTy).Contents (Elt Ideal)) : (⟨S16x64x4096x4, .f32⟩ : BufTy).Contents (Elt Ideal) :=
  (broadcastInDim S16x64x4096x4 ![0, 1, 2, 3] bcast_S16x1x4096x1_S16x64x4096x4_0_1_2_3 : (⟨S16x1x4096x1, .f32⟩ : BufTy).Contents (Elt Ideal) → (⟨S16x64x4096x4, .f32⟩ : BufTy).Contents (Elt Ideal)) (v147 a1)
def v149 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (mulf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v148 a1) (v128 a0 a1 a3 a5)
def v150 (a1 : (⟨S4096x20, .f32⟩ : BufTy).Contents (Elt Ideal)) : (⟨S16x64x4096x4, .f32⟩ : BufTy).Contents (Elt Ideal) :=
  (broadcastInDim S16x64x4096x4 ![0, 1, 2, 3] bcast_S16x1x4096x1_S16x64x4096x4_0_1_2_3 : (⟨S16x1x4096x1, .f32⟩ : BufTy).Contents (Elt Ideal) → (⟨S16x64x4096x4, .f32⟩ : BufTy).Contents (Elt Ideal)) (v139 a1)
def v151 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (mulf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v150 a1) (v137 a0 a1 a3 a5)
def v152 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (addf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v149 a0 a1 a3 a5) (v151 a0 a1 a3 a5)
def v153 (a3 : (⟨S4096x4, .f32⟩ : BufTy).Contents (Elt Ideal)) : (⟨S4096x1, .f32⟩ : BufTy).Contents (Elt Ideal) :=
  ((extractStridedSlice S4096x1 ![0, 0] · slices_S4096x4_S4096x1_0_0) : (⟨S4096x4, .f32⟩ : BufTy).Contents (Elt Ideal) → (⟨S4096x1, .f32⟩ : BufTy).Contents (Elt Ideal)) a3
def v154 (a3 : (⟨S4096x4, .f32⟩ : BufTy).Contents (Elt Ideal)) : (⟨S4096, .f32⟩ : BufTy).Contents (Elt Ideal) :=
  shapeCast S4096 (v153 a3) shapeCasts_S4096x1_S4096
def v155 (a3 : (⟨S4096x4, .f32⟩ : BufTy).Contents (Elt Ideal)) : (⟨S1x1x4096x1, .f32⟩ : BufTy).Contents (Elt Ideal) :=
  (broadcastInDim S1x1x4096x1 ![2] bcast_S4096_S1x1x4096x1_2 : (⟨S4096, .f32⟩ : BufTy).Contents (Elt Ideal) → (⟨S1x1x4096x1, .f32⟩ : BufTy).Contents (Elt Ideal)) (v154 a3)
def v156 (a3 : (⟨S4096x4, .f32⟩ : BufTy).Contents (Elt Ideal)) : (⟨S4096x1, .f32⟩ : BufTy).Contents (Elt Ideal) :=
  ((extractStridedSlice S4096x1 ![0, 1] · slices_S4096x4_S4096x1_0_1) : (⟨S4096x4, .f32⟩ : BufTy).Contents (Elt Ideal) → (⟨S4096x1, .f32⟩ : BufTy).Contents (Elt Ideal)) a3
def v157 (a3 : (⟨S4096x4, .f32⟩ : BufTy).Contents (Elt Ideal)) : (⟨S4096, .f32⟩ : BufTy).Contents (Elt Ideal) :=
  shapeCast S4096 (v156 a3) shapeCasts_S4096x1_S4096
def v158 (a3 : (⟨S4096x4, .f32⟩ : BufTy).Contents (Elt Ideal)) : (⟨S1x1x4096x1, .f32⟩ : BufTy).Contents (Elt Ideal) :=
  (broadcastInDim S1x1x4096x1 ![2] bcast_S4096_S1x1x4096x1_2 : (⟨S4096, .f32⟩ : BufTy).Contents (Elt Ideal) → (⟨S1x1x4096x1, .f32⟩ : BufTy).Contents (Elt Ideal)) (v157 a3)
def v159 (a3 : (⟨S4096x4, .f32⟩ : BufTy).Contents (Elt Ideal)) : (⟨S4096x1, .f32⟩ : BufTy).Contents (Elt Ideal) :=
  ((extractStridedSlice S4096x1 ![0, 2] · slices_S4096x4_S4096x1_0_2) : (⟨S4096x4, .f32⟩ : BufTy).Contents (Elt Ideal) → (⟨S4096x1, .f32⟩ : BufTy).Contents (Elt Ideal)) a3
def v160 (a3 : (⟨S4096x4, .f32⟩ : BufTy).Contents (Elt Ideal)) : (⟨S4096, .f32⟩ : BufTy).Contents (Elt Ideal) :=
  shapeCast S4096 (v159 a3) shapeCasts_S4096x1_S4096
def v161 (a3 : (⟨S4096x4, .f32⟩ : BufTy).Contents (Elt Ideal)) : (⟨S1x1x4096x1, .f32⟩ : BufTy).Contents (Elt Ideal) :=
  (broadcastInDim S1x1x4096x1 ![2] bcast_S4096_S1x1x4096x1_2 : (⟨S4096, .f32⟩ : BufTy).Contents (Elt Ideal) → (⟨S1x1x4096x1, .f32⟩ : BufTy).Contents (Elt Ideal)) (v160 a3)
def v162 (a3 : (⟨S4096x4, .f32⟩ : BufTy).Contents (Elt Ideal)) : (⟨S4096x1, .f32⟩ : BufTy).Contents (Elt Ideal) :=
  ((extractStridedSlice S4096x1 ![0, 3] · slices_S4096x4_S4096x1_0_3) : (⟨S4096x4, .f32⟩ : BufTy).Contents (Elt Ideal) → (⟨S4096x1, .f32⟩ : BufTy).Contents (Elt Ideal)) a3
def v163 (a3 : (⟨S4096x4, .f32⟩ : BufTy).Contents (Elt Ideal)) : (⟨S4096, .f32⟩ : BufTy).Contents (Elt Ideal) :=
  shapeCast S4096 (v162 a3) shapeCasts_S4096x1_S4096
def v164 (a3 : (⟨S4096x4, .f32⟩ : BufTy).Contents (Elt Ideal)) : (⟨S1x1x4096x1, .f32⟩ : BufTy).Contents (Elt Ideal) :=
  (broadcastInDim S1x1x4096x1 ![2] bcast_S4096_S1x1x4096x1_2 : (⟨S4096, .f32⟩ : BufTy).Contents (Elt Ideal) → (⟨S1x1x4096x1, .f32⟩ : BufTy).Contents (Elt Ideal)) (v163 a3)
def cst : (⟨S_, .f32⟩ : BufTy).Contents (Elt Ideal) :=
  constant (F := Ideal) S_ .f32 0x00000000#32
def v165 : (⟨S1x1x4096x1, .f32⟩ : BufTy).Contents (Elt Ideal) :=
  (broadcastInDim S1x1x4096x1 ![] bcast_S_S1x1x4096x1 : (⟨S_, .f32⟩ : BufTy).Contents (Elt Ideal) → (⟨S1x1x4096x1, .f32⟩ : BufTy).Contents (Elt Ideal)) cst
def v166 (a3 : (⟨S4096x4, .f32⟩ : BufTy).Contents (Elt Ideal)) : (⟨S1x1x4096x1, .f32⟩ : BufTy).Contents (Elt Ideal) :=
  (addf (F := Ideal) (φ := .f32) : (⟨S1x1x4096x1, .f32⟩ : BufTy).Contents (Elt Ideal) → (⟨S1x1x4096x1, .f32⟩ : BufTy).Contents (Elt Ideal) → (⟨S1x1x4096x1, .f32⟩ : BufTy).Contents (Elt Ideal)) (v155 a3) v165
def v167 (a3 : (⟨S4096x4, .f32⟩ : BufTy).Contents (Elt Ideal)) : (⟨S16x64x4096x4, .f32⟩ : BufTy).Contents (Elt Ideal) :=
  (broadcastInDim S16x64x4096x4 ![0, 1, 2, 3] bcast_S1x1x4096x1_S16x64x4096x4_0_1_2_3 : (⟨S1x1x4096x1, .f32⟩ : BufTy).Contents (Elt Ideal) → (⟨S16x64x4096x4, .f32⟩ : BufTy).Contents (Elt Ideal)) (v166 a3)
def v168 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (subf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v167 a3) (v146 a0 a1 a3 a5)
def call0_cst : (⟨S_, .f32⟩ : BufTy).Contents (Elt Ideal) :=
  constant (F := Ideal) S_ .f32 0x00000000#32
def call0_v0 : (⟨S16x64x4096x4, .f32⟩ : BufTy).Contents (Elt Ideal) :=
  broadcastInDim S16x64x4096x4 ![] bcast_S_S16x64x4096x4 call0_cst
def v169 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  maximumf (F := Ideal) (φ := .f32) (v168 a0 a1 a3 a5) call0_v0
def cst_11 : (⟨S_, .f32⟩ : BufTy).Contents (Elt Ideal) :=
  constant (F := Ideal) S_ .f32 0x00000000#32
def v170 : (⟨S1x1x4096x1, .f32⟩ : BufTy).Contents (Elt Ideal) :=
  (broadcastInDim S1x1x4096x1 ![] bcast_S_S1x1x4096x1 : (⟨S_, .f32⟩ : BufTy).Contents (Elt Ideal) → (⟨S1x1x4096x1, .f32⟩ : BufTy).Contents (Elt Ideal)) cst_11
def v171 (a3 : (⟨S4096x4, .f32⟩ : BufTy).Contents (Elt Ideal)) : (⟨S1x1x4096x1, .f32⟩ : BufTy).Contents (Elt Ideal) :=
  (addf (F := Ideal) (φ := .f32) : (⟨S1x1x4096x1, .f32⟩ : BufTy).Contents (Elt Ideal) → (⟨S1x1x4096x1, .f32⟩ : BufTy).Contents (Elt Ideal) → (⟨S1x1x4096x1, .f32⟩ : BufTy).Contents (Elt Ideal)) (v158 a3) v170
def v172 (a3 : (⟨S4096x4, .f32⟩ : BufTy).Contents (Elt Ideal)) : (⟨S16x64x4096x4, .f32⟩ : BufTy).Contents (Elt Ideal) :=
  (broadcastInDim S16x64x4096x4 ![0, 1, 2, 3] bcast_S1x1x4096x1_S16x64x4096x4_0_1_2_3 : (⟨S1x1x4096x1, .f32⟩ : BufTy).Contents (Elt Ideal) → (⟨S16x64x4096x4, .f32⟩ : BufTy).Contents (Elt Ideal)) (v171 a3)
def v173 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (addf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v172 a3) (v146 a0 a1 a3 a5)
def call1_cst : (⟨S_, .f32⟩ : BufTy).Contents (Elt Ideal) :=
  constant (F := Ideal) S_ .f32 0x00000000#32
def call1_v0 : (⟨S16x64x4096x4, .f32⟩ : BufTy).Contents (Elt Ideal) :=
  broadcastInDim S16x64x4096x4 ![] bcast_S_S16x64x4096x4 call1_cst
def v174 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  maximumf (F := Ideal) (φ := .f32) (v173 a0 a1 a3 a5) call1_v0
def v175 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (minimumf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v169 a0 a1 a3 a5) (v174 a0 a1 a3 a5)
def cst_12 : (⟨S_, .f32⟩ : BufTy).Contents (Elt Ideal) :=
  constant (F := Ideal) S_ .f32 0x00000000#32
def v176 : (⟨S1x1x4096x1, .f32⟩ : BufTy).Contents (Elt Ideal) :=
  (broadcastInDim S1x1x4096x1 ![] bcast_S_S1x1x4096x1 : (⟨S_, .f32⟩ : BufTy).Contents (Elt Ideal) → (⟨S1x1x4096x1, .f32⟩ : BufTy).Contents (Elt Ideal)) cst_12
def v177 (a3 : (⟨S4096x4, .f32⟩ : BufTy).Contents (Elt Ideal)) : (⟨S1x1x4096x1, .f32⟩ : BufTy).Contents (Elt Ideal) :=
  (addf (F := Ideal) (φ := .f32) : (⟨S1x1x4096x1, .f32⟩ : BufTy).Contents (Elt Ideal) → (⟨S1x1x4096x1, .f32⟩ : BufTy).Contents (Elt Ideal) → (⟨S1x1x4096x1, .f32⟩ : BufTy).Contents (Elt Ideal)) (v161 a3) v176
def v178 (a3 : (⟨S4096x4, .f32⟩ : BufTy).Contents (Elt Ideal)) : (⟨S16x64x4096x4, .f32⟩ : BufTy).Contents (Elt Ideal) :=
  (broadcastInDim S16x64x4096x4 ![0, 1, 2, 3] bcast_S1x1x4096x1_S16x64x4096x4_0_1_2_3 : (⟨S1x1x4096x1, .f32⟩ : BufTy).Contents (Elt Ideal) → (⟨S16x64x4096x4, .f32⟩ : BufTy).Contents (Elt Ideal)) (v177 a3)
def v179 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (subf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v178 a3) (v152 a0 a1 a3 a5)
def call2_cst : (⟨S_, .f32⟩ : BufTy).Contents (Elt Ideal) :=
  constant (F := Ideal) S_ .f32 0x00000000#32
def call2_v0 : (⟨S16x64x4096x4, .f32⟩ : BufTy).Contents (Elt Ideal) :=
  broadcastInDim S16x64x4096x4 ![] bcast_S_S16x64x4096x4 call2_cst
def v180 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  maximumf (F := Ideal) (φ := .f32) (v179 a0 a1 a3 a5) call2_v0
def cst_13 : (⟨S_, .f32⟩ : BufTy).Contents (Elt Ideal) :=
  constant (F := Ideal) S_ .f32 0x00000000#32
def v181 : (⟨S1x1x4096x1, .f32⟩ : BufTy).Contents (Elt Ideal) :=
  (broadcastInDim S1x1x4096x1 ![] bcast_S_S1x1x4096x1 : (⟨S_, .f32⟩ : BufTy).Contents (Elt Ideal) → (⟨S1x1x4096x1, .f32⟩ : BufTy).Contents (Elt Ideal)) cst_13
def v182 (a3 : (⟨S4096x4, .f32⟩ : BufTy).Contents (Elt Ideal)) : (⟨S1x1x4096x1, .f32⟩ : BufTy).Contents (Elt Ideal) :=
  (addf (F := Ideal) (φ := .f32) : (⟨S1x1x4096x1, .f32⟩ : BufTy).Contents (Elt Ideal) → (⟨S1x1x4096x1, .f32⟩ : BufTy).Contents (Elt Ideal) → (⟨S1x1x4096x1, .f32⟩ : BufTy).Contents (Elt Ideal)) (v164 a3) v181
def v183 (a3 : (⟨S4096x4, .f32⟩ : BufTy).Contents (Elt Ideal)) : (⟨S16x64x4096x4, .f32⟩ : BufTy).Contents (Elt Ideal) :=
  (broadcastInDim S16x64x4096x4 ![0, 1, 2, 3] bcast_S1x1x4096x1_S16x64x4096x4_0_1_2_3 : (⟨S1x1x4096x1, .f32⟩ : BufTy).Contents (Elt Ideal) → (⟨S16x64x4096x4, .f32⟩ : BufTy).Contents (Elt Ideal)) (v182 a3)
def v184 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (addf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v183 a3) (v152 a0 a1 a3 a5)
def call3_cst : (⟨S_, .f32⟩ : BufTy).Contents (Elt Ideal) :=
  constant (F := Ideal) S_ .f32 0x00000000#32
def call3_v0 : (⟨S16x64x4096x4, .f32⟩ : BufTy).Contents (Elt Ideal) :=
  broadcastInDim S16x64x4096x4 ![] bcast_S_S16x64x4096x4 call3_cst
def v185 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  maximumf (F := Ideal) (φ := .f32) (v184 a0 a1 a3 a5) call3_v0
def v186 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (minimumf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v180 a0 a1 a3 a5) (v185 a0 a1 a3 a5)
def v187 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (minimumf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v175 a0 a1 a3 a5) (v186 a0 a1 a3 a5)
def cst_14 : (⟨S_, .f32⟩ : BufTy).Contents (Elt Ideal) :=
  constant (F := Ideal) S_ .f32 0xFF800000#32
def v188 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096, .f32⟩ : BufTy).Contents (Elt Ideal) :=
  ((fun x v => Host.reduce (FloatOps.maximumf (F := Ideal) (φ := .f32)) x v reducesTo_S16x64x4096x4_S16x64x4096_d3 h_S_) : (⟨S16x64x4096x4, .f32⟩ : BufTy).Contents (Elt Ideal) → (⟨S_, .f32⟩ : BufTy).Contents (Elt Ideal) → (⟨S16x64x4096, .f32⟩ : BufTy).Contents (Elt Ideal)) (v187 a0 a1 a3 a5) cst_14
def v189 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S16x4096x4x1, .f32⟩ : BufTy).Contents (Elt Ideal) :=
  ((extractStridedSlice S16x4096x4x1 ![0, 0, 0, 0] · slices_S16x4096x4x2_S16x4096x4x1_0_0_0_0) : (⟨S16x4096x4x2, .f32⟩ : BufTy).Contents (Elt Ideal) → (⟨S16x4096x4x1, .f32⟩ : BufTy).Contents (Elt Ideal)) (v57 a0 a1 a3)
def v190 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S16x4096x4, .f32⟩ : BufTy).Contents (Elt Ideal) :=
  shapeCast S16x4096x4 (v189 a0 a1 a3) shapeCasts_S16x4096x4x1_S16x4096x4
def v191 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S16x1x4096x4, .f32⟩ : BufTy).Contents (Elt Ideal) :=
  (broadcastInDim S16x1x4096x4 ![0, 2, 3] bcast_S16x4096x4_S16x1x4096x4_0_2_3 : (⟨S16x4096x4, .f32⟩ : BufTy).Contents (Elt Ideal) → (⟨S16x1x4096x4, .f32⟩ : BufTy).Contents (Elt Ideal)) (v190 a0 a1 a3)
def v192 (a0 : (⟨S4096x20x2, .f32⟩ : BufTy).Contents (Elt Ideal)) (a5 : (⟨S64, .i32⟩ : BufTy).Contents (Elt Ideal)) : (⟨S16x64x1, .f32⟩ : BufTy).Contents (Elt Ideal) :=
  ((extractStridedSlice S16x64x1 ![0, 0, 0] · slices_S16x64x2_S16x64x1_0_0_0) : (⟨S16x64x2, .f32⟩ : BufTy).Contents (Elt Ideal) → (⟨S16x64x1, .f32⟩ : BufTy).Contents (Elt Ideal)) (v64 a0 a5)
def v193 (a0 : (⟨S4096x20x2, .f32⟩ : BufTy).Contents (Elt Ideal)) (a5 : (⟨S64, .i32⟩ : BufTy).Contents (Elt Ideal)) : (⟨S16x64, .f32⟩ : BufTy).Contents (Elt Ideal) :=
  shapeCast S16x64 (v192 a0 a5) shapeCasts_S16x64x1_S16x64
def v194 (a0 : (⟨S4096x20x2, .f32⟩ : BufTy).Contents (Elt Ideal)) (a5 : (⟨S64, .i32⟩ : BufTy).Contents (Elt Ideal)) : (⟨S16x64x1x1, .f32⟩ : BufTy).Contents (Elt Ideal) :=
  (broadcastInDim S16x64x1x1 ![0, 1] bcast_S16x64_S16x64x1x1_0_1 : (⟨S16x64, .f32⟩ : BufTy).Contents (Elt Ideal) → (⟨S16x64x1x1, .f32⟩ : BufTy).Contents (Elt Ideal)) (v193 a0 a5)
def v195 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S16x64x4096x4, .f32⟩ : BufTy).Contents (Elt Ideal) :=
  (broadcastInDim S16x64x4096x4 ![0, 1, 2, 3] bcast_S16x1x4096x4_S16x64x4096x4_0_1_2_3 : (⟨S16x1x4096x4, .f32⟩ : BufTy).Contents (Elt Ideal) → (⟨S16x64x4096x4, .f32⟩ : BufTy).Contents (Elt Ideal)) (v191 a0 a1 a3)
def v196 (a0 : (⟨S4096x20x2, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S16x64x1x1_S16x64x4096x4_0_1_2_3 : (⟨S16x64x1x1, .f32⟩ : BufTy).Contents (Elt Ideal) → (⟨S16x64x4096x4, .f32⟩ : BufTy).Contents (Elt Ideal)) (v194 a0 a5)
def v197 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (subf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v195 a0 a1 a3) (v196 a0 a5)
def v198 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S16x4096x4x1, .f32⟩ : BufTy).Contents (Elt Ideal) :=
  ((extractStridedSlice S16x4096x4x1 ![0, 0, 0, 1] · slices_S16x4096x4x2_S16x4096x4x1_0_0_0_1) : (⟨S16x4096x4x2, .f32⟩ : BufTy).Contents (Elt Ideal) → (⟨S16x4096x4x1, .f32⟩ : BufTy).Contents (Elt Ideal)) (v57 a0 a1 a3)
def v199 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S16x4096x4, .f32⟩ : BufTy).Contents (Elt Ideal) :=
  shapeCast S16x4096x4 (v198 a0 a1 a3) shapeCasts_S16x4096x4x1_S16x4096x4
def v200 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S16x1x4096x4, .f32⟩ : BufTy).Contents (Elt Ideal) :=
  (broadcastInDim S16x1x4096x4 ![0, 2, 3] bcast_S16x4096x4_S16x1x4096x4_0_2_3 : (⟨S16x4096x4, .f32⟩ : BufTy).Contents (Elt Ideal) → (⟨S16x1x4096x4, .f32⟩ : BufTy).Contents (Elt Ideal)) (v199 a0 a1 a3)
def v201 (a0 : (⟨S4096x20x2, .f32⟩ : BufTy).Contents (Elt Ideal)) (a5 : (⟨S64, .i32⟩ : BufTy).Contents (Elt Ideal)) : (⟨S16x64x1, .f32⟩ : BufTy).Contents (Elt Ideal) :=
  ((extractStridedSlice S16x64x1 ![0, 0, 1] · slices_S16x64x2_S16x64x1_0_0_1) : (⟨S16x64x2, .f32⟩ : BufTy).Contents (Elt Ideal) → (⟨S16x64x1, .f32⟩ : BufTy).Contents (Elt Ideal)) (v64 a0 a5)
def v202 (a0 : (⟨S4096x20x2, .f32⟩ : BufTy).Contents (Elt Ideal)) (a5 : (⟨S64, .i32⟩ : BufTy).Contents (Elt Ideal)) : (⟨S16x64, .f32⟩ : BufTy).Contents (Elt Ideal) :=
  shapeCast S16x64 (v201 a0 a5) shapeCasts_S16x64x1_S16x64
def v203 (a0 : (⟨S4096x20x2, .f32⟩ : BufTy).Contents (Elt Ideal)) (a5 : (⟨S64, .i32⟩ : BufTy).Contents (Elt Ideal)) : (⟨S16x64x1x1, .f32⟩ : BufTy).Contents (Elt Ideal) :=
  (broadcastInDim S16x64x1x1 ![0, 1] bcast_S16x64_S16x64x1x1_0_1 : (⟨S16x64, .f32⟩ : BufTy).Contents (Elt Ideal) → (⟨S16x64x1x1, .f32⟩ : BufTy).Contents (Elt Ideal)) (v202 a0 a5)
def v204 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) : (⟨S16x64x4096x4, .f32⟩ : BufTy).Contents (Elt Ideal) :=
  (broadcastInDim S16x64x4096x4 ![0, 1, 2, 3] bcast_S16x1x4096x4_S16x64x4096x4_0_1_2_3 : (⟨S16x1x4096x4, .f32⟩ : BufTy).Contents (Elt Ideal) → (⟨S16x64x4096x4, .f32⟩ : BufTy).Contents (Elt Ideal)) (v200 a0 a1 a3)
def v205 (a0 : (⟨S4096x20x2, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S16x64x1x1_S16x64x4096x4_0_1_2_3 : (⟨S16x64x1x1, .f32⟩ : BufTy).Contents (Elt Ideal) → (⟨S16x64x4096x4, .f32⟩ : BufTy).Contents (Elt Ideal)) (v203 a0 a5)
def v206 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (subf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v204 a0 a1 a3) (v205 a0 a5)
def v207 (a1 : (⟨S4096x20, .f32⟩ : BufTy).Contents (Elt Ideal)) (a5 : (⟨S64, .i32⟩ : BufTy).Contents (Elt Ideal)) : (⟨S16x64, .f32⟩ : BufTy).Contents (Elt Ideal) :=
  (Host.cos (F := Ideal) (φ := .f32) : (⟨S16x64, .f32⟩ : BufTy).Contents (Elt Ideal) → (⟨S16x64, .f32⟩ : BufTy).Contents (Elt Ideal)) (v71 a1 a5)
def v208 (a1 : (⟨S4096x20, .f32⟩ : BufTy).Contents (Elt Ideal)) (a5 : (⟨S64, .i32⟩ : BufTy).Contents (Elt Ideal)) : (⟨S16x64x1x1, .f32⟩ : BufTy).Contents (Elt Ideal) :=
  (broadcastInDim S16x64x1x1 ![0, 1] bcast_S16x64_S16x64x1x1_0_1 : (⟨S16x64, .f32⟩ : BufTy).Contents (Elt Ideal) → (⟨S16x64x1x1, .f32⟩ : BufTy).Contents (Elt Ideal)) (v207 a1 a5)
def v209 (a1 : (⟨S4096x20, .f32⟩ : BufTy).Contents (Elt Ideal)) (a5 : (⟨S64, .i32⟩ : BufTy).Contents (Elt Ideal)) : (⟨S16x64, .f32⟩ : BufTy).Contents (Elt Ideal) :=
  (Host.sin (F := Ideal) (φ := .f32) : (⟨S16x64, .f32⟩ : BufTy).Contents (Elt Ideal) → (⟨S16x64, .f32⟩ : BufTy).Contents (Elt Ideal)) (v71 a1 a5)
def v210 (a1 : (⟨S4096x20, .f32⟩ : BufTy).Contents (Elt Ideal)) (a5 : (⟨S64, .i32⟩ : BufTy).Contents (Elt Ideal)) : (⟨S16x64x1x1, .f32⟩ : BufTy).Contents (Elt Ideal) :=
  (broadcastInDim S16x64x1x1 ![0, 1] bcast_S16x64_S16x64x1x1_0_1 : (⟨S16x64, .f32⟩ : BufTy).Contents (Elt Ideal) → (⟨S16x64x1x1, .f32⟩ : BufTy).Contents (Elt Ideal)) (v209 a1 a5)
def v211 (a1 : (⟨S4096x20, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S16x64x1x1_S16x64x4096x4_0_1_2_3 : (⟨S16x64x1x1, .f32⟩ : BufTy).Contents (Elt Ideal) → (⟨S16x64x4096x4, .f32⟩ : BufTy).Contents (Elt Ideal)) (v208 a1 a5)
def v212 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (mulf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v211 a1 a5) (v197 a0 a1 a3 a5)
def v213 (a1 : (⟨S4096x20, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S16x64x1x1_S16x64x4096x4_0_1_2_3 : (⟨S16x64x1x1, .f32⟩ : BufTy).Contents (Elt Ideal) → (⟨S16x64x4096x4, .f32⟩ : BufTy).Contents (Elt Ideal)) (v210 a1 a5)
def v214 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (mulf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v213 a1 a5) (v206 a0 a1 a3 a5)
def v215 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (addf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v212 a0 a1 a3 a5) (v214 a0 a1 a3 a5)
def v216 (a1 : (⟨S4096x20, .f32⟩ : BufTy).Contents (Elt Ideal)) (a5 : (⟨S64, .i32⟩ : BufTy).Contents (Elt Ideal)) : (⟨S16x64x1x1, .f32⟩ : BufTy).Contents (Elt Ideal) :=
  (Host.negf (F := Ideal) (φ := .f32) : (⟨S16x64x1x1, .f32⟩ : BufTy).Contents (Elt Ideal) → (⟨S16x64x1x1, .f32⟩ : BufTy).Contents (Elt Ideal)) (v210 a1 a5)
def v217 (a1 : (⟨S4096x20, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S16x64x1x1_S16x64x4096x4_0_1_2_3 : (⟨S16x64x1x1, .f32⟩ : BufTy).Contents (Elt Ideal) → (⟨S16x64x4096x4, .f32⟩ : BufTy).Contents (Elt Ideal)) (v216 a1 a5)
def v218 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (mulf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v217 a1 a5) (v197 a0 a1 a3 a5)
def v219 (a1 : (⟨S4096x20, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S16x64x1x1_S16x64x4096x4_0_1_2_3 : (⟨S16x64x1x1, .f32⟩ : BufTy).Contents (Elt Ideal) → (⟨S16x64x4096x4, .f32⟩ : BufTy).Contents (Elt Ideal)) (v208 a1 a5)
def v220 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (mulf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v219 a1 a5) (v206 a0 a1 a3 a5)
def v221 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (addf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v218 a0 a1 a3 a5) (v220 a0 a1 a3 a5)
def v222 (a3 : (⟨S4096x4, .f32⟩ : BufTy).Contents (Elt Ideal)) (a5 : (⟨S64, .i32⟩ : BufTy).Contents (Elt Ideal)) : (⟨S64x1, .f32⟩ : BufTy).Contents (Elt Ideal) :=
  ((extractStridedSlice S64x1 ![0, 0] · slices_S64x4_S64x1_0_0) : (⟨S64x4, .f32⟩ : BufTy).Contents (Elt Ideal) → (⟨S64x1, .f32⟩ : BufTy).Contents (Elt Ideal)) (v99 a3 a5)
def v223 (a3 : (⟨S4096x4, .f32⟩ : BufTy).Contents (Elt Ideal)) (a5 : (⟨S64, .i32⟩ : BufTy).Contents (Elt Ideal)) : (⟨S64, .f32⟩ : BufTy).Contents (Elt Ideal) :=
  shapeCast S64 (v222 a3 a5) shapeCasts_S64x1_S64
def v224 (a3 : (⟨S4096x4, .f32⟩ : BufTy).Contents (Elt Ideal)) (a5 : (⟨S64, .i32⟩ : BufTy).Contents (Elt Ideal)) : (⟨S1x64x1x1, .f32⟩ : BufTy).Contents (Elt Ideal) :=
  (broadcastInDim S1x64x1x1 ![1] bcast_S64_S1x64x1x1_1 : (⟨S64, .f32⟩ : BufTy).Contents (Elt Ideal) → (⟨S1x64x1x1, .f32⟩ : BufTy).Contents (Elt Ideal)) (v223 a3 a5)
def v225 (a3 : (⟨S4096x4, .f32⟩ : BufTy).Contents (Elt Ideal)) (a5 : (⟨S64, .i32⟩ : BufTy).Contents (Elt Ideal)) : (⟨S64x1, .f32⟩ : BufTy).Contents (Elt Ideal) :=
  ((extractStridedSlice S64x1 ![0, 1] · slices_S64x4_S64x1_0_1) : (⟨S64x4, .f32⟩ : BufTy).Contents (Elt Ideal) → (⟨S64x1, .f32⟩ : BufTy).Contents (Elt Ideal)) (v99 a3 a5)
def v226 (a3 : (⟨S4096x4, .f32⟩ : BufTy).Contents (Elt Ideal)) (a5 : (⟨S64, .i32⟩ : BufTy).Contents (Elt Ideal)) : (⟨S64, .f32⟩ : BufTy).Contents (Elt Ideal) :=
  shapeCast S64 (v225 a3 a5) shapeCasts_S64x1_S64
def v227 (a3 : (⟨S4096x4, .f32⟩ : BufTy).Contents (Elt Ideal)) (a5 : (⟨S64, .i32⟩ : BufTy).Contents (Elt Ideal)) : (⟨S1x64x1x1, .f32⟩ : BufTy).Contents (Elt Ideal) :=
  (broadcastInDim S1x64x1x1 ![1] bcast_S64_S1x64x1x1_1 : (⟨S64, .f32⟩ : BufTy).Contents (Elt Ideal) → (⟨S1x64x1x1, .f32⟩ : BufTy).Contents (Elt Ideal)) (v226 a3 a5)
def v228 (a3 : (⟨S4096x4, .f32⟩ : BufTy).Contents (Elt Ideal)) (a5 : (⟨S64, .i32⟩ : BufTy).Contents (Elt Ideal)) : (⟨S64x1, .f32⟩ : BufTy).Contents (Elt Ideal) :=
  ((extractStridedSlice S64x1 ![0, 2] · slices_S64x4_S64x1_0_2) : (⟨S64x4, .f32⟩ : BufTy).Contents (Elt Ideal) → (⟨S64x1, .f32⟩ : BufTy).Contents (Elt Ideal)) (v99 a3 a5)
def v229 (a3 : (⟨S4096x4, .f32⟩ : BufTy).Contents (Elt Ideal)) (a5 : (⟨S64, .i32⟩ : BufTy).Contents (Elt Ideal)) : (⟨S64, .f32⟩ : BufTy).Contents (Elt Ideal) :=
  shapeCast S64 (v228 a3 a5) shapeCasts_S64x1_S64
def v230 (a3 : (⟨S4096x4, .f32⟩ : BufTy).Contents (Elt Ideal)) (a5 : (⟨S64, .i32⟩ : BufTy).Contents (Elt Ideal)) : (⟨S1x64x1x1, .f32⟩ : BufTy).Contents (Elt Ideal) :=
  (broadcastInDim S1x64x1x1 ![1] bcast_S64_S1x64x1x1_1 : (⟨S64, .f32⟩ : BufTy).Contents (Elt Ideal) → (⟨S1x64x1x1, .f32⟩ : BufTy).Contents (Elt Ideal)) (v229 a3 a5)
def v231 (a3 : (⟨S4096x4, .f32⟩ : BufTy).Contents (Elt Ideal)) (a5 : (⟨S64, .i32⟩ : BufTy).Contents (Elt Ideal)) : (⟨S64x1, .f32⟩ : BufTy).Contents (Elt Ideal) :=
  ((extractStridedSlice S64x1 ![0, 3] · slices_S64x4_S64x1_0_3) : (⟨S64x4, .f32⟩ : BufTy).Contents (Elt Ideal) → (⟨S64x1, .f32⟩ : BufTy).Contents (Elt Ideal)) (v99 a3 a5)
def v232 (a3 : (⟨S4096x4, .f32⟩ : BufTy).Contents (Elt Ideal)) (a5 : (⟨S64, .i32⟩ : BufTy).Contents (Elt Ideal)) : (⟨S64, .f32⟩ : BufTy).Contents (Elt Ideal) :=
  shapeCast S64 (v231 a3 a5) shapeCasts_S64x1_S64
def v233 (a3 : (⟨S4096x4, .f32⟩ : BufTy).Contents (Elt Ideal)) (a5 : (⟨S64, .i32⟩ : BufTy).Contents (Elt Ideal)) : (⟨S1x64x1x1, .f32⟩ : BufTy).Contents (Elt Ideal) :=
  (broadcastInDim S1x64x1x1 ![1] bcast_S64_S1x64x1x1_1 : (⟨S64, .f32⟩ : BufTy).Contents (Elt Ideal) → (⟨S1x64x1x1, .f32⟩ : BufTy).Contents (Elt Ideal)) (v232 a3 a5)
def cst_15 : (⟨S_, .f32⟩ : BufTy).Contents (Elt Ideal) :=
  constant (F := Ideal) S_ .f32 0x00000000#32
def v234 : (⟨S1x64x1x1, .f32⟩ : BufTy).Contents (Elt Ideal) :=
  (broadcastInDim S1x64x1x1 ![] bcast_S_S1x64x1x1 : (⟨S_, .f32⟩ : BufTy).Contents (Elt Ideal) → (⟨S1x64x1x1, .f32⟩ : BufTy).Contents (Elt Ideal)) cst_15
def v235 (a3 : (⟨S4096x4, .f32⟩ : BufTy).Contents (Elt Ideal)) (a5 : (⟨S64, .i32⟩ : BufTy).Contents (Elt Ideal)) : (⟨S1x64x1x1, .f32⟩ : BufTy).Contents (Elt Ideal) :=
  (addf (F := Ideal) (φ := .f32) : (⟨S1x64x1x1, .f32⟩ : BufTy).Contents (Elt Ideal) → (⟨S1x64x1x1, .f32⟩ : BufTy).Contents (Elt Ideal) → (⟨S1x64x1x1, .f32⟩ : BufTy).Contents (Elt Ideal)) (v224 a3 a5) v234
def v236 (a3 : (⟨S4096x4, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S1x64x1x1_S16x64x4096x4_0_1_2_3 : (⟨S1x64x1x1, .f32⟩ : BufTy).Contents (Elt Ideal) → (⟨S16x64x4096x4, .f32⟩ : BufTy).Contents (Elt Ideal)) (v235 a3 a5)
def v237 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (subf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v236 a3 a5) (v215 a0 a1 a3 a5)
def call4_cst : (⟨S_, .f32⟩ : BufTy).Contents (Elt Ideal) :=
  constant (F := Ideal) S_ .f32 0x00000000#32
def call4_v0 : (⟨S16x64x4096x4, .f32⟩ : BufTy).Contents (Elt Ideal) :=
  broadcastInDim S16x64x4096x4 ![] bcast_S_S16x64x4096x4 call4_cst
def v238 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  maximumf (F := Ideal) (φ := .f32) (v237 a0 a1 a3 a5) call4_v0
def cst_16 : (⟨S_, .f32⟩ : BufTy).Contents (Elt Ideal) :=
  constant (F := Ideal) S_ .f32 0x00000000#32
def v239 : (⟨S1x64x1x1, .f32⟩ : BufTy).Contents (Elt Ideal) :=
  (broadcastInDim S1x64x1x1 ![] bcast_S_S1x64x1x1 : (⟨S_, .f32⟩ : BufTy).Contents (Elt Ideal) → (⟨S1x64x1x1, .f32⟩ : BufTy).Contents (Elt Ideal)) cst_16
def v240 (a3 : (⟨S4096x4, .f32⟩ : BufTy).Contents (Elt Ideal)) (a5 : (⟨S64, .i32⟩ : BufTy).Contents (Elt Ideal)) : (⟨S1x64x1x1, .f32⟩ : BufTy).Contents (Elt Ideal) :=
  (addf (F := Ideal) (φ := .f32) : (⟨S1x64x1x1, .f32⟩ : BufTy).Contents (Elt Ideal) → (⟨S1x64x1x1, .f32⟩ : BufTy).Contents (Elt Ideal) → (⟨S1x64x1x1, .f32⟩ : BufTy).Contents (Elt Ideal)) (v227 a3 a5) v239
def v241 (a3 : (⟨S4096x4, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S1x64x1x1_S16x64x4096x4_0_1_2_3 : (⟨S1x64x1x1, .f32⟩ : BufTy).Contents (Elt Ideal) → (⟨S16x64x4096x4, .f32⟩ : BufTy).Contents (Elt Ideal)) (v240 a3 a5)
def v242 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (addf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v241 a3 a5) (v215 a0 a1 a3 a5)
def call5_cst : (⟨S_, .f32⟩ : BufTy).Contents (Elt Ideal) :=
  constant (F := Ideal) S_ .f32 0x00000000#32
def call5_v0 : (⟨S16x64x4096x4, .f32⟩ : BufTy).Contents (Elt Ideal) :=
  broadcastInDim S16x64x4096x4 ![] bcast_S_S16x64x4096x4 call5_cst
def v243 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  maximumf (F := Ideal) (φ := .f32) (v242 a0 a1 a3 a5) call5_v0
def v244 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (minimumf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v238 a0 a1 a3 a5) (v243 a0 a1 a3 a5)
def cst_17 : (⟨S_, .f32⟩ : BufTy).Contents (Elt Ideal) :=
  constant (F := Ideal) S_ .f32 0x00000000#32
def v245 : (⟨S1x64x1x1, .f32⟩ : BufTy).Contents (Elt Ideal) :=
  (broadcastInDim S1x64x1x1 ![] bcast_S_S1x64x1x1 : (⟨S_, .f32⟩ : BufTy).Contents (Elt Ideal) → (⟨S1x64x1x1, .f32⟩ : BufTy).Contents (Elt Ideal)) cst_17
def v246 (a3 : (⟨S4096x4, .f32⟩ : BufTy).Contents (Elt Ideal)) (a5 : (⟨S64, .i32⟩ : BufTy).Contents (Elt Ideal)) : (⟨S1x64x1x1, .f32⟩ : BufTy).Contents (Elt Ideal) :=
  (addf (F := Ideal) (φ := .f32) : (⟨S1x64x1x1, .f32⟩ : BufTy).Contents (Elt Ideal) → (⟨S1x64x1x1, .f32⟩ : BufTy).Contents (Elt Ideal) → (⟨S1x64x1x1, .f32⟩ : BufTy).Contents (Elt Ideal)) (v230 a3 a5) v245
def v247 (a3 : (⟨S4096x4, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S1x64x1x1_S16x64x4096x4_0_1_2_3 : (⟨S1x64x1x1, .f32⟩ : BufTy).Contents (Elt Ideal) → (⟨S16x64x4096x4, .f32⟩ : BufTy).Contents (Elt Ideal)) (v246 a3 a5)
def v248 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (subf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v247 a3 a5) (v221 a0 a1 a3 a5)
def call6_cst : (⟨S_, .f32⟩ : BufTy).Contents (Elt Ideal) :=
  constant (F := Ideal) S_ .f32 0x00000000#32
def call6_v0 : (⟨S16x64x4096x4, .f32⟩ : BufTy).Contents (Elt Ideal) :=
  broadcastInDim S16x64x4096x4 ![] bcast_S_S16x64x4096x4 call6_cst
def v249 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  maximumf (F := Ideal) (φ := .f32) (v248 a0 a1 a3 a5) call6_v0
def cst_18 : (⟨S_, .f32⟩ : BufTy).Contents (Elt Ideal) :=
  constant (F := Ideal) S_ .f32 0x00000000#32
def v250 : (⟨S1x64x1x1, .f32⟩ : BufTy).Contents (Elt Ideal) :=
  (broadcastInDim S1x64x1x1 ![] bcast_S_S1x64x1x1 : (⟨S_, .f32⟩ : BufTy).Contents (Elt Ideal) → (⟨S1x64x1x1, .f32⟩ : BufTy).Contents (Elt Ideal)) cst_18
def v251 (a3 : (⟨S4096x4, .f32⟩ : BufTy).Contents (Elt Ideal)) (a5 : (⟨S64, .i32⟩ : BufTy).Contents (Elt Ideal)) : (⟨S1x64x1x1, .f32⟩ : BufTy).Contents (Elt Ideal) :=
  (addf (F := Ideal) (φ := .f32) : (⟨S1x64x1x1, .f32⟩ : BufTy).Contents (Elt Ideal) → (⟨S1x64x1x1, .f32⟩ : BufTy).Contents (Elt Ideal) → (⟨S1x64x1x1, .f32⟩ : BufTy).Contents (Elt Ideal)) (v233 a3 a5) v250
def v252 (a3 : (⟨S4096x4, .f32⟩ : BufTy).Contents (Elt Ideal)) (a5 : (⟨S64, .i32⟩ : BufTy).Contents (Elt Ideal)) : (⟨S16x64x4096x4, .f32⟩ : BufTy).Contents (Elt Ideal) :=
  (broadcastInDim S16x64x4096x4 ![0, 1, 2, 3] bcast_S1x64x1x1_S16x64x4096x4_0_1_2_3 : (⟨S1x64x1x1, .f32⟩ : BufTy).Contents (Elt Ideal) → (⟨S16x64x4096x4, .f32⟩ : BufTy).Contents (Elt Ideal)) (v251 a3 a5)
def v253 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (addf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v252 a3 a5) (v221 a0 a1 a3 a5)
def call7_cst : (⟨S_, .f32⟩ : BufTy).Contents (Elt Ideal) :=
  constant (F := Ideal) S_ .f32 0x00000000#32
def call7_v0 : (⟨S16x64x4096x4, .f32⟩ : BufTy).Contents (Elt Ideal) :=
  broadcastInDim S16x64x4096x4 ![] bcast_S_S16x64x4096x4 call7_cst
def v254 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  maximumf (F := Ideal) (φ := .f32) (v253 a0 a1 a3 a5) call7_v0
def v255 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (minimumf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v249 a0 a1 a3 a5) (v254 a0 a1 a3 a5)
def v256 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096x4, .f32⟩ : BufTy).Contents (Elt Ideal) :=
  (minimumf (F := Ideal) (φ := .f32) : (⟨S16x64x4096x4, .f32⟩ : BufTy).Contents (Elt Ideal) → (⟨S16x64x4096x4, .f32⟩ : BufTy).Contents (Elt Ideal) → (⟨S16x64x4096x4, .f32⟩ : BufTy).Contents (Elt Ideal)) (v244 a0 a1 a3 a5) (v255 a0 a1 a3 a5)
def cst_19 : (⟨S_, .f32⟩ : BufTy).Contents (Elt Ideal) :=
  constant (F := Ideal) S_ .f32 0xFF800000#32
def v257 (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096, .f32⟩ : BufTy).Contents (Elt Ideal) :=
  ((fun x v => Host.reduce (FloatOps.maximumf (F := Ideal) (φ := .f32)) x v reducesTo_S16x64x4096x4_S16x64x4096_d3 h_S_) : (⟨S16x64x4096x4, .f32⟩ : BufTy).Contents (Elt Ideal) → (⟨S_, .f32⟩ : BufTy).Contents (Elt Ideal) → (⟨S16x64x4096, .f32⟩ : BufTy).Contents (Elt Ideal)) (v256 a0 a1 a3 a5) cst_19

/-- The edge mask [16, 64, 4096]: the program's value %119. -/
def maskR (a2 : (⟨S4096x20, .i1⟩ : BufTy).Contents (Elt Ideal)) (a4 : (⟨S4096, .i32⟩ : BufTy).Contents (Elt Ideal)) (a5 : (⟨S64, .i32⟩ : BufTy).Contents (Elt Ideal)) : (⟨S16x64x4096, .i1⟩ : BufTy).Contents (Elt Ideal) := v119 a2 a4 a5
/-- A [16, 64, 4096]: the program's value %188. -/
def AR (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096, .f32⟩ : BufTy).Contents (Elt Ideal) := v188 a0 a1 a3 a5
/-- B [16, 64, 4096]: the program's value %257. -/
def BR (a0 : (⟨S4096x20x2, .f32⟩ : BufTy).Contents (Elt Ideal)) (a1 : (⟨S4096x20, .f32⟩ : BufTy).Contents (Elt Ideal)) (a3 : (⟨S4096x4, .f32⟩ : BufTy).Contents (Elt Ideal)) (a5 : (⟨S64, .i32⟩ : BufTy).Contents (Elt Ideal)) : (⟨S16x64x4096, .f32⟩ : BufTy).Contents (Elt Ideal) := v257 a0 a1 a3 a5

end Cert.Hand.RefVal

end
-- ==== Proof.Ref.TailB0.lean ====
/- The first window of the reference's @main, read back at the four buffers the second overlap tensor draws from it:
   the corners of every agent's box with the time axis in front, the positions and the headings with the time axis in
   front, and the zero words the ego indices are compared with. Each is the program's own functions applied, in order,
   to the argument arrays. -/
import proofs.«124939_j34651796144492_2_alg».proof.Proof.Ref.RunOps0
import proofs.«124939_j34651796144492_2_alg».proof.Proof.Ref.ValStages

noncomputable section

namespace Cert.Hand.RefTail

open Cert.ReferenceIdeal Cert.ReferenceIdeal.Gen Idealize.ShloMosaic Idealize.ShloMosaic.TcCoe Idealize.SL.Sem Idealize.ShloMosaic.StableHlo
open Cert.Hand.RefRun

/-! A concatenation's pieces sit inside dependent pairs, where a rewrite of one piece cannot be carried by congruence;
    stated with the pieces as plain arguments it can. -/
section Cat
variable {α : Type}

/-- A concatenation of two pieces, the pieces as plain arguments. -/
def cat2 (t : Shape) (a : Fin t.rank) (s₁ s₂ : Shape) (x₁ : s₁.Idx → α) (x₂ : s₂.Idx → α)
    (h : Shape.Concatenates [s₁, s₂] t a) : t.Idx → α := concatenate t a [⟨s₁, x₁⟩, ⟨s₂, x₂⟩] h
theorem cat2_eq (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = cat2 t a s₁ s₂ x₁ x₂ h := rfl

/-- A concatenation of four pieces, the pieces as plain arguments. -/
def cat4 (t : Shape) (a : Fin t.rank) (s₁ s₂ s₃ s₄ : Shape) (x₁ : s₁.Idx → α) (x₂ : s₂.Idx → α) (x₃ : s₃.Idx → α) (x₄ : s₄.Idx → α)
    (h : Shape.Concatenates [s₁, s₂, s₃, s₄] t a) : t.Idx → α := concatenate t a [⟨s₁, x₁⟩, ⟨s₂, x₂⟩, ⟨s₃, x₃⟩, ⟨s₄, x₄⟩] h
theorem cat4_eq (t : Shape) (a : Fin t.rank) (s₁ s₂ s₃ s₄ : Shape) (x₁ : s₁.Idx → α) (x₂ : s₂.Idx → α) (x₃ : s₃.Idx → α) (x₄ : s₄.Idx → α)
    (h : Shape.Concatenates [s₁, s₂, s₃, s₄] t a) :
    concatenate t a [⟨s₁, x₁⟩, ⟨s₂, x₂⟩, ⟨s₃, x₃⟩, ⟨s₄, x₄⟩] h = cat4 t a s₁ s₂ s₃ s₄ x₁ x₂ x₃ x₄ h := rfl

/-- The entries of a literal family of four. -/
theorem vec4_0 {β : Type} (a b c d : β) : (![a, b, c, d] : Fin 4 → β) 0 = a := rfl
theorem vec4_1 {β : Type} (a b c d : β) : (![a, b, c, d] : Fin 4 → β) 1 = b := rfl
theorem vec4_2 {β : Type} (a b c d : β) : (![a, b, c, d] : Fin 4 → β) 2 = c := rfl
theorem vec4_3 {β : Type} (a b c d : β) : (![a, b, c, d] : Fin 4 → β) 3 = d := rfl
end Cat

set_option maxRecDepth 16384 in
set_option maxHeartbeats 4000000 in
/-- The corners [16, 4096, 4, 2] after the first window. -/
theorem B_w0_v57 (V : Valuation τ sig (Elt Ideal)) :
    after (ops0 (F := Ideal)) V (Proc.devRef .tc main_v57)
      = Cert.Hand.RefVal.v57 (V (Proc.devRef .tc main_arg0)) (V (Proc.devRef .tc main_arg1)) (V (Proc.devRef .tc main_arg3)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓cat2_eq, ↓cat4_eq, vec4_0, vec4_1, vec4_2, vec4_3]
  generalize V (Proc.devRef .tc main_arg0) = a0
  generalize V (Proc.devRef .tc main_arg1) = a1
  generalize V (Proc.devRef .tc main_arg3) = a3
  rfl

set_option maxRecDepth 16384 in
set_option maxHeartbeats 4000000 in
/-- The positions [16, 4096, 2] after the first window. -/
theorem B_w0_v54 (V : Valuation τ sig (Elt Ideal)) :
    after (ops0 (F := Ideal)) V (Proc.devRef .tc main_v54) = Cert.Hand.RefVal.v54 (V (Proc.devRef .tc main_arg0)) := by
  after_results_simp
  generalize V (Proc.devRef .tc main_arg0) = a0
  rfl

set_option maxRecDepth 16384 in
set_option maxHeartbeats 4000000 in
/-- The headings [16, 4096] after the first window. -/
theorem B_w0_v55 (V : Valuation τ sig (Elt Ideal)) :
    after (ops0 (F := Ideal)) V (Proc.devRef .tc main_v55) = Cert.Hand.RefVal.v55 (V (Proc.devRef .tc main_arg1)) := by
  after_results_simp
  generalize V (Proc.devRef .tc main_arg1) = a1
  rfl

set_option maxRecDepth 16384 in
set_option maxHeartbeats 4000000 in
/-- The zero words [64] after the first window. -/
theorem B_w0_v58 (V : Valuation τ sig (Elt Ideal)) :
    after (ops0 (F := Ideal)) V (Proc.devRef .tc main_v58) = Cert.Hand.RefVal.v58 := by
  after_results_simp
  rfl

end Cert.Hand.RefTail

end
-- ==== Proof.Ref.TailABA.lean ====
/- The reference's first overlap tensor read back, window by window. The buffer main_v188 is written in the fourth
   window of @main and by nothing after it. Each window is read on its own: what it leaves in the few buffers a later
   window reads, as the program's own operations composed over what the window found in the buffers it reads. After
   the first window these are the transposed positions, headings and corners (read back in the module of the first
   window); after the second the ego's corners;
   after the third the corner offsets turned into each agent's frame and the agents' half-extents; the fourth takes
   the clipped overlaps, their minimum per corner and the maximum over the corners. Chained, the contents of
   main_v188 are the composition `RefVal.AR` of the positions, the headings, the boxes and the ego indices. -/
import proofs.«124939_j34651796144492_2_alg».proof.Proof.Ref.RunOps
import proofs.«124939_j34651796144492_2_alg».proof.Proof.Ref.RunKeep0
import proofs.«124939_j34651796144492_2_alg».proof.Proof.Ref.RunKeep1
import proofs.«124939_j34651796144492_2_alg».proof.Proof.Ref.RunKeep2
import proofs.«124939_j34651796144492_2_alg».proof.Proof.Ref.RunKeep3
import proofs.«124939_j34651796144492_2_alg».proof.Proof.Ref.RunKeep4
import proofs.«124939_j34651796144492_2_alg».proof.Proof.Ref.RunKeep5
import proofs.«124939_j34651796144492_2_alg».proof.Proof.Ref.ValStages
import proofs.«124939_j34651796144492_2_alg».proof.Proof.Ref.TailB0
import Idealize.ShloMosaic.PureOps.Ideal

noncomputable section

namespace Cert.Hand.RefTail

open Cert.ReferenceIdeal Cert.ReferenceIdeal.Gen Idealize.ShloMosaic Idealize.ShloMosaic.TcCoe Idealize.SL.Sem Idealize.ShloMosaic.StableHlo
open Cert.Hand.RefRun

/-! ## One window at a time, from any contents -/

section Windows
variable (V : Valuation τ sig (Elt Ideal))
variable (a0 : (⟨S4096x20x2, .f32⟩ : BufTy).Contents (Elt Ideal)) (a1 : (⟨S4096x20, .f32⟩ : BufTy).Contents (Elt Ideal))
  (a3 : (⟨S4096x4, .f32⟩ : BufTy).Contents (Elt Ideal)) (a5 : (⟨S64, .i32⟩ : BufTy).Contents (Elt Ideal))

set_option maxRecDepth 8192 in
set_option maxHeartbeats 4000000 in
/-- The second window gathers the ego's corners. -/
theorem w1_v85 (h57 : V (Proc.devRef .tc main_v57) = RefVal.v57 a0 a1 a3) (h5 : V (Proc.devRef .tc main_arg5) = a5) :
    after (ops1 (F := Ideal)) V (Proc.devRef .tc main_v85) = RefVal.v85 a0 a1 a3 a5 := by
  after_results_simp
  rw [h57, h5]
  rfl

set_option maxRecDepth 8192 in
set_option maxHeartbeats 4000000 in
/-- The third window turns the corner offsets into each agent's frame: x … -/
theorem w2_v146 (h85 : V (Proc.devRef .tc main_v85) = RefVal.v85 a0 a1 a3 a5) (h54 : V (Proc.devRef .tc main_v54) = RefVal.v54 a0)
    (h55 : V (Proc.devRef .tc main_v55) = RefVal.v55 a1) :
    after (ops2 (F := Ideal)) V (Proc.devRef .tc main_v146) = RefVal.v146 a0 a1 a3 a5 := by
  after_results_simp
  rw [h85, h54, h55]
  rfl

set_option maxRecDepth 8192 in
set_option maxHeartbeats 4000000 in
/-- … and y … -/
theorem w2_v152 (h85 : V (Proc.devRef .tc main_v85) = RefVal.v85 a0 a1 a3 a5) (h54 : V (Proc.devRef .tc main_v54) = RefVal.v54 a0)
    (h55 : V (Proc.devRef .tc main_v55) = RefVal.v55 a1) :
    after (ops2 (F := Ideal)) V (Proc.devRef .tc main_v152) = RefVal.v152 a0 a1 a3 a5 := by
  after_results_simp
  rw [h85, h54, h55]
  rfl

set_option maxRecDepth 8192 in
set_option maxHeartbeats 4000000 in
/-- … and lays out the agents' four half-extents. -/
theorem w2_v166 (h3 : V (Proc.devRef .tc main_arg3) = a3) : after (ops2 (F := Ideal)) V (Proc.devRef .tc main_v166) = RefVal.v166 a3 := by
  after_results_simp
  rw [h3]
  rfl

set_option maxRecDepth 8192 in
set_option maxHeartbeats 4000000 in
theorem w2_v158 (h3 : V (Proc.devRef .tc main_arg3) = a3) : after (ops2 (F := Ideal)) V (Proc.devRef .tc main_v158) = RefVal.v158 a3 := by
  after_results_simp
  rw [h3]
  rfl

set_option maxRecDepth 8192 in
set_option maxHeartbeats 4000000 in
theorem w2_v161 (h3 : V (Proc.devRef .tc main_arg3) = a3) : after (ops2 (F := Ideal)) V (Proc.devRef .tc main_v161) = RefVal.v161 a3 := by
  after_results_simp
  rw [h3]
  rfl

set_option maxRecDepth 8192 in
set_option maxHeartbeats 4000000 in
theorem w2_v164 (h3 : V (Proc.devRef .tc main_arg3) = a3) : after (ops2 (F := Ideal)) V (Proc.devRef .tc main_v164) = RefVal.v164 a3 := by
  after_results_simp
  rw [h3]
  rfl

set_option maxRecDepth 8192 in
set_option maxHeartbeats 4000000 in
/-- The fourth window: the clipped overlaps, their minimum per corner, the maximum over the four corners. -/
theorem w3_v188 (h146 : V (Proc.devRef .tc main_v146) = RefVal.v146 a0 a1 a3 a5) (h152 : V (Proc.devRef .tc main_v152) = RefVal.v152 a0 a1 a3 a5)
    (h166 : V (Proc.devRef .tc main_v166) = RefVal.v166 a3) (h158 : V (Proc.devRef .tc main_v158) = RefVal.v158 a3)
    (h161 : V (Proc.devRef .tc main_v161) = RefVal.v161 a3) (h164 : V (Proc.devRef .tc main_v164) = RefVal.v164 a3) :
    after (ops3 (F := Ideal)) V (Proc.devRef .tc main_v188) = RefVal.v188 a0 a1 a3 a5 := by
  after_results_simp
  rw [h146, h152, h166, h158, h161, h164]
  rfl

end Windows

/-! ## The windows chained -/

/-- After @main's operations, from any contents `M`, the first overlap buffer holds `RefVal.AR` of the four argument
    arrays it is computed from. -/
theorem ref_A (M : Valuation τ sig (Elt Ideal)) :
    after (ops (F := Ideal)) M (Proc.devRef .tc main_v188)
      = Cert.Hand.RefVal.AR (M (Proc.devRef .tc main_arg0)) (M (Proc.devRef .tc main_arg1)) (M (Proc.devRef .tc main_arg3)) (M (Proc.devRef .tc main_arg5)) := by
  rw [after_ops, keep5 _ main_v188 (by decide +kernel), keep4 _ main_v188 (by decide +kernel)]
  -- the argument arrays after the first window, after the second
  have k0_3 : after (ops0 (F := Ideal)) M (Proc.devRef .tc main_arg3) = M (Proc.devRef .tc main_arg3) := keep0 _ main_arg3 (by decide +kernel)
  have k0_5 : after (ops0 (F := Ideal)) M (Proc.devRef .tc main_arg5) = M (Proc.devRef .tc main_arg5) := keep0 _ main_arg5 (by decide +kernel)
  have k1_3 : after (ops1 (F := Ideal)) (after ops0 M) (Proc.devRef .tc main_arg3) = M (Proc.devRef .tc main_arg3) :=
    (keep1 _ main_arg3 (by decide +kernel)).trans k0_3
  -- after the first window
  have e54 := B_w0_v54 M
  have e55 := B_w0_v55 M
  have e57 := B_w0_v57 M
  -- after the second
  have e85 := w1_v85 (after ops0 M) _ _ _ _ e57 k0_5
  have e54' : after (ops1 (F := Ideal)) (after ops0 M) (Proc.devRef .tc main_v54) = _ := (keep1 _ main_v54 (by decide +kernel)).trans e54
  have e55' : after (ops1 (F := Ideal)) (after ops0 M) (Proc.devRef .tc main_v55) = _ := (keep1 _ main_v55 (by decide +kernel)).trans e55
  -- after the third, after the fourth
  exact w3_v188 (after ops2 (after ops1 (after ops0 M))) _ _ _ _
    (w2_v146 _ _ _ _ _ e85 e54' e55') (w2_v152 _ _ _ _ _ e85 e54' e55')
    (w2_v166 _ _ k1_3) (w2_v158 _ _ k1_3) (w2_v161 _ _ k1_3) (w2_v164 _ _ k1_3)

end Cert.Hand.RefTail

end
-- ==== Proof.Ref.TailB1.lean ====
/- The second window of the reference's @main, read back at the three buffers the second overlap tensor draws from it:
   the egos' positions, headings and boxes — the gathers at the normalised ego indices —, from contents that hold the
   first window's values and the argument arrays. -/
import proofs.«124939_j34651796144492_2_alg».proof.Proof.Ref.RunOps1
import proofs.«124939_j34651796144492_2_alg».proof.Proof.Ref.ValStages

noncomputable section

namespace Cert.Hand.RefTail

open Cert.ReferenceIdeal Cert.ReferenceIdeal.Gen Idealize.ShloMosaic Idealize.ShloMosaic.TcCoe Idealize.SL.Sem Idealize.ShloMosaic.StableHlo
open Cert.Hand.RefRun

set_option maxRecDepth 16384 in
set_option maxHeartbeats 4000000 in
/-- The egos' positions [16, 64, 2] after the second window. -/
theorem B_w1_v64 (V : Valuation τ sig (Elt Ideal)) (a0 : (⟨S4096x20x2, .f32⟩ : BufTy).Contents (Elt Ideal))
    (a5 : (⟨S64, .i32⟩ : BufTy).Contents (Elt Ideal))
    (h54 : V (Proc.devRef .tc main_v54) = Cert.Hand.RefVal.v54 a0) (h58 : V (Proc.devRef .tc main_v58) = Cert.Hand.RefVal.v58) (h5 : V (Proc.devRef .tc main_arg5) = a5) :
    after (ops1 (F := Ideal)) V (Proc.devRef .tc main_v64) = Cert.Hand.RefVal.v64 a0 a5 := by
  after_results_simp
  rw [h54, h58, h5]
  rfl

set_option maxRecDepth 16384 in
set_option maxHeartbeats 4000000 in
/-- The egos' headings [16, 64] after the second window. -/
theorem B_w1_v71 (V : Valuation τ sig (Elt Ideal)) (a1 : (⟨S4096x20, .f32⟩ : BufTy).Contents (Elt Ideal))
    (a5 : (⟨S64, .i32⟩ : BufTy).Contents (Elt Ideal))
    (h55 : V (Proc.devRef .tc main_v55) = Cert.Hand.RefVal.v55 a1) (h5 : V (Proc.devRef .tc main_arg5) = a5) :
    after (ops1 (F := Ideal)) V (Proc.devRef .tc main_v71) = Cert.Hand.RefVal.v71 a1 a5 := by
  after_results_simp
  rw [h55, h5]
  rfl

set_option maxRecDepth 16384 in
set_option maxHeartbeats 4000000 in
/-- The egos' boxes [64, 4] after the second window. -/
theorem B_w1_v99 (V : Valuation τ sig (Elt Ideal)) (a3 : (⟨S4096x4, .f32⟩ : BufTy).Contents (Elt Ideal))
    (a5 : (⟨S64, .i32⟩ : BufTy).Contents (Elt Ideal))
    (h3 : V (Proc.devRef .tc main_arg3) = a3) (h5 : V (Proc.devRef .tc main_arg5) = a5) :
    after (ops1 (F := Ideal)) V (Proc.devRef .tc main_v99) = Cert.Hand.RefVal.v99 a3 a5 := by
  after_results_simp
  rw [h3, h5]
  rfl

end Cert.Hand.RefTail

end
-- ==== Proof.Ref.TailB3.lean ====
/- The fourth window of the reference's @main, read back at the three buffers the second overlap tensor draws from it:
   the two coordinates of every agent corner in every ego's frame, and the first column of the egos' boxes, from
   contents that hold the corners, the egos' positions, headings and boxes. -/
import proofs.«124939_j34651796144492_2_alg».proof.Proof.Ref.RunOps3
import proofs.«124939_j34651796144492_2_alg».proof.Proof.Ref.ValStages

noncomputable section

namespace Cert.Hand.RefTail

open Cert.ReferenceIdeal Cert.ReferenceIdeal.Gen Idealize.ShloMosaic Idealize.ShloMosaic.TcCoe Idealize.SL.Sem Idealize.ShloMosaic.StableHlo
open Cert.Hand.RefRun

set_option maxRecDepth 16384 in
set_option maxHeartbeats 4000000 in
/-- The first frame coordinate [16, 64, 4096, 4] after the fourth window. -/
theorem B_w3_v215 (V : Valuation τ sig (Elt Ideal)) (a0 : (⟨S4096x20x2, .f32⟩ : BufTy).Contents (Elt Ideal)) (a1 : (⟨S4096x20, .f32⟩ : BufTy).Contents (Elt Ideal))
    (a3 : (⟨S4096x4, .f32⟩ : BufTy).Contents (Elt Ideal)) (a5 : (⟨S64, .i32⟩ : BufTy).Contents (Elt Ideal))
    (h57 : V (Proc.devRef .tc main_v57) = Cert.Hand.RefVal.v57 a0 a1 a3) (h64 : V (Proc.devRef .tc main_v64) = Cert.Hand.RefVal.v64 a0 a5)
    (h71 : V (Proc.devRef .tc main_v71) = Cert.Hand.RefVal.v71 a1 a5) :
    after (ops3 (F := Ideal)) V (Proc.devRef .tc main_v215) = Cert.Hand.RefVal.v215 a0 a1 a3 a5 := by
  after_results_simp
  rw [h57, h64, h71]
  rfl

set_option maxRecDepth 16384 in
set_option maxHeartbeats 4000000 in
/-- The second frame coordinate [16, 64, 4096, 4] after the fourth window. -/
theorem B_w3_v221 (V : Valuation τ sig (Elt Ideal)) (a0 : (⟨S4096x20x2, .f32⟩ : BufTy).Contents (Elt Ideal)) (a1 : (⟨S4096x20, .f32⟩ : BufTy).Contents (Elt Ideal))
    (a3 : (⟨S4096x4, .f32⟩ : BufTy).Contents (Elt Ideal)) (a5 : (⟨S64, .i32⟩ : BufTy).Contents (Elt Ideal))
    (h57 : V (Proc.devRef .tc main_v57) = Cert.Hand.RefVal.v57 a0 a1 a3) (h64 : V (Proc.devRef .tc main_v64) = Cert.Hand.RefVal.v64 a0 a5)
    (h71 : V (Proc.devRef .tc main_v71) = Cert.Hand.RefVal.v71 a1 a5) :
    after (ops3 (F := Ideal)) V (Proc.devRef .tc main_v221) = Cert.Hand.RefVal.v221 a0 a1 a3 a5 := by
  after_results_simp
  rw [h57, h64, h71]
  rfl

set_option maxRecDepth 16384 in
set_option maxHeartbeats 4000000 in
/-- The front half-extents of the egos' boxes [64, 1] after the fourth window. -/
theorem B_w3_v222 (V : Valuation τ sig (Elt Ideal)) (a3 : (⟨S4096x4, .f32⟩ : BufTy).Contents (Elt Ideal))
    (a5 : (⟨S64, .i32⟩ : BufTy).Contents (Elt Ideal)) (h99 : V (Proc.devRef .tc main_v99) = Cert.Hand.RefVal.v99 a3 a5) :
    after (ops3 (F := Ideal)) V (Proc.devRef .tc main_v222) = Cert.Hand.RefVal.v222 a3 a5 := by
  after_results_simp
  rw [h99]
  rfl

end Cert.Hand.RefTail

end
-- ==== Proof.Ref.TailB4.lean ====
/- The fifth window of the reference's @main, read back at the second overlap tensor: the four clamped distances to
   the sides of the ego's box, their minimum, and the maximum over the four corners, from contents that hold the two
   frame coordinates and the egos' boxes. -/
import proofs.«124939_j34651796144492_2_alg».proof.Proof.Ref.RunOps4
import proofs.«124939_j34651796144492_2_alg».proof.Proof.Ref.ValStages

noncomputable section

namespace Cert.Hand.RefTail

open Cert.ReferenceIdeal Cert.ReferenceIdeal.Gen Idealize.ShloMosaic Idealize.ShloMosaic.TcCoe Idealize.SL.Sem Idealize.ShloMosaic.StableHlo
open Cert.Hand.RefRun

set_option maxRecDepth 16384 in
set_option maxHeartbeats 4000000 in
/-- The second overlap tensor [16, 64, 4096] after the fifth window. -/
theorem B_w4 (V : Valuation τ sig (Elt Ideal)) (a0 : (⟨S4096x20x2, .f32⟩ : BufTy).Contents (Elt Ideal)) (a1 : (⟨S4096x20, .f32⟩ : BufTy).Contents (Elt Ideal))
    (a3 : (⟨S4096x4, .f32⟩ : BufTy).Contents (Elt Ideal)) (a5 : (⟨S64, .i32⟩ : BufTy).Contents (Elt Ideal))
    (h222 : V (Proc.devRef .tc main_v222) = Cert.Hand.RefVal.v222 a3 a5) (h99 : V (Proc.devRef .tc main_v99) = Cert.Hand.RefVal.v99 a3 a5)
    (h215 : V (Proc.devRef .tc main_v215) = Cert.Hand.RefVal.v215 a0 a1 a3 a5) (h221 : V (Proc.devRef .tc main_v221) = Cert.Hand.RefVal.v221 a0 a1 a3 a5) :
    after (ops4 (F := Ideal)) V (Proc.devRef .tc main_v257) = Cert.Hand.RefVal.v257 a0 a1 a3 a5 := by
  after_results_simp
  rw [h222, h99, h215, h221]
  rfl

end Cert.Hand.RefTail

end
-- ==== Proof.Ref.TailBv.lean ====
/- The reference's second overlap tensor read back. The buffer main_v257 is written in the fifth window of @main and
   by nothing after it. Window by window: the first window leaves the corners, positions and headings with the time
   axis in front; the second gathers the egos' positions, headings and boxes; the third writes nothing the tensor
   reads; the fourth turns every agent corner into every ego's frame; the fifth measures it against the ego's box and
   takes the maximum over the corners. Each window is read on contents that hold the earlier windows' values, a buffer
   no window writes in between keeping its contents; the composition is the definition `RefVal.BR` of the positions,
   the headings, the boxes and the ego indices. -/
import proofs.«124939_j34651796144492_2_alg».proof.Proof.Ref.RunOps
import proofs.«124939_j34651796144492_2_alg».proof.Proof.Ref.RunKeep0
import proofs.«124939_j34651796144492_2_alg».proof.Proof.Ref.RunKeep1
import proofs.«124939_j34651796144492_2_alg».proof.Proof.Ref.RunKeep2
import proofs.«124939_j34651796144492_2_alg».proof.Proof.Ref.RunKeep3
import proofs.«124939_j34651796144492_2_alg».proof.Proof.Ref.RunKeep4
import proofs.«124939_j34651796144492_2_alg».proof.Proof.Ref.RunKeep5
import proofs.«124939_j34651796144492_2_alg».proof.Proof.Ref.TailB0
import proofs.«124939_j34651796144492_2_alg».proof.Proof.Ref.TailB1
import proofs.«124939_j34651796144492_2_alg».proof.Proof.Ref.TailB3
import proofs.«124939_j34651796144492_2_alg».proof.Proof.Ref.TailB4

noncomputable section

namespace Cert.Hand.RefTail

open Cert.ReferenceIdeal Cert.ReferenceIdeal.Gen Idealize.ShloMosaic Idealize.ShloMosaic.TcCoe Idealize.SL.Sem Idealize.ShloMosaic.StableHlo
open Cert.Hand.RefRun

/-- After @main's operations, from any contents `M`, the second overlap buffer holds `RefVal.BR` of the four argument
    arrays it is computed from. -/
theorem ref_B (M : Valuation τ sig (Elt Ideal)) :
    after (ops (F := Ideal)) M (Proc.devRef .tc main_v257)
      = Cert.Hand.RefVal.BR (M (Proc.devRef .tc main_arg0)) (M (Proc.devRef .tc main_arg1)) (M (Proc.devRef .tc main_arg3)) (M (Proc.devRef .tc main_arg5)) := by
  rw [after_ops, keep5 _ main_v257 (by decide +kernel)]
  -- the first window
  have e57_0 := B_w0_v57 M
  have e54_0 := B_w0_v54 M
  have e55_0 := B_w0_v55 M
  have e58_0 := B_w0_v58 M
  have e3_0 : after (ops0 (F := Ideal)) M (Proc.devRef .tc main_arg3) = (M (Proc.devRef .tc main_arg3)) := keep0 _ main_arg3 (by decide +kernel)
  have e5_0 : after (ops0 (F := Ideal)) M (Proc.devRef .tc main_arg5) = (M (Proc.devRef .tc main_arg5)) := keep0 _ main_arg5 (by decide +kernel)
  -- the second window
  have e64_1 := B_w1_v64 (after ops0 M) (M (Proc.devRef .tc main_arg0)) (M (Proc.devRef .tc main_arg5)) e54_0 e58_0 e5_0
  have e71_1 := B_w1_v71 (after ops0 M) (M (Proc.devRef .tc main_arg1)) (M (Proc.devRef .tc main_arg5)) e55_0 e5_0
  have e99_1 := B_w1_v99 (after ops0 M) (M (Proc.devRef .tc main_arg3)) (M (Proc.devRef .tc main_arg5)) e3_0 e5_0
  have e57_1 := (keep1 (after ops0 M) main_v57 (by decide +kernel)).trans e57_0
  -- the third window writes none of them
  have e64_2 := (keep2 (after ops1 (after ops0 M)) main_v64 (by decide +kernel)).trans e64_1
  have e71_2 := (keep2 (after ops1 (after ops0 M)) main_v71 (by decide +kernel)).trans e71_1
  have e99_2 := (keep2 (after ops1 (after ops0 M)) main_v99 (by decide +kernel)).trans e99_1
  have e57_2 := (keep2 (after ops1 (after ops0 M)) main_v57 (by decide +kernel)).trans e57_1
  -- the fourth window
  have e215_3 := B_w3_v215 (after ops2 (after ops1 (after ops0 M))) (M (Proc.devRef .tc main_arg0)) (M (Proc.devRef .tc main_arg1)) (M (Proc.devRef .tc main_arg3)) (M (Proc.devRef .tc main_arg5)) e57_2 e64_2 e71_2
  have e221_3 := B_w3_v221 (after ops2 (after ops1 (after ops0 M))) (M (Proc.devRef .tc main_arg0)) (M (Proc.devRef .tc main_arg1)) (M (Proc.devRef .tc main_arg3)) (M (Proc.devRef .tc main_arg5)) e57_2 e64_2 e71_2
  have e222_3 := B_w3_v222 (after ops2 (after ops1 (after ops0 M))) (M (Proc.devRef .tc main_arg3)) (M (Proc.devRef .tc main_arg5)) e99_2
  have e99_3 := (keep3 (after ops2 (after ops1 (after ops0 M))) main_v99 (by decide +kernel)).trans e99_2
  -- the fifth window
  exact B_w4 (after ops3 (after ops2 (after ops1 (after ops0 M)))) (M (Proc.devRef .tc main_arg0)) (M (Proc.devRef .tc main_arg1)) (M (Proc.devRef .tc main_arg3)) (M (Proc.devRef .tc main_arg5)) e222_3 e99_3 e215_3 e221_3

end Cert.Hand.RefTail

end
-- ==== Proof.Ref.ValAttr.lean ====
import Lean.Meta.Tactic.Simp.RegisterCommand

/-- The reference's operations read at an index given by its coordinates: `simp only [rd_idx]` pushes an index through
    slices, broadcasts, reshapes, transposes, gathers, concatenations and the reduction over the corners. -/
register_simp_attr rd_idx
-- ==== Proof.Ref.ValLayout.lean ====
import proofs.«124939_j34651796144492_2_alg».proof.ReferenceIdeal
import proofs.«124939_j34651796144492_2_alg».proof.Proof.Spec
import Idealize.ShloMosaic.Lib.Pipeline.Value
import Idealize.ShloMosaic.Lib.ValueIdx
import proofs.«124939_j34651796144492_2_alg».proof.Proof.Ref.ValAttr

/-!
The layout operations on the way to A and B, each read at an index given by its coordinates: a slice reads the operand
at the coordinates moved by the offsets (the time axis by four: the last sixteen of twenty steps), a broadcast at the
coordinates its dimension map names (zero on a unit axis), a reshape that drops a trailing unit axis at the same
coordinates with a zero appended, a transpose at the permuted coordinates. A unit axis of a result is read at 0.
-/

noncomputable section

namespace Cert.Hand.RefVal

open Idealize.ShloMosaic Idealize.ShloMosaic.ValueIdx Cert.ReferenceIdeal

variable {α : Type}

@[rd_idx] theorem rd_slices_S4096x20x2_S4096x16x2_0_4_0 (h : S4096x20x2.Slices ![0, 4, 0] S4096x16x2) (x : S4096x20x2.Idx → α) (i0 : Fin 4096) (i1 : Fin 16) (i2 : Fin 2) :
    extractStridedSlice S4096x16x2 ![0, 4, 0] x h (ix3 i0 i1 i2) = x (ix3 i0 (Cert.Hand.Spec.step i1) i2) :=
  extractStridedSlice_apply _ x h _ _ (fun a => by fin_cases a <;> first | rfl | exact (Nat.zero_add _).symm | exact Nat.add_comm _ _)
@[rd_idx] theorem rd_slices_S4096x20_S4096x16_0_4 (h : S4096x20.Slices ![0, 4] S4096x16) (x : S4096x20.Idx → α) (i0 : Fin 4096) (i1 : Fin 16) :
    extractStridedSlice S4096x16 ![0, 4] x h (ix2 i0 i1) = x (ix2 i0 (Cert.Hand.Spec.step i1)) :=
  extractStridedSlice_apply _ x h _ _ (fun a => by fin_cases a <;> first | rfl | exact (Nat.zero_add _).symm | exact Nat.add_comm _ _)
@[rd_idx] theorem rd_slices_S4096x4_S4096x1_0_0 (h : S4096x4.Slices ![0, 0] S4096x1) (x : S4096x4.Idx → α) (i0 : Fin 4096) :
    extractStridedSlice S4096x1 ![0, 0] x h (ix2 i0 (0 : Fin 1)) = x (ix2 i0 (0 : Fin 4)) :=
  extractStridedSlice_apply _ x h _ _ (fun a => by fin_cases a <;> first | rfl | exact (Nat.zero_add _).symm | exact Nat.add_comm _ _)
@[rd_idx] theorem rd_shapeCasts_S4096x1_S4096 (h : S4096x1.ShapeCasts S4096) (x : S4096x1.Idx → α) (i0 : Fin 4096) :
    shapeCast S4096 x h (ix1 i0) = x (ix2 i0 (0 : Fin 1)) :=
  shapeCast_apply x h _ _ (by
    rw [Shape.rowMajor_val_two, Shape.rowMajor_val_one]
    show (i0.val * 1 + 0) = i0.val
    omega)
@[rd_idx] theorem rd_slices_S4096x4_S4096x1_0_1 (h : S4096x4.Slices ![0, 1] S4096x1) (x : S4096x4.Idx → α) (i0 : Fin 4096) :
    extractStridedSlice S4096x1 ![0, 1] x h (ix2 i0 (0 : Fin 1)) = x (ix2 i0 (1 : Fin 4)) :=
  extractStridedSlice_apply _ x h _ _ (fun a => by fin_cases a <;> first | rfl | exact (Nat.zero_add _).symm | exact Nat.add_comm _ _)
@[rd_idx] theorem rd_slices_S4096x4_S4096x1_0_2 (h : S4096x4.Slices ![0, 2] S4096x1) (x : S4096x4.Idx → α) (i0 : Fin 4096) :
    extractStridedSlice S4096x1 ![0, 2] x h (ix2 i0 (0 : Fin 1)) = x (ix2 i0 (2 : Fin 4)) :=
  extractStridedSlice_apply _ x h _ _ (fun a => by fin_cases a <;> first | rfl | exact (Nat.zero_add _).symm | exact Nat.add_comm _ _)
@[rd_idx] theorem rd_slices_S4096x4_S4096x1_0_3 (h : S4096x4.Slices ![0, 3] S4096x1) (x : S4096x4.Idx → α) (i0 : Fin 4096) :
    extractStridedSlice S4096x1 ![0, 3] x h (ix2 i0 (0 : Fin 1)) = x (ix2 i0 (3 : Fin 4)) :=
  extractStridedSlice_apply _ x h _ _ (fun a => by fin_cases a <;> first | rfl | exact (Nat.zero_add _).symm | exact Nat.add_comm _ _)
@[rd_idx] theorem rd_bcast_S4096_S4096x1_0 (h : S4096.BroadcastsInDim S4096x1 (![0] : Fin 1 → Fin 2)) (x : S4096.Idx → α) (i0 : Fin 4096) (i1 : Fin 1) :
    broadcastInDim S4096x1 (![0] : Fin 1 → Fin 2) h x (ix2 i0 i1) = x (ix1 i0) :=
  broadcastInDim_apply _ h x _ _ (fun a => by fin_cases a <;> rfl)
@[rd_idx] theorem rd_bcast_S4096x4_S4096x1x4_0_2 (h : S4096x4.BroadcastsInDim S4096x1x4 (![0, 2] : Fin 2 → Fin 3)) (x : S4096x4.Idx → α) (i0 : Fin 4096) (i1 : Fin 1) (i2 : Fin 4) :
    broadcastInDim S4096x1x4 (![0, 2] : Fin 2 → Fin 3) h x (ix3 i0 i1 i2) = x (ix2 i0 i2) :=
  broadcastInDim_apply _ h x _ _ (fun a => by fin_cases a <;> rfl)
@[rd_idx] theorem rd_bcast_S4096x16_S4096x16x1_0_1 (h : S4096x16.BroadcastsInDim S4096x16x1 (![0, 1] : Fin 2 → Fin 3)) (x : S4096x16.Idx → α) (i0 : Fin 4096) (i1 : Fin 16) (i2 : Fin 1) :
    broadcastInDim S4096x16x1 (![0, 1] : Fin 2 → Fin 3) h x (ix3 i0 i1 i2) = x (ix2 i0 i1) :=
  broadcastInDim_apply _ h x _ _ (fun a => by fin_cases a <;> rfl)
@[rd_idx] theorem rd_slices_S4096x16x2_S4096x16x1_0_0_0 (h : S4096x16x2.Slices ![0, 0, 0] S4096x16x1) (x : S4096x16x2.Idx → α) (i0 : Fin 4096) (i1 : Fin 16) :
    extractStridedSlice S4096x16x1 ![0, 0, 0] x h (ix3 i0 i1 (0 : Fin 1)) = x (ix3 i0 i1 (0 : Fin 2)) :=
  extractStridedSlice_apply _ x h _ _ (fun a => by fin_cases a <;> first | rfl | exact (Nat.zero_add _).symm | exact Nat.add_comm _ _)
@[rd_idx] theorem rd_bcast_S4096x16x1_S4096x16x4_0_1_2 (h : S4096x16x1.BroadcastsInDim S4096x16x4 (![0, 1, 2] : Fin 3 → Fin 3)) (x : S4096x16x1.Idx → α) (i0 : Fin 4096) (i1 : Fin 16) (i2 : Fin 4) :
    broadcastInDim S4096x16x4 (![0, 1, 2] : Fin 3 → Fin 3) h x (ix3 i0 i1 i2) = x (ix3 i0 i1 (0 : Fin 1)) :=
  broadcastInDim_apply _ h x _ _ (fun a => by fin_cases a <;> rfl)
@[rd_idx] theorem rd_bcast_S4096x1x4_S4096x16x4_0_1_2 (h : S4096x1x4.BroadcastsInDim S4096x16x4 (![0, 1, 2] : Fin 3 → Fin 3)) (x : S4096x1x4.Idx → α) (i0 : Fin 4096) (i1 : Fin 16) (i2 : Fin 4) :
    broadcastInDim S4096x16x4 (![0, 1, 2] : Fin 3 → Fin 3) h x (ix3 i0 i1 i2) = x (ix3 i0 (0 : Fin 1) i2) :=
  broadcastInDim_apply _ h x _ _ (fun a => by fin_cases a <;> rfl)
@[rd_idx] theorem rd_slices_S4096x16x2_S4096x16x1_0_0_1 (h : S4096x16x2.Slices ![0, 0, 1] S4096x16x1) (x : S4096x16x2.Idx → α) (i0 : Fin 4096) (i1 : Fin 16) :
    extractStridedSlice S4096x16x1 ![0, 0, 1] x h (ix3 i0 i1 (0 : Fin 1)) = x (ix3 i0 i1 (1 : Fin 2)) :=
  extractStridedSlice_apply _ x h _ _ (fun a => by fin_cases a <;> first | rfl | exact (Nat.zero_add _).symm | exact Nat.add_comm _ _)
@[rd_idx] theorem rd_bcast_S4096x16x4_S4096x16x4x1_0_1_2 (h : S4096x16x4.BroadcastsInDim S4096x16x4x1 (![0, 1, 2] : Fin 3 → Fin 4)) (x : S4096x16x4.Idx → α) (i0 : Fin 4096) (i1 : Fin 16) (i2 : Fin 4) (i3 : Fin 1) :
    broadcastInDim S4096x16x4x1 (![0, 1, 2] : Fin 3 → Fin 4) h x (ix4 i0 i1 i2 i3) = x (ix3 i0 i1 i2) :=
  broadcastInDim_apply _ h x _ _ (fun a => by fin_cases a <;> rfl)
@[rd_idx] theorem rd_transposes_S4096x16x2_S16x4096x2_1_0_2 (h : S4096x16x2.Transposes ([1, 0, 2] : List (Fin 3)) S16x4096x2) (x : S4096x16x2.Idx → α) (i0 : Fin 16) (i1 : Fin 4096) (i2 : Fin 2) :
    transpose S16x4096x2 ([1, 0, 2] : List (Fin 3)) x h (ix3 i0 i1 i2) = x (ix3 i1 i0 i2) :=
  transpose_apply _ x h _ _ (fun b => by fin_cases b <;> rfl)
@[rd_idx] theorem rd_transposes_S4096x16_S16x4096_1_0 (h : S4096x16.Transposes ([1, 0] : List (Fin 2)) S16x4096) (x : S4096x16.Idx → α) (i0 : Fin 16) (i1 : Fin 4096) :
    transpose S16x4096 ([1, 0] : List (Fin 2)) x h (ix2 i0 i1) = x (ix2 i1 i0) :=
  transpose_apply _ x h _ _ (fun b => by fin_cases b <;> rfl)
@[rd_idx] theorem rd_transposes_S4096x16x4x2_S16x4096x4x2_1_0_2_3 (h : S4096x16x4x2.Transposes ([1, 0, 2, 3] : List (Fin 4)) S16x4096x4x2) (x : S4096x16x4x2.Idx → α) (i0 : Fin 16) (i1 : Fin 4096) (i2 : Fin 4) (i3 : Fin 2) :
    transpose S16x4096x4x2 ([1, 0, 2, 3] : List (Fin 4)) x h (ix4 i0 i1 i2 i3) = x (ix4 i1 i0 i2 i3) :=
  transpose_apply _ x h _ _ (fun b => by fin_cases b <;> rfl)
@[rd_idx] theorem rd_bcast_S_S64 (h : S_.BroadcastsInDim S64 (![] : Fin 0 → Fin 1)) (x : S_.Idx → α) (i0 : Fin 64) :
    broadcastInDim S64 (![] : Fin 0 → Fin 1) h x (ix1 i0) = x (ix0) :=
  broadcastInDim_apply _ h x _ _ (fun a => by fin_cases a <;> rfl)
@[rd_idx] theorem rd_bcast_S64_S64x1_0 (h : S64.BroadcastsInDim S64x1 (![0] : Fin 1 → Fin 2)) (x : S64.Idx → α) (i0 : Fin 64) (i1 : Fin 1) :
    broadcastInDim S64x1 (![0] : Fin 1 → Fin 2) h x (ix2 i0 i1) = x (ix1 i0) :=
  broadcastInDim_apply _ h x _ _ (fun a => by fin_cases a <;> rfl)
@[rd_idx] theorem rd_slices_S16x64x4x2_S16x64x4x1_0_0_0_0 (h : S16x64x4x2.Slices ![0, 0, 0, 0] S16x64x4x1) (x : S16x64x4x2.Idx → α) (i0 : Fin 16) (i1 : Fin 64) (i2 : Fin 4) :
    extractStridedSlice S16x64x4x1 ![0, 0, 0, 0] x h (ix4 i0 i1 i2 (0 : Fin 1)) = x (ix4 i0 i1 i2 (0 : Fin 2)) :=
  extractStridedSlice_apply _ x h _ _ (fun a => by fin_cases a <;> first | rfl | exact (Nat.zero_add _).symm | exact Nat.add_comm _ _)
@[rd_idx] theorem rd_shapeCasts_S16x64x4x1_S16x64x4 (h : S16x64x4x1.ShapeCasts S16x64x4) (x : S16x64x4x1.Idx → α) (i0 : Fin 16) (i1 : Fin 64) (i2 : Fin 4) :
    shapeCast S16x64x4 x h (ix3 i0 i1 i2) = x (ix4 i0 i1 i2 (0 : Fin 1)) :=
  shapeCast_apply x h _ _ (by
    rw [Shape.rowMajor_val_four, Shape.rowMajor_val_three]
    show (((i0.val * 64 + i1.val) * 4 + i2.val) * 1 + 0) = ((i0.val * 64 + i1.val) * 4 + i2.val)
    omega)
@[rd_idx] theorem rd_bcast_S16x64x4_S16x64x1x4_0_1_3 (h : S16x64x4.BroadcastsInDim S16x64x1x4 (![0, 1, 3] : Fin 3 → Fin 4)) (x : S16x64x4.Idx → α) (i0 : Fin 16) (i1 : Fin 64) (i2 : Fin 1) (i3 : Fin 4) :
    broadcastInDim S16x64x1x4 (![0, 1, 3] : Fin 3 → Fin 4) h x (ix4 i0 i1 i2 i3) = x (ix3 i0 i1 i3) :=
  broadcastInDim_apply _ h x _ _ (fun a => by fin_cases a <;> rfl)
@[rd_idx] theorem rd_slices_S16x4096x2_S16x4096x1_0_0_0 (h : S16x4096x2.Slices ![0, 0, 0] S16x4096x1) (x : S16x4096x2.Idx → α) (i0 : Fin 16) (i1 : Fin 4096) :
    extractStridedSlice S16x4096x1 ![0, 0, 0] x h (ix3 i0 i1 (0 : Fin 1)) = x (ix3 i0 i1 (0 : Fin 2)) :=
  extractStridedSlice_apply _ x h _ _ (fun a => by fin_cases a <;> first | rfl | exact (Nat.zero_add _).symm | exact Nat.add_comm _ _)
@[rd_idx] theorem rd_shapeCasts_S16x4096x1_S16x4096 (h : S16x4096x1.ShapeCasts S16x4096) (x : S16x4096x1.Idx → α) (i0 : Fin 16) (i1 : Fin 4096) :
    shapeCast S16x4096 x h (ix2 i0 i1) = x (ix3 i0 i1 (0 : Fin 1)) :=
  shapeCast_apply x h _ _ (by
    rw [Shape.rowMajor_val_three, Shape.rowMajor_val_two]
    show ((i0.val * 4096 + i1.val) * 1 + 0) = (i0.val * 4096 + i1.val)
    omega)
@[rd_idx] theorem rd_bcast_S16x4096_S16x1x4096x1_0_2 (h : S16x4096.BroadcastsInDim S16x1x4096x1 (![0, 2] : Fin 2 → Fin 4)) (x : S16x4096.Idx → α) (i0 : Fin 16) (i1 : Fin 1) (i2 : Fin 4096) (i3 : Fin 1) :
    broadcastInDim S16x1x4096x1 (![0, 2] : Fin 2 → Fin 4) h x (ix4 i0 i1 i2 i3) = x (ix2 i0 i2) :=
  broadcastInDim_apply _ h x _ _ (fun a => by fin_cases a <;> rfl)
@[rd_idx] theorem rd_bcast_S16x64x1x4_S16x64x4096x4_0_1_2_3 (h : S16x64x1x4.BroadcastsInDim S16x64x4096x4 (![0, 1, 2, 3] : Fin 4 → Fin 4)) (x : S16x64x1x4.Idx → α) (i0 : Fin 16) (i1 : Fin 64) (i2 : Fin 4096) (i3 : Fin 4) :
    broadcastInDim S16x64x4096x4 (![0, 1, 2, 3] : Fin 4 → Fin 4) h x (ix4 i0 i1 i2 i3) = x (ix4 i0 i1 (0 : Fin 1) i3) :=
  broadcastInDim_apply _ h x _ _ (fun a => by fin_cases a <;> rfl)
@[rd_idx] theorem rd_bcast_S16x1x4096x1_S16x64x4096x4_0_1_2_3 (h : S16x1x4096x1.BroadcastsInDim S16x64x4096x4 (![0, 1, 2, 3] : Fin 4 → Fin 4)) (x : S16x1x4096x1.Idx → α) (i0 : Fin 16) (i1 : Fin 64) (i2 : Fin 4096) (i3 : Fin 4) :
    broadcastInDim S16x64x4096x4 (![0, 1, 2, 3] : Fin 4 → Fin 4) h x (ix4 i0 i1 i2 i3) = x (ix4 i0 (0 : Fin 1) i2 (0 : Fin 1)) :=
  broadcastInDim_apply _ h x _ _ (fun a => by fin_cases a <;> rfl)
@[rd_idx] theorem rd_slices_S16x64x4x2_S16x64x4x1_0_0_0_1 (h : S16x64x4x2.Slices ![0, 0, 0, 1] S16x64x4x1) (x : S16x64x4x2.Idx → α) (i0 : Fin 16) (i1 : Fin 64) (i2 : Fin 4) :
    extractStridedSlice S16x64x4x1 ![0, 0, 0, 1] x h (ix4 i0 i1 i2 (0 : Fin 1)) = x (ix4 i0 i1 i2 (1 : Fin 2)) :=
  extractStridedSlice_apply _ x h _ _ (fun a => by fin_cases a <;> first | rfl | exact (Nat.zero_add _).symm | exact Nat.add_comm _ _)
@[rd_idx] theorem rd_slices_S16x4096x2_S16x4096x1_0_0_1 (h : S16x4096x2.Slices ![0, 0, 1] S16x4096x1) (x : S16x4096x2.Idx → α) (i0 : Fin 16) (i1 : Fin 4096) :
    extractStridedSlice S16x4096x1 ![0, 0, 1] x h (ix3 i0 i1 (0 : Fin 1)) = x (ix3 i0 i1 (1 : Fin 2)) :=
  extractStridedSlice_apply _ x h _ _ (fun a => by fin_cases a <;> first | rfl | exact (Nat.zero_add _).symm | exact Nat.add_comm _ _)
@[rd_idx] theorem rd_bcast_S4096_S1x1x4096x1_2 (h : S4096.BroadcastsInDim S1x1x4096x1 (![2] : Fin 1 → Fin 4)) (x : S4096.Idx → α) (i0 : Fin 1) (i1 : Fin 1) (i2 : Fin 4096) (i3 : Fin 1) :
    broadcastInDim S1x1x4096x1 (![2] : Fin 1 → Fin 4) h x (ix4 i0 i1 i2 i3) = x (ix1 i2) :=
  broadcastInDim_apply _ h x _ _ (fun a => by fin_cases a <;> rfl)
@[rd_idx] theorem rd_bcast_S_S1x1x4096x1 (h : S_.BroadcastsInDim S1x1x4096x1 (![] : Fin 0 → Fin 4)) (x : S_.Idx → α) (i0 : Fin 1) (i1 : Fin 1) (i2 : Fin 4096) (i3 : Fin 1) :
    broadcastInDim S1x1x4096x1 (![] : Fin 0 → Fin 4) h x (ix4 i0 i1 i2 i3) = x (ix0) :=
  broadcastInDim_apply _ h x _ _ (fun a => by fin_cases a <;> rfl)
@[rd_idx] theorem rd_bcast_S1x1x4096x1_S16x64x4096x4_0_1_2_3 (h : S1x1x4096x1.BroadcastsInDim S16x64x4096x4 (![0, 1, 2, 3] : Fin 4 → Fin 4)) (x : S1x1x4096x1.Idx → α) (i0 : Fin 16) (i1 : Fin 64) (i2 : Fin 4096) (i3 : Fin 4) :
    broadcastInDim S16x64x4096x4 (![0, 1, 2, 3] : Fin 4 → Fin 4) h x (ix4 i0 i1 i2 i3) = x (ix4 (0 : Fin 1) (0 : Fin 1) i2 (0 : Fin 1)) :=
  broadcastInDim_apply _ h x _ _ (fun a => by fin_cases a <;> rfl)
@[rd_idx] theorem rd_bcast_S_S16x64x4096x4 (h : S_.BroadcastsInDim S16x64x4096x4 (![] : Fin 0 → Fin 4)) (x : S_.Idx → α) (i0 : Fin 16) (i1 : Fin 64) (i2 : Fin 4096) (i3 : Fin 4) :
    broadcastInDim S16x64x4096x4 (![] : Fin 0 → Fin 4) h x (ix4 i0 i1 i2 i3) = x (ix0) :=
  broadcastInDim_apply _ h x _ _ (fun a => by fin_cases a <;> rfl)
@[rd_idx] theorem rd_slices_S16x4096x4x2_S16x4096x4x1_0_0_0_0 (h : S16x4096x4x2.Slices ![0, 0, 0, 0] S16x4096x4x1) (x : S16x4096x4x2.Idx → α) (i0 : Fin 16) (i1 : Fin 4096) (i2 : Fin 4) :
    extractStridedSlice S16x4096x4x1 ![0, 0, 0, 0] x h (ix4 i0 i1 i2 (0 : Fin 1)) = x (ix4 i0 i1 i2 (0 : Fin 2)) :=
  extractStridedSlice_apply _ x h _ _ (fun a => by fin_cases a <;> first | rfl | exact (Nat.zero_add _).symm | exact Nat.add_comm _ _)
@[rd_idx] theorem rd_shapeCasts_S16x4096x4x1_S16x4096x4 (h : S16x4096x4x1.ShapeCasts S16x4096x4) (x : S16x4096x4x1.Idx → α) (i0 : Fin 16) (i1 : Fin 4096) (i2 : Fin 4) :
    shapeCast S16x4096x4 x h (ix3 i0 i1 i2) = x (ix4 i0 i1 i2 (0 : Fin 1)) :=
  shapeCast_apply x h _ _ (by
    rw [Shape.rowMajor_val_four, Shape.rowMajor_val_three]
    show (((i0.val * 4096 + i1.val) * 4 + i2.val) * 1 + 0) = ((i0.val * 4096 + i1.val) * 4 + i2.val)
    omega)
@[rd_idx] theorem rd_bcast_S16x4096x4_S16x1x4096x4_0_2_3 (h : S16x4096x4.BroadcastsInDim S16x1x4096x4 (![0, 2, 3] : Fin 3 → Fin 4)) (x : S16x4096x4.Idx → α) (i0 : Fin 16) (i1 : Fin 1) (i2 : Fin 4096) (i3 : Fin 4) :
    broadcastInDim S16x1x4096x4 (![0, 2, 3] : Fin 3 → Fin 4) h x (ix4 i0 i1 i2 i3) = x (ix3 i0 i2 i3) :=
  broadcastInDim_apply _ h x _ _ (fun a => by fin_cases a <;> rfl)
@[rd_idx] theorem rd_slices_S16x64x2_S16x64x1_0_0_0 (h : S16x64x2.Slices ![0, 0, 0] S16x64x1) (x : S16x64x2.Idx → α) (i0 : Fin 16) (i1 : Fin 64) :
    extractStridedSlice S16x64x1 ![0, 0, 0] x h (ix3 i0 i1 (0 : Fin 1)) = x (ix3 i0 i1 (0 : Fin 2)) :=
  extractStridedSlice_apply _ x h _ _ (fun a => by fin_cases a <;> first | rfl | exact (Nat.zero_add _).symm | exact Nat.add_comm _ _)
@[rd_idx] theorem rd_shapeCasts_S16x64x1_S16x64 (h : S16x64x1.ShapeCasts S16x64) (x : S16x64x1.Idx → α) (i0 : Fin 16) (i1 : Fin 64) :
    shapeCast S16x64 x h (ix2 i0 i1) = x (ix3 i0 i1 (0 : Fin 1)) :=
  shapeCast_apply x h _ _ (by
    rw [Shape.rowMajor_val_three, Shape.rowMajor_val_two]
    show ((i0.val * 64 + i1.val) * 1 + 0) = (i0.val * 64 + i1.val)
    omega)
@[rd_idx] theorem rd_bcast_S16x64_S16x64x1x1_0_1 (h : S16x64.BroadcastsInDim S16x64x1x1 (![0, 1] : Fin 2 → Fin 4)) (x : S16x64.Idx → α) (i0 : Fin 16) (i1 : Fin 64) (i2 : Fin 1) (i3 : Fin 1) :
    broadcastInDim S16x64x1x1 (![0, 1] : Fin 2 → Fin 4) h x (ix4 i0 i1 i2 i3) = x (ix2 i0 i1) :=
  broadcastInDim_apply _ h x _ _ (fun a => by fin_cases a <;> rfl)
@[rd_idx] theorem rd_bcast_S16x1x4096x4_S16x64x4096x4_0_1_2_3 (h : S16x1x4096x4.BroadcastsInDim S16x64x4096x4 (![0, 1, 2, 3] : Fin 4 → Fin 4)) (x : S16x1x4096x4.Idx → α) (i0 : Fin 16) (i1 : Fin 64) (i2 : Fin 4096) (i3 : Fin 4) :
    broadcastInDim S16x64x4096x4 (![0, 1, 2, 3] : Fin 4 → Fin 4) h x (ix4 i0 i1 i2 i3) = x (ix4 i0 (0 : Fin 1) i2 i3) :=
  broadcastInDim_apply _ h x _ _ (fun a => by fin_cases a <;> rfl)
@[rd_idx] theorem rd_bcast_S16x64x1x1_S16x64x4096x4_0_1_2_3 (h : S16x64x1x1.BroadcastsInDim S16x64x4096x4 (![0, 1, 2, 3] : Fin 4 → Fin 4)) (x : S16x64x1x1.Idx → α) (i0 : Fin 16) (i1 : Fin 64) (i2 : Fin 4096) (i3 : Fin 4) :
    broadcastInDim S16x64x4096x4 (![0, 1, 2, 3] : Fin 4 → Fin 4) h x (ix4 i0 i1 i2 i3) = x (ix4 i0 i1 (0 : Fin 1) (0 : Fin 1)) :=
  broadcastInDim_apply _ h x _ _ (fun a => by fin_cases a <;> rfl)
@[rd_idx] theorem rd_slices_S16x4096x4x2_S16x4096x4x1_0_0_0_1 (h : S16x4096x4x2.Slices ![0, 0, 0, 1] S16x4096x4x1) (x : S16x4096x4x2.Idx → α) (i0 : Fin 16) (i1 : Fin 4096) (i2 : Fin 4) :
    extractStridedSlice S16x4096x4x1 ![0, 0, 0, 1] x h (ix4 i0 i1 i2 (0 : Fin 1)) = x (ix4 i0 i1 i2 (1 : Fin 2)) :=
  extractStridedSlice_apply _ x h _ _ (fun a => by fin_cases a <;> first | rfl | exact (Nat.zero_add _).symm | exact Nat.add_comm _ _)
@[rd_idx] theorem rd_slices_S16x64x2_S16x64x1_0_0_1 (h : S16x64x2.Slices ![0, 0, 1] S16x64x1) (x : S16x64x2.Idx → α) (i0 : Fin 16) (i1 : Fin 64) :
    extractStridedSlice S16x64x1 ![0, 0, 1] x h (ix3 i0 i1 (0 : Fin 1)) = x (ix3 i0 i1 (1 : Fin 2)) :=
  extractStridedSlice_apply _ x h _ _ (fun a => by fin_cases a <;> first | rfl | exact (Nat.zero_add _).symm | exact Nat.add_comm _ _)
@[rd_idx] theorem rd_slices_S64x4_S64x1_0_0 (h : S64x4.Slices ![0, 0] S64x1) (x : S64x4.Idx → α) (i0 : Fin 64) :
    extractStridedSlice S64x1 ![0, 0] x h (ix2 i0 (0 : Fin 1)) = x (ix2 i0 (0 : Fin 4)) :=
  extractStridedSlice_apply _ x h _ _ (fun a => by fin_cases a <;> first | rfl | exact (Nat.zero_add _).symm | exact Nat.add_comm _ _)
@[rd_idx] theorem rd_shapeCasts_S64x1_S64 (h : S64x1.ShapeCasts S64) (x : S64x1.Idx → α) (i0 : Fin 64) :
    shapeCast S64 x h (ix1 i0) = x (ix2 i0 (0 : Fin 1)) :=
  shapeCast_apply x h _ _ (by
    rw [Shape.rowMajor_val_two, Shape.rowMajor_val_one]
    show (i0.val * 1 + 0) = i0.val
    omega)
@[rd_idx] theorem rd_bcast_S64_S1x64x1x1_1 (h : S64.BroadcastsInDim S1x64x1x1 (![1] : Fin 1 → Fin 4)) (x : S64.Idx → α) (i0 : Fin 1) (i1 : Fin 64) (i2 : Fin 1) (i3 : Fin 1) :
    broadcastInDim S1x64x1x1 (![1] : Fin 1 → Fin 4) h x (ix4 i0 i1 i2 i3) = x (ix1 i1) :=
  broadcastInDim_apply _ h x _ _ (fun a => by fin_cases a <;> rfl)
@[rd_idx] theorem rd_slices_S64x4_S64x1_0_1 (h : S64x4.Slices ![0, 1] S64x1) (x : S64x4.Idx → α) (i0 : Fin 64) :
    extractStridedSlice S64x1 ![0, 1] x h (ix2 i0 (0 : Fin 1)) = x (ix2 i0 (1 : Fin 4)) :=
  extractStridedSlice_apply _ x h _ _ (fun a => by fin_cases a <;> first | rfl | exact (Nat.zero_add _).symm | exact Nat.add_comm _ _)
@[rd_idx] theorem rd_slices_S64x4_S64x1_0_2 (h : S64x4.Slices ![0, 2] S64x1) (x : S64x4.Idx → α) (i0 : Fin 64) :
    extractStridedSlice S64x1 ![0, 2] x h (ix2 i0 (0 : Fin 1)) = x (ix2 i0 (2 : Fin 4)) :=
  extractStridedSlice_apply _ x h _ _ (fun a => by fin_cases a <;> first | rfl | exact (Nat.zero_add _).symm | exact Nat.add_comm _ _)
@[rd_idx] theorem rd_slices_S64x4_S64x1_0_3 (h : S64x4.Slices ![0, 3] S64x1) (x : S64x4.Idx → α) (i0 : Fin 64) :
    extractStridedSlice S64x1 ![0, 3] x h (ix2 i0 (0 : Fin 1)) = x (ix2 i0 (3 : Fin 4)) :=
  extractStridedSlice_apply _ x h _ _ (fun a => by fin_cases a <;> first | rfl | exact (Nat.zero_add _).symm | exact Nat.add_comm _ _)
@[rd_idx] theorem rd_bcast_S_S1x64x1x1 (h : S_.BroadcastsInDim S1x64x1x1 (![] : Fin 0 → Fin 4)) (x : S_.Idx → α) (i0 : Fin 1) (i1 : Fin 64) (i2 : Fin 1) (i3 : Fin 1) :
    broadcastInDim S1x64x1x1 (![] : Fin 0 → Fin 4) h x (ix4 i0 i1 i2 i3) = x (ix0) :=
  broadcastInDim_apply _ h x _ _ (fun a => by fin_cases a <;> rfl)
@[rd_idx] theorem rd_bcast_S1x64x1x1_S16x64x4096x4_0_1_2_3 (h : S1x64x1x1.BroadcastsInDim S16x64x4096x4 (![0, 1, 2, 3] : Fin 4 → Fin 4)) (x : S1x64x1x1.Idx → α) (i0 : Fin 16) (i1 : Fin 64) (i2 : Fin 4096) (i3 : Fin 4) :
    broadcastInDim S16x64x4096x4 (![0, 1, 2, 3] : Fin 4 → Fin 4) h x (ix4 i0 i1 i2 i3) = x (ix4 (0 : Fin 1) i1 (0 : Fin 1) (0 : Fin 1)) :=
  broadcastInDim_apply _ h x _ _ (fun a => by fin_cases a <;> rfl)

end Cert.Hand.RefVal

end
-- ==== Proof.Ref.ValRead.lean ====
import proofs.«124939_j34651796144492_2_alg».proof.ReferenceIdeal
import proofs.«124939_j34651796144492_2_alg».proof.Proof.Spec
import Idealize.ShloMosaic.Lib.Pipeline.Value
import Idealize.ShloMosaic.Lib.ValueIdx
import Idealize.ShloMosaic.PureOps.Reduce
import Idealize.ShloMosaic.PureOps.Ideal.Laws
import proofs.«124939_j34651796144492_2_alg».proof.Proof.Ref.ValAttr

/-!
The operations on the way to A and B that are not plain layout, each read at an index given by its coordinates.

A gather by ego_index reads, on the agent axis, the row of the start word: the word read as a signed integer and clamped
into the 4096 rows; on every other axis it reads the coordinate itself. The two concatenations put the four local corner
coordinates (and the two global coordinates) side by side, so at a coordinate q they read the q-th piece. The reduction
over the four corners starts from the word of −∞ and folds the maximum, in any order since the maximum is commutative
and associative. The integer operations on the index words are read pointwise.
-/

noncomputable section

namespace Cert.Hand.RefVal

open Idealize.ShloMosaic Idealize.ShloMosaic.ValueIdx Cert.ReferenceIdeal

variable {α : Type} [Cert.ReferenceIdeal.Facts₀]

/-- The row a gather reads for the start word e: read signed, clamped into the 4096 rows. -/
def clampRow (e : BitVec 32) : Fin 4096 := ⟨min e.toInt.toNat 4095, by omega⟩

/-- The specification's row of an index word is the clamped row of the normalised word. -/
theorem rowOf_eq (e : BitVec 32) : Cert.Hand.Spec.rowOf e = clampRow (Cert.Hand.Spec.normIdx e) := rfl

/-! ## The four gathers by ego_index -/

@[rd_idx] theorem rd_gather_pos (x : S16x4096x2.Idx → α) (idx : IVec S64x1 32) (t : Fin 16) (i : Fin 64) (c : Fin 2) :
    Host.gather gather_S16x4096x2_S64x1_S16x64x2_02_1_n_n_1_1_1612 x idx (ix3 t i c) = x (ix3 t (clampRow (idx (ix2 i (0 : Fin 1)))) c) := by
  unfold Host.gather
  congr 1
  funext a
  apply Fin.ext
  have hsi : gather_S16x4096x2_S64x1_S16x64x2_02_1_n_n_1_1_1612.siIdx (ix3 t i c) ⟨0, Nat.zero_lt_one⟩ = ix2 i (0 : Fin 1) := by
    funext b; apply Fin.ext; fin_cases b <;> rfl
  fin_cases a
  · have h1 : gather_S16x4096x2_S64x1_S16x64x2_02_1_n_n_1_1_1612.start (ix3 t i c) idx ⟨0, by decide⟩ = 0 := rfl
    have h2 : gather_S16x4096x2_S64x1_S16x64x2_02_1_n_n_1_1_1612.batchCoord (ix3 t i c) ⟨0, by decide⟩ = 0 := rfl
    have h3 : gather_S16x4096x2_S64x1_S16x64x2_02_1_n_n_1_1_1612.offCoord (ix3 t i c) ⟨0, by decide⟩ = t.val := rfl
    show _ + _ + _ = t.val
    rw [h1, h2, h3]; omega
  · have h1 : gather_S16x4096x2_S64x1_S16x64x2_02_1_n_n_1_1_1612.start (ix3 t i c) idx ⟨1, by decide⟩
        = min (idx (gather_S16x4096x2_S64x1_S16x64x2_02_1_n_n_1_1_1612.siIdx (ix3 t i c) ⟨0, Nat.zero_lt_one⟩)).toInt.toNat 4095 := rfl
    have h2 : gather_S16x4096x2_S64x1_S16x64x2_02_1_n_n_1_1_1612.batchCoord (ix3 t i c) ⟨1, by decide⟩ = 0 := rfl
    have h3 : gather_S16x4096x2_S64x1_S16x64x2_02_1_n_n_1_1_1612.offCoord (ix3 t i c) ⟨1, by decide⟩ = 0 := rfl
    show _ + _ + _ = min (idx (ix2 i (0 : Fin 1))).toInt.toNat 4095
    rw [h1, h2, h3, hsi]; omega
  · have h1 : gather_S16x4096x2_S64x1_S16x64x2_02_1_n_n_1_1_1612.start (ix3 t i c) idx ⟨2, by decide⟩ = 0 := rfl
    have h2 : gather_S16x4096x2_S64x1_S16x64x2_02_1_n_n_1_1_1612.batchCoord (ix3 t i c) ⟨2, by decide⟩ = 0 := rfl
    have h3 : gather_S16x4096x2_S64x1_S16x64x2_02_1_n_n_1_1_1612.offCoord (ix3 t i c) ⟨2, by decide⟩ = c.val := rfl
    show _ + _ + _ = c.val
    rw [h1, h2, h3]; omega

@[rd_idx] theorem rd_gather_yaw (x : S16x4096.Idx → α) (idx : IVec S64x1 32) (t : Fin 16) (i : Fin 64) :
    Host.gather gather_S16x4096_S64x1_S16x64_0_1_n_n_1_1_161 x idx (ix2 t i) = x (ix2 t (clampRow (idx (ix2 i (0 : Fin 1))))) := by
  unfold Host.gather
  congr 1
  funext a
  apply Fin.ext
  have hsi : gather_S16x4096_S64x1_S16x64_0_1_n_n_1_1_161.siIdx (ix2 t i) ⟨0, Nat.zero_lt_one⟩ = ix2 i (0 : Fin 1) := by
    funext b; apply Fin.ext; fin_cases b <;> rfl
  fin_cases a
  · have h1 : gather_S16x4096_S64x1_S16x64_0_1_n_n_1_1_161.start (ix2 t i) idx ⟨0, by decide⟩ = 0 := rfl
    have h2 : gather_S16x4096_S64x1_S16x64_0_1_n_n_1_1_161.batchCoord (ix2 t i) ⟨0, by decide⟩ = 0 := rfl
    have h3 : gather_S16x4096_S64x1_S16x64_0_1_n_n_1_1_161.offCoord (ix2 t i) ⟨0, by decide⟩ = t.val := rfl
    show _ + _ + _ = t.val
    rw [h1, h2, h3]; omega
  · have h1 : gather_S16x4096_S64x1_S16x64_0_1_n_n_1_1_161.start (ix2 t i) idx ⟨1, by decide⟩
        = min (idx (gather_S16x4096_S64x1_S16x64_0_1_n_n_1_1_161.siIdx (ix2 t i) ⟨0, Nat.zero_lt_one⟩)).toInt.toNat 4095 := rfl
    have h2 : gather_S16x4096_S64x1_S16x64_0_1_n_n_1_1_161.batchCoord (ix2 t i) ⟨1, by decide⟩ = 0 := rfl
    have h3 : gather_S16x4096_S64x1_S16x64_0_1_n_n_1_1_161.offCoord (ix2 t i) ⟨1, by decide⟩ = 0 := rfl
    show _ + _ + _ = min (idx (ix2 i (0 : Fin 1))).toInt.toNat 4095
    rw [h1, h2, h3, hsi]; omega

@[rd_idx] theorem rd_gather_corn (x : S16x4096x4x2.Idx → α) (idx : IVec S64x1 32) (t : Fin 16) (i : Fin 64) (q : Fin 4) (c : Fin 2) :
    Host.gather gather_S16x4096x4x2_S64x1_S16x64x4x2_023_1_n_n_1_1_16142 x idx (ix4 t i q c) = x (ix4 t (clampRow (idx (ix2 i (0 : Fin 1)))) q c) := by
  unfold Host.gather
  congr 1
  funext a
  apply Fin.ext
  have hsi : gather_S16x4096x4x2_S64x1_S16x64x4x2_023_1_n_n_1_1_16142.siIdx (ix4 t i q c) ⟨0, Nat.zero_lt_one⟩ = ix2 i (0 : Fin 1) := by
    funext b; apply Fin.ext; fin_cases b <;> rfl
  fin_cases a
  · have h1 : gather_S16x4096x4x2_S64x1_S16x64x4x2_023_1_n_n_1_1_16142.start (ix4 t i q c) idx ⟨0, by decide⟩ = 0 := rfl
    have h2 : gather_S16x4096x4x2_S64x1_S16x64x4x2_023_1_n_n_1_1_16142.batchCoord (ix4 t i q c) ⟨0, by decide⟩ = 0 := rfl
    have h3 : gather_S16x4096x4x2_S64x1_S16x64x4x2_023_1_n_n_1_1_16142.offCoord (ix4 t i q c) ⟨0, by decide⟩ = t.val := rfl
    show _ + _ + _ = t.val
    rw [h1, h2, h3]; omega
  · have h1 : gather_S16x4096x4x2_S64x1_S16x64x4x2_023_1_n_n_1_1_16142.start (ix4 t i q c) idx ⟨1, by decide⟩
        = min (idx (gather_S16x4096x4x2_S64x1_S16x64x4x2_023_1_n_n_1_1_16142.siIdx (ix4 t i q c) ⟨0, Nat.zero_lt_one⟩)).toInt.toNat 4095 := rfl
    have h2 : gather_S16x4096x4x2_S64x1_S16x64x4x2_023_1_n_n_1_1_16142.batchCoord (ix4 t i q c) ⟨1, by decide⟩ = 0 := rfl
    have h3 : gather_S16x4096x4x2_S64x1_S16x64x4x2_023_1_n_n_1_1_16142.offCoord (ix4 t i q c) ⟨1, by decide⟩ = 0 := rfl
    show _ + _ + _ = min (idx (ix2 i (0 : Fin 1))).toInt.toNat 4095
    rw [h1, h2, h3, hsi]; omega
  · have h1 : gather_S16x4096x4x2_S64x1_S16x64x4x2_023_1_n_n_1_1_16142.start (ix4 t i q c) idx ⟨2, by decide⟩ = 0 := rfl
    have h2 : gather_S16x4096x4x2_S64x1_S16x64x4x2_023_1_n_n_1_1_16142.batchCoord (ix4 t i q c) ⟨2, by decide⟩ = 0 := rfl
    have h3 : gather_S16x4096x4x2_S64x1_S16x64x4x2_023_1_n_n_1_1_16142.offCoord (ix4 t i q c) ⟨2, by decide⟩ = q.val := rfl
    show _ + _ + _ = q.val
    rw [h1, h2, h3]; omega
  · have h1 : gather_S16x4096x4x2_S64x1_S16x64x4x2_023_1_n_n_1_1_16142.start (ix4 t i q c) idx ⟨3, by decide⟩ = 0 := rfl
    have h2 : gather_S16x4096x4x2_S64x1_S16x64x4x2_023_1_n_n_1_1_16142.batchCoord (ix4 t i q c) ⟨3, by decide⟩ = 0 := rfl
    have h3 : gather_S16x4096x4x2_S64x1_S16x64x4x2_023_1_n_n_1_1_16142.offCoord (ix4 t i q c) ⟨3, by decide⟩ = c.val := rfl
    show _ + _ + _ = c.val
    rw [h1, h2, h3]; omega

@[rd_idx] theorem rd_gather_box (x : S4096x4.Idx → α) (idx : IVec S64x1 32) (i : Fin 64) (k : Fin 4) :
    Host.gather gather_S4096x4_S64x1_S64x4_1_0_n_n_0_1_14 x idx (ix2 i k) = x (ix2 (clampRow (idx (ix2 i (0 : Fin 1)))) k) := by
  unfold Host.gather
  congr 1
  funext a
  apply Fin.ext
  have hsi : gather_S4096x4_S64x1_S64x4_1_0_n_n_0_1_14.siIdx (ix2 i k) ⟨0, Nat.zero_lt_one⟩ = ix2 i (0 : Fin 1) := by
    funext b; apply Fin.ext; fin_cases b <;> rfl
  fin_cases a
  · have h1 : gather_S4096x4_S64x1_S64x4_1_0_n_n_0_1_14.start (ix2 i k) idx ⟨0, by decide⟩
        = min (idx (gather_S4096x4_S64x1_S64x4_1_0_n_n_0_1_14.siIdx (ix2 i k) ⟨0, Nat.zero_lt_one⟩)).toInt.toNat 4095 := rfl
    have h2 : gather_S4096x4_S64x1_S64x4_1_0_n_n_0_1_14.batchCoord (ix2 i k) ⟨0, by decide⟩ = 0 := rfl
    have h3 : gather_S4096x4_S64x1_S64x4_1_0_n_n_0_1_14.offCoord (ix2 i k) ⟨0, by decide⟩ = 0 := rfl
    show _ + _ + _ = min (idx (ix2 i (0 : Fin 1))).toInt.toNat 4095
    rw [h1, h2, h3, hsi]; omega
  · have h1 : gather_S4096x4_S64x1_S64x4_1_0_n_n_0_1_14.start (ix2 i k) idx ⟨1, by decide⟩ = 0 := rfl
    have h2 : gather_S4096x4_S64x1_S64x4_1_0_n_n_0_1_14.batchCoord (ix2 i k) ⟨1, by decide⟩ = 0 := rfl
    have h3 : gather_S4096x4_S64x1_S64x4_1_0_n_n_0_1_14.offCoord (ix2 i k) ⟨1, by decide⟩ = k.val := rfl
    show _ + _ + _ = k.val
    rw [h1, h2, h3]; omega

/-! ## The two concatenations -/

/-- Four columns side by side, read at column q: the q-th of them. -/
@[rd_idx] theorem rd_concat4 (h : Shape.Concatenates [S4096x1, S4096x1, S4096x1, S4096x1] S4096x4 1)
    (x0 x1 x2 x3 : S4096x1.Idx → α) (n : Fin 4096) (q : Fin 4) :
    concatenate S4096x4 1 [⟨S4096x1, x0⟩, ⟨S4096x1, x1⟩, ⟨S4096x1, x2⟩, ⟨S4096x1, x3⟩] h (ix2 n q)
      = ![x0 (ix2 n (0 : Fin 1)), x1 (ix2 n (0 : Fin 1)), x2 (ix2 n (0 : Fin 1)), x3 (ix2 n (0 : Fin 1))] q := by
  fin_cases q
  · exact concatenate_apply_piece (t := S4096x4) 1 [⟨S4096x1, x0⟩, ⟨S4096x1, x1⟩, ⟨S4096x1, x2⟩, ⟨S4096x1, x3⟩] h _ 0 (by simp) S4096x1 x0 rfl rfl 0 rfl (ix2 n (0 : Fin 1))
      (fun b hb => by fin_cases b <;> first | rfl | exact absurd rfl hb) rfl
  · exact concatenate_apply_piece (t := S4096x4) 1 [⟨S4096x1, x0⟩, ⟨S4096x1, x1⟩, ⟨S4096x1, x2⟩, ⟨S4096x1, x3⟩] h _ 1 (by simp) S4096x1 x1 rfl rfl 1 rfl (ix2 n (0 : Fin 1))
      (fun b hb => by fin_cases b <;> first | rfl | exact absurd rfl hb) rfl
  · exact concatenate_apply_piece (t := S4096x4) 1 [⟨S4096x1, x0⟩, ⟨S4096x1, x1⟩, ⟨S4096x1, x2⟩, ⟨S4096x1, x3⟩] h _ 2 (by simp) S4096x1 x2 rfl rfl 2 rfl (ix2 n (0 : Fin 1))
      (fun b hb => by fin_cases b <;> first | rfl | exact absurd rfl hb) rfl
  · exact concatenate_apply_piece (t := S4096x4) 1 [⟨S4096x1, x0⟩, ⟨S4096x1, x1⟩, ⟨S4096x1, x2⟩, ⟨S4096x1, x3⟩] h _ 3 (by simp) S4096x1 x3 rfl rfl 3 rfl (ix2 n (0 : Fin 1))
      (fun b hb => by fin_cases b <;> first | rfl | exact absurd rfl hb) rfl

/-- The x and the y coordinate side by side on the last axis, read at 0: the x coordinate. -/
@[rd_idx] theorem rd_concat2_x (h : Shape.Concatenates [S4096x16x4x1, S4096x16x4x1] S4096x16x4x2 3)
    (x0 x1 : S4096x16x4x1.Idx → α) (n : Fin 4096) (t : Fin 16) (q : Fin 4) :
    concatenate S4096x16x4x2 3 [⟨S4096x16x4x1, x0⟩, ⟨S4096x16x4x1, x1⟩] h (ix4 n t q (0 : Fin 2)) = x0 (ix4 n t q (0 : Fin 1)) :=
  concatenate_apply_piece (t := S4096x16x4x2) 3 [⟨S4096x16x4x1, x0⟩, ⟨S4096x16x4x1, x1⟩] h _ 0 (by simp) S4096x16x4x1 x0 rfl rfl 0 rfl (ix4 n t q (0 : Fin 1))
    (fun b hb => by fin_cases b <;> first | rfl | exact absurd rfl hb) rfl

/-- … read at 1: the y coordinate. -/
@[rd_idx] theorem rd_concat2_y (h : Shape.Concatenates [S4096x16x4x1, S4096x16x4x1] S4096x16x4x2 3)
    (x0 x1 : S4096x16x4x1.Idx → α) (n : Fin 4096) (t : Fin 16) (q : Fin 4) :
    concatenate S4096x16x4x2 3 [⟨S4096x16x4x1, x0⟩, ⟨S4096x16x4x1, x1⟩] h (ix4 n t q (1 : Fin 2)) = x1 (ix4 n t q (0 : Fin 1)) :=
  concatenate_apply_piece (t := S4096x16x4x2) 3 [⟨S4096x16x4x1, x0⟩, ⟨S4096x16x4x1, x1⟩] h _ 1 (by simp) S4096x16x4x1 x1 rfl rfl 1 rfl (ix4 n t q (0 : Fin 1))
    (fun b hb => by fin_cases b <;> first | rfl | exact absurd rfl hb) rfl

/-! ## The maximum over the four corners -/

/-- The word 0xFF800000 is −∞. -/
theorem ofBits_neg_inf : Ideal.ofBits .f32 0xFF800000#32 = (⊥ : EReal) := by
  simp [Ideal.ofBits, Ideal.ieee]

/-- The word 0x00000000 is 0. -/
theorem ofBits_zero : Ideal.ofBits .f32 0x00000000#32 = (0 : EReal) := Ideal.ofBits_zero_f32

/-- A fold over four values of a commutative, associative operation, from b, in the order 0, 1, 2, 3. -/
theorem fold_univ_fin4 {β : Type} (f : β → β → β) [Std.Commutative f] [Std.Associative f] (b : β) (g : Fin 4 → β) :
    (Finset.univ : Finset (Fin 4)).fold f b g = f (f (f (f b (g 0)) (g 1)) (g 2)) (g 3) := by
  simp only [Fin.univ_succ, Finset.fold_cons, Finset.fold_map, Finset.univ_unique, Finset.fold_singleton]
  show f (g 0) (f (g 1) (f (g 2) (f (g 3) b))) = _
  ac_rfl

/-- The reduction over the corner axis from −∞ with a maximum body, at (t, i, j): the running maximum of the four corners. -/
@[rd_idx] theorem rd_reduce_max (h' : S16x64x4096x4.ReducesTo [3] S16x64x4096) (hu : 0 < S_.numel) (x : FVec Ideal S16x64x4096x4 .f32)
    (t : Fin 16) (i : Fin 64) (j : Fin 4096) :
    Host.reduce (FloatOps.maximumf (F := Ideal) (φ := .f32)) x (constant (F := Ideal) S_ .f32 0xFF800000#32) h' hu (ix3 t i j)
      = max (max (max (max ⊥ (x (ix4 t i j (0 : Fin 4)))) (x (ix4 t i j (1 : Fin 4)))) (x (ix4 t i j (2 : Fin 4)))) (x (ix4 t i j (3 : Fin 4))) := by
  have h : S16x64x4096x4.Reduces [3] S16x64x4096 := by decide
  rw [Host.reduce_eq_fold_single (FloatOps.maximumf (F := Ideal) (φ := .f32)) x _ h' h hu]
  have hf : (x ∘ h.lift (ix3 t i j)) = fun k : Fin 4 => x (ix4 t i j k) :=
    funext fun k => congrArg x (funext fun c => Fin.ext (by fin_cases c <;> rfl))
  have e := fold_univ_fin4 (max : EReal → EReal → EReal) (⊥ : EReal) (fun k : Fin 4 => x (ix4 t i j k))
  refine Eq.trans ?_ e
  rw [← ofBits_neg_inf]
  exact congrArg (fun f => Finset.fold max (Ideal.ofBits .f32 0xFF800000#32) f (Finset.univ : Finset (Fin 4))) hf

/-! ## Integer operations on the index words, pointwise -/

section Words
variable {s : Shape} {w : Nat}
@[rd_idx] theorem cmpi_apply (p : CmpIPredicate) (x y : IVec s w) (i : s.Idx) : cmpi p x y i = IntOp.cmpi p (x i) (y i) := rfl
@[rd_idx] theorem addi_apply (x y : IVec s w) (i : s.Idx) : addi x y i = IntOp.addi (x i) (y i) := rfl
@[rd_idx] theorem constantI_apply (b : BitVec w) (i : s.Idx) : constantI s w b i = b := rfl
/-- The host's negation, cosine and sine at the ideal instance, pointwise. -/
@[rd_idx] theorem hostNegf_apply {φ : FTy} (x : FVec Ideal s φ) (i : s.Idx) : Host.negf x i = -(x i) := rfl
@[rd_idx] theorem hostCos_apply {φ : FTy} (x : FVec Ideal s φ) (i : s.Idx) : Host.cos x i = Ideal.cos (x i) := rfl
@[rd_idx] theorem hostSin_apply {φ : FTy} (x : FVec Ideal s φ) (i : s.Idx) : Host.sin x i = Ideal.sin (x i) := rfl
end Words

end Cert.Hand.RefVal

end
-- ==== Proof.Ref.ValCorner.lean ====
import proofs.«124939_j34651796144492_2_alg».proof.Proof.Ref.ValStages
import proofs.«124939_j34651796144492_2_alg».proof.Proof.Ref.ValLayout
import proofs.«124939_j34651796144492_2_alg».proof.Proof.Ref.ValRead
import proofs.«124939_j34651796144492_2_alg».proof.Proof.Spec

/-!
The quantities A and B share, read at an index: the four half-extents of an agent's box, the local coordinates of its four
corners (f, f, −r, −r) and (l, −rt, −rt, l), the cosine and sine of its heading at a time step, the global coordinates of
its corners (px + c·lx − s·ly, py + s·lx + c·ly), the same after the time axis is moved to the front, and the rows the
gathers by ego_index read: the row of the normalised, clamped index word of ego i.
-/

noncomputable section

namespace Cert.Hand.RefVal

open Idealize.ShloMosaic Idealize.ShloMosaic.ValueIdx Cert.ReferenceIdeal Cert.Hand

variable [Cert.ReferenceIdeal.Facts₀]
variable (a0 : (⟨S4096x20x2, .f32⟩ : BufTy).Contents (Elt Ideal)) (a1 : (⟨S4096x20, .f32⟩ : BufTy).Contents (Elt Ideal))
  (a3 : (⟨S4096x4, .f32⟩ : BufTy).Contents (Elt Ideal)) (a5 : (⟨S64, .i32⟩ : BufTy).Contents (Elt Ideal))

/-! ## The box's half-extents -/

theorem f_apply (n : Fin 4096) : v4 a3 (ix1 n) = a3 (ix2 n (0 : Fin 4)) := by simp only [v4, v3, rd_idx]
theorem r_apply (n : Fin 4096) : v6 a3 (ix1 n) = a3 (ix2 n (1 : Fin 4)) := by simp only [v6, v5, rd_idx]
theorem l_apply (n : Fin 4096) : v8 a3 (ix1 n) = a3 (ix2 n (2 : Fin 4)) := by simp only [v8, v7, rd_idx]
theorem rt_apply (n : Fin 4096) : v10 a3 (ix1 n) = a3 (ix2 n (3 : Fin 4)) := by simp only [v10, v9, rd_idx]

/-! ## The corners' local coordinates -/

/-- Local x of corner q of agent n: f, f, −r, −r. -/
theorem lx_apply (n : Fin 4096) (u : Fin 1) (q : Fin 4) :
    v18 a3 (ix3 n u q) = ![a3 (ix2 n (0 : Fin 4)), a3 (ix2 n (0 : Fin 4)), -a3 (ix2 n (1 : Fin 4)), -a3 (ix2 n (1 : Fin 4))] q := by
  simp only [v18, v17, v13, v14, v15, v16, v11, v12, f_apply, r_apply, rd_idx]

/-- Local y of corner q of agent n: l, −rt, −rt, l. -/
theorem ly_apply (n : Fin 4096) (u : Fin 1) (q : Fin 4) :
    v26 a3 (ix3 n u q) = ![a3 (ix2 n (2 : Fin 4)), -a3 (ix2 n (3 : Fin 4)), -a3 (ix2 n (3 : Fin 4)), a3 (ix2 n (2 : Fin 4))] q := by
  simp only [v26, v25, v21, v22, v23, v24, v19, v20, l_apply, rt_apply, rd_idx]

/-! ## Cosine and sine of the heading -/

theorem cosN_apply (n : Fin 4096) (t : Fin 16) (u : Fin 1) : v28 a1 (ix3 n t u) = Ideal.cos (a1 (ix2 n (Spec.step t))) := by
  simp only [v28, v27, v1, rd_idx]
theorem sinN_apply (n : Fin 4096) (t : Fin 16) (u : Fin 1) : v30 a1 (ix3 n t u) = Ideal.sin (a1 (ix2 n (Spec.step t))) := by
  simp only [v30, v29, v1, rd_idx]

/-! ## The corners' global coordinates -/

/-- Global x of corner q of agent n at step t. -/
theorem gx_apply (n : Fin 4096) (t : Fin 16) (q : Fin 4) :
    v40 a0 a1 a3 (ix3 n t q) = Spec.cornX (Spec.agentAt a0 a1 a3 t n) q := by
  simp only [v40, v36, v39, v35, v34, v32, v33, v37, v38, v31, v0, cosN_apply, sinN_apply, lx_apply, ly_apply, rd_idx,
    subf_apply, addf_apply, mulf_apply]
  rfl

/-- Global y of corner q of agent n at step t. -/
theorem gy_apply (n : Fin 4096) (t : Fin 16) (q : Fin 4) :
    v50 a0 a1 a3 (ix3 n t q) = Spec.cornY (Spec.agentAt a0 a1 a3 t n) q := by
  simp only [v50, v46, v49, v45, v44, v42, v43, v47, v48, v41, v0, cosN_apply, sinN_apply, lx_apply, ly_apply, rd_idx,
    addf_apply, mulf_apply]
  rfl

theorem corn_x (n : Fin 4096) (t : Fin 16) (q : Fin 4) :
    v53 a0 a1 a3 (ix4 n t q (0 : Fin 2)) = Spec.cornX (Spec.agentAt a0 a1 a3 t n) q := by
  simp only [v53, v51, gx_apply, rd_idx]
theorem corn_y (n : Fin 4096) (t : Fin 16) (q : Fin 4) :
    v53 a0 a1 a3 (ix4 n t q (1 : Fin 2)) = Spec.cornY (Spec.agentAt a0 a1 a3 t n) q := by
  simp only [v53, v52, gy_apply, rd_idx]

/-- … with the time axis in front. -/
theorem cornT_x (t : Fin 16) (n : Fin 4096) (q : Fin 4) :
    v57 a0 a1 a3 (ix4 t n q (0 : Fin 2)) = Spec.cornX (Spec.agentAt a0 a1 a3 t n) q := by
  simp only [v57, corn_x, rd_idx]
theorem cornT_y (t : Fin 16) (n : Fin 4096) (q : Fin 4) :
    v57 a0 a1 a3 (ix4 t n q (1 : Fin 2)) = Spec.cornY (Spec.agentAt a0 a1 a3 t n) q := by
  simp only [v57, corn_y, rd_idx]

/-! ## Position and heading with the time axis in front -/

theorem posT_apply (t : Fin 16) (n : Fin 4096) (k : Fin 2) : v54 a0 (ix3 t n k) = a0 (ix3 n (Spec.step t) k) := by
  simp only [v54, v0, rd_idx]
theorem yawT_apply (t : Fin 16) (n : Fin 4096) : v55 a1 (ix2 t n) = a1 (ix2 n (Spec.step t)) := by
  simp only [v55, v1, rd_idx]

/-! ## The start words of the gathers: ego_index normalised (each gather has its own copy of the same operations) -/

theorem eidx63 (i : Fin 64) : v63 a5 (ix2 i (0 : Fin 1)) = Spec.normIdx (a5 (ix1 i)) := by
  simp only [v63, v62, v59, v61, v58, v60, RefVal.c, c_0, rd_idx, select_apply]; rfl
theorem eidx70 (i : Fin 64) : v70 a5 (ix2 i (0 : Fin 1)) = Spec.normIdx (a5 (ix1 i)) := by
  simp only [v70, v69, v66, v68, v65, v67, c_1, c_2, rd_idx, select_apply]; rfl
theorem eidx84 (i : Fin 64) : v84 a5 (ix2 i (0 : Fin 1)) = Spec.normIdx (a5 (ix1 i)) := by
  simp only [v84, v83, v80, v82, v79, v81, c_5, c_6, rd_idx, select_apply]; rfl
theorem eidx98 (i : Fin 64) : v98 a5 (ix2 i (0 : Fin 1)) = Spec.normIdx (a5 (ix1 i)) := by
  simp only [v98, v97, v94, v96, v93, v95, c_9, c_10, rd_idx, select_apply]; rfl

/-! ## The ego's position, heading, corners and box: the agent's at the ego's row -/

theorem epos_apply (t : Fin 16) (i : Fin 64) (k : Fin 2) :
    v64 a0 a5 (ix3 t i k) = a0 (ix3 (Spec.egoRow a5 i) (Spec.step t) k) := by
  simp only [v64, eidx63, posT_apply, rd_idx]; rfl
theorem eyaw_apply (t : Fin 16) (i : Fin 64) :
    v71 a1 a5 (ix2 t i) = a1 (ix2 (Spec.egoRow a5 i) (Spec.step t)) := by
  simp only [v71, eidx70, yawT_apply, rd_idx]; rfl
theorem ecorn_x (t : Fin 16) (i : Fin 64) (q : Fin 4) :
    v85 a0 a1 a3 a5 (ix4 t i q (0 : Fin 2)) = Spec.cornX (Spec.agentAt a0 a1 a3 t (Spec.egoRow a5 i)) q := by
  simp only [v85, eidx84, cornT_x, rd_idx]; rfl
theorem ecorn_y (t : Fin 16) (i : Fin 64) (q : Fin 4) :
    v85 a0 a1 a3 a5 (ix4 t i q (1 : Fin 2)) = Spec.cornY (Spec.agentAt a0 a1 a3 t (Spec.egoRow a5 i)) q := by
  simp only [v85, eidx84, cornT_y, rd_idx]; rfl
theorem ebox_apply (i : Fin 64) (k : Fin 4) : v99 a3 a5 (ix2 i k) = a3 (ix2 (Spec.egoRow a5 i) k) := by
  simp only [v99, eidx98, rd_idx]; rfl

end Cert.Hand.RefVal

end
-- ==== Proof.Ref.ValA.lean ====
import proofs.«124939_j34651796144492_2_alg».proof.Proof.Ref.ValStages
import proofs.«124939_j34651796144492_2_alg».proof.Proof.Ref.ValLayout
import proofs.«124939_j34651796144492_2_alg».proof.Proof.Ref.ValRead
import proofs.«124939_j34651796144492_2_alg».proof.Proof.Spec
import proofs.«124939_j34651796144492_2_alg».proof.Proof.Ref.ValCorner

/-!
A read at an index. For time step t, ego i, agent j and corner q the reference forms the ego's corner minus the agent's
position, (dx, dy), turns it into the agent's frame, lx = c·dx + s·dy and ly = −s·dx + c·dy with c, s the cosine and sine
of the agent's heading, and takes the overlap with the agent's box, each half-extent written with a zero added; then it
takes the maximum over the four corners starting from −∞. With x + 0 = x this is the specification's overlap of the
ego's corner q with the agent's box, and the maximum from −∞ is the best of the four.
-/

noncomputable section

namespace Cert.Hand.RefVal

open Idealize.ShloMosaic Idealize.ShloMosaic.ValueIdx Cert.ReferenceIdeal Cert.Hand

variable [Cert.ReferenceIdeal.Facts₀]
variable (a0 : (⟨S4096x20x2, .f32⟩ : BufTy).Contents (Elt Ideal)) (a1 : (⟨S4096x20, .f32⟩ : BufTy).Contents (Elt Ideal))
  (a3 : (⟨S4096x4, .f32⟩ : BufTy).Contents (Elt Ideal)) (a5 : (⟨S64, .i32⟩ : BufTy).Contents (Elt Ideal))

/-- The ego's corner minus the agent's position, x. -/
theorem A_dx (t : Fin 16) (i : Fin 64) (j : Fin 4096) (q : Fin 4) :
    v128 a0 a1 a3 a5 (ix4 t i j q)
      = Spec.cornX (Spec.agentAt a0 a1 a3 t (Spec.egoRow a5 i)) q - a0 (ix3 j (Spec.step t) (0 : Fin 2)) := by
  simp only [v128, v126, v127, v122, v121, v120, v125, v124, v123, ecorn_x, posT_apply, rd_idx, subf_apply]

/-- … y. -/
theorem A_dy (t : Fin 16) (i : Fin 64) (j : Fin 4096) (q : Fin 4) :
    v137 a0 a1 a3 a5 (ix4 t i j q)
      = Spec.cornY (Spec.agentAt a0 a1 a3 t (Spec.egoRow a5 i)) q - a0 (ix3 j (Spec.step t) (1 : Fin 2)) := by
  simp only [v137, v135, v136, v131, v130, v129, v134, v133, v132, ecorn_y, posT_apply, rd_idx, subf_apply]

/-- The corner's x in the agent's frame. -/
theorem A_lx (t : Fin 16) (i : Fin 64) (j : Fin 4096) (q : Fin 4) :
    v146 a0 a1 a3 a5 (ix4 t i j q)
      = Ideal.cos (a1 (ix2 j (Spec.step t)))
          * (Spec.cornX (Spec.agentAt a0 a1 a3 t (Spec.egoRow a5 i)) q - a0 (ix3 j (Spec.step t) (0 : Fin 2)))
        + Ideal.sin (a1 (ix2 j (Spec.step t)))
          * (Spec.cornY (Spec.agentAt a0 a1 a3 t (Spec.egoRow a5 i)) q - a0 (ix3 j (Spec.step t) (1 : Fin 2))) := by
  simp only [v146, v143, v145, v142, v144, v139, v141, v138, v140, A_dx, A_dy, yawT_apply, rd_idx, addf_apply, mulf_apply]

/-- The corner's y in the agent's frame. -/
theorem A_ly (t : Fin 16) (i : Fin 64) (j : Fin 4096) (q : Fin 4) :
    v152 a0 a1 a3 a5 (ix4 t i j q)
      = -Ideal.sin (a1 (ix2 j (Spec.step t)))
          * (Spec.cornX (Spec.agentAt a0 a1 a3 t (Spec.egoRow a5 i)) q - a0 (ix3 j (Spec.step t) (0 : Fin 2)))
        + Ideal.cos (a1 (ix2 j (Spec.step t)))
          * (Spec.cornY (Spec.agentAt a0 a1 a3 t (Spec.egoRow a5 i)) q - a0 (ix3 j (Spec.step t) (1 : Fin 2))) := by
  simp only [v152, v149, v151, v148, v150, v147, v139, v141, v138, v140, A_dx, A_dy, yawT_apply, rd_idx, addf_apply, mulf_apply]

/-- The overlap of the ego's corner q with the agent's box. -/
theorem A_ov (t : Fin 16) (i : Fin 64) (j : Fin 4096) (q : Fin 4) :
    v187 a0 a1 a3 a5 (ix4 t i j q)
      = Spec.ovOf (Spec.agentAt a0 a1 a3 t j) (Spec.agentAt a0 a1 a3 t (Spec.egoRow a5 i)) q := by
  simp only [v187, v175, v186, v169, v174, v180, v185, v168, v173, v179, v184, v167, v172, v178, v183, v166, v171, v177, v182,
    v155, v158, v161, v164, v154, v157, v160, v163, v153, v156, v159, v162, v165, v170, v176, v181, cst, cst_11, cst_12, cst_13,
    call0_v0, call1_v0, call2_v0, call3_v0, call0_cst, call1_cst, call2_cst, call3_cst,
    A_lx, A_ly, rd_idx, minimumf_apply, maximumf_apply, subf_apply, addf_apply, constant_apply, ofBits_zero, add_zero]
  rfl

/-- A at (t, i, j) is the specification's A. -/
theorem AR_apply (t : Fin 16) (i : Fin 64) (j : Fin 4096) :
    AR a0 a1 a3 a5 (ix3 t i j) = Spec.A a0 a1 a3 a5 t i j := by
  simp only [AR, v188, cst_14, rd_idx, A_ov]
  exact Spec.best_from_bot _ _

end Cert.Hand.RefVal

end
-- ==== Proof.Ref.ValB.lean ====
import proofs.«124939_j34651796144492_2_alg».proof.Proof.Ref.ValCorner

/-!
The reference's second tensor read at an index. Entry (t, i, j, q) before the reduction over the corners is the overlap
of corner q of agent j, taken into ego i's frame — the corner minus the ego's position, turned by the ego's heading —
with ego i's box, the zero thresholds added to the half-extents; the reduction from −∞ over the four corners is the
best overlap.
-/

noncomputable section

namespace Cert.Hand.RefVal

open Idealize.ShloMosaic Idealize.ShloMosaic.ValueIdx Cert.ReferenceIdeal Cert.Hand

variable [Cert.ReferenceIdeal.Facts₀]
variable (a0 : (⟨S4096x20x2, .f32⟩ : BufTy).Contents (Elt Ideal)) (a1 : (⟨S4096x20, .f32⟩ : BufTy).Contents (Elt Ideal))
  (a3 : (⟨S4096x4, .f32⟩ : BufTy).Contents (Elt Ideal)) (a5 : (⟨S64, .i32⟩ : BufTy).Contents (Elt Ideal))

/-! ## The agent's corner relative to the ego's position -/

theorem B_dx (t : Fin 16) (i : Fin 64) (j : Fin 4096) (q : Fin 4) :
    v197 a0 a1 a3 a5 (ix4 t i j q)
      = Spec.cornX (Spec.agentAt a0 a1 a3 t j) q - a0 (ix3 (Spec.egoRow a5 i) (Spec.step t) (0 : Fin 2)) := by
  simp only [v197, v195, v196, v191, v190, v189, v194, v193, v192, cornT_x, epos_apply, rd_idx, subf_apply]

theorem B_dy (t : Fin 16) (i : Fin 64) (j : Fin 4096) (q : Fin 4) :
    v206 a0 a1 a3 a5 (ix4 t i j q)
      = Spec.cornY (Spec.agentAt a0 a1 a3 t j) q - a0 (ix3 (Spec.egoRow a5 i) (Spec.step t) (1 : Fin 2)) := by
  simp only [v206, v204, v205, v200, v199, v198, v203, v202, v201, cornT_y, epos_apply, rd_idx, subf_apply]

/-! ## The ego's cosine and sine, spread over agents and corners -/

theorem B_ce (t : Fin 16) (i : Fin 64) (j : Fin 4096) (q : Fin 4) :
    v211 a1 a5 (ix4 t i j q) = Ideal.cos (a1 (ix2 (Spec.egoRow a5 i) (Spec.step t))) := by
  simp only [v211, v208, v207, eyaw_apply, rd_idx]
theorem B_ce' (t : Fin 16) (i : Fin 64) (j : Fin 4096) (q : Fin 4) :
    v219 a1 a5 (ix4 t i j q) = Ideal.cos (a1 (ix2 (Spec.egoRow a5 i) (Spec.step t))) := by
  simp only [v219, v208, v207, eyaw_apply, rd_idx]
theorem B_se (t : Fin 16) (i : Fin 64) (j : Fin 4096) (q : Fin 4) :
    v213 a1 a5 (ix4 t i j q) = Ideal.sin (a1 (ix2 (Spec.egoRow a5 i) (Spec.step t))) := by
  simp only [v213, v210, v209, eyaw_apply, rd_idx]
theorem B_nse (t : Fin 16) (i : Fin 64) (j : Fin 4096) (q : Fin 4) :
    v217 a1 a5 (ix4 t i j q) = -Ideal.sin (a1 (ix2 (Spec.egoRow a5 i) (Spec.step t))) := by
  simp only [v217, v216, v210, v209, eyaw_apply, rd_idx]

/-! ## The corner in the ego's frame -/

theorem B_lx (t : Fin 16) (i : Fin 64) (j : Fin 4096) (q : Fin 4) :
    v215 a0 a1 a3 a5 (ix4 t i j q)
      = Ideal.cos (a1 (ix2 (Spec.egoRow a5 i) (Spec.step t))) * v197 a0 a1 a3 a5 (ix4 t i j q)
        + Ideal.sin (a1 (ix2 (Spec.egoRow a5 i) (Spec.step t))) * v206 a0 a1 a3 a5 (ix4 t i j q) := by
  simp only [v215, v212, v214, B_ce, B_se, addf_apply, mulf_apply]

theorem B_ly (t : Fin 16) (i : Fin 64) (j : Fin 4096) (q : Fin 4) :
    v221 a0 a1 a3 a5 (ix4 t i j q)
      = -Ideal.sin (a1 (ix2 (Spec.egoRow a5 i) (Spec.step t))) * v197 a0 a1 a3 a5 (ix4 t i j q)
        + Ideal.cos (a1 (ix2 (Spec.egoRow a5 i) (Spec.step t))) * v206 a0 a1 a3 a5 (ix4 t i j q) := by
  simp only [v221, v218, v220, B_nse, B_ce', addf_apply, mulf_apply]

/-! ## The ego's half-extents, each with its zero threshold, spread over steps, agents and corners -/

theorem B_f (t : Fin 16) (i : Fin 64) (j : Fin 4096) (q : Fin 4) :
    v236 a3 a5 (ix4 t i j q) = a3 (ix2 (Spec.egoRow a5 i) (0 : Fin 4)) + 0 := by
  simp only [v236, v235, v234, v224, v223, v222, cst_15, ebox_apply, rd_idx, addf_apply, constant_apply, ofBits_zero]
theorem B_r (t : Fin 16) (i : Fin 64) (j : Fin 4096) (q : Fin 4) :
    v241 a3 a5 (ix4 t i j q) = a3 (ix2 (Spec.egoRow a5 i) (1 : Fin 4)) + 0 := by
  simp only [v241, v240, v239, v227, v226, v225, cst_16, ebox_apply, rd_idx, addf_apply, constant_apply, ofBits_zero]
theorem B_l (t : Fin 16) (i : Fin 64) (j : Fin 4096) (q : Fin 4) :
    v247 a3 a5 (ix4 t i j q) = a3 (ix2 (Spec.egoRow a5 i) (2 : Fin 4)) + 0 := by
  simp only [v247, v246, v245, v230, v229, v228, cst_17, ebox_apply, rd_idx, addf_apply, constant_apply, ofBits_zero]
theorem B_rt (t : Fin 16) (i : Fin 64) (j : Fin 4096) (q : Fin 4) :
    v252 a3 a5 (ix4 t i j q) = a3 (ix2 (Spec.egoRow a5 i) (3 : Fin 4)) + 0 := by
  simp only [v252, v251, v250, v233, v232, v231, cst_18, ebox_apply, rd_idx, addf_apply, constant_apply, ofBits_zero]

theorem B_zero4 (t : Fin 16) (i : Fin 64) (j : Fin 4096) (q : Fin 4) : call4_v0 (ix4 t i j q) = 0 := by
  simp only [call4_v0, call4_cst, rd_idx, constant_apply, ofBits_zero]
theorem B_zero5 (t : Fin 16) (i : Fin 64) (j : Fin 4096) (q : Fin 4) : call5_v0 (ix4 t i j q) = 0 := by
  simp only [call5_v0, call5_cst, rd_idx, constant_apply, ofBits_zero]
theorem B_zero6 (t : Fin 16) (i : Fin 64) (j : Fin 4096) (q : Fin 4) : call6_v0 (ix4 t i j q) = 0 := by
  simp only [call6_v0, call6_cst, rd_idx, constant_apply, ofBits_zero]
theorem B_zero7 (t : Fin 16) (i : Fin 64) (j : Fin 4096) (q : Fin 4) : call7_v0 (ix4 t i j q) = 0 := by
  simp only [call7_v0, call7_cst, rd_idx, constant_apply, ofBits_zero]

/-! ## One corner's overlap, and B -/

/-- Corner q of agent j, in ego i's frame, against ego i's box. -/
theorem B_ov (t : Fin 16) (i : Fin 64) (j : Fin 4096) (q : Fin 4) :
    v256 a0 a1 a3 a5 (ix4 t i j q)
      = Spec.ovOf (Spec.agentAt a0 a1 a3 t (Spec.egoRow a5 i)) (Spec.agentAt a0 a1 a3 t j) q := by
  simp only [v256, v255, v254, v253, v249, v248, v244, v243, v242, v238, v237, B_f, B_r, B_l, B_rt, B_lx, B_ly, B_dx, B_dy,
    B_zero4, B_zero5, B_zero6, B_zero7, subf_apply, addf_apply, maximumf_apply, minimumf_apply, add_zero]
  rfl

/-- B[t, i, j] of the reference is the best overlap of agent j's corners with ego i's box. -/
theorem BR_apply (t : Fin 16) (i : Fin 64) (j : Fin 4096) : BR a0 a1 a3 a5 (ix3 t i j) = Spec.B a0 a1 a3 a5 t i j := by
  simp only [BR, v257, cst_19, rd_reduce_max, B_ov]
  exact Spec.best_from_bot _ _

end Cert.Hand.RefVal

end
-- ==== Proof.Algebraic.lean ====
import proofs.«124939_j34651796144492_2_alg».proof.Defs
import proofs.«124939_j34651796144492_2_alg».proof.Proof.Gen.KernelIdeal
import proofs.«124939_j34651796144492_2_alg».proof.Proof.Gen.ReferenceIdeal
import proofs.«124939_j34651796144492_2_alg».proof.Proof.Gen.Pre_finite_inputs
import proofs.«124939_j34651796144492_2_alg».proof.Proof.KI.Value
import proofs.«124939_j34651796144492_2_alg».proof.Proof.Ref.Run
import proofs.«124939_j34651796144492_2_alg».proof.Proof.Ref.TailMask
import proofs.«124939_j34651796144492_2_alg».proof.Proof.Ref.TailTail
import proofs.«124939_j34651796144492_2_alg».proof.Proof.Ref.TailABA
import proofs.«124939_j34651796144492_2_alg».proof.Proof.Ref.TailBv
import proofs.«124939_j34651796144492_2_alg».proof.Proof.Ref.ValA
import proofs.«124939_j34651796144492_2_alg».proof.Proof.Ref.ValB

/-!
The two idealized programs, run from memories that agree on the arguments, end with the same two results: each is the
shared chain of host operations applied to the same edge mask and to the two overlap tensors, and each side's tensors
are the specification's, entry by entry.
-/

set_option maxRecDepth 16384

noncomputable section

namespace Cert.Hand.Alg

open Idealize.ShloMosaic Idealize.ShloMosaic.ValueIdx Idealize.SL.Sem Cert.Hand

/-! ## The reference's two results, from its launch memory -/

section Ref
open Cert.ReferenceIdeal Cert.Hand.RefRun

/-- The reference's results are the shared tail of the mask and the two specified tensors. -/
theorem ref_results (M' : Valuation τ sig (Elt Ideal)) :
    StableHlo.after (ops (F := Ideal)) M' (Proc.devRef .tc main_v300)
        = (Tail.tail (Tail.mask (M' (Proc.devRef .tc main_arg2)) (M' (Proc.devRef .tc main_arg4)) (M' (Proc.devRef .tc main_arg5)))
            (fun i => Spec.A (M' (Proc.devRef .tc main_arg0)) (M' (Proc.devRef .tc main_arg1)) (M' (Proc.devRef .tc main_arg3)) (M' (Proc.devRef .tc main_arg5)) (i 0) (i 1) (i 2))
            (fun i => Spec.B (M' (Proc.devRef .tc main_arg0)) (M' (Proc.devRef .tc main_arg1)) (M' (Proc.devRef .tc main_arg3)) (M' (Proc.devRef .tc main_arg5)) (i 0) (i 1) (i 2))).1
    ∧ StableHlo.after (ops (F := Ideal)) M' (Proc.devRef .tc main_v299)
        = (Tail.tail (Tail.mask (M' (Proc.devRef .tc main_arg2)) (M' (Proc.devRef .tc main_arg4)) (M' (Proc.devRef .tc main_arg5)))
            (fun i => Spec.A (M' (Proc.devRef .tc main_arg0)) (M' (Proc.devRef .tc main_arg1)) (M' (Proc.devRef .tc main_arg3)) (M' (Proc.devRef .tc main_arg5)) (i 0) (i 1) (i 2))
            (fun i => Spec.B (M' (Proc.devRef .tc main_arg0)) (M' (Proc.devRef .tc main_arg1)) (M' (Proc.devRef .tc main_arg3)) (M' (Proc.devRef .tc main_arg5)) (i 0) (i 1) (i 2))).2 := by
  have hA : RefVal.AR (M' (Proc.devRef .tc main_arg0)) (M' (Proc.devRef .tc main_arg1)) (M' (Proc.devRef .tc main_arg3)) (M' (Proc.devRef .tc main_arg5))
      = fun i => Spec.A (M' (Proc.devRef .tc main_arg0)) (M' (Proc.devRef .tc main_arg1)) (M' (Proc.devRef .tc main_arg3)) (M' (Proc.devRef .tc main_arg5)) (i 0) (i 1) (i 2) := by
    funext i
    obtain ⟨t, i', j, rfl⟩ : ∃ (t : Fin 16) (i' : Fin 64) (j : Fin 4096), i = ix3 t i' j := ⟨i 0, i 1, i 2, eq_ix3 i⟩
    exact RefVal.AR_apply _ _ _ _ t i' j
  have hB : RefVal.BR (M' (Proc.devRef .tc main_arg0)) (M' (Proc.devRef .tc main_arg1)) (M' (Proc.devRef .tc main_arg3)) (M' (Proc.devRef .tc main_arg5))
      = fun i => Spec.B (M' (Proc.devRef .tc main_arg0)) (M' (Proc.devRef .tc main_arg1)) (M' (Proc.devRef .tc main_arg3)) (M' (Proc.devRef .tc main_arg5)) (i 0) (i 1) (i 2) := by
    funext i
    obtain ⟨t, i', j, rfl⟩ : ∃ (t : Fin 16) (i' : Fin 64) (j : Fin 4096), i = ix3 t i' j := ⟨i 0, i 1, i 2, eq_ix3 i⟩
    exact RefVal.BR_apply _ _ _ _ t i' j
  constructor
  · rw [RefTail.ref_v300, RefTail.ref_mask, RefTail.ref_A, RefTail.ref_B, hA, hB]
  · rw [RefTail.ref_v299, RefTail.ref_mask, RefTail.ref_A, RefTail.ref_B, hA, hB]

end Ref

/-! ## The two programs end with the same results -/

theorem algebraic : Cert.algebraic_KernelIdeal_ReferenceIdeal := by
  intro m ρ m' ρ' _ hagree
  refine ⟨fun c => (Tail.tail (KI.maskK m c) (KI.GA m c) (KI.GB m c)).1, fun c => (Tail.tail (KI.maskK m c) (KI.GA m c) (KI.GB m c)).2,
    KI.run_results m ρ, ?_⟩
  refine (θ_run Cert.ReferenceIdeal.defs _ _).mono (fun _ h c => ?_) (RefRun.run (F := Ideal) m' ρ')
  obtain ⟨h300, h299, hargs⟩ := h c
  obtain ⟨e0, e1, e2, e3, e4, e5⟩ := hagree c
  obtain ⟨r300, r299⟩ := ref_results (fun b => m' (c, b))
  refine ⟨h300.trans (r300.trans ?_), h299.trans (r299.trans ?_), hargs⟩
  · show (Tail.tail (Tail.mask (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
        (fun i => Spec.A (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (i 0) (i 1) (i 2))
        (fun i => Spec.B (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (i 0) (i 1) (i 2))).1 = _
    rw [e0, e1, e2, e3, e4, e5]
    rfl
  · show (Tail.tail (Tail.mask (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
        (fun i => Spec.A (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (i 0) (i 1) (i 2))
        (fun i => Spec.B (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (i 0) (i 1) (i 2))).2 = _
    rw [e0, e1, e2, e3, e4, e5]
    rfl

end Cert.Hand.Alg

end
-- ==== Proof.lean ====
/-
  The certificate of the agent-collision kernel against its jnp reference.

  Per time step t, ego i and agent j the program computes two overlap tensors: A[t, i, j], the best overlap of the
  ego's four box corners with the agent's box (taken in the agent's frame), and B[t, i, j], the same with the two
  swapped; a shared chain of host operations then pairs edges by rank and reduces to (done.T, reward).
  The kernel's program computes A and B in one region over eight tiles of 512 agents, a loop over the sixteen time
  steps inside; the reference computes them with whole-array operations. Over the extended reals both are
  `Spec.A` and `Spec.B`: cosine and sine are one function on the host and in the body, the body's running maximum
  from zero and the reference's maximum from −∞ agree because every overlap is nonnegative, and the rest is
  layout. The three frames are runs of the programs to the end with the argument arrays untouched; the idealized
  kernel is the kernel's own text (nothing was rewritten), so `preserves` is trivial.
-/
import proofs.«124939_j34651796144492_2_alg».proof.Defs
import proofs.«124939_j34651796144492_2_alg».proof.Proof.Gen.Kernel
import proofs.«124939_j34651796144492_2_alg».proof.Proof.Gen.KernelIdeal
import proofs.«124939_j34651796144492_2_alg».proof.Proof.Gen.ReferenceIdeal
import proofs.«124939_j34651796144492_2_alg».proof.Proof.Gen.Pre_finite_inputs
import proofs.«124939_j34651796144492_2_alg».proof.Proof.K.Frame
import proofs.«124939_j34651796144492_2_alg».proof.Proof.KI.Frame
import proofs.«124939_j34651796144492_2_alg».proof.Proof.Ref.Run
import proofs.«124939_j34651796144492_2_alg».proof.Proof.Algebraic

noncomputable section

namespace Cert.Proof

open Idealize.ShloMosaic Idealize.SL.Sem

/-- The kernel's program, word for word, runs to the end and leaves its arguments as launched. -/
theorem frame_kernel : Cert.frame_Kernel := fun m ρ _ => Cert.Hand.K.frame (F := Bits) m ρ

/-- So does its reading over the extended reals. -/
theorem frame_kernelIdeal : Cert.frame_KernelIdeal := fun m ρ _ => Cert.Hand.KI.frame (F := Ideal) m ρ

/-- And the reference, a host program. -/
theorem frame_referenceIdeal : Cert.frame_ReferenceIdeal := fun m ρ _ => Cert.Hand.RefRun.frame (F := Ideal) m ρ

/-- Nothing was rewritten in the idealized kernel. -/
theorem preserves : Cert.preserves_Kernel_KernelIdeal := trivial

/-- Both idealized programs end with the same two results. -/
theorem algebraic : Cert.algebraic_KernelIdeal_ReferenceIdeal := Cert.Hand.Alg.algebraic

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
